-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Pre_finite_inputs_ReferenceIdeal.lean ====
abbrev S16384x512 : Shape := ⟨2, ![16384, 512]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16384x512 .f32) (main_arg1 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S15x64x512 : Shape := ⟨3, ![15, 64, 512]⟩
abbrev S15 : Shape := ⟨1, ![15]⟩
abbrev S_ : Shape := ⟨0, ![]⟩
abbrev S64x512 : Shape := ⟨2, ![64, 512]⟩
abbrev S1 : Shape := ⟨1, ![1]⟩
abbrev S1x64x512 : Shape := ⟨3, ![1, 64, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .bf16⟩
  | .local _ .vmem, ⟨0, _⟩ => ⟨S1024x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S15x64x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  { ofTc nBuf bufTy 1 63 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c64_i32 : BitVec 32 := 64#32
  let v66 : BitVec 32 := Scalar.muli v65 c64_i32
  let v67 : Index := Scalar.indexCast v66
  let c0 : Index := 0#32
  ![v67.toNat, 0]
def k0_off2 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c64_i32_65 : BitVec 32 := 64#32
  let v76 : BitVec 32 := Scalar.muli v65 c64_i32_65
  let c0_i32_73 : BitVec 32 := 0#32
  ![v76.toNat, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_69 : BitVec 32 := 1#32
  let v77 : BitVec 32 := Scalar.muli v65 c1_i32_69
  let v78 : BitVec 32 := Scalar.addi c0_i32_70 v77
  v78.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v86 : BitVec 32 := Scalar.addi v2 c2_i32_74
  let c16_i32_75 : BitVec 32 := 16#32
  let v87 : BitVec 32 := Scalar.remsi v86 c16_i32_75
  let c1_i32_84 : BitVec 32 := 1#32
  let v99 : BitVec 32 := Scalar.muli v87 c1_i32_84
  let v100 : BitVec 32 := Scalar.addi c0_i32_85 v99
  v100.toNat
def k0_dev18 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v108 : BitVec 32 := Scalar.addi v2 c3_i32_89
  let c16_i32_90 : BitVec 32 := 16#32
  let v109 : BitVec 32 := Scalar.remsi v108 c16_i32_90
  let c1_i32_99 : BitVec 32 := 1#32
  let v121 : BitVec 32 := Scalar.muli v109 c1_i32_99
  let v122 : BitVec 32 := Scalar.addi c0_i32_100 v121
  v122.toNat
def k0_dev19 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_104 : BitVec 32 := 4#32
  let v130 : BitVec 32 := Scalar.addi v2 c4_i32_104
  let c16_i32_105 : BitVec 32 := 16#32
  let v131 : BitVec 32 := Scalar.remsi v130 c16_i32_105
  let c1_i32_114 : BitVec 32 := 1#32
  let v143 : BitVec 32 := Scalar.muli v131 c1_i32_114
  let v144 : BitVec 32 := Scalar.addi c0_i32_115 v143
  v144.toNat
def k0_dev20 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_119 : BitVec 32 := 5#32
  let v152 : BitVec 32 := Scalar.addi v2 c5_i32_119
  let c16_i32_120 : BitVec 32 := 16#32
  let v153 : BitVec 32 := Scalar.remsi v152 c16_i32_120
  let c1_i32_129 : BitVec 32 := 1#32
  let v165 : BitVec 32 := Scalar.muli v153 c1_i32_129
  let v166 : BitVec 32 := Scalar.addi c0_i32_130 v165
  v166.toNat
def k0_dev21 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_134 : BitVec 32 := 6#32
  let v174 : BitVec 32 := Scalar.addi v2 c6_i32_134
  let c16_i32_135 : BitVec 32 := 16#32
  let v175 : BitVec 32 := Scalar.remsi v174 c16_i32_135
  let c1_i32_144 : BitVec 32 := 1#32
  let v187 : BitVec 32 := Scalar.muli v175 c1_i32_144
  let v188 : BitVec 32 := Scalar.addi c0_i32_145 v187
  v188.toNat
def k0_dev22 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_149 : BitVec 32 := 7#32
  let v196 : BitVec 32 := Scalar.addi v2 c7_i32_149
  let c16_i32_150 : BitVec 32 := 16#32
  let v197 : BitVec 32 := Scalar.remsi v196 c16_i32_150
  let c1_i32_159 : BitVec 32 := 1#32
  let v209 : BitVec 32 := Scalar.muli v197 c1_i32_159
  let v210 : BitVec 32 := Scalar.addi c0_i32_160 v209
  v210.toNat
def k0_dev23 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_164 : BitVec 32 := 8#32
  let v218 : BitVec 32 := Scalar.addi v2 c8_i32_164
  let c16_i32_165 : BitVec 32 := 16#32
  let v219 : BitVec 32 := Scalar.remsi v218 c16_i32_165
  let c1_i32_174 : BitVec 32 := 1#32
  let v231 : BitVec 32 := Scalar.muli v219 c1_i32_174
  let v232 : BitVec 32 := Scalar.addi c0_i32_175 v231
  v232.toNat
def k0_dev24 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_179 : BitVec 32 := 9#32
  let v240 : BitVec 32 := Scalar.addi v2 c9_i32_179
  let c16_i32_180 : BitVec 32 := 16#32
  let v241 : BitVec 32 := Scalar.remsi v240 c16_i32_180
  let c1_i32_189 : BitVec 32 := 1#32
  let v253 : BitVec 32 := Scalar.muli v241 c1_i32_189
  let v254 : BitVec 32 := Scalar.addi c0_i32_190 v253
  v254.toNat
def k0_dev25 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_194 : BitVec 32 := 10#32
  let v262 : BitVec 32 := Scalar.addi v2 c10_i32_194
  let c16_i32_195 : BitVec 32 := 16#32
  let v263 : BitVec 32 := Scalar.remsi v262 c16_i32_195
  let c1_i32_204 : BitVec 32 := 1#32
  let v275 : BitVec 32 := Scalar.muli v263 c1_i32_204
  let v276 : BitVec 32 := Scalar.addi c0_i32_205 v275
  v276.toNat
def k0_dev26 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_209 : BitVec 32 := 11#32
  let v284 : BitVec 32 := Scalar.addi v2 c11_i32_209
  let c16_i32_210 : BitVec 32 := 16#32
  let v285 : BitVec 32 := Scalar.remsi v284 c16_i32_210
  let c1_i32_219 : BitVec 32 := 1#32
  let v297 : BitVec 32 := Scalar.muli v285 c1_i32_219
  let v298 : BitVec 32 := Scalar.addi c0_i32_220 v297
  v298.toNat
def k0_dev27 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_224 : BitVec 32 := 12#32
  let v306 : BitVec 32 := Scalar.addi v2 c12_i32_224
  let c16_i32_225 : BitVec 32 := 16#32
  let v307 : BitVec 32 := Scalar.remsi v306 c16_i32_225
  let c1_i32_234 : BitVec 32 := 1#32
  let v319 : BitVec 32 := Scalar.muli v307 c1_i32_234
  let v320 : BitVec 32 := Scalar.addi c0_i32_235 v319
  v320.toNat
def k0_dev28 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_239 : BitVec 32 := 13#32
  let v328 : BitVec 32 := Scalar.addi v2 c13_i32_239
  let c16_i32_240 : BitVec 32 := 16#32
  let v329 : BitVec 32 := Scalar.remsi v328 c16_i32_240
  let c1_i32_249 : BitVec 32 := 1#32
  let v341 : BitVec 32 := Scalar.muli v329 c1_i32_249
  let v342 : BitVec 32 := Scalar.addi c0_i32_250 v341
  v342.toNat
def k0_dev29 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_254 : BitVec 32 := 14#32
  let v350 : BitVec 32 := Scalar.addi v2 c14_i32_254
  let c16_i32_255 : BitVec 32 := 16#32
  let v351 : BitVec 32 := Scalar.remsi v350 c16_i32_255
  let c1_i32_264 : BitVec 32 := 1#32
  let v363 : BitVec 32 := Scalar.muli v351 c1_i32_264
  let v364 : BitVec 32 := Scalar.addi c0_i32_265 v363
  v364.toNat
def k0_dev30 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_269 : BitVec 32 := 15#32
  let v372 : BitVec 32 := Scalar.addi v2 c15_i32_269
  let c16_i32_270 : BitVec 32 := 16#32
  let v373 : BitVec 32 := Scalar.remsi v372 c16_i32_270
  let c1_i32_279 : BitVec 32 := 1#32
  let v385 : BitVec 32 := Scalar.muli v373 c1_i32_279
  let v386 : BitVec 32 := Scalar.addi c0_i32_280 v385
  v386.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_284 : BitVec 32 := 64#32
  let v394 : BitVec 32 := Scalar.muli v2 c64_i32_284
  let v395 : Index := Scalar.indexCast v394
  let c0_285 : Index := 0#32
  ![v395.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_444 : BitVec 32 := 64#32
  let v560 : BitVec 32 := Scalar.muli v2 c64_i32_444
  let c0_i32_449 : BitVec 32 := 0#32
  ![v560.toNat, 0]
def k0_dev31 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_441 : BitVec 32 := 1#32
  let v557 : BitVec 32 := Scalar.addi v2 c1_i32_441
  let c16_i32_442 : BitVec 32 := 16#32
  let v558 : BitVec 32 := Scalar.remsi v557 c16_i32_442
  let c1_i32_447 : BitVec 32 := 1#32
  let v561 : BitVec 32 := Scalar.muli v558 c1_i32_447
  let v562 : BitVec 32 := Scalar.addi c0_i32_448 v561
  v562.toNat
def k0_dev32 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_451 : BitVec 32 := 2#32
  let v569 : BitVec 32 := Scalar.addi v2 c2_i32_451
  let c16_i32_452 : BitVec 32 := 16#32
  let v570 : BitVec 32 := Scalar.remsi v569 c16_i32_452
  let c1_i32_457 : BitVec 32 := 1#32
  let v573 : BitVec 32 := Scalar.muli v570 c1_i32_457
  let v574 : BitVec 32 := Scalar.addi c0_i32_458 v573
  v574.toNat
def k0_dev33 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_461 : BitVec 32 := 3#32
  let v581 : BitVec 32 := Scalar.addi v2 c3_i32_461
  let c16_i32_462 : BitVec 32 := 16#32
  let v582 : BitVec 32 := Scalar.remsi v581 c16_i32_462
  let c1_i32_467 : BitVec 32 := 1#32
  let v585 : BitVec 32 := Scalar.muli v582 c1_i32_467
  let v586 : BitVec 32 := Scalar.addi c0_i32_468 v585
  v586.toNat
def k0_dev34 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_471 : BitVec 32 := 4#32
  let v593 : BitVec 32 := Scalar.addi v2 c4_i32_471
  let c16_i32_472 : BitVec 32 := 16#32
  let v594 : BitVec 32 := Scalar.remsi v593 c16_i32_472
  let c1_i32_477 : BitVec 32 := 1#32
  let v597 : BitVec 32 := Scalar.muli v594 c1_i32_477
  let v598 : BitVec 32 := Scalar.addi c0_i32_478 v597
  v598.toNat
def k0_dev35 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_481 : BitVec 32 := 5#32
  let v605 : BitVec 32 := Scalar.addi v2 c5_i32_481
  let c16_i32_482 : BitVec 32 := 16#32
  let v606 : BitVec 32 := Scalar.remsi v605 c16_i32_482
  let c1_i32_487 : BitVec 32 := 1#32
  let v609 : BitVec 32 := Scalar.muli v606 c1_i32_487
  let v610 : BitVec 32 := Scalar.addi c0_i32_488 v609
  v610.toNat
def k0_dev36 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_491 : BitVec 32 := 6#32
  let v617 : BitVec 32 := Scalar.addi v2 c6_i32_491
  let c16_i32_492 : BitVec 32 := 16#32
  let v618 : BitVec 32 := Scalar.remsi v617 c16_i32_492
  let c1_i32_497 : BitVec 32 := 1#32
  let v621 : BitVec 32 := Scalar.muli v618 c1_i32_497
  let v622 : BitVec 32 := Scalar.addi c0_i32_498 v621
  v622.toNat
def k0_dev37 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_501 : BitVec 32 := 7#32
  let v629 : BitVec 32 := Scalar.addi v2 c7_i32_501
  let c16_i32_502 : BitVec 32 := 16#32
  let v630 : BitVec 32 := Scalar.remsi v629 c16_i32_502
  let c1_i32_507 : BitVec 32 := 1#32
  let v633 : BitVec 32 := Scalar.muli v630 c1_i32_507
  let v634 : BitVec 32 := Scalar.addi c0_i32_508 v633
  v634.toNat
def k0_dev38 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_511 : BitVec 32 := 8#32
  let v641 : BitVec 32 := Scalar.addi v2 c8_i32_511
  let c16_i32_512 : BitVec 32 := 16#32
  let v642 : BitVec 32 := Scalar.remsi v641 c16_i32_512
  let c1_i32_517 : BitVec 32 := 1#32
  let v645 : BitVec 32 := Scalar.muli v642 c1_i32_517
  let v646 : BitVec 32 := Scalar.addi c0_i32_518 v645
  v646.toNat
def k0_dev39 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_521 : BitVec 32 := 9#32
  let v653 : BitVec 32 := Scalar.addi v2 c9_i32_521
  let c16_i32_522 : BitVec 32 := 16#32
  let v654 : BitVec 32 := Scalar.remsi v653 c16_i32_522
  let c1_i32_527 : BitVec 32 := 1#32
  let v657 : BitVec 32 := Scalar.muli v654 c1_i32_527
  let v658 : BitVec 32 := Scalar.addi c0_i32_528 v657
  v658.toNat
def k0_dev40 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_531 : BitVec 32 := 10#32
  let v665 : BitVec 32 := Scalar.addi v2 c10_i32_531
  let c16_i32_532 : BitVec 32 := 16#32
  let v666 : BitVec 32 := Scalar.remsi v665 c16_i32_532
  let c1_i32_537 : BitVec 32 := 1#32
  let v669 : BitVec 32 := Scalar.muli v666 c1_i32_537
  let v670 : BitVec 32 := Scalar.addi c0_i32_538 v669
  v670.toNat
def k0_dev41 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_541 : BitVec 32 := 11#32
  let v677 : BitVec 32 := Scalar.addi v2 c11_i32_541
  let c16_i32_542 : BitVec 32 := 16#32
  let v678 : BitVec 32 := Scalar.remsi v677 c16_i32_542
  let c1_i32_547 : BitVec 32 := 1#32
  let v681 : BitVec 32 := Scalar.muli v678 c1_i32_547
  let v682 : BitVec 32 := Scalar.addi c0_i32_548 v681
  v682.toNat
def k0_dev42 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_551 : BitVec 32 := 12#32
  let v689 : BitVec 32 := Scalar.addi v2 c12_i32_551
  let c16_i32_552 : BitVec 32 := 16#32
  let v690 : BitVec 32 := Scalar.remsi v689 c16_i32_552
  let c1_i32_557 : BitVec 32 := 1#32
  let v693 : BitVec 32 := Scalar.muli v690 c1_i32_557
  let v694 : BitVec 32 := Scalar.addi c0_i32_558 v693
  v694.toNat
def k0_dev43 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_561 : BitVec 32 := 13#32
  let v701 : BitVec 32 := Scalar.addi v2 c13_i32_561
  let c16_i32_562 : BitVec 32 := 16#32
  let v702 : BitVec 32 := Scalar.remsi v701 c16_i32_562
  let c1_i32_567 : BitVec 32 := 1#32
  let v705 : BitVec 32 := Scalar.muli v702 c1_i32_567
  let v706 : BitVec 32 := Scalar.addi c0_i32_568 v705
  v706.toNat
def k0_dev44 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_571 : BitVec 32 := 14#32
  let v713 : BitVec 32 := Scalar.addi v2 c14_i32_571
  let c16_i32_572 : BitVec 32 := 16#32
  let v714 : BitVec 32 := Scalar.remsi v713 c16_i32_572
  let c1_i32_577 : BitVec 32 := 1#32
  let v717 : BitVec 32 := Scalar.muli v714 c1_i32_577
  let v718 : BitVec 32 := Scalar.addi c0_i32_578 v717
  v718.toNat
def k0_dev45 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_581 : BitVec 32 := 15#32
  let v725 : BitVec 32 := Scalar.addi v2 c15_i32_581
  let c16_i32_582 : BitVec 32 := 16#32
  let v726 : BitVec 32 := Scalar.remsi v725 c16_i32_582
  let c1_i32_587 : BitVec 32 := 1#32
  let v729 : BitVec 32 := Scalar.muli v726 c1_i32_587
  let v730 : BitVec 32 := Scalar.addi c0_i32_588 v729
  v730.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_15 : (15#32 : BitVec 32).msb = false
  h_S64x512 : 0 < S64x512.numel
  shapeCasts_S64x512_S64x512 : S64x512.ShapeCasts S64x512
  bitsLt_bf16_f32 : FTy.bits .bf16 < FTy.bits .f32
  inb_S15_S1_0 : ∀ a, (![0] : Fin 1 → Nat) a + S1.size a ≤ S15.size a
  squeezes_S1_S_ : S1.Squeezes S_
  inb_S15x64x512_S1x64x512_0_0_0 : ∀ a, (![0, 0, 0] : Fin 3 → Nat) a + S1x64x512.size a ≤ S15x64x512.size a
  squeezes_S1x64x512_S64x512 : S1x64x512.Squeezes S64x512
  wordsbf16_S15x64x512_S1x64x512_0_0_0 : (Rect.unit (s := S15x64x512) ![0, 0, 0] S1x64x512.size inb_S15x64x512_S1x64x512_0_0_0).WholeWords (EltTy.packing .bf16)
  inb_S15_S1_1 : ∀ a, (![1] : Fin 1 → Nat) a + S1.size a ≤ S15.size a
  inb_S15x64x512_S1x64x512_1_0_0 : ∀ a, (![1, 0, 0] : Fin 3 → Nat) a + S1x64x512.size a ≤ S15x64x512.size a
  wordsbf16_S15x64x512_S1x64x512_1_0_0 : (Rect.unit (s := S15x64x512) ![1, 0, 0] S1x64x512.size inb_S15x64x512_S1x64x512_1_0_0).WholeWords (EltTy.packing .bf16)
  inb_S15_S1_2 : ∀ a, (![2] : Fin 1 → Nat) a + S1.size a ≤ S15.size a
  inb_S15x64x512_S1x64x512_2_0_0 : ∀ a, (![2, 0, 0] : Fin 3 → Nat) a + S1x64x512.size a ≤ S15x64x512.size a
  wordsbf16_S15x64x512_S1x64x512_2_0_0 : (Rect.unit (s := S15x64x512) ![2, 0, 0] S1x64x512.size inb_S15x64x512_S1x64x512_2_0_0).WholeWords (EltTy.packing .bf16)
  inb_S15_S1_3 : ∀ a, (![3] : Fin 1 → Nat) a + S1.size a ≤ S15.size a
  inb_S15x64x512_S1x64x512_3_0_0 : ∀ a, (![3, 0, 0] : Fin 3 → Nat) a + S1x64x512.size a ≤ S15x64x512.size a
  wordsbf16_S15x64x512_S1x64x512_3_0_0 : (Rect.unit (s := S15x64x512) ![3, 0, 0] S1x64x512.size inb_S15x64x512_S1x64x512_3_0_0).WholeWords (EltTy.packing .bf16)
  inb_S15_S1_4 : ∀ a, (![4] : Fin 1 → Nat) a + S1.size a ≤ S15.size a
  inb_S15x64x512_S1x64x512_4_0_0 : ∀ a, (![4, 0, 0] : Fin 3 → Nat) a + S1x64x512.size a ≤ S15x64x512.size a
  wordsbf16_S15x64x512_S1x64x512_4_0_0 : (Rect.unit (s := S15x64x512) ![4, 0, 0] S1x64x512.size inb_S15x64x512_S1x64x512_4_0_0).WholeWords (EltTy.packing .bf16)
  inb_S15_S1_5 : ∀ a, (![5] : Fin 1 → Nat) a + S1.size a ≤ S15.size a
  inb_S15x64x512_S1x64x512_5_0_0 : ∀ a, (![5, 0, 0] : Fin 3 → Nat) a + S1x64x512.size a ≤ S15x64x512.size a
  wordsbf16_S15x64x512_S1x64x512_5_0_0 : (Rect.unit (s := S15x64x512) ![5, 0, 0] S1x64x512.size inb_S15x64x512_S1x64x512_5_0_0).WholeWords (EltTy.packing .bf16)
  inb_S15_S1_6 : ∀ a, (![6] : Fin 1 → Nat) a + S1.size a ≤ S15.size a
  inb_S15x64x512_S1x64x512_6_0_0 : ∀ a, (![6, 0, 0] : Fin 3 → Nat) a + S1x64x512.size a ≤ S15x64x512.size a
  wordsbf16_S15x64x512_S1x64x512_6_0_0 : (Rect.unit (s := S15x64x512) ![6, 0, 0] S1x64x512.size inb_S15x64x512_S1x64x512_6_0_0).WholeWords (EltTy.packing .bf16)
  inb_S15_S1_7 : ∀ a, (![7] : Fin 1 → Nat) a + S1.size a ≤ S15.size a
  inb_S15x64x512_S1x64x512_7_0_0 : ∀ a, (![7, 0, 0] : Fin 3 → Nat) a + S1x64x512.size a ≤ S15x64x512.size a
  wordsbf16_S15x64x512_S1x64x512_7_0_0 : (Rect.unit (s := S15x64x512) ![7, 0, 0] S1x64x512.size inb_S15x64x512_S1x64x512_7_0_0).WholeWords (EltTy.packing .bf16)
  inb_S15_S1_8 : ∀ a, (![8] : Fin 1 → Nat) a + S1.size a ≤ S15.size a
  inb_S15x64x512_S1x64x512_8_0_0 : ∀ a, (![8, 0, 0] : Fin 3 → Nat) a + S1x64x512.size a ≤ S15x64x512.size a
  wordsbf16_S15x64x512_S1x64x512_8_0_0 : (Rect.unit (s := S15x64x512) ![8, 0, 0] S1x64x512.size inb_S15x64x512_S1x64x512_8_0_0).WholeWords (EltTy.packing .bf16)
  inb_S15_S1_9 : ∀ a, (![9] : Fin 1 → Nat) a + S1.size a ≤ S15.size a
  inb_S15x64x512_S1x64x512_9_0_0 : ∀ a, (![9, 0, 0] : Fin 3 → Nat) a + S1x64x512.size a ≤ S15x64x512.size a
  wordsbf16_S15x64x512_S1x64x512_9_0_0 : (Rect.unit (s := S15x64x512) ![9, 0, 0] S1x64x512.size inb_S15x64x512_S1x64x512_9_0_0).WholeWords (EltTy.packing .bf16)
  inb_S15_S1_10 : ∀ a, (![10] : Fin 1 → Nat) a + S1.size a ≤ S15.size a
  inb_S15x64x512_S1x64x512_10_0_0 : ∀ a, (![10, 0, 0] : Fin 3 → Nat) a + S1x64x512.size a ≤ S15x64x512.size a
  wordsbf16_S15x64x512_S1x64x512_10_0_0 : (Rect.unit (s := S15x64x512) ![10, 0, 0] S1x64x512.size inb_S15x64x512_S1x64x512_10_0_0).WholeWords (EltTy.packing .bf16)
  inb_S15_S1_11 : ∀ a, (![11] : Fin 1 → Nat) a + S1.size a ≤ S15.size a
  inb_S15x64x512_S1x64x512_11_0_0 : ∀ a, (![11, 0, 0] : Fin 3 → Nat) a + S1x64x512.size a ≤ S15x64x512.size a
  wordsbf16_S15x64x512_S1x64x512_11_0_0 : (Rect.unit (s := S15x64x512) ![11, 0, 0] S1x64x512.size inb_S15x64x512_S1x64x512_11_0_0).WholeWords (EltTy.packing .bf16)
  inb_S15_S1_12 : ∀ a, (![12] : Fin 1 → Nat) a + S1.size a ≤ S15.size a
  inb_S15x64x512_S1x64x512_12_0_0 : ∀ a, (![12, 0, 0] : Fin 3 → Nat) a + S1x64x512.size a ≤ S15x64x512.size a
  wordsbf16_S15x64x512_S1x64x512_12_0_0 : (Rect.unit (s := S15x64x512) ![12, 0, 0] S1x64x512.size inb_S15x64x512_S1x64x512_12_0_0).WholeWords (EltTy.packing .bf16)
  inb_S15_S1_13 : ∀ a, (![13] : Fin 1 → Nat) a + S1.size a ≤ S15.size a
  inb_S15x64x512_S1x64x512_13_0_0 : ∀ a, (![13, 0, 0] : Fin 3 → Nat) a + S1x64x512.size a ≤ S15x64x512.size a
  wordsbf16_S15x64x512_S1x64x512_13_0_0 : (Rect.unit (s := S15x64x512) ![13, 0, 0] S1x64x512.size inb_S15x64x512_S1x64x512_13_0_0).WholeWords (EltTy.packing .bf16)
  inb_S15_S1_14 : ∀ a, (![14] : Fin 1 → Nat) a + S1.size a ≤ S15.size a
  inb_S15x64x512_S1x64x512_14_0_0 : ∀ a, (![14, 0, 0] : Fin 3 → Nat) a + S1x64x512.size a ≤ S15x64x512.size a
  wordsbf16_S15x64x512_S1x64x512_14_0_0 : (Rect.unit (s := S15x64x512) ![14, 0, 0] S1x64x512.size inb_S15x64x512_S1x64x512_14_0_0).WholeWords (EltTy.packing .bf16)
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S64x512_S512x512_S64x512_1_0_0_1_n_n_wf : DotDims.WF S64x512 S512x512 S64x512 [1] [0] [0] [1] [] []
  hcc0_scratch2 : 3 + S15.numel ≤ 63
  hcc0_scratch3 : 18 + S15.numel ≤ 63
  hcc0_scratch4 : 33 + S15.numel ≤ 63
  hcc0_scratch5 : 48 + S15.numel ≤ 63
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S64x512.size a ≤ S1024x512.size a
  k0_off1_packedbf16 : ∀ d0 : Dev nD, ∀ (r : Fin 15), (Rect.unit (s := S1024x512) (k0_off1 d0 (BitVec.ofNat 32 (1 + r.val))) S64x512.size (k0_off1_inb d0 r)).PackedRows (EltTy.packing .bf16)
  k0_off2_inb : ∀ d0 : Dev nD, ∀ (r : Fin 15), ∀ a, (k0_off2 d0 (BitVec.ofNat 32 (1 + r.val))) a + S64x512.size a ≤ S1024x512.size a
  k0_off2_wordsbf16 : ∀ d0 : Dev nD, ∀ (r : Fin 15), (Rect.unit (s := S1024x512) (k0_off2 d0 (BitVec.ofNat 32 (1 + r.val))) S64x512.size (k0_off2_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off3_inb : ∀ d0 : Dev nD, ∀ a, (k0_off3 d0) a + S64x512.size a ≤ S1024x512.size a
  k0_off3_packedbf16 : ∀ d0 : Dev nD, (Rect.unit (s := S1024x512) (k0_off3 d0) S64x512.size (k0_off3_inb d0)).PackedRows (EltTy.packing .bf16)
  k0_off4_inb : ∀ d0 : Dev nD, ∀ a, (k0_off4 d0) a + S64x512.size a ≤ S1024x512.size a
  k0_off4_wordsbf16 : ∀ d0 : Dev nD, (Rect.unit (s := S1024x512) (k0_off4 d0) S64x512.size (k0_off4_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S15 := SemArray.consecutive 3 S15 hcc0_scratch2
abbrev cc0_scratch3 : DmaSems sig S15 := SemArray.consecutive 18 S15 hcc0_scratch3
abbrev cc0_scratch4 : DmaSems sig S15 := SemArray.consecutive 33 S15 hcc0_scratch4
abbrev cc0_scratch5 : DmaSems sig S15 := SemArray.consecutive 48 S15 hcc0_scratch5
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S16x1024x512 : Shape := ⟨3, ![16, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S16x1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S1024x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S16384x512_S16x1024x512 : S16384x512.ShapeCasts S16x1024x512
  reducesTo_S16x1024x512_S1024x512_d0 : S16x1024x512.ReducesTo [0] S1024x512
  h_S_ : 0 < S_.numel
  bitsLt_bf16_f32 : FTy.bits .bf16 < FTy.bits .f32
  dot_S1024x512_S512x512_S1024x512_1_0_0_1_n_n_wf : DotDims.WF S1024x512 S512x512 S1024x512 [1] [0] [0] [1] [] []

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

class Facts : Prop extends Facts₀ where

variable [Facts]
-- ==== Proof.KerSpec.lean ====
/-
  What the sixteen devices compute, as pure functions of the devices' argument blocks, for any float instance.

  Device `c` holds a block `T c` of 1024 rows and its copy `W c` of the 512 x 512 matrix.  Row block `b` (64 rows)
  of the result is produced on device `b`: every device `d` contributes rows `64 b .. 64 b + 63` of its block, cast to
  the narrow format (`part`); device `b` adds its own part and then the parts of the devices `b - 1, b - 2, .., b - 15`
  (indices mod 16) in that order (`accum`), multiplies the sum by its matrix, and casts the product (`oblk`).  Every
  device ends holding all sixteen row blocks (`outFull`).
-/
import proofs.«900451_g7700000000000452_dist_matmul_of_ar_i_m1024_n512_k512_v7x_i16_bf16_1_alg».proof.KernelIdeal
import Idealize.ShloMosaic.Lib.ValueIdx

noncomputable section

namespace Cert.KernelIdeal.KS

open Cert.KernelIdeal Idealize.ShloMosaic Idealize.ShloMosaic.ValueIdx

variable {F : FTy → Type} [FloatOps F] [Facts]
open Facts₀ Facts

/-- The device `k` places after `c` around the mesh. -/
def peer (c : Dev nD) (k : ℕ) : Dev nD := ⟨(c.val + k) % 16, Nat.mod_lt _ (by decide)⟩

/-- Rows `64 b .. 64 b + 63` of an array of 1024 rows. -/
def rows {α : Type} (X : S1024x512.Idx → α) (b : Dev nD) : S64x512.Idx → α := fun y =>
  X (ix2 (⟨64 * b.val + (y 0).val, by
        have h : (y 0).val < 64 := (y 0).isLt
        have hb : b.val < 16 := b.isLt
        omega⟩ : Fin 1024) (⟨(y 1).val, (y 1).isLt⟩ : Fin 512))

/-- Device `d`'s contribution to row block `c`: those rows of its block, cast. -/
def part (T : Dev nD → Vec F S1024x512 .f32) (c d : Dev nD) : FVec F S64x512 .bf16 :=
  truncf .bf16 (show FVec F S64x512 .f32 from rows (T d) c) bitsLt_bf16_f32

/-- Device `c`'s running sum after `j` received parts: its own part, then those of `c - 1, .., c - j`. -/
def accum (T : Dev nD → Vec F S1024x512 .f32) (c : Dev nD) : ℕ → FVec F S64x512 .bf16
  | 0 => part T c c
  | j + 1 => addf (accum T c j) (part T c (peer c (15 - j)))

/-- Row block `c` of the result: the full sum times device `c`'s matrix, cast. -/
def oblk (T : Dev nD → Vec F S1024x512 .f32) (W : Dev nD → Vec F S512x512 .f32) (c : Dev nD) : FVec F S64x512 .bf16 :=
  truncf .bf16 (matmul dot_S64x512_S512x512_S64x512_1_0_0_1_n_n none (accum T c 15)
    (truncf .bf16 (show FVec F S512x512 .f32 from W c) bitsLt_bf16_f32) (constant S64x512 .f32 0x00000000#32)) bitsLt_bf16_f32

/-- The whole result, as every device ends holding it: row `r` lies in row block `r / 64` at row `r % 64`. -/
def outFull (T : Dev nD → Vec F S1024x512 .f32) (W : Dev nD → Vec F S512x512 .f32) : Vec F S1024x512 .bf16 := fun i =>
  oblk T W (⟨(i 0).val / 64, by
      have h : (i 0).val < 1024 := (i 0).isLt
      show (i 0).val / 64 < 16
      omega⟩ : Dev nD)
    (ix2 (⟨(i 0).val % 64, Nat.mod_lt _ (by decide)⟩ : Fin 64) (⟨(i 1).val, (i 1).isLt⟩ : Fin 512))

end Cert.KernelIdeal.KS

end
-- ==== Proof.Cells.lean ====
/-
  The sixteen-device exchange: the cells (semaphores seen through the rounds discipline), the devices around the mesh,
  and the slices of the buffers that travel.

  Device `c` has one barrier cell, and four families of fifteen transfer cells indexed by `j = off - 1`:
  family 0 its send cells of the first exchange (the part for device `c + j + 1` leaving), family 1 its receive cells of
  the first exchange (the part from device `c - j - 1` landing in slot `j`), family 2 and 3 the same for the second
  exchange (its row block leaving for `c + j + 1`; the row block of `c - j - 1` landing).
-/
import proofs.«900451_g7700000000000452_dist_matmul_of_ar_i_m1024_n512_k512_v7x_i16_bf16_1_alg».proof.Proof.KerSpec
import proofs.«900451_g7700000000000452_dist_matmul_of_ar_i_m1024_n512_k512_v7x_i16_bf16_1_alg».proof.Proof.Gen.KernelIdeal
import proofs.«900451_g7700000000000452_dist_matmul_of_ar_i_m1024_n512_k512_v7x_i16_bf16_1_alg».proof.Proof.Gen.KernelIdeal.Skeleton
import proofs.«900451_g7700000000000452_dist_matmul_of_ar_i_m1024_n512_k512_v7x_i16_bf16_1_alg».proof.Proof.Gen.KernelIdeal.Launch
import proofs.«900451_g7700000000000452_dist_matmul_of_ar_i_m1024_n512_k512_v7x_i16_bf16_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

/-! ## The resource algebra: the pipeline library's copy and the exchange's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Around the mesh -/

theorem peer_val (c : Dev nD) (k : ℕ) : (peer c k).val = (c.val + k) % 16 := rfl
/-- Going `k + 1` forward and then `15 - k` forward is once around. -/
theorem peer_peer (c : Dev nD) (k : Fin 15) : peer (peer c (k.val + 1)) (15 - k.val) = c := by
  revert c k; decide
theorem peer_peer' (c : Dev nD) (k : Fin 15) : peer (peer c (15 - k.val)) (k.val + 1) = c := by
  revert c k; decide
theorem peer_ne (c : Dev nD) (k : Fin 15) : peer c (k.val + 1) ≠ c := by
  revert c k; decide
theorem peer_inj (c : Dev nD) (k k' : Fin 15) (h : peer c (k.val + 1) = peer c (k'.val + 1)) : k = k' := by
  revert c k k'; decide

/-! ## The cells -/

/-- The runtime's barrier semaphore of collective id 0. -/
abbrev barS : Sem sig := (SemArray.scalar (sig.barrier 0 rfl) : Sems sig S_).sem
/-- Transfer semaphore `j` of family `f`: the four scratch arrays of fifteen lie one after another from index 3. -/
abbrev dsem (f : Fin 4) (j : Fin 15) : DmaSem sig := ⟨3 + 15 * f.val + j.val, by
  have := f.isLt; have := j.isLt; show 3 + 15 * f.val + j.val < 63; omega⟩

abbrev barCell (c : Dev nD) : GSem nD τ sig := ((c : Thread nD τ), .reg barS)
abbrev xCell (c : Dev nD) (f : Fin 4) (j : Fin 15) : GSem nD τ sig := ((c : Thread nD τ), .dma (dsem f j))

/-- The family and number of a transfer semaphore, if it is one. -/
def famOf (q : DmaSem sig) : Option (Fin 4 × Fin 15) :=
  if h : 3 ≤ q.val then some (⟨(q.val - 3) / 15, by have hq : q.val < 63 := q.isLt; show (q.val - 3) / 15 < 4; omega⟩, ⟨(q.val - 3) % 15, Nat.mod_lt _ (by decide)⟩)
  else none

theorem famOf_dsem (f : Fin 4) (j : Fin 15) : famOf (dsem f j) = some (f, j) := by revert f j; decide

end Cert.KernelIdeal.X

end
-- ==== Proof.Bufs.lean ====
/-
  The buffers of the exchange and the pieces of them that travel: a row block (64 rows) of the cast-block scratch and
  of the result's staging buffer, and a slot of the 15-slot receive buffer.  A buffer of sixteen row blocks is the
  disjoint union of its row blocks, the receive buffer of its fifteen slots.
-/
import proofs.«900451_g7700000000000452_dist_matmul_of_ar_i_m1024_n512_k512_v7x_i16_bf16_1_alg».proof.Proof.Cells

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

abbrev xM : Memref sig .tc .vmem S1024x512 .f32 := Memref.whole cc0_stg0_0
abbrev wM : Memref sig .tc .vmem S512x512 .f32 := Memref.whole cc0_stg1_0
abbrev oM : Memref sig .tc .vmem S1024x512 .bf16 := Memref.whole cc0_stg2_0
abbrev tbM : Memref sig .tc .vmem S1024x512 .bf16 := Memref.whole cc0_scratch0
abbrev stM : Memref sig .tc .vmem S15x64x512 .bf16 := Memref.whole cc0_scratch1

theorem rowRect_inb (b : Dev nD) : ∀ a, (![64 * b.val, 0] : Fin 2 → Nat) a + S64x512.size a ≤ S1024x512.size a := by
  revert b; decide
theorem slotRect_inb (j : Fin 15) : ∀ a, (![j.val, 0, 0] : Fin 3 → Nat) a + S1x64x512.size a ≤ S15x64x512.size a := by
  revert j; decide

/-- Rows `64 b .. 64 b + 63` of a buffer of 1024 rows. -/
abbrev rowRect (b : Dev nD) : Rect S1024x512 := Rect.unit (s := S1024x512) ![64 * b.val, 0] S64x512.size (rowRect_inb b)
/-- Slot `j` of the receive buffer. -/
abbrev slotRect (j : Fin 15) : Rect S15x64x512 := Rect.unit (s := S15x64x512) ![j.val, 0, 0] S1x64x512.size (slotRect_inb j)

abbrev tbSl (b : Dev nD) : Memref sig .tc .vmem S64x512 .bf16 := tbM.slice (rowRect b) (fun _ => rfl)
abbrev oSl (b : Dev nD) : Memref sig .tc .vmem S64x512 .bf16 := oM.slice (rowRect b) (fun _ => rfl)
abbrev slotM (j : Fin 15) : Memref sig .tc .vmem S64x512 .bf16 :=
  (stM.slice (slotRect j) (fun _ => rfl)).squeeze S64x512 squeezes_S1x64x512_S64x512

theorem tbSl_set (b : Dev nD) : (tbSl b).view.set = (rowRect b).set := View.set_slice_whole _ _
theorem oSl_set (b : Dev nD) : (oSl b).view.set = (rowRect b).set := View.set_slice_whole _ _
theorem slotM_set (j : Fin 15) : (slotM j).view.set = (slotRect j).set :=
  (Memref.set_view_squeeze _ _).trans (View.set_slice_whole _ _)

/-- The credit one travelling piece (64 x 512 narrow elements) puts on a transfer cell. -/
def N : ℕ := (slotM 0).view.dmaCredit
theorem N_pos : 0 < N := View.dmaCredit_pos _ (by decide)

end Cert.KernelIdeal.X

end
-- ==== Proof.Proto.lean ====
/-
  The protocol's bookkeeping that does not depend on what the pieces hold: what each device owes its peers at launch
  (in the order it pays), the levels that order the waits, and the ghost state a device's body starts from.

  Device `c` pays, in order: one unit to the barrier cell of each `c + k + 1` (`k = 0 .. 14`); the credit of one piece to
  receive cell `j` of the first exchange on device `c + j + 1`; the same for the second exchange.  Its barrier cell has
  fifteen unit duties, duty `k` paid by device `c + k + 1`; so on the barrier cell of `c + k + 1` device `c` pays duty
  `14 - k`.  Every transfer cell has the single duty `0`.  A barrier wait (level 1) happens while the device still owes
  receive credit of both exchanges (levels 2 and 3), a first-exchange receive wait (level 2) while it owes second-exchange
  receive credit (level 3); the send waits and the second-exchange receive waits come when it owes nothing.
-/
import proofs.«900451_g7700000000000452_dist_matmul_of_ar_i_m1024_n512_k512_v7x_i16_bf16_1_alg».proof.Proof.Bufs

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

/-! ## What a device owes, in the order it pays -/

/-- The duty of the barrier cell of `c + k + 1` that device `c` pays. -/
def rev (k : Fin 15) : Fin 15 := ⟨14 - k.val, by omega⟩

/-- Device `c`'s `n`-th payment. -/
def tallyN (c : Dev nD) (n : ℕ) : CellTallies nD τ sig Unit :=
  if h : n < 15 then tallyAt (barCell (peer c (n + 1))) () 1
  else if h' : n < 30 then tallyAt (xCell (peer c (n - 15 + 1)) 1 ⟨n - 15, by omega⟩) () N
  else if h'' : n < 45 then tallyAt (xCell (peer c (n - 30 + 1)) 3 ⟨n - 30, by omega⟩) () N
  else 0

/-- What device `c` still owes after `n` payments. -/
def owedFrom (c : Dev nD) (n : ℕ) : CellTallies nD τ sig Unit := ∑ i ∈ Finset.Ico n 45, tallyN c i

theorem owedFrom_succ (c : Dev nD) (n : ℕ) (h : n < 45) : owedFrom c n = owedFrom c (n + 1) + tallyN c n := by
  unfold owedFrom; rw [Finset.sum_eq_sum_Ico_succ_bot h, add_comm]
theorem owedFrom_end (c : Dev nD) : owedFrom c 45 = 0 := by unfold owedFrom; simp

def O₀ (c : Dev nD) : CellTallies nD τ sig Unit := owedFrom c 0

theorem tallyN_bar (c : Dev nD) (k : Fin 15) : tallyN c k.val = tallyAt (barCell (peer c (k.val + 1))) () 1 := by
  unfold tallyN; rw [dif_pos k.isLt]
theorem tallyN_x1 (c : Dev nD) (j : Fin 15) : tallyN c (15 + j.val) = tallyAt (xCell (peer c (j.val + 1)) 1 j) () N := by
  unfold tallyN
  rw [dif_neg (by omega), dif_pos (by have := j.isLt; omega)]
  have e : 15 + j.val - 15 = j.val := by omega
  simp only [e]
theorem tallyN_x3 (c : Dev nD) (j : Fin 15) : tallyN c (30 + j.val) = tallyAt (xCell (peer c (j.val + 1)) 3 j) () N := by
  unfold tallyN
  rw [dif_neg (by omega), dif_neg (by omega), dif_pos (by have := j.isLt; omega)]
  have e : 30 + j.val - 30 = j.val := by omega
  simp only [e]

/-! ## Levels -/

def L (g : GSem nD τ sig) : Finset Unit := if g.1.2 = .tc then {()} else ∅
/-- The barrier at 1, first-exchange receive cells at 2, second-exchange receive cells at 3, all else at 0. -/
def lvS : SemLoc sig → ℕ
  | .reg _ => 1
  | .dma q => match famOf q with
    | some (⟨1, _⟩, _) => 2
    | some (⟨3, _⟩, _) => 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-! ## The ghost state a body starts from -/

/-- A device's cells: its barrier cell (`none`) and its sixty transfer cells. -/
abbrev CIx : Type := Option (Fin 4 × Fin 15)
abbrev csem : CIx → SemLoc sig
  | none => .reg barS
  | some (f, j) => .dma (dsem f j)
abbrev kcell (ck : Dev nD × CIx) : GSem nD τ sig := ((ck.1 : Thread nD τ), csem ck.2)

/-- Every cell's invariant under the name the launch gave it, and that every cell is at round 0: persistent. -/
def records (Rd : Rounds.Schedule (GSem nD τ sig) (Fin 15) (MT nD τ sig Unit (Elt F) ℕ UU ℕ)) (K : Dev nD × CIx → ℕ) : sProp 𝕄 :=
  iprop((bigSep Finset.univ fun ck : Dev nD × CIx => cellInv ER Rd (K ck) (kcell ck))
    ∗ bigSep Finset.univ fun ck : Dev nD × CIx => reached ER (kcell ck) 0)

instance records_persistent (Rd : Rounds.Schedule (GSem nD τ sig) (Fin 15) (MT nD τ sig Unit (Elt F) ℕ UU ℕ)) (K : Dev nD × CIx → ℕ) : BI.Persistent (records Rd K) := by unfold records; infer_instance

/-- The tokens of the duties device `c` pays: fifteen barrier duties, and the duty of its own fifteen send cells and of
    its peers' fifteen receive cells, for each exchange. -/
def payToks (c : Dev nD) : sProp 𝕄 :=
  iprop((bigSep Finset.univ fun k : Fin 15 => dutyTok ER (barCell (peer c (k.val + 1))) 0 (rev k))
    ∗ (bigSep Finset.univ fun j : Fin 15 => dutyTok ER (xCell c 0 j) 0 (0 : Fin 15))
    ∗ (bigSep Finset.univ fun j : Fin 15 => dutyTok ER (xCell (peer c (j.val + 1)) 1 j) 0 (0 : Fin 15))
    ∗ (bigSep Finset.univ fun j : Fin 15 => dutyTok ER (xCell c 2 j) 0 (0 : Fin 15))
    ∗ (bigSep Finset.univ fun j : Fin 15 => dutyTok ER (xCell (peer c (j.val + 1)) 3 j) 0 (0 : Fin 15)))

/-- Device `c`'s positions: at the start of round 0 of each of its cells. -/
def positions (c : Dev nD) : sProp 𝕄 := bigSep Finset.univ fun i : CIx => atPos ER (kcell (c, i)) 0 ∅ 0

def ghost (Rd : Rounds.Schedule (GSem nD τ sig) (Fin 15) (MT nD τ sig Unit (Elt F) ℕ UU ℕ)) (K : Dev nD × CIx → ℕ) (c : Dev nD) : sProp 𝕄 := iprop(records Rd K ∗ positions c ∗ payToks c)

/-- The credit dealt at launch for what the peers owe device `c`: fifteen units on its barrier cell, one piece on each
    receive cell. -/
def creds (c : Dev nD) : sProp 𝕄 :=
  iprop(cred (tallyAt (barCell c) () 15)
    ∗ (bigSep Finset.univ fun j : Fin 15 => cred (tallyAt (xCell c 1 j) () N))
    ∗ (bigSep Finset.univ fun j : Fin 15 => cred (tallyAt (xCell c 3 j) () N)))

/-- What device `c`'s body starts from, beside its buffers. -/
def start (Rd : Rounds.Schedule (GSem nD τ sig) (Fin 15) (MT nD τ sig Unit (Elt F) ℕ UU ℕ)) (c : Dev nD) : sProp 𝕄 := iprop((∃ K, ghost Rd K c) ∗ creds c ∗ levAts L lv)

end Cert.KernelIdeal.X

end
-- ==== Proof.Contents.lean ====
/-
  What the travelling buffers hold, as whole-buffer functions of the devices' blocks `T` and matrices `W`: a piece of a
  buffer is held at the whole function restricted to the piece, so no piece's statement mentions what the rest of its
  buffer holds.

  The cast-block scratch of device `c` holds its block cast (`tbFull`); slot `j` of its receive buffer holds the part of
  device `c - j - 1` for row block `c` (`stageFull`); the result buffer holds the whole result (`KS.outFull`).
-/
import proofs.«900451_g7700000000000452_dist_matmul_of_ar_i_m1024_n512_k512_v7x_i16_bf16_1_alg».proof.Proof.Bufs

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

/-- Device `c`'s block, cast. -/
def tbFull (T : Dev nD → Vec F S1024x512 .f32) (c : Dev nD) : Vec F S1024x512 .bf16 :=
  truncf .bf16 (show FVec F S1024x512 .f32 from T c) bitsLt_bf16_f32

/-- Device `c`'s receive buffer once every slot has landed: slot `j` holds the part of device `c + 15 - j` (that is,
    `c - j - 1`) for row block `c`. -/
def stageFull (T : Dev nD → Vec F S1024x512 .f32) (c : Dev nD) : Vec F S15x64x512 .bf16 := fun i =>
  part T c (peer c (15 - (i 0).val)) (ix2 (⟨(i 1).val, (i 1).isLt⟩ : Fin 64) (⟨(i 2).val, (i 2).isLt⟩ : Fin 512))

end Cert.KernelIdeal.X

end
-- ==== Proof.Sched.lean ====
/-
  The schedule of the exchange: one round per cell.

  Device `c`'s barrier cell has fifteen unit duties; duty `k` is paid by device `d = c + k + 1` and hands `c` what it
  needs to write into `d`: slot `k` of `d`'s receive buffer and row block `c` of `d`'s result buffer, at any contents.
  A transfer cell has the single duty `0` of one piece's credit: a first-exchange send cell `j` gives back the row block
  of the cast scratch that left for `c + j + 1`; a first-exchange receive cell `j` hands over slot `j` holding the part
  of `c - j - 1`; a second-exchange send cell `j` gives back the `j`-th of fifteen shares of the device's own row block of
  the result; a second-exchange receive cell `j` hands over row block `c - j - 1` of the result buffer holding that block.
-/
import proofs.«900451_g7700000000000452_dist_matmul_of_ar_i_m1024_n512_k512_v7x_i16_bf16_1_alg».proof.Proof.Proto
import proofs.«900451_g7700000000000452_dist_matmul_of_ar_i_m1024_n512_k512_v7x_i16_bf16_1_alg».proof.Proof.Contents

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (T : Dev nD → Vec F S1024x512 .f32) (W : Dev nD → Vec F S512x512 .f32)

/-! ## The pieces, as assertions -/

def tbPts (c b : Dev nD) (f : Buf (Elt F) ((tbSl b).view.loc (c : Thread nD τ))) : sProp 𝕄 :=
  (tbSl b).view.loc (c : Thread nD τ) ↦[(tbSl b).view.set]{fullShare} f
def slotPts (c : Dev nD) (j : Fin 15) (f : Buf (Elt F) ((slotM j).view.loc (c : Thread nD τ))) : sProp 𝕄 :=
  (slotM j).view.loc (c : Thread nD τ) ↦[(slotM j).view.set]{fullShare} f
def oPts (c b : Dev nD) (q : PosShare TreeShare) (f : Buf (Elt F) ((oSl b).view.loc (c : Thread nD τ))) : sProp 𝕄 :=
  (oSl b).view.loc (c : Thread nD τ) ↦[(oSl b).view.set]{q} f

omit [FloatOps F] in
instance tbPts_storable (c b : Dev nD) (f) : BI.Storable (upEmb : UEmb _ 𝕄) (tbPts (F := F) c b f) := by unfold tbPts; infer_instance
omit [FloatOps F] in
instance slotPts_storable (c : Dev nD) (j : Fin 15) (f) : BI.Storable (upEmb : UEmb _ 𝕄) (slotPts (F := F) c j f) := by unfold slotPts; infer_instance
omit [FloatOps F] in
instance oPts_storable (c b : Dev nD) (q) (f) : BI.Storable (upEmb : UEmb _ 𝕄) (oPts (F := F) c b q f) := by unfold oPts; infer_instance

/-! ## The payloads -/

/-- What device `d = c + k + 1`'s signal hands `c`: where `c`'s two transfers into `d` land. -/
def barPay (c : Dev nD) (k : Fin 15) : sProp 𝕄 :=
  iprop((∃ f, slotPts (peer c (k.val + 1)) k f) ∗ (∃ g, oPts (peer c (k.val + 1)) c fullShare g))

/-- The payload of transfer cell `j` of family `f` on device `c`. -/
def xPay (c : Dev nD) (f : Fin 4) (j : Fin 15) : sProp 𝕄 :=
  match f with
  | ⟨0, _⟩ => tbPts c (peer c (j.val + 1)) (tbFull T c)
  | ⟨1, _⟩ => slotPts c j (stageFull T c)
  | ⟨2, _⟩ => oPts c c (Transfers.shareTok fullShare 15 j) (outFull T W)
  | ⟨_ + 3, _⟩ => oPts c (peer c (15 - j.val)) fullShare (outFull T W)

instance barPay_storable (c : Dev nD) (k : Fin 15) : BI.Storable (upEmb : UEmb _ 𝕄) (barPay (F := F) c k) := by unfold barPay; infer_instance
instance xPay_storable (c : Dev nD) (f : Fin 4) (j : Fin 15) : BI.Storable (upEmb : UEmb _ 𝕄) (xPay T W c f j) := by
  unfold xPay; split <;> infer_instance

/-! ## The schedule -/

def sched : Rounds.Schedule (GSem nD τ sig) (Fin 15) 𝕄 where
  duties g r :=
    if r = 0 ∧ g.1.2 = .tc then
      (match g.2 with
        | .reg _ => Finset.univ
        | .dma q => if (famOf q).isSome then {0} else ∅)
    else ∅
  unitless _ := False
  amount g _ _ := match g.2 with
    | .reg _ => 1
    | .dma _ => N
  payload g _ d := match g.2 with
    | .reg _ => barPay g.1.1 d
    | .dma q => match famOf q with
      | some (f, j) => xPay T W g.1.1 f j
      | none => iprop(emp)
  amount_pos g _ _ _ := by
    cases g.2 with
    | reg _ => exact Nat.one_pos
    | dma _ => exact N_pos

instance sched_payload_storable (g : GSem nD τ sig) (r : ℕ) (d : Fin 15) :
    BI.Storable (upEmb : UEmb _ 𝕄) ((sched T W).payload g r d) := by
  show BI.Storable upEmb (match g.2 with
    | .reg _ => barPay g.1.1 d
    | .dma q => match famOf q with
      | some (f, j) => xPay T W g.1.1 f j
      | none => iprop(emp))
  cases g.2 with
  | reg _ => infer_instance
  | dma q =>
    show BI.Storable upEmb (match famOf q with
      | some (f, j) => xPay T W g.1.1 f j
      | none => iprop(emp))
    cases famOf q with
    | none => show BI.Storable upEmb (iprop(emp) : sProp 𝕄); infer_instance
    | some fj => obtain ⟨f, j⟩ := fj; show BI.Storable upEmb (xPay T W g.1.1 f j); infer_instance

section Tables
variable (c : Dev nD)

theorem duties_bar : (sched T W).duties (barCell c) 0 = Finset.univ := by
  dsimp only [sched]; rw [if_pos ⟨rfl, rfl⟩]
theorem duties_x (f : Fin 4) (j : Fin 15) : (sched T W).duties (xCell c f j) 0 = {0} := by
  dsimp only [sched]; rw [if_pos ⟨rfl, rfl⟩]
  show (if (famOf (dsem f j)).isSome then ({0} : Finset (Fin 15)) else ∅) = {0}
  rw [famOf_dsem]; rfl
theorem duties_later (g : GSem nD τ sig) : ∀ r, 1 ≤ r → (sched T W).duties g r = ∅ :=
  fun r hr => by dsimp only [sched]; rw [if_neg fun h => by omega]

theorem amount_bar (d : Fin 15) : (sched T W).amount (barCell c) 0 d = 1 := rfl
theorem amount_x (f : Fin 4) (j : Fin 15) (d : Fin 15) : (sched T W).amount (xCell c f j) 0 d = N := rfl

theorem expect_bar : (sched T W).expect (barCell c) 0 = 15 := by
  unfold Schedule.expect Schedule.amountOf
  rw [duties_bar, Finset.sum_congr rfl fun d _ => amount_bar T W c d, Finset.sum_const, Finset.card_univ, Fintype.card_fin, smul_eq_mul]
theorem expect_x (f : Fin 4) (j : Fin 15) : (sched T W).expect (xCell c f j) 0 = N := by
  unfold Schedule.expect Schedule.amountOf; rw [duties_x, Finset.sum_singleton, amount_x]

theorem payload_bar (k : Fin 15) : (sched T W).payload (barCell c) 0 k = barPay c k := rfl
theorem payload_x (f : Fin 4) (j : Fin 15) (d : Fin 15) : (sched T W).payload (xCell c f j) 0 d = xPay T W c f j := by
  show (match famOf (dsem f j) with
    | some (f, j) => xPay T W c f j
    | none => iprop(emp)) = xPay T W c f j
  rw [famOf_dsem]

/-- The rest of the barrier cell's round, no duty taken: all fifteen payloads. -/
theorem rest_bar : bigSep ((sched T W).duties (barCell c) 0 \ ∅) (fun d => (sched T W).payload (barCell c) 0 d)
    = bigSep Finset.univ (fun k : Fin 15 => barPay (F := F) c k) := by
  rw [Finset.sdiff_empty, duties_bar]; rfl
theorem rest_x (f : Fin 4) (j : Fin 15) : bigSep ((sched T W).duties (xCell c f j) 0 \ ∅) (fun d => (sched T W).payload (xCell c f j) 0 d)
    = xPay T W c f j := by
  rw [Finset.sdiff_empty, duties_x, bigSep_singleton, payload_x]

end Tables

end Cert.KernelIdeal.X

end
-- ==== Proof.Dats.lean ====
/-
  The pipeline's proof data on device `c`: what each window's staging buffer holds after the body, the invariant before
  and after the one grid point, and what the device owes.
-/
import proofs.«900451_g7700000000000452_dist_matmul_of_ar_i_m1024_n512_k512_v7x_i16_bf16_1_alg».proof.Proof.Sched

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s block and matrix, as staged. -/
def Tm (d : Dev nD) : Vec F S1024x512 .f32 :=
  (win0_0.blk (0 : Fin 1)).view.read (Elt F) ((s₀ m ρ).mem ((d : Thread nD τ).loc main_arg0))
def Wm (d : Dev nD) : Vec F S512x512 .f32 :=
  (win0_1.blk (0 : Fin 1)).view.read (Elt F) ((s₀ m ρ).mem ((d : Thread nD τ).loc main_arg1))

/-- The whole result, as every device's result buffer ends. -/
def outM : Vec F S1024x512 .bf16 := outFull (Tm m ρ) (Wm m ρ)

abbrev Rd := sched (F := F) (Tm m ρ) (Wm m ρ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the point: the protocol's ghost state and credit, and the two scratch buffers whole at any contents. -/
def Φ₀ (c : Dev nD) : sProp 𝕄 :=
  iprop(start (Rd m ρ) c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the scratch buffers whole again, the sixty transfer cells closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun fj : Fin 4 × Fin 15 => semVal (xCell c fj.1 fj.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Tm m ρ c
    | ⟨1, _⟩ => Wm m ρ c
    | ⟨2, _⟩ => outM m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from on device `c`: the invariant, what it owes, and the three staging buffers as the pipeline
    hands them over. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with: the invariant after the point, nothing owed, the inputs' staging buffers as they were, the
    result's staging buffer at the whole result. -/
def bodyPost (c : Dev nD) : sProp 𝕄 :=
  iprop(Φ₁ c ∗ (dats m ρ 0 c).owesAt () t₀.succ ∗ stg c cc0_stg0_0 (Tm m ρ c) ∗ stg c cc0_stg1_0 (Wm m ρ c) ∗ stg c cc0_stg2_0 (outM m ρ))

end Cert.KernelIdeal.X

end
-- ==== Proof.LaunchLevels.lean ====
/-
  The levels order the waits: a wait is allowed while the device owes only to cells of a higher level.  What device `c`
  still owes after `n` payments lies on barrier cells (level 1) only for `n < 15`, on first-exchange receive cells
  (level 2) only for `n < 30`, and otherwise on second-exchange receive cells (level 3); so the staging and send waits
  (level 0) are allowed at any time, the barrier wait after fifteen payments, a first-exchange receive wait after thirty.
-/
import proofs.«900451_g7700000000000452_dist_matmul_of_ar_i_m1024_n512_k512_v7x_i16_bf16_1_alg».proof.Proof.Proto

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

/-! ## Where a payment lands -/

theorem lv_bar (d : Dev nD) (u : Unit) : lv (barCell d) u = 1 := rfl
theorem lv_x (d : Dev nD) (f : Fin 4) (j : Fin 15) (u : Unit) :
    lv (xCell d f j) u = if f = 1 then 2 else if f = 3 then 3 else 0 := by
  show lvS (.dma (dsem f j)) = _
  revert f j; decide
theorem lv_low (d : Dev nD) (q : DmaSem sig) (hq : q.val < 3) (u : Unit) : lv ((d : Thread nD τ), .dma q) u = 0 := by
  show lvS (.dma q) = 0
  have e : famOf q = none := by unfold famOf; rw [dif_neg (by omega)]
  unfold lvS; simp only [e]

/-- Payment `i` of device `c` lands on a TensorCore cell whose level is 1, 2 or 3 according to `i < 15`, `i < 30`, or not. -/
theorem tallyN_pos {c : Dev nD} {i : ℕ} {g : GSem nD τ sig} {u : Unit} (h : 0 < tallyN c i g u) :
    L g = {()} ∧ lv g u = (if i < 15 then 1 else if i < 30 then 2 else 3) := by
  unfold tallyN at h
  split at h
  · rename_i h1
    rw [tallyAt_apply] at h
    by_cases hg : g = barCell (peer c (i + 1)) ∧ u = ()
    · rw [hg.1, if_pos h1]; exact ⟨L_tc _ _, rfl⟩
    · rw [if_neg hg] at h; exact absurd h (Nat.lt_irrefl 0)
  · rename_i h1
    split at h
    · rename_i h2
      rw [tallyAt_apply] at h
      by_cases hg : g = xCell (peer c (i - 15 + 1)) 1 ⟨i - 15, by omega⟩ ∧ u = ()
      · rw [hg.1, if_neg h1, if_pos h2, lv_x]; exact ⟨L_tc _ _, rfl⟩
      · rw [if_neg hg] at h; exact absurd h (Nat.lt_irrefl 0)
    · rename_i h2
      split at h
      · rename_i h3
        rw [tallyAt_apply] at h
        by_cases hg : g = xCell (peer c (i - 30 + 1)) 3 ⟨i - 30, by omega⟩ ∧ u = ()
        · rw [hg.1, if_neg h1, if_neg h2, lv_x]; exact ⟨L_tc _ _, rfl⟩
        · rw [if_neg hg] at h; exact absurd h (Nat.lt_irrefl 0)
      · exact absurd h (Nat.lt_irrefl 0)

/-- What is still owed after `n` payments lies where a payment from the `n`-th on lands. -/
theorem owedFrom_pos {c : Dev nD} {n : ℕ} {g : GSem nD τ sig} {u : Unit} (h : 0 < owedFrom c n g u) :
    L g = {()} ∧ (if n < 15 then 1 else if n < 30 then 2 else 3) ≤ lv g u := by
  unfold owedFrom at h
  obtain ⟨i, hi, hpos⟩ := Pipeline.sum_pos_exists h
  obtain ⟨hL, hlv⟩ := tallyN_pos hpos
  refine ⟨hL, ?_⟩
  rw [hlv]
  have hn : n ≤ i := (Finset.mem_Ico.mp hi).1
  split_ifs <;> omega

/-! ## The waits -/

/-- A wait on a staging cell (a transfer semaphore below the exchange's) is allowed whatever the device still owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [(owedFrom_pos hg).1]; exact Finset.mem_singleton_self _)
      (fun p hp => by rw [Finset.mem_singleton.mp hp, lv_low c q hq])
      (fun g u hg => by
        have h := (owedFrom_pos hg).2
        rw [if_pos (by decide)] at h
        exact h)
  · rw [MayWait_zero]; iintro -; iempintro

/-- At its barrier wait a device has paid its fifteen barrier units: it owes receive credit only. -/
theorem mayWait_bar (c : Dev nD) :
    (levAts L lv : sProp 𝕄) ⊢ MayWait (c : Thread nD τ) (.reg barS) () (owedFrom c 15) :=
  MayOwe.of_cut (L := L) (lev := lv) 1 (fun p hp => by rw [Finset.mem_singleton.mp hp, L_tc]; exact Finset.mem_singleton_self _)
    (fun g u hg => by rw [(owedFrom_pos hg).1]; exact Finset.mem_singleton_self _)
    (fun p hp => by rw [Finset.mem_singleton.mp hp]; exact le_of_eq (lv_bar c ()))
    (fun g u hg => by
      have h := (owedFrom_pos hg).2
      rw [if_neg (by decide), if_pos (by decide)] at h
      exact h)

/-- At a receive wait of the first exchange a device has paid that exchange's credit: it owes second-exchange credit only. -/
theorem mayWait_x1 (c : Dev nD) (j : Fin 15) :
    (levAts L lv : sProp 𝕄) ⊢ MayWait (c : Thread nD τ) (.dma (dsem 1 j)) () (owedFrom c 30) :=
  MayOwe.of_cut (L := L) (lev := lv) 2 (fun p hp => by rw [Finset.mem_singleton.mp hp, L_tc]; exact Finset.mem_singleton_self _)
    (fun g u hg => by rw [(owedFrom_pos hg).1]; exact Finset.mem_singleton_self _)
    (fun p hp => by rw [Finset.mem_singleton.mp hp]; exact le_of_eq (lv_x c 1 j ()))
    (fun g u hg => by
      have h := (owedFrom_pos hg).2
      rw [if_neg (by decide), if_neg (by decide)] at h
      exact h)

/-- info: 'Cert.KernelIdeal.X.mayWait_x1' depends on axioms: [propext, Classical.choice, Quot.sound] -/
#guard_msgs in #print axioms mayWait_x1

end Cert.KernelIdeal.X

end
-- ==== Proof.Steps1.lean ====
/-
  The entry handshake, one rule per effect: a signal to a peer's barrier cell hands the peer the slot and the row block
  it will write into; the wait for all fifteen signals brings the fifteen peers' slots and row blocks.
-/
import proofs.«900451_g7700000000000452_dist_matmul_of_ar_i_m1024_n512_k512_v7x_i16_bf16_1_alg».proof.Proof.Dats
import proofs.«900451_g7700000000000452_dist_matmul_of_ar_i_m1024_n512_k512_v7x_i16_bf16_1_alg».proof.Proof.LaunchLevels

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

theorem peer_rev (c : Dev nD) (k : Fin 15) : peer (peer c (k.val + 1)) ((rev k).val + 1) = c := by revert c k; decide

/-- A device's program run from its thread, at the certificate's variants. -/
abbrev WP (c : Dev nD) {α : Type} (p : Prog (TpuEff nD τ sig (Elt F) Λ₀ .tc) α) (Q : α → sProp 𝕄) : sProp 𝕄 :=
  wp frame (wpE (defs₀ (F := F)) 𝒱₀ c none) Set.univ p Q

omit [FloatOps F] in
theorem inv_at (Rd : Rounds.Schedule (GSem nD τ sig) (Fin 15) (MT nD τ sig Unit (Elt F) ℕ UU ℕ)) (K : Dev nD × CIx → ℕ) (ck : Dev nD × CIx) :
    records Rd K ⊢ cellInv ER Rd (K ck) (kcell ck) := by
  unfold records
  iintro ⟨HI, -⟩
  have h : bigSep Finset.univ (fun ck : Dev nD × CIx => (cellInv ER Rd (K ck) (kcell ck) : sProp 𝕄)) ⊢ cellInv ER Rd (K ck) (kcell ck) :=
    bigSep_elim (Finset.mem_univ ck)
  iapply h; iexact HI
omit [FloatOps F] in
theorem reached_at (Rd : Rounds.Schedule (GSem nD τ sig) (Fin 15) (MT nD τ sig Unit (Elt F) ℕ UU ℕ)) (K : Dev nD × CIx → ℕ) (ck : Dev nD × CIx) :
    records Rd K ⊢ (reached ER (kcell ck) 0 : sProp 𝕄) := by
  unfold records
  iintro ⟨-, HR⟩
  have h : bigSep Finset.univ (fun ck : Dev nD × CIx => (reached ER (kcell ck) 0 : sProp 𝕄)) ⊢ reached ER (kcell ck) 0 :=
    bigSep_elim (Finset.mem_univ ck)
  iapply h; iexact HR

variable (m : (ℓ : Loc nD τ sig) → Buf (Elt F) ℓ) (ρ : Dev nD → PrngReg)

/-- Signal `k`, to device `c + k + 1`: duty `14 - k` of that device's barrier cell, paid with slot `14 - k` of `c`'s receive
    buffer and row block `c + k + 1` of `c`'s result buffer. -/
theorem step_signal (c : Dev nD) (k : Fin 15) (n : Dev nD) (hn : n = peer c (k.val + 1)) (K : Dev nD × CIx → ℕ) (W : Waits sig Unit)
    (fs : Buf (Elt F) ((slotM (rev k)).view.loc (c : Thread nD τ))) (go : Buf (Elt F) ((oSl (peer c (k.val + 1))).view.loc (c : Thread nD τ)))
    {α : Type} {Q : α → sProp 𝕄} {kont : PUnit → Prog (TpuEff nD τ sig (Elt F) Λ₀ .tc) α} :
    iprop(records (Rd m ρ) K ∗ owes (c : Thread nD τ) (owedFrom c k.val) W ∗ dutyTok ER (barCell (peer c (k.val + 1))) 0 (rev k)
        ∗ slotPts c (rev k) fs ∗ oPts c (peer c (k.val + 1)) fullShare go)
      ⊢ iprop((owes (c : Thread nD τ) (owedFrom c (k.val + 1)) W -∗ WP c (kont ⟨⟩) Q)
          -∗ WP c (.op (.semSignal (n : Thread nD τ) barS 1) kont) Q) := by
  subst hn
  iintro ⟨#HR, HO, Htok, Hs, Ho⟩
  iapply (Rounds.wp_signal 𝒱₀ ER (Rd m ρ) (c : Thread nD τ) none (dst := (peer c (k.val + 1) : Thread nD τ)) (κ := K (peer c (k.val + 1), none))
      (d := rev k) (O₀ := owedFrom c k.val) (by rw [duties_bar]; exact Finset.mem_univ _) (amount_bar _ _ _ _) () (owedFrom c (k.val + 1))
      (by rw [owedFrom_succ c k.val (by have := k.isLt; omega), tallyN_bar])) $$ [HO Htok Hs Ho]
  isplitr; · iapply (inv_at (Rd m ρ) K (peer c (k.val + 1), none)); iexact HR
  isplitl [HO]; · iexact HO
  isplitl [Htok]; · iexact Htok
  isplitl [Hs Ho]
  · rw [payload_bar]; unfold barPay; rw [peer_rev]
    isplitl [Hs]
    · iexists fs; iexact Hs
    · iexists go; iexact Ho
  · iapply (reached_at (Rd m ρ) K (peer c (k.val + 1), none)); iexact HR

/-- The wait for the fifteen signals, owing all the receive credit: every peer's slot and row block come with it. -/
theorem step_barwait (c : Dev nD) (K : Dev nD × CIx → ℕ) (W : Waits sig Unit)
    {α : Type} {Q : α → sProp 𝕄} {kont : PUnit → Prog (TpuEff nD τ sig (Elt F) Λ₀ .tc) α} :
    iprop(records (Rd m ρ) K ∗ cred (tallyAt (barCell c) () 15) ∗ owes (c : Thread nD τ) (owedFrom c 15) W ∗ levAts L lv
        ∗ atPos ER (barCell c) 0 ∅ 0)
      ⊢ iprop(((owes (c : Thread nD τ) (owedFrom c 15) (insert (SemLoc.reg barS, ()) W) ∗ atPos ER (barCell c) 1 ∅ 0
              ∗ bigSep Finset.univ (fun k : Fin 15 => barPay (F := F) c k)) -∗ WP c (kont ⟨⟩) Q)
          -∗ WP c (.op (.semWait barS 15) kont) Q) := by
  iintro ⟨#HR, Hc, HO, #Hlev, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owedFrom c 15) (W := W) (R := 0) (m := 0) (T := ∅)
      (by rw [expect_bar])) $$ [Hc HO Hat]
  · isplitr; · iapply (inv_at (Rd m ρ) K (c, none)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar _ _ c)) $$ Hpay

end Cert.KernelIdeal.X

end
-- ==== Proof.Glue.lean ====
/-
  Rearrangements of the separating conjunctions the body's proof moves between: a conjunction over fifteen or four
  indices written out; all sixteen devices as one device and the fifteen others counted around the ring from it; fifteen
  indices counted backwards; a device's cells as its barrier cell and four families of fifteen.
-/
import proofs.«900451_g7700000000000452_dist_matmul_of_ar_i_m1024_n512_k512_v7x_i16_bf16_1_alg».proof.Proof.Sched

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

local notation "𝕄" => MT nD τ sig Unit (Elt F) ℕ UU ℕ

/-! ## Conjunctions written out -/

theorem bigSep_fin15 {F : FTy → Type} (Φ : Fin 15 → sProp (MT nD τ sig Unit (Elt F) ℕ UU ℕ)) :
    bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

theorem bigSep_fin4 {F : FTy → Type} (Φ : Fin 4 → sProp (MT nD τ sig Unit (Elt F) ℕ UU ℕ)) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-! ## Around the ring -/

/-- Every device other than `c` is `k + 1` places further for some `k` below fifteen. -/
theorem peer_onto (c d : Dev nD) (h : d ≠ c) : ∃ k : Fin 15, peer c (k.val + 1) = d := by
  revert c d; decide

/-- The devices other than `c` are the fifteen places `1, .., 15` further around the ring. -/
theorem others_eq_peers (c : Dev nD) :
    (Finset.univ : Finset (Dev nD)).erase c = Finset.univ.image fun k : Fin 15 => peer c (k.val + 1) := by
  ext d
  simp only [Finset.mem_erase, Finset.mem_univ, and_true, Finset.mem_image, true_and]
  constructor
  · exact peer_onto c d
  · rintro ⟨k, rfl⟩; exact peer_ne c k

/-- All sixteen devices: `c`, and the fifteen others counted from it. -/
theorem bigSep_dev_peer {F : FTy → Type} (c : Dev nD) (Φ : Dev nD → sProp (MT nD τ sig Unit (Elt F) ℕ UU ℕ)) :
    bigSep Finset.univ Φ = iprop(Φ c ∗ bigSep Finset.univ fun k : Fin 15 => Φ (peer c (k.val + 1))) := by
  rw [bigSep_univ_split c, others_eq_peers,
    Idealize.SL.BI.bigSep_image_of_injOn (fun k _ k' _ h => peer_inj c k k' h)]
  rfl

theorem rev_rev (k : Fin 15) : rev (rev k) = k := by
  revert k; decide

/-- Fifteen indices, counted backwards. -/
theorem bigSep_rev {F : FTy → Type} (Φ : Fin 15 → sProp (MT nD τ sig Unit (Elt F) ℕ UU ℕ)) :
    bigSep Finset.univ Φ = bigSep Finset.univ fun k : Fin 15 => Φ (rev k) := by
  have himg : (Finset.univ : Finset (Fin 15)).image rev = Finset.univ := by
    ext k
    simp only [Finset.mem_image, Finset.mem_univ, true_and, iff_true]
    exact ⟨rev k, rev_rev k⟩
  rw [← Idealize.SL.BI.bigSep_image_of_injOn (f := rev) (s := Finset.univ)
    (fun k _ k' _ h => by rw [← rev_rev k, ← rev_rev k', h]) Φ, himg]

/-- Fifteen minus `j` places further is one more than `14 - j` places further. -/
theorem peer_sub_rev (c : Dev nD) (j : Fin 15) : peer c (15 - j.val) = peer c ((rev j).val + 1) :=
  congrArg (peer c) (by have := j.isLt; show 15 - j.val = 14 - j.val + 1; omega)

/-- Pairs of a family and a number: family by family. -/
theorem bigSep_fam {F : FTy → Type} (Φ : Fin 4 × Fin 15 → sProp (MT nD τ sig Unit (Elt F) ℕ UU ℕ)) :
    bigSep Finset.univ Φ = bigSep Finset.univ fun f : Fin 4 => bigSep Finset.univ fun j : Fin 15 => Φ (f, j) :=
  bigSep_univ_prod Φ

/-- A device's cells: its barrier cell, and its transfer cells family by family. -/
theorem bigSep_CIx {F : FTy → Type} (Φ : CIx → sProp (MT nD τ sig Unit (Elt F) ℕ UU ℕ)) :
    bigSep Finset.univ Φ
      = iprop(Φ none ∗ bigSep Finset.univ fun f : Fin 4 => bigSep Finset.univ fun j : Fin 15 => Φ (some (f, j))) := by
  have he : (Finset.univ : Finset CIx).erase none = Finset.univ.map Function.Embedding.some := by
    ext x
    cases x <;> simp
  rw [bigSep_univ_split (none : CIx), he, bigSep_map, bigSep_fam]
  rfl

/-- info: 'Cert.KernelIdeal.X.bigSep_CIx' depends on axioms: [propext, Classical.choice, Quot.sound] -/
#guard_msgs in #print axioms bigSep_CIx

end Cert.KernelIdeal.X

end
-- ==== Proof.BufSplit.lean ====
/-
  A buffer of 1024 rows is the disjoint union of its sixteen row blocks of 64 rows; the receive buffer of fifteen slots is
  the disjoint union of its slots.  Holding a whole buffer is holding each of its pieces, at the same whole-buffer
  contents.
-/
import proofs.«900451_g7700000000000452_dist_matmul_of_ar_i_m1024_n512_k512_v7x_i16_bf16_1_alg».proof.Proof.Bufs
import Idealize.ShloMosaic.Rules.PointsTo

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

local notation "𝕄" => MT nD τ sig Unit (Elt F) ℕ UU ℕ

/-- Different row blocks share no element. -/
theorem rows_disjoint {b b' : Dev nD} (h : b ≠ b') : Disjoint (rowRect b).set (rowRect b').set := by
  refine Rect.unit_disjoint (0 : Fin 2) ?_
  show 64 * b.val + 64 ≤ 64 * b'.val ∨ 64 * b'.val + 64 ≤ 64 * b.val
  have : b.val ≠ b'.val := fun e => h (Fin.ext e)
  omega

/-- Every element lies in the row block of its row divided by 64. -/
theorem rows_cover : Finset.univ.biUnion (fun b : Dev nD => (rowRect b).set) = Finset.univ := by
  ext i
  simp only [Finset.mem_biUnion, Finset.mem_univ, true_and, iff_true]
  have h0 : (i 0).val < 1024 := (i 0).isLt
  have h1 : (i 1).val < 512 := (i 1).isLt
  refine ⟨(⟨(i 0).val / 64, by show (i 0).val / 64 < 16; omega⟩ : Dev nD), Rect.mem_set_unit.mpr fun a => ?_⟩
  match a with
  | ⟨0, _⟩ => show 64 * ((i 0).val / 64) ≤ (i 0).val ∧ (i 0).val < 64 * ((i 0).val / 64) + 64; omega
  | ⟨1, _⟩ => show 0 ≤ (i 1).val ∧ (i 1).val < 0 + 512; omega

/-- Different slots share no element. -/
theorem slots_disjoint {j j' : Fin 15} (h : j ≠ j') : Disjoint (slotRect j).set (slotRect j').set := by
  refine Rect.unit_disjoint (0 : Fin 3) ?_
  show j.val + 1 ≤ j'.val ∨ j'.val + 1 ≤ j.val
  have : j.val ≠ j'.val := fun e => h (Fin.ext e)
  omega

/-- Every element of the receive buffer lies in the slot of its first coordinate. -/
theorem slots_cover : Finset.univ.biUnion (fun j : Fin 15 => (slotRect j).set) = Finset.univ := by
  ext i
  simp only [Finset.mem_biUnion, Finset.mem_univ, true_and, iff_true]
  have h0 : (i 0).val < 15 := (i 0).isLt
  have h1 : (i 1).val < 64 := (i 1).isLt
  have h2 : (i 2).val < 512 := (i 2).isLt
  refine ⟨(⟨(i 0).val, h0⟩ : Fin 15), Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 64; omega
  | ⟨2, _⟩ => show 0 ≤ (i 2).val ∧ (i 2).val < 0 + 512; omega

/-- The cast-block scratch, held whole, is its sixteen row blocks held one by one. -/
theorem rows_split_tb (c : Dev nD) (f : Buf (Elt F) ((c : Thread nD τ).loc cc0_scratch0)) :
    (((c : Thread nD τ).loc cc0_scratch0) ↦{fullShare} f : sProp 𝕄)
      = bigSep Finset.univ fun b : Dev nD => (((c : Thread nD τ).loc cc0_scratch0) ↦[(rowRect b).set]{fullShare} f) := by
  rw [← pointsTo_biUnion (ℓ := (c : Thread nD τ).loc cc0_scratch0) (q := fullShare) (f := f) Finset.univ
    (fun b : Dev nD => (rowRect b).set) (fun b _ b' _ h => rows_disjoint h)]
  exact congrArg (fun S => pointsTo ((c : Thread nD τ).loc cc0_scratch0) S fullShare f) rows_cover.symm

/-- The result's staging buffer, held whole, is its sixteen row blocks held one by one. -/
theorem rows_split_out (c : Dev nD) (f : Buf (Elt F) ((c : Thread nD τ).loc cc0_stg2_0)) :
    (((c : Thread nD τ).loc cc0_stg2_0) ↦{fullShare} f : sProp 𝕄)
      = bigSep Finset.univ fun b : Dev nD => (((c : Thread nD τ).loc cc0_stg2_0) ↦[(rowRect b).set]{fullShare} f) := by
  rw [← pointsTo_biUnion (ℓ := (c : Thread nD τ).loc cc0_stg2_0) (q := fullShare) (f := f) Finset.univ
    (fun b : Dev nD => (rowRect b).set) (fun b _ b' _ h => rows_disjoint h)]
  exact congrArg (fun S => pointsTo ((c : Thread nD τ).loc cc0_stg2_0) S fullShare f) rows_cover.symm

/-- The receive buffer, held whole, is its fifteen slots held one by one. -/
theorem slots_split (c : Dev nD) (f : Buf (Elt F) ((c : Thread nD τ).loc cc0_scratch1)) :
    (((c : Thread nD τ).loc cc0_scratch1) ↦{fullShare} f : sProp 𝕄)
      = bigSep Finset.univ fun j : Fin 15 => (((c : Thread nD τ).loc cc0_scratch1) ↦[(slotRect j).set]{fullShare} f) := by
  rw [← pointsTo_biUnion (ℓ := (c : Thread nD τ).loc cc0_scratch1) (q := fullShare) (f := f) Finset.univ
    (fun j : Fin 15 => (slotRect j).set) (fun j _ j' _ h => slots_disjoint h)]
  exact congrArg (fun S => pointsTo ((c : Thread nD τ).loc cc0_scratch1) S fullShare f) slots_cover.symm

/-- Every piece's view sits in its own buffer: the location is the buffer's, by definition. -/
theorem tbSl_loc (c b : Dev nD) : (tbSl b).view.loc (c : Thread nD τ) = (c : Thread nD τ).loc cc0_scratch0 := rfl
theorem oSl_loc (c b : Dev nD) : (oSl b).view.loc (c : Thread nD τ) = (c : Thread nD τ).loc cc0_stg2_0 := rfl
theorem slotM_loc (c : Dev nD) (j : Fin 15) : (slotM j).view.loc (c : Thread nD τ) = (c : Thread nD τ).loc cc0_scratch1 := rfl
theorem xM_loc (c : Dev nD) : xM.view.loc (c : Thread nD τ) = (c : Thread nD τ).loc cc0_stg0_0 := rfl
theorem wM_loc (c : Dev nD) : wM.view.loc (c : Thread nD τ) = (c : Thread nD τ).loc cc0_stg1_0 := rfl
theorem oM_loc (c : Dev nD) : oM.view.loc (c : Thread nD τ) = (c : Thread nD τ).loc cc0_stg2_0 := rfl
theorem tbM_loc (c : Dev nD) : tbM.view.loc (c : Thread nD τ) = (c : Thread nD τ).loc cc0_scratch0 := rfl
theorem stM_loc (c : Dev nD) : stM.view.loc (c : Thread nD τ) = (c : Thread nD τ).loc cc0_scratch1 := rfl
theorem tbAccess_loc (c b : Dev nD) : (tbM.access (rowRect b)).loc (c : Thread nD τ) = (c : Thread nD τ).loc cc0_scratch0 := rfl
theorem oAccess_loc (c b : Dev nD) : (oM.access (rowRect b)).loc (c : Thread nD τ) = (c : Thread nD τ).loc cc0_stg2_0 := rfl

/-- info: 'Cert.KernelIdeal.X.slots_split' depends on axioms: [propext, Classical.choice, Quot.sound] -/
#guard_msgs in #print axioms slots_split

end Cert.KernelIdeal.X

end
-- ==== Proof.BufVals.lean ====
/-
  What the travelling pieces hold, element by element.  A store through a row block writes its payload at row
  `64 b + r`; a landing into slot `j` writes what the sender's row block reads, row `r` of the piece at `(j, r, ·)`; a
  load through a piece reads those elements back.  So each store, landing and load agrees, on its piece, with the
  whole-buffer contents the pieces are held at.
-/
import proofs.«900451_g7700000000000452_dist_matmul_of_ar_i_m1024_n512_k512_v7x_i16_bf16_1_alg».proof.Proof.Contents
import Idealize.ShloMosaic.Lib.Pipeline.Value

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

local notation "𝕄" => MT nD τ sig Unit (Elt F) ℕ UU ℕ

/-! ## Indices under a piece -/

/-- An element of a rectangle lies under one of the rectangle's own indices. -/
theorem rect_exists_emb {s : Shape} (r : Rect s) {i : s.Idx} (hi : i ∈ r.set) : ∃ x : r.shape.Idx, r.emb x = i := by
  rw [← r.map_emb_univ] at hi
  obtain ⟨x, -, e⟩ := Finset.mem_map.mp hi
  exact ⟨x, e⟩

/-- An index of a rectangle lies under an element of the rectangle. -/
theorem rect_emb_mem {s : Shape} (r : Rect s) (x : r.shape.Idx) : r.emb x ∈ r.set := r.idx_mem x

/-- Index `(r, k)` of row block `b` is element `(64 b + r, k)` of the buffer. -/
theorem rowRect_emb (b : Dev nD) (x : S64x512.Idx) :
    (rowRect b).emb x = ix2 (⟨64 * b.val + (x 0).val, by
        have h : (x 0).val < 64 := (x 0).isLt
        have hb : b.val < 16 := b.isLt
        omega⟩ : Fin 1024) (⟨(x 1).val, (x 1).isLt⟩ : Fin 512) :=
  funext fun a => Fin.ext (by
    match a with
    | ⟨0, _⟩ => show 64 * b.val + 1 * (x 0).val = 64 * b.val + (x 0).val; omega
    | ⟨1, _⟩ => show 0 + 1 * (x 1).val = (x 1).val; omega)

/-- The rows of a row block, read through the block's rectangle. -/
theorem rows_eq {α : Type} (X : S1024x512.Idx → α) (b : Dev nD) (x : S64x512.Idx) :
    rows X b x = X ((rowRect b).emb x) := by
  rw [rowRect_emb]; rfl

/-- The first coordinate of an element of slot `j` is `j`; the other two are the index's. -/
theorem slotRect_emb_val (j : Fin 15) (x : S1x64x512.Idx) :
    ((slotRect j).emb x 0).val = j.val ∧ ((slotRect j).emb x 1).val = (x 1).val ∧ ((slotRect j).emb x 2).val = (x 2).val := by
  have h0 : (x 0).val < 1 := (x 0).isLt
  refine ⟨?_, ?_, ?_⟩
  · show j.val + 1 * (x 0).val = j.val; omega
  · show 0 + 1 * (x 1).val = (x 1).val; omega
  · show 0 + 1 * (x 2).val = (x 2).val; omega

/-- Index `(r, k)` of the slot's piece, seen as a 64 x 512 array, lies under index `(0, r, k)` of the slot. -/
theorem slotM_emb (j : Fin 15) (y : S64x512.Idx) (x : S1x64x512.Idx) (h1 : (x 1).val = (y 0).val) (h2 : (x 2).val = (y 1).val) :
    (slotM j).view.emb y = (slotRect j).emb x := by
  have h0 : (x 0).val < 1 := (x 0).isLt
  have e : Shape.reshapeEquiv squeezes_S1x64x512_S64x512.numel_eq y = x :=
    Shape.reshapeEquiv_eq_of_rowMajor _ (by
      rw [Shape.rowMajor_val_three, Shape.rowMajor_val_two]
      show ((x 0).val * 64 + (x 1).val) * 512 + (x 2).val = (y 0).val * 512 + (y 1).val
      rw [h1, h2]; omega)
  show (slotRect j).emb (Shape.reshapeEquiv squeezes_S1x64x512_S64x512.numel_eq y) = _
  rw [e]

/-- The receive buffer's canonical contents at an element whose slot's sender is `d`. -/
theorem stageFull_apply (T : Dev nD → Vec F S1024x512 .f32) (c : Dev nD) (i : S15x64x512.Idx) (d : Dev nD)
    (hd : peer c (15 - (i 0).val) = d) :
    stageFull T c i = part T c d (ix2 (⟨(i 1).val, (i 1).isLt⟩ : Fin 64) (⟨(i 2).val, (i 2).isLt⟩ : Fin 512)) := by
  subst hd; rfl

/-! ## Stores -/

/-- Storing device `c`'s cast rows of row block `b` through that row block leaves the cast block there. -/
theorem store_tb (T : Dev nD → Vec F S1024x512 .f32) (c b : Dev nD)
    (f : Buf (Elt F) ((tbM.access (rowRect b)).loc (c : Thread nD τ))) :
    ∀ i ∈ (rowRect b).set,
      ((tbM.access (rowRect b) : View sig .tc .vmem _ .bf16).write (Elt F) f
        (truncf .bf16 (show FVec F S64x512 .f32 from rows (T c) b) bitsLt_bf16_f32) Finset.univ) i = tbFull T c i := by
  intro i hi
  obtain ⟨x, rfl⟩ := rect_exists_emb (rowRect b) hi
  refine (View.write_emb_of_mem (v := (tbM.access (rowRect b) : View sig .tc .vmem _ .bf16)) (Val := Elt F) f _ (Finset.mem_univ x)).trans ?_
  show FloatOps.truncf .bf16 bitsLt_bf16_f32 (rows (T c) b x) = FloatOps.truncf .bf16 bitsLt_bf16_f32 (T c ((rowRect b).emb x))
  rw [rows_eq]

/-- Storing row block `c` of the result through that row block of the result buffer leaves the result there. -/
theorem store_out (T : Dev nD → Vec F S1024x512 .f32) (W : Dev nD → Vec F S512x512 .f32) (c : Dev nD)
    (f : Buf (Elt F) ((oM.access (rowRect c)).loc (c : Thread nD τ))) :
    ∀ i ∈ (rowRect c).set,
      ((oM.access (rowRect c) : View sig .tc .vmem _ .bf16).write (Elt F) f (oblk T W c) Finset.univ) i = outFull T W i := by
  intro i hi
  obtain ⟨x, rfl⟩ := rect_exists_emb (rowRect c) hi
  refine (View.write_emb_of_mem (v := (oM.access (rowRect c) : View sig .tc .vmem _ .bf16)) (Val := Elt F) f _ (Finset.mem_univ x)).trans ?_
  show oblk T W c x = outFull T W ((rowRect c).emb x)
  have hx0 : (x 0).val < 64 := (x 0).isLt
  have hc : c.val < 16 := c.isLt
  have e0 : ((rowRect c).emb x 0).val = 64 * c.val + (x 0).val := by
    show 64 * c.val + 1 * (x 0).val = _; omega
  have e1 : ((rowRect c).emb x 1).val = (x 1).val := by
    show 0 + 1 * (x 1).val = _; omega
  unfold outFull
  have hd : (⟨((rowRect c).emb x 0).val / 64, by
      have h : ((rowRect c).emb x 0).val < 1024 := ((rowRect c).emb x 0).isLt
      show ((rowRect c).emb x 0).val / 64 < 16
      omega⟩ : Dev nD) = c := Fin.ext (by show ((rowRect c).emb x 0).val / 64 = c.val; rw [e0]; omega)
  rw [hd]
  refine congrArg (oblk T W c) (funext fun a => Fin.ext ?_)
  match a with
  | ⟨0, _⟩ => show (x 0).val = ((rowRect c).emb x 0).val % 64; rw [e0]; omega
  | ⟨1, _⟩ => show (x 1).val = ((rowRect c).emb x 1).val; rw [e1]

/-! ## Landings -/

/-- The first exchange: device `c` sends, of its cast block, the row block of device `c + j + 1` into that device's slot
    `j`; the slot then holds what the receive buffer is to hold there. -/
theorem land1 (T : Dev nD → Vec F S1024x512 .f32) (c : Dev nD) (j : Fin 15)
    (fs : Buf (Elt F) ((tbSl (peer c (j.val + 1))).view.loc (c : Thread nD τ)))
    (hfs : ∀ i ∈ (rowRect (peer c (j.val + 1))).set, fs i = tbFull T c i)
    (fd : Buf (Elt F) ((slotM j).view.loc ((peer c (j.val + 1) : Dev nD) : Thread nD τ))) :
    ∀ i ∈ (slotRect j).set,
      ((slotM j).view.write (Elt F) fd ((tbSl (peer c (j.val + 1))).view.read (Elt F) fs) Finset.univ) i
        = stageFull T (peer c (j.val + 1)) i := by
  intro i hi
  obtain ⟨x, rfl⟩ := rect_exists_emb (slotRect j) hi
  obtain ⟨e0, e1, e2⟩ := slotRect_emb_val j x
  have hx1 : (x 1).val < 64 := (x 1).isLt
  have hx2 : (x 2).val < 512 := (x 2).isLt
  have hy := slotM_emb j (ix2 (⟨(x 1).val, hx1⟩ : Fin 64) (⟨(x 2).val, hx2⟩ : Fin 512)) x rfl rfl
  rw [← hy]
  refine (View.write_emb_of_mem (v := (slotM j).view) (Val := Elt F) fd _ (Finset.mem_univ _)).trans ?_
  rw [hy, stageFull_apply T (peer c (j.val + 1)) _ c (by rw [e0]; exact peer_peer c j)]
  show fs ((rowRect (peer c (j.val + 1))).emb (ix2 (⟨(x 1).val, hx1⟩ : Fin 64) (⟨(x 2).val, hx2⟩ : Fin 512))) = _
  rw [hfs _ (rect_emb_mem (rowRect (peer c (j.val + 1))) _)]
  show FloatOps.truncf .bf16 bitsLt_bf16_f32 (T c _) = FloatOps.truncf .bf16 bitsLt_bf16_f32 (rows (T c) (peer c (j.val + 1)) _)
  rw [rows_eq]
  refine congrArg (fun z => FloatOps.truncf .bf16 bitsLt_bf16_f32 (T c ((rowRect (peer c (j.val + 1))).emb z))) (funext fun a => Fin.ext ?_)
  match a with
  | ⟨0, _⟩ => exact e1.symm
  | ⟨1, _⟩ => exact e2.symm

/-- The second exchange: a device's row block of the result lands in the same row block of another device's result
    buffer, which then holds the result there. -/
theorem land2 (T : Dev nD → Vec F S1024x512 .f32) (W : Dev nD → Vec F S512x512 .f32) (c c' : Dev nD)
    (fs : Buf (Elt F) ((oSl c).view.loc (c : Thread nD τ)))
    (hfs : ∀ i ∈ (rowRect c).set, fs i = outFull T W i)
    (fd : Buf (Elt F) ((oSl c).view.loc (c' : Thread nD τ))) :
    ∀ i ∈ (rowRect c).set,
      ((oSl c).view.write (Elt F) fd ((oSl c).view.read (Elt F) fs) Finset.univ) i = outFull T W i := by
  intro i hi
  obtain ⟨x, rfl⟩ := rect_exists_emb (rowRect c) hi
  refine (View.write_emb_of_mem (v := (oSl c).view) (Val := Elt F) fd _ (Finset.mem_univ x)).trans ?_
  show fs ((rowRect c).emb x) = _
  exact hfs _ (rect_emb_mem (rowRect c) x)

/-! ## Loads -/

/-- A load of row block `b` of the argument block reads its rows. -/
theorem load_x (c : Dev nD) (X : Buf (Elt F) (xM.view.loc (c : Thread nD τ))) (b : Dev nD) :
    xM.view.readAt (Elt F) (rowRect b).toLoadRect X = rows X b := by
  funext x
  rw [rows_eq]
  rfl

/-- A load of slot `j`, seen as a 64 x 512 array, reads the part of the device `15 - j` places further. -/
theorem load_slot (T : Dev nD → Vec F S1024x512 .f32) (c : Dev nD) (j : Fin 15)
    (f : Buf (Elt F) (stM.view.loc (c : Thread nD τ)))
    (hf : ∀ i ∈ (slotRect j).set, f i = stageFull T c i) :
    shapeCast S64x512 (stM.view.readAt (Elt F) (slotRect j).toLoadRect f) shapeCasts_S1x64x512_S64x512
      = part T c (peer c (15 - j.val)) := by
  funext y
  rw [shapeCast_dropUnit_apply]
  show f ((slotRect j).emb (Fin.cons ⟨0, Nat.one_pos⟩ y)) = _
  obtain ⟨e0, e1, e2⟩ := slotRect_emb_val j (Fin.cons ⟨0, Nat.one_pos⟩ y)
  rw [hf _ (rect_emb_mem (slotRect j) _), stageFull_apply T c _ (peer c (15 - j.val)) (by rw [e0])]
  refine congrArg (part T c (peer c (15 - j.val))) (funext fun a => Fin.ext ?_)
  match a with
  | ⟨0, _⟩ => exact e1
  | ⟨1, _⟩ => exact e2

/-- A load of the whole matrix reads it. -/
theorem load_w (c : Dev nD) (Wc : Buf (Elt F) (wM.view.loc (c : Thread nD τ))) :
    wM.view.readAt (Elt F) (Rect.unit (s := S512x512) ![0, 0] S512x512.size inb_S512x512_S512x512_0_0).toLoadRect Wc = Wc :=
  Memref.readAt_unit_zero (Elt F) cc0_stg1_0 (funext fun a => by match a with | ⟨0, _⟩ => rfl | ⟨1, _⟩ => rfl) _ Wc

/-- info: 'Cert.KernelIdeal.X.land1' depends on axioms: [propext, Classical.choice, Quot.sound] -/
#guard_msgs in #print axioms land1

end Cert.KernelIdeal.X

end
-- ==== Proof.GlueBufs.lean ====
/-
  A buffer as its pieces, in the pieces' own spelling, and the pieces joined back into the whole buffer at the end of the
  body: the cast-block scratch from its own row block at any contents and the fifteen that came back; the result buffer
  from the shares of its own row block and the fifteen row blocks that landed.
-/
import proofs.«900451_g7700000000000452_dist_matmul_of_ar_i_m1024_n512_k512_v7x_i16_bf16_1_alg».proof.Proof.Glue
import proofs.«900451_g7700000000000452_dist_matmul_of_ar_i_m1024_n512_k512_v7x_i16_bf16_1_alg».proof.Proof.BufSplit
import proofs.«900451_g7700000000000452_dist_matmul_of_ar_i_m1024_n512_k512_v7x_i16_bf16_1_alg».proof.Proof.BufVals
import Idealize.ShloMosaic.Lib.Transfers

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

local notation "𝕄" => MT nD τ sig Unit (Elt F) ℕ UU ℕ

variable (T : Dev nD → Vec F S1024x512 .f32) (W : Dev nD → Vec F S512x512 .f32)

/-! ## The buffers as their pieces, in the pieces' own spelling -/

theorem tbPts_eq (c b : Dev nD) (f : Buf (Elt F) ((c : Thread nD τ).loc cc0_scratch0)) :
    tbPts c b f = (((c : Thread nD τ).loc cc0_scratch0) ↦[(rowRect b).set]{fullShare} f : sProp 𝕄) := by
  unfold tbPts; rw [tbSl_set]
theorem oPts_eq (c b : Dev nD) (q : PosShare TreeShare) (f : Buf (Elt F) ((c : Thread nD τ).loc cc0_stg2_0)) :
    oPts c b q f = (((c : Thread nD τ).loc cc0_stg2_0) ↦[(rowRect b).set]{q} f : sProp 𝕄) := by
  unfold oPts; rw [oSl_set]
theorem slotPts_eq (c : Dev nD) (j : Fin 15) (f : Buf (Elt F) ((c : Thread nD τ).loc cc0_scratch1)) :
    slotPts c j f = (((c : Thread nD τ).loc cc0_scratch1) ↦[(slotRect j).set]{fullShare} f : sProp 𝕄) := by
  unfold slotPts; rw [slotM_set]

/-- The cast-block scratch: the device's own row block, and the fifteen that leave. -/
theorem tb_split (c : Dev nD) (f : Buf (Elt F) ((c : Thread nD τ).loc cc0_scratch0)) :
    (((c : Thread nD τ).loc cc0_scratch0) ↦{fullShare} f : sProp 𝕄)
      = iprop(tbPts c c f ∗ bigSep Finset.univ fun k : Fin 15 => tbPts c (peer c (@HAdd.hAdd ℕ ℕ ℕ (@instHAdd ℕ instAddNat) k.val (@OfNat.ofNat ℕ (nat_lit 1) (instOfNatNat (nat_lit 1))))) f) := by
  rw [rows_split_tb, bigSep_dev_peer c, tbPts_eq]
  exact congrArg (fun X => iprop((((c : Thread nD τ).loc cc0_scratch0) ↦[(rowRect c).set]{fullShare} f) ∗ X))
    (bigSep_congr fun k _ => (tbPts_eq c _ _).symm)

/-- The result buffer: the device's own row block, and the fifteen that land. -/
theorem out_split (c : Dev nD) (f : Buf (Elt F) ((c : Thread nD τ).loc cc0_stg2_0)) :
    (((c : Thread nD τ).loc cc0_stg2_0) ↦{fullShare} f : sProp 𝕄)
      = iprop(oPts c c fullShare f ∗ bigSep Finset.univ fun k : Fin 15 => oPts c (peer c (@HAdd.hAdd ℕ ℕ ℕ (@instHAdd ℕ instAddNat) k.val (@OfNat.ofNat ℕ (nat_lit 1) (instOfNatNat (nat_lit 1))))) fullShare f) := by
  rw [rows_split_out, bigSep_dev_peer c, oPts_eq]
  exact congrArg (fun X => iprop((((c : Thread nD τ).loc cc0_stg2_0) ↦[(rowRect c).set]{fullShare} f) ∗ X))
    (bigSep_congr fun k _ => (oPts_eq c _ fullShare _).symm)

/-- The receive buffer: its fifteen slots. -/
theorem slot_split (c : Dev nD) (f : Buf (Elt F) ((c : Thread nD τ).loc cc0_scratch1)) :
    (((c : Thread nD τ).loc cc0_scratch1) ↦{fullShare} f : sProp 𝕄) = bigSep Finset.univ fun j : Fin 15 => slotPts c j f := by
  rw [slots_split]
  exact bigSep_congr fun j _ => (slotPts_eq c j f).symm

/-! ## The pieces joined back -/

/-- The cast-block scratch from its own row block at any contents and the fifteen row blocks that came back. -/
theorem tb_join (c : Dev nD) (fown : Buf (Elt F) ((c : Thread nD τ).loc cc0_scratch0)) :
    iprop(tbPts c c fown ∗ bigSep Finset.univ fun k : Fin 15 => tbPts c (peer c (k.val + 1)) (tbFull T c))
      ⊢ (∃ f : Buf (Elt F) ((c : Thread nD τ).loc cc0_scratch0), ((c : Thread nD τ).loc cc0_scratch0) ↦{fullShare} f : sProp 𝕄) := by
  classical
  have h1 : tbPts c c fown = tbPts c c ((rowRect c).set.piecewise fown (tbFull T c) : Buf (Elt F) ((c : Thread nD τ).loc cc0_scratch0)) := by
    rw [tbPts_eq, tbPts_eq]
    exact pointsTo_congr fun i hi => (Finset.piecewise_eq_of_mem _ _ _ hi).symm
  have h2 : ∀ k : Fin 15, tbPts c (peer c (k.val + 1)) (tbFull T c)
      = tbPts c (peer c (@HAdd.hAdd ℕ ℕ ℕ (@instHAdd ℕ instAddNat) k.val (@OfNat.ofNat ℕ (nat_lit 1) (instOfNatNat (nat_lit 1))))) ((rowRect c).set.piecewise fown (tbFull T c) : Buf (Elt F) ((c : Thread nD τ).loc cc0_scratch0)) := by
    intro k
    rw [tbPts_eq, tbPts_eq]
    exact pointsTo_congr fun i hi => (Finset.piecewise_eq_of_notMem _ _ _
      (Finset.disjoint_left.mp (rows_disjoint (peer_ne c k)) hi)).symm
  rw [h1, bigSep_congr fun k _ => h2 k, ← tb_split]
  exact exists_intro (Φ := fun f : Buf (Elt F) ((c : Thread nD τ).loc cc0_scratch0) => (((c : Thread nD τ).loc cc0_scratch0) ↦{fullShare} f : sProp 𝕄)) _

/-- A row block's points-to depends on the row block only through its number. -/
theorem oPts_dev_congr (c b b' : Dev nD) (h : b = b') (q : PosShare TreeShare) (X : Vec F S1024x512 .bf16) :
    (oPts c b q X : sProp 𝕄) = oPts c b' q X := by
  subst h; rfl

/-- A row block of the result buffer at the full share: the remainder after fifteen shares, and the fifteen shares. -/
theorem oPts_toks_split (c b : Dev nD) (X : Vec F S1024x512 .bf16) :
    (oPts c b fullShare X : sProp 𝕄)
      ⊢ iprop(oPts c b (Transfers.shareDrop fullShare 15) X
          ∗ bigSep Finset.univ fun j : Fin 15 => oPts c b (Transfers.shareTok fullShare 15 j) X) := by
  unfold oPts
  exact Transfers.pointsTo_toks_split fullShare 15
theorem oPts_toks_join (c b : Dev nD) (X : Vec F S1024x512 .bf16) :
    iprop(oPts c b (Transfers.shareDrop fullShare 15) X
          ∗ bigSep Finset.univ fun j : Fin 15 => oPts c b (Transfers.shareTok fullShare 15 j) X)
      ⊢ (oPts c b fullShare X : sProp 𝕄) := by
  unfold oPts
  exact Transfers.pointsTo_toks_join fullShare 15

/-- The device's own row block of the result, split into the remainder and fifteen shares. -/
theorem out_shares (c : Dev nD) :
    oPts c c fullShare (outFull T W)
      ⊢ iprop(oPts c c (Transfers.shareDrop fullShare 15) (outFull T W)
          ∗ bigSep Finset.univ fun j : Fin 15 => oPts c c (Transfers.shareTok fullShare 15 j) (outFull T W)) :=
  oPts_toks_split c c (outFull T W)

/-- The fifteen row blocks that landed, counted from the last place around the ring to the first, are the fifteen other
    row blocks. -/
theorem landed_eq_others (c : Dev nD) (X : Vec F S1024x512 .bf16) :
    (bigSep Finset.univ fun j : Fin 15 => (oPts c (peer c (15 - j.val)) fullShare X : sProp 𝕄))
      = bigSep Finset.univ fun k : Fin 15 => oPts c (peer c (k.val + 1)) fullShare X := by
  rw [bigSep_rev fun k : Fin 15 => (oPts c (peer c (k.val + 1)) fullShare X : sProp 𝕄)]
  exact bigSep_congr fun j _ => oPts_dev_congr c _ _ (peer_sub_rev c j) fullShare X

/-- The result buffer from the shares of the device's own row block and the fifteen row blocks that landed. -/
theorem out_join (c : Dev nD) :
    iprop((oPts c c (Transfers.shareDrop fullShare 15) (outFull T W)
          ∗ bigSep Finset.univ fun j : Fin 15 => oPts c c (Transfers.shareTok fullShare 15 j) (outFull T W))
        ∗ bigSep Finset.univ fun j : Fin 15 => oPts c (peer c (15 - j.val)) fullShare (outFull T W))
      ⊢ (((c : Thread nD τ).loc cc0_stg2_0) ↦{fullShare} outFull T W : sProp 𝕄) :=
  (BIClass.sep_mono (oPts_toks_join c c (outFull T W)) (Entails.of_eq (landed_eq_others c (outFull T W)))).trans
    (Entails.of_eq (out_split c (outFull T W)).symm)

/-- info: 'Cert.KernelIdeal.X.out_join' depends on axioms: [propext, Classical.choice, Quot.sound] -/
#guard_msgs in #print axioms out_join

end Cert.KernelIdeal.X

end
-- ==== Proof.StepsSend.lean ====
/-
  The two sends of the exchange, one rule per effect.  First exchange, step `j`: the rows of the device's block that
  belong to device `c + j + 1` are read, cast and stored through that row block of the cast scratch, and the row block is
  sent into slot `j` of that device's receive buffer.  Second exchange, step `j`: the device's own row block of the result
  is sent into the same row block of device `c + j + 1`'s result buffer.
-/
import proofs.«900451_g7700000000000452_dist_matmul_of_ar_i_m1024_n512_k512_v7x_i16_bf16_1_alg».proof.Proof.Steps1
import proofs.«900451_g7700000000000452_dist_matmul_of_ar_i_m1024_n512_k512_v7x_i16_bf16_1_alg».proof.Proof.BufSplit
import proofs.«900451_g7700000000000452_dist_matmul_of_ar_i_m1024_n512_k512_v7x_i16_bf16_1_alg».proof.Proof.BufVals

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-! ## The payload of a transfer cell, family by family -/

section Payloads
variable (T : Dev nD → Vec F S1024x512 .f32) (Wt : Dev nD → Vec F S512x512 .f32)
theorem xPay_0 (c : Dev nD) (j : Fin 15) : xPay T Wt c 0 j = tbPts c (peer c (j.val + 1)) (tbFull T c) := rfl
theorem xPay_1 (c : Dev nD) (j : Fin 15) : xPay T Wt c 1 j = slotPts c j (stageFull T c) := rfl
theorem xPay_2 (c : Dev nD) (j : Fin 15) : xPay T Wt c 2 j = oPts c c (Transfers.shareTok fullShare 15 j) (outFull T Wt) := rfl
theorem xPay_3 (c : Dev nD) (j : Fin 15) : xPay T Wt c 3 j = oPts c (peer c (15 - j.val)) fullShare (outFull T Wt) := rfl
end Payloads

/-! ## The sends -/

/-- First exchange, step `j`: the rows of device `c`'s block that belong to device `c + j + 1` are read, the row block of
    the cast scratch is read and then overwritten with those rows cast, and the row block is sent into slot `j` of device
    `c + j + 1`'s receive buffer.  The send pays the single duty of the device's send cell `j` (the row block comes back
    holding the cast block) and of the receiver's receive cell `j` (the slot holding the part of device `c`). -/
theorem step_p1 (c : Dev nD) (j : Fin 15) (n : Dev nD) (hn : n = peer c (j.val + 1))
    (off1 off2 : Fin 2 → Nat) (hoff1 : off1 = ![64 * (peer c (j.val + 1)).val, 0]) (hoff2 : off2 = ![64 * (peer c (j.val + 1)).val, 0])
    (payfn : Vec F S64x512 .f32 → FVec F S64x512 .bf16)
    (hpay : ∀ v, payfn v = truncf .bf16 (show FVec F S64x512 .f32 from v) bitsLt_bf16_f32)
    (sS sR : DmaSem sig) (hsS : sS = dsem 0 j) (hsR : sR = dsem 1 j)
    (dst : Memref sig .tc .vmem S64x512 .bf16) (hdst : dst = slotM j)
    (K : Dev nD × CIx → ℕ) (W : Waits sig Unit)
    {inb1 inb1' inb1'' : ∀ a, off1 a + S64x512.size a ≤ S1024x512.size a} {inb2 : ∀ a, off2 a + S64x512.size a ≤ S1024x512.size a}
    {hl1 : xM.view.LoadsAt (Rect.unit (s := S1024x512) off1 S64x512.size inb1).toLoadRect}
    {hl2 : tbM.view.LoadsAt (Rect.unit (s := S1024x512) off1 S64x512.size inb1').toLoadRect}
    {hx : (tbM.access (Rect.unit (s := S1024x512) off1 S64x512.size inb1'')).Stores Finset.univ}
    {hm : (Finset.univ : Finset (Rect.unit (s := S1024x512) off1 S64x512.size inb1'').shape.Idx) = Finset.univ
      ∨ ∀ a, (Rect.unit (s := S1024x512) off1 S64x512.size inb1'').stride a = 1}
    {hsl : ∀ a, (Rect.unit (s := S1024x512) off2 S64x512.size inb2).stride a = 1}
    {hsc : dst.view.ref.isScScratch = false}
    {hsrc : (tbM.slice (Rect.unit (s := S1024x512) off2 S64x512.size inb2) hsl).view.WordExact}
    {hdstW : (DmaTarget.remote (p := Proc.tc) (Dev.tc n) dst (.dma sS) hsc).view.WordExact}
    {hsem : (DmaTarget.remote (p := Proc.tc) (Dev.tc n) dst (.dma sS) hsc).Typed .vmem (.dma sR)}
    {α : Type} {Q : α → sProp 𝕄} {kont : PUnit → Prog (TpuEff nD τ sig (Elt F) Λ₀ .tc) α} :
    iprop(records (Rd m ρ) K ∗ (((c : Thread nD τ).loc cc0_stg0_0) ↦{fullShare} Tm m ρ c)
        ∗ (∃ f, tbPts c (peer c (j.val + 1)) f) ∗ (∃ fd, slotPts (peer c (j.val + 1)) j fd)
        ∗ owes (c : Thread nD τ) (owedFrom c (15 + j.val)) W ∗ dutyTok ER (xCell c 0 j) 0 (0 : Fin 15)
        ∗ dutyTok ER (xCell (peer c (j.val + 1)) 1 j) 0 (0 : Fin 15))
      ⊢ iprop((((((c : Thread nD τ).loc cc0_stg0_0) ↦{fullShare} Tm m ρ c) ∗ cred (tallyAt (xCell c 0 j) () N)
              ∗ owes (c : Thread nD τ) (owedFrom c (15 + j.val + 1)) W) -∗ WP c (kont ⟨⟩) Q)
          -∗ WP c (.op (.load xM (Rect.unit (s := S1024x512) off1 S64x512.size inb1).toLoadRect hl1) fun x =>
              .op (.load tbM (Rect.unit (s := S1024x512) off1 S64x512.size inb1').toLoadRect hl2) fun _ =>
              .op (.store tbM (Rect.unit (s := S1024x512) off1 S64x512.size inb1'') (payfn x) Finset.univ hx hm) fun _ =>
              .op (.enqueueDma (tbM.slice (Rect.unit (s := S1024x512) off2 S64x512.size inb2) hsl)
                (.remote (Dev.tc n) dst (.dma sS) hsc) (.dma sR) hsrc hdstW hsem) kont) Q) := by
  subst hn hoff1 hoff2 hsS hsR hdst
  unfold tbPts slotPts
  iintro ⟨#HR, Hx, Htb, Hsl, HO, Htok1, Htok2⟩ Hk
  icases Htb with ⟨%f, Htb⟩
  icases Hsl with ⟨%fd, Hsl⟩
  -- the rows are read off the argument block, held whole
  iapply (wp_load 𝒱₀ (c : Thread nD τ) none Set.univ (m := xM) (S := Finset.univ) (q := fullShare) (f := Tm m ρ c)
      (Finset.subset_univ _)) $$ Hx
  iintro Hx
  -- the row block of the cast scratch is read, then overwritten with the cast rows
  iapply (wp_load 𝒱₀ (c : Thread nD τ) none Set.univ (m := tbM) (S := ((tbSl (peer c (j.val + 1))).view.set : Finset (Idx ((tbSl (peer c (j.val + 1))).view.loc (c : Thread nD τ))))) (q := fullShare) (f := f)
      (View.set_slice tbM.view (rowRect (peer c (j.val + 1)))).ge) $$ Htb
  iintro Htb
  iapply (wp_store 𝒱₀ (c : Thread nD τ) none Set.univ (m := tbM) (r := rowRect (peer c (j.val + 1)))
      (S := ((tbSl (peer c (j.val + 1))).view.set : Finset (Idx ((tbSl (peer c (j.val + 1))).view.loc (c : Thread nD τ))))) (f := f) (Finset.Subset.refl _)) $$ Htb
  iintro Htb
  have e : ((tbSl (peer c (j.val + 1))).view.loc (c : Thread nD τ) ↦[(tbSl (peer c (j.val + 1))).view.set]{fullShare}
        ((tbM.access (rowRect (peer c (j.val + 1))) : View sig .tc .vmem _ .bf16).write (Elt F) f
          (payfn (xM.view.readAt (Elt F) (rowRect (peer c (j.val + 1))).toLoadRect (Tm m ρ c))) Finset.univ) : sProp 𝕄)
      = ((tbSl (peer c (j.val + 1))).view.loc (c : Thread nD τ) ↦[(tbSl (peer c (j.val + 1))).view.set]{fullShare} tbFull (Tm m ρ) c) := by
    refine pointsTo_congr ?_
    rw [tbSl_set, hpay, load_x c]
    exact store_tb (Tm m ρ) c (peer c (j.val + 1)) f
  -- the row block, now the cast block there, leaves for slot `j` of device `c + j + 1`
  iapply (Rounds.wp_send_pointsTo 𝒱₀ ER (Rd m ρ) (c : Thread nD τ) none
      (c' := (peer c (j.val + 1) : Thread nD τ)) (src := tbSl (peer c (j.val + 1))) (dst := slotM j) (q := fullShare)
      (fs := tbFull (Tm m ρ) c) (fd := fd) (sS := .dma (dsem 0 j)) (sem := .dma (dsem 1 j))
      (κ₁ := K (c, some (0, j))) (κ₂ := K (peer c (j.val + 1), some (1, j)))
      (r₁ := 0) (r₂ := 0) (d₁ := 0) (d₂ := 0)
      (by rw [duties_x]; exact Finset.mem_singleton_self _) (by rw [duties_x]; exact Finset.mem_singleton_self _)
      () () N rfl (amount_x _ _ _ _ _ _) (amount_x _ _ _ _ _ _) (O₀ := owedFrom c (15 + j.val)) (owedFrom c (15 + j.val + 1))
      (by rw [owedFrom_succ c (15 + j.val) (by have := j.isLt; omega), tallyN_x1])
      (by rw [payload_x, xPay_0]; exact .rfl)
      (by
        rw [payload_x, xPay_1]
        unfold slotPts
        refine Entails.of_eq (pointsTo_congr ?_)
        rw [slotM_set]
        exact land1 (Tm m ρ) c j (tbFull (Tm m ρ) c) (fun _ _ => rfl) fd)) $$ [Htb Hsl HO Htok1 Htok2]
  · isplitr; · iapply (inv_at (Rd m ρ) K (c, some (0, j))); iexact HR
    isplitr; · iapply (inv_at (Rd m ρ) K (peer c (j.val + 1), some (1, j))); iexact HR
    isplitl [Htb]; · iapply (Entails.of_eq e) $$ Htb
    isplitl [Hsl]; · iexact Hsl
    isplitl [HO]; · iexact HO
    isplitl [Htok1]; · iexact Htok1
    isplitr; · iapply (reached_at (Rd m ρ) K (c, some (0, j))); iexact HR
    isplitl [Htok2]; · iexact Htok2
    iapply (reached_at (Rd m ρ) K (peer c (j.val + 1), some (1, j))); iexact HR
  iintro ⟨Hc, HO⟩
  iapply Hk
  isplitl [Hx]; · iexact Hx
  isplitl [Hc]; · iexact Hc
  iexact HO

/-- Second exchange, step `j`: the `j`-th share of the device's own row block of the result is sent into the same row
    block of device `c + j + 1`'s result buffer.  The send pays the single duty of the device's send cell `j` (the share comes
    back) and of the receiver's receive cell `j` (its row block `c` holding the result there: for the receiver `n`, the
    block `n + 15 - j`). -/
theorem step_p2 (c : Dev nD) (j : Fin 15) (n : Dev nD) (hn : n = peer c (j.val + 1))
    (off4 off4' : Fin 2 → Nat) (hoff : off4 = ![64 * c.val, 0]) (hoff' : off4' = ![64 * c.val, 0])
    (sS sR : DmaSem sig) (hsS : sS = dsem 2 j) (hsR : sR = dsem 3 j)
    (K : Dev nD × CIx → ℕ) (W : Waits sig Unit)
    {inb : ∀ a, off4 a + S64x512.size a ≤ S1024x512.size a} {inb' : ∀ a, off4' a + S64x512.size a ≤ S1024x512.size a}
    {hsl : ∀ a, (Rect.unit (s := S1024x512) off4 S64x512.size inb).stride a = 1}
    {hsl' : ∀ a, (Rect.unit (s := S1024x512) off4' S64x512.size inb').stride a = 1}
    {hsc : (oM.slice (Rect.unit (s := S1024x512) off4' S64x512.size inb') hsl').view.ref.isScScratch = false}
    {hsrc : (oM.slice (Rect.unit (s := S1024x512) off4 S64x512.size inb) hsl).view.WordExact}
    {hdstW : (DmaTarget.remote (p := Proc.tc) (Dev.tc n) (oM.slice (Rect.unit (s := S1024x512) off4' S64x512.size inb') hsl') (.dma sS) hsc).view.WordExact}
    {hsem : (DmaTarget.remote (p := Proc.tc) (Dev.tc n) (oM.slice (Rect.unit (s := S1024x512) off4' S64x512.size inb') hsl') (.dma sS) hsc).Typed .vmem (.dma sR)}
    {α : Type} {Q : α → sProp 𝕄} {kont : PUnit → Prog (TpuEff nD τ sig (Elt F) Λ₀ .tc) α} :
    iprop(records (Rd m ρ) K ∗ oPts c c (Transfers.shareTok fullShare 15 j) (outM m ρ) ∗ (∃ g, oPts (peer c (j.val + 1)) c fullShare g)
        ∗ owes (c : Thread nD τ) (owedFrom c (30 + j.val)) W ∗ dutyTok ER (xCell c 2 j) 0 (0 : Fin 15)
        ∗ dutyTok ER (xCell (peer c (j.val + 1)) 3 j) 0 (0 : Fin 15))
      ⊢ iprop(((cred (tallyAt (xCell c 2 j) () N) ∗ owes (c : Thread nD τ) (owedFrom c (30 + j.val + 1)) W) -∗ WP c (kont ⟨⟩) Q)
          -∗ WP c (.op (.enqueueDma (oM.slice (Rect.unit (s := S1024x512) off4 S64x512.size inb) hsl)
                (.remote (Dev.tc n) (oM.slice (Rect.unit (s := S1024x512) off4' S64x512.size inb') hsl') (.dma sS) hsc) (.dma sR) hsrc hdstW hsem) kont) Q) := by
  subst hn hoff hoff' hsS hsR
  unfold oPts
  iintro ⟨#HR, Hsrc, Hd, HO, Htok1, Htok2⟩
  icases Hd with ⟨%g, Hdst⟩
  iapply (Rounds.wp_send_pointsTo 𝒱₀ ER (Rd m ρ) (c : Thread nD τ) none
      (c' := (peer c (j.val + 1) : Thread nD τ)) (src := oSl c) (dst := oSl c) (q := Transfers.shareTok fullShare 15 j)
      (fs := outM m ρ) (fd := g) (sS := .dma (dsem 2 j)) (sem := .dma (dsem 3 j))
      (κ₁ := K (c, some (2, j))) (κ₂ := K (peer c (j.val + 1), some (3, j)))
      (r₁ := 0) (r₂ := 0) (d₁ := 0) (d₂ := 0)
      (by rw [duties_x]; exact Finset.mem_singleton_self _) (by rw [duties_x]; exact Finset.mem_singleton_self _)
      () () N rfl (amount_x _ _ _ _ _ _) (amount_x _ _ _ _ _ _) (O₀ := owedFrom c (30 + j.val)) (owedFrom c (30 + j.val + 1))
      (by rw [owedFrom_succ c (30 + j.val) (by have := j.isLt; omega), tallyN_x3])
      (by rw [payload_x, xPay_2]; exact .rfl)
      (by
        rw [payload_x, xPay_3, peer_peer]
        unfold oPts
        refine Entails.of_eq (pointsTo_congr ?_)
        rw [oSl_set]
        exact land2 (Tm m ρ) (Wm m ρ) c (peer c (j.val + 1)) (outM m ρ) (fun _ _ => rfl) g)) $$ [Hsrc Hdst HO Htok1 Htok2]
  isplitr; · iapply (inv_at (Rd m ρ) K (c, some (2, j))); iexact HR
  isplitr; · iapply (inv_at (Rd m ρ) K (peer c (j.val + 1), some (3, j))); iexact HR
  isplitl [Hsrc]; · iexact Hsrc
  isplitl [Hdst]; · iexact Hdst
  isplitl [HO]; · iexact HO
  isplitl [Htok1]; · iexact Htok1
  isplitr; · iapply (reached_at (Rd m ρ) K (c, some (2, j))); iexact HR
  isplitl [Htok2]; · iexact Htok2
  iapply (reached_at (Rd m ρ) K (peer c (j.val + 1), some (3, j))); iexact HR

/-- info: 'Cert.KernelIdeal.X.step_p1' depends on axioms: [propext, Classical.choice, Quot.sound] -/
#guard_msgs in #print axioms step_p1
/-- info: 'Cert.KernelIdeal.X.step_p2' depends on axioms: [propext, Classical.choice, Quot.sound] -/
#guard_msgs in #print axioms step_p2

end Cert.KernelIdeal.X

end
-- ==== Proof.StepsWait.lean ====
/-
  The waits of the two exchanges, one rule per wait: a receive wait brings the piece that landed (for the first exchange
  the slot is then read), a send wait gives back the piece that left; a transfer cell whose single round is over closes
  with its counter at zero.
-/
import proofs.«900451_g7700000000000452_dist_matmul_of_ar_i_m1024_n512_k512_v7x_i16_bf16_1_alg».proof.Proof.Steps1

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

/-- A transfer into any view of one piece's shape and element type credits its cell by the piece's credit. -/
theorem credit_piece (M : Memref sig .tc .vmem S64x512 .bf16) : M.view.dmaCredit = N := rfl

/-- Reading slot `j` through the whole receive buffer touches only the slot's elements. -/
theorem slot_load_sub (j : Fin 15) : stM.view.setOn (slotRect j).toLoadRect.set ⊆ (slotM j).view.set := by
  rw [slotM_set]
  intro i hi
  obtain ⟨x, hx, rfl⟩ := Finset.mem_map.mp hi
  exact hx

variable (m : (ℓ : Loc nD τ sig) → Buf (Elt F) ℓ) (ρ : Dev nD → PrngReg)

theorem xPay1 (c : Dev nD) (j : Fin 15) : xPay (Tm m ρ) (Wm m ρ) c 1 j = slotPts c j (stageFull (Tm m ρ) c) := rfl
theorem xPay0 (c : Dev nD) (j : Fin 15) : xPay (Tm m ρ) (Wm m ρ) c 0 j = tbPts c (peer c (j.val + 1)) (tbFull (Tm m ρ) c) := rfl
theorem xPay2 (c : Dev nD) (j : Fin 15) : xPay (Tm m ρ) (Wm m ρ) c 2 j = oPts c c (Transfers.shareTok fullShare 15 j) (outM m ρ) := rfl
theorem xPay3 (c : Dev nD) (j : Fin 15) : xPay (Tm m ρ) (Wm m ρ) c 3 j = oPts c (peer c (15 - j.val)) fullShare (outM m ρ) := rfl

/-- Once a device has made all its forty-five payments it may wait on any cell. -/
theorem mayWait_end (c : Dev nD) (sm : SemLoc sig) :
    (BI.emp : sProp 𝕄) ⊢ MayWait (c : Thread nD τ) sm () (owedFrom c 45) := by
  rw [owedFrom_end, MayWait_zero]

/-- Receive wait `j` of the first exchange, then the read of the slot: the slot comes holding the part of device `c - j - 1`. -/
theorem step_acc (c : Dev nD) (j : Fin 15) (K : Dev nD × CIx → ℕ) (W : Waits sig Unit)
    (sR : DmaSem sig) (hsR : sR = dsem 1 j) (srcM dstM : Memref sig .tc .vmem S64x512 .bf16) (hdstM : dstM = slotM j)
    {hs : srcM.view.WordExact} {hd : dstM.view.WordExact} {hl : stM.view.LoadsAt (slotRect j).toLoadRect}
    {α : Type} {Q : α → sProp 𝕄}
    {kont : ((slotRect j).toLoadRect.shape.Idx → Elt F .bf16) → Prog (TpuEff nD τ sig (Elt F) Λ₀ .tc) α} :
    iprop(records (Rd m ρ) K ∗ cred (tallyAt (xCell c 1 j) () N) ∗ owes (c : Thread nD τ) (owedFrom c 30) W ∗ levAts L lv
        ∗ atPos ER (xCell c 1 j) 0 ∅ 0)
      ⊢ iprop(((owes (c : Thread nD τ) (owedFrom c 30) (insert (SemLoc.dma (dsem 1 j), ()) W) ∗ atPos ER (xCell c 1 j) 1 ∅ 0
              ∗ slotPts c j (stageFull (Tm m ρ) c))
            -∗ WP c (kont (stM.view.readAt (Elt F) (slotRect j).toLoadRect (stageFull (Tm m ρ) c))) Q)
          -∗ WP c (.op (.waitDma2 sR srcM dstM hs hd) fun _ => .op (.load stM (slotRect j).toLoadRect hl) kont) Q) := by
  subst hsR
  rw [← credit_piece dstM]
  iintro ⟨#HR, Hc, HO, #Hlev, Hat⟩ Hk
  iapply (Rounds.wp_wait_rest_token 𝒱₀ ER (Rd m ρ) (c : Thread nD τ) none (κ := K (c, some (1, j)))
      (wpE_waitDma2_eq 𝒱₀ (c : Thread nD τ) none Set.univ) (Set.mem_univ _) () (O := owedFrom c 30) (W := W) (R := 0) (m := 0) (T := ∅)
      (by rw [expect_x, credit_piece, Nat.zero_add])) $$ [Hc HO Hat]
  · isplitr; · iapply (inv_at (Rd m ρ) K (c, some (1, j))); iexact HR
    isplitl [Hc]; · iexact Hc
    isplitl [HO]; · iexact HO
    isplitr; · iapply (mayWait_x1 c j); iexact Hlev
    iexact Hat
  iintro ⟨HO, Hat, -, Hpay⟩
  ihave Hs := (Entails.of_eq ((rest_x _ _ c 1 j).trans (xPay1 m ρ c j))) $$ Hpay
  have hld : (slotPts c j (stageFull (Tm m ρ) c) : sProp 𝕄)
      ⊢ iprop((slotPts c j (stageFull (Tm m ρ) c) -∗ WP c (kont (stM.view.readAt (Elt F) (slotRect j).toLoadRect (stageFull (Tm m ρ) c))) Q)
          -∗ WP c (.op (.load stM (slotRect j).toLoadRect hl) kont) Q) :=
    wp_load 𝒱₀ (c : Thread nD τ) none Set.univ (m := stM) (r := (slotRect j).toLoadRect) (S := (slotM j).view.set) (q := fullShare)
      (f := stageFull (Tm m ρ) c) (slot_load_sub j)
  iapply hld $$ Hs
  iintro Hs
  iapply Hk
  isplitl [HO]; · iexact HO
  isplitl [Hat]; · iexact Hat
  iexact Hs

/-- Receive wait `j` of the second exchange: row block `c - j - 1` of the result buffer comes holding that block of the result. -/
theorem step_wait_r2 (c : Dev nD) (j : Fin 15) (K : Dev nD × CIx → ℕ) (W : Waits sig Unit)
    (sR : DmaSem sig) (hsR : sR = dsem 3 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 3 j) () N) ∗ owes (c : Thread nD τ) (owedFrom c 45) W
        ∗ atPos ER (xCell c 3 j) 0 ∅ 0)
      ⊢ iprop(((owes (c : Thread nD τ) (owedFrom c 45) (insert (SemLoc.dma (dsem 3 j), ()) W) ∗ atPos ER (xCell c 3 j) 1 ∅ 0
              ∗ oPts c (peer c (15 - j.val)) fullShare (outM m ρ))
            -∗ WP c (kont ⟨⟩) Q)
          -∗ WP c (.op (.waitDma2 sR srcM dstM hs hd) kont) Q) := by
  subst hsR
  rw [← credit_piece dstM]
  iintro ⟨#HR, Hc, HO, Hat⟩ Hk
  iapply (Rounds.wp_wait_rest_token 𝒱₀ ER (Rd m ρ) (c : Thread nD τ) none (κ := K (c, some (3, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (3, j))); iexact HR
    isplitl [Hc]; · iexact Hc
    isplitl [HO]; · iexact HO
    isplitr; · iapply (mayWait_end c (.dma (dsem 3 j))); iempintro
    iexact Hat
  iintro ⟨HO, Hat, -, Hpay⟩
  iapply Hk
  isplitl [HO]; · iexact HO
  isplitl [Hat]; · iexact Hat
  iapply (Entails.of_eq ((rest_x _ _ c 3 j).trans (xPay3 m ρ c j))) $$ Hpay

/-- Send wait `j` of the first exchange: the row block of the cast scratch that left for device `c + j + 1` comes back. -/
theorem step_wait_s1 (c : Dev nD) (j : Fin 15) (K : Dev nD × CIx → ℕ) (W : Waits sig Unit)
    (sS : DmaSem sig) (hsS : sS = dsem 0 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 0 j) () N) ∗ owes (c : Thread nD τ) (owedFrom c 45) W
        ∗ atPos ER (xCell c 0 j) 0 ∅ 0)
      ⊢ iprop(((owes (c : Thread nD τ) (owedFrom c 45) (insert (SemLoc.dma (dsem 0 j), ()) W) ∗ atPos ER (xCell c 0 j) 1 ∅ 0
              ∗ tbPts c (peer c (j.val + 1)) (tbFull (Tm m ρ) c))
            -∗ WP c (kont ⟨⟩) Q)
          -∗ WP c (.op (.waitDma2 sS srcM dstM hs hd) kont) Q) := by
  subst hsS
  rw [← credit_piece dstM]
  iintro ⟨#HR, Hc, HO, Hat⟩ Hk
  iapply (Rounds.wp_wait_rest_token 𝒱₀ ER (Rd m ρ) (c : Thread nD τ) none (κ := K (c, some (0, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (0, j))); iexact HR
    isplitl [Hc]; · iexact Hc
    isplitl [HO]; · iexact HO
    isplitr; · iapply (mayWait_end c (.dma (dsem 0 j))); iempintro
    iexact Hat
  iintro ⟨HO, Hat, -, Hpay⟩
  iapply Hk
  isplitl [HO]; · iexact HO
  isplitl [Hat]; · iexact Hat
  iapply (Entails.of_eq ((rest_x _ _ c 0 j).trans (xPay0 m ρ c j))) $$ Hpay

/-- Send wait `j` of the second exchange: the `j`-th share of the device's own row block of the result comes back. -/
theorem step_wait_s2 (c : Dev nD) (j : Fin 15) (K : Dev nD × CIx → ℕ) (W : Waits sig Unit)
    (sS : DmaSem sig) (hsS : sS = dsem 2 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 2 j) () N) ∗ owes (c : Thread nD τ) (owedFrom c 45) W
        ∗ atPos ER (xCell c 2 j) 0 ∅ 0)
      ⊢ iprop(((owes (c : Thread nD τ) (owedFrom c 45) (insert (SemLoc.dma (dsem 2 j), ()) W) ∗ atPos ER (xCell c 2 j) 1 ∅ 0
              ∗ oPts c c (Transfers.shareTok fullShare 15 j) (outM m ρ))
            -∗ WP c (kont ⟨⟩) Q)
          -∗ WP c (.op (.waitDma2 sS srcM dstM hs hd) kont) Q) := by
  subst hsS
  rw [← credit_piece dstM]
  iintro ⟨#HR, Hc, HO, Hat⟩ Hk
  iapply (Rounds.wp_wait_rest_token 𝒱₀ ER (Rd m ρ) (c : Thread nD τ) none (κ := K (c, some (2, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (2, j))); iexact HR
    isplitl [Hc]; · iexact Hc
    isplitl [HO]; · iexact HO
    isplitr; · iapply (mayWait_end c (.dma (dsem 2 j))); iempintro
    iexact Hat
  iintro ⟨HO, Hat, -, Hpay⟩
  iapply Hk
  isplitl [HO]; · iexact HO
  isplitl [Hat]; · iexact Hat
  iapply (Entails.of_eq ((rest_x _ _ c 2 j).trans (xPay2 m ρ c j))) $$ Hpay

/-- A transfer cell has no duty after its round 0: its owner, at the start of round 1, closes it with the counter at zero. -/
theorem close_x (c : Dev nD) (f : Fin 4) (j : Fin 15) (K : Dev nD × CIx → ℕ) :
    iprop(records (Rd m ρ) K ∗ atPos ER (xCell c f j) 1 ∅ 0) ⊢ (|={Set.univ}=> semVal (xCell c f j) 0 : sProp 𝕄) := by
  iintro ⟨#HR, Hat⟩
  iapply (Rounds.cell_close ER (Rd m ρ) (g := xCell c f j) (κ := K (c, some (f, j))) (Es := Set.univ) (Set.mem_univ _) (fun h => h) (R := 1)
      (duties_later _ _ (xCell c f j)))
  isplitr; · iapply (inv_at (Rd m ρ) K (c, some (f, j))); iexact HR
  iexact Hat

/-- info: 'Cert.KernelIdeal.X.step_acc' depends on axioms: [propext, Classical.choice, Quot.sound] -/
#guard_msgs in #print axioms step_acc

/-- info: 'Cert.KernelIdeal.X.step_wait_r2' depends on axioms: [propext, Classical.choice, Quot.sound] -/
#guard_msgs in #print axioms step_wait_r2

/-- info: 'Cert.KernelIdeal.X.step_wait_s1' depends on axioms: [propext, Classical.choice, Quot.sound] -/
#guard_msgs in #print axioms step_wait_s1

/-- info: 'Cert.KernelIdeal.X.step_wait_s2' depends on axioms: [propext, Classical.choice, Quot.sound] -/
#guard_msgs in #print axioms step_wait_s2

/-- info: 'Cert.KernelIdeal.X.close_x' depends on axioms: [propext, Classical.choice, Quot.sound] -/
#guard_msgs in #print axioms close_x

end Cert.KernelIdeal.X

end
-- ==== Proof.PayVals.lean ====
/-
  The pure values the kernel body computes from what it loads.  A reshape to the same shape changes nothing, so each
  cast payload is the cast of what was loaded; and the sums the body forms, slot after slot, are the running sums of the
  parts: its own rows cast, plus the contents of slots `0, 1, .., 14` in that order, then the product with the cast
  matrix into a zero accumulator, cast — row block `c` of the result.
-/
import proofs.«900451_g7700000000000452_dist_matmul_of_ar_i_m1024_n512_k512_v7x_i16_bf16_1_alg».proof.Proof.BufVals

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)
open Idealize.ShloMosaic.ValueIdx

variable {F : FTy → Type} [FloatOps F]

local notation "𝕄" => MT nD τ sig Unit (Elt F) ℕ UU ℕ

/-- A cast between two reshapes to the same shape is the cast. -/
theorem cast_between_reshapes (v : Vec F S64x512 .f32) :
    shapeCast S64x512 (truncf .bf16 (show FVec F S64x512 .f32 from shapeCast S64x512 v shapeCasts_S64x512_S64x512) bitsLt_bf16_f32)
        shapeCasts_S64x512_S64x512
      = truncf .bf16 (show FVec F S64x512 .f32 from v) bitsLt_bf16_f32 := by
  rw [shapeCast_self, shapeCast_self]

theorem pay1_eq (v : Vec F S64x512 .f32) : k0_pay1 v = truncf .bf16 (show FVec F S64x512 .f32 from v) bitsLt_bf16_f32 :=
  cast_between_reshapes v
theorem pay2_eq (v : Vec F S64x512 .f32) : k0_pay2 v = truncf .bf16 (show FVec F S64x512 .f32 from v) bitsLt_bf16_f32 :=
  cast_between_reshapes v
theorem pay3_eq (v : Vec F S64x512 .f32) : k0_pay3 v = truncf .bf16 (show FVec F S64x512 .f32 from v) bitsLt_bf16_f32 :=
  cast_between_reshapes v
theorem pay4_eq (v : Vec F S64x512 .f32) : k0_pay4 v = truncf .bf16 (show FVec F S64x512 .f32 from v) bitsLt_bf16_f32 :=
  cast_between_reshapes v
theorem pay5_eq (v : Vec F S64x512 .f32) : k0_pay5 v = truncf .bf16 (show FVec F S64x512 .f32 from v) bitsLt_bf16_f32 :=
  cast_between_reshapes v
theorem pay6_eq (v : Vec F S64x512 .f32) : k0_pay6 v = truncf .bf16 (show FVec F S64x512 .f32 from v) bitsLt_bf16_f32 :=
  cast_between_reshapes v
theorem pay7_eq (v : Vec F S64x512 .f32) : k0_pay7 v = truncf .bf16 (show FVec F S64x512 .f32 from v) bitsLt_bf16_f32 :=
  cast_between_reshapes v
theorem pay8_eq (v : Vec F S64x512 .f32) : k0_pay8 v = truncf .bf16 (show FVec F S64x512 .f32 from v) bitsLt_bf16_f32 :=
  cast_between_reshapes v
theorem pay9_eq (v : Vec F S64x512 .f32) : k0_pay9 v = truncf .bf16 (show FVec F S64x512 .f32 from v) bitsLt_bf16_f32 :=
  cast_between_reshapes v
theorem pay10_eq (v : Vec F S64x512 .f32) : k0_pay10 v = truncf .bf16 (show FVec F S64x512 .f32 from v) bitsLt_bf16_f32 :=
  cast_between_reshapes v
theorem pay11_eq (v : Vec F S64x512 .f32) : k0_pay11 v = truncf .bf16 (show FVec F S64x512 .f32 from v) bitsLt_bf16_f32 :=
  cast_between_reshapes v
theorem pay14_eq (v : Vec F S64x512 .f32) : k0_pay14 v = truncf .bf16 (show FVec F S64x512 .f32 from v) bitsLt_bf16_f32 :=
  cast_between_reshapes v
theorem pay15_eq (v : Vec F S64x512 .f32) : k0_pay15 v = truncf .bf16 (show FVec F S64x512 .f32 from v) bitsLt_bf16_f32 :=
  cast_between_reshapes v

/-- A cast after a reshape to the same shape is the cast. -/
theorem cast_after_reshape (v : Vec F S64x512 .f32) :
    truncf .bf16 (show FVec F S64x512 .f32 from shapeCast S64x512 v shapeCasts_S64x512_S64x512) bitsLt_bf16_f32
      = truncf .bf16 (show FVec F S64x512 .f32 from v) bitsLt_bf16_f32 := by
  rw [shapeCast_self]

theorem pay12_eq (v : Vec F S64x512 .f32) : k0_pay12 v = truncf .bf16 (show FVec F S64x512 .f32 from v) bitsLt_bf16_f32 :=
  cast_after_reshape v
theorem pay16_eq (v : Vec F S64x512 .f32) : k0_pay16 v = truncf .bf16 (show FVec F S64x512 .f32 from v) bitsLt_bf16_f32 :=
  cast_after_reshape v
theorem pay13_eq (w : FVec F S64x512 .bf16) : k0_pay13 w = w := shapeCast_self w _
theorem pay17_eq (w : FVec F S64x512 .bf16) : k0_pay17 w = w := shapeCast_self w _
theorem pay13_pay12 (v : Vec F S64x512 .f32) :
    k0_pay13 (k0_pay12 v) = truncf .bf16 (show FVec F S64x512 .f32 from v) bitsLt_bf16_f32 := by
  rw [pay13_eq, pay12_eq]
theorem pay17_pay16 (v : Vec F S64x512 .f32) :
    k0_pay17 (k0_pay16 v) = truncf .bf16 (show FVec F S64x512 .f32 from v) bitsLt_bf16_f32 := by
  rw [pay17_eq, pay16_eq]

/-! ## The running sums -/

/-- Adding the next slot's contents to the running sum after `j` parts gives the running sum after `j + 1`. -/
theorem accum_step (T : Dev nD → Vec F S1024x512 .f32) (c : Dev nD) (j : ℕ) (s : Vec F S1x64x512 .bf16)
    (hs : shapeCast S64x512 s shapeCasts_S1x64x512_S64x512 = part T c (peer c (15 - j))) :
    addf (accum T c j) (shapeCast S64x512 s shapeCasts_S1x64x512_S64x512) = accum T c (j + 1) := by
  rw [hs]; rfl

/-- The own rows cast, with the contents of slot 0 added, are the running sum after one part. -/
theorem pay18_acc (T : Dev nD → Vec F S1024x512 .f32) (c : Dev nD) (a : Vec F S64x512 .f32) (s0 : Vec F S1x64x512 .bf16)
    (ha : a = rows (T c) c) (h0 : shapeCast S64x512 s0 shapeCasts_S1x64x512_S64x512 = part T c (peer c (15 - 0))) :
    k0_pay18 a s0 = accum T c 1 := by
  subst ha
  show addf (truncf .bf16 (show FVec F S64x512 .f32 from shapeCast S64x512 (rows (T c) c) shapeCasts_S64x512_S64x512) bitsLt_bf16_f32)
    (shapeCast S64x512 s0 shapeCasts_S1x64x512_S64x512) = _
  rw [shapeCast_self]
  exact accum_step T c 0 s0 h0

/-- The running sum after 1 parts, with the contents of slots 1, 2, 3 added in turn, is the running sum after 4. -/
theorem pay19_acc (T : Dev nD → Vec F S1024x512 .f32) (c : Dev nD) (A : FVec F S64x512 .bf16) (s1 : Vec F S1x64x512 .bf16) (s2 : Vec F S1x64x512 .bf16) (s3 : Vec F S1x64x512 .bf16)
    (hA : A = accum T c 1)
    (h1 : shapeCast S64x512 s1 shapeCasts_S1x64x512_S64x512 = part T c (peer c (15 - 1)))
    (h2 : shapeCast S64x512 s2 shapeCasts_S1x64x512_S64x512 = part T c (peer c (15 - 2)))
    (h3 : shapeCast S64x512 s3 shapeCasts_S1x64x512_S64x512 = part T c (peer c (15 - 3))) :
    k0_pay19 A s1 s2 s3 = accum T c 4 := by
  subst hA
  show addf (addf (addf (accum T c 1) (shapeCast S64x512 s1 shapeCasts_S1x64x512_S64x512)) (shapeCast S64x512 s2 shapeCasts_S1x64x512_S64x512)) (shapeCast S64x512 s3 shapeCasts_S1x64x512_S64x512) = _
  rw [accum_step T c 1 s1 h1, accum_step T c 2 s2 h2, accum_step T c 3 s3 h3]

/-- The running sum after 4 parts, with the contents of slots 4, 5 added in turn, is the running sum after 6. -/
theorem pay20_acc (T : Dev nD → Vec F S1024x512 .f32) (c : Dev nD) (A : FVec F S64x512 .bf16) (s4 : Vec F S1x64x512 .bf16) (s5 : Vec F S1x64x512 .bf16)
    (hA : A = accum T c 4)
    (h4 : shapeCast S64x512 s4 shapeCasts_S1x64x512_S64x512 = part T c (peer c (15 - 4)))
    (h5 : shapeCast S64x512 s5 shapeCasts_S1x64x512_S64x512 = part T c (peer c (15 - 5))) :
    k0_pay20 A s4 s5 = accum T c 6 := by
  subst hA
  show addf (addf (accum T c 4) (shapeCast S64x512 s4 shapeCasts_S1x64x512_S64x512)) (shapeCast S64x512 s5 shapeCasts_S1x64x512_S64x512) = _
  rw [accum_step T c 4 s4 h4, accum_step T c 5 s5 h5]

/-- The running sum after 6 parts, with the contents of slots 6, 7, 8 added in turn, is the running sum after 9. -/
theorem pay21_acc (T : Dev nD → Vec F S1024x512 .f32) (c : Dev nD) (A : FVec F S64x512 .bf16) (s6 : Vec F S1x64x512 .bf16) (s7 : Vec F S1x64x512 .bf16) (s8 : Vec F S1x64x512 .bf16)
    (hA : A = accum T c 6)
    (h6 : shapeCast S64x512 s6 shapeCasts_S1x64x512_S64x512 = part T c (peer c (15 - 6)))
    (h7 : shapeCast S64x512 s7 shapeCasts_S1x64x512_S64x512 = part T c (peer c (15 - 7)))
    (h8 : shapeCast S64x512 s8 shapeCasts_S1x64x512_S64x512 = part T c (peer c (15 - 8))) :
    k0_pay21 A s6 s7 s8 = accum T c 9 := by
  subst hA
  show addf (addf (addf (accum T c 6) (shapeCast S64x512 s6 shapeCasts_S1x64x512_S64x512)) (shapeCast S64x512 s7 shapeCasts_S1x64x512_S64x512)) (shapeCast S64x512 s8 shapeCasts_S1x64x512_S64x512) = _
  rw [accum_step T c 6 s6 h6, accum_step T c 7 s7 h7, accum_step T c 8 s8 h8]

/-- The running sum after 9 parts, with the contents of slots 9, 10, 11 added in turn, is the running sum after 12. -/
theorem pay22_acc (T : Dev nD → Vec F S1024x512 .f32) (c : Dev nD) (A : FVec F S64x512 .bf16) (s9 : Vec F S1x64x512 .bf16) (s10 : Vec F S1x64x512 .bf16) (s11 : Vec F S1x64x512 .bf16)
    (hA : A = accum T c 9)
    (h9 : shapeCast S64x512 s9 shapeCasts_S1x64x512_S64x512 = part T c (peer c (15 - 9)))
    (h10 : shapeCast S64x512 s10 shapeCasts_S1x64x512_S64x512 = part T c (peer c (15 - 10)))
    (h11 : shapeCast S64x512 s11 shapeCasts_S1x64x512_S64x512 = part T c (peer c (15 - 11))) :
    k0_pay22 A s9 s10 s11 = accum T c 12 := by
  subst hA
  show addf (addf (addf (accum T c 9) (shapeCast S64x512 s9 shapeCasts_S1x64x512_S64x512)) (shapeCast S64x512 s10 shapeCasts_S1x64x512_S64x512)) (shapeCast S64x512 s11 shapeCasts_S1x64x512_S64x512) = _
  rw [accum_step T c 9 s9 h9, accum_step T c 10 s10 h10, accum_step T c 11 s11 h11]

/-- The running sum after 12 parts, with the contents of slots 12, 13 added in turn, is the running sum after 14. -/
theorem pay23_acc (T : Dev nD → Vec F S1024x512 .f32) (c : Dev nD) (A : FVec F S64x512 .bf16) (s12 : Vec F S1x64x512 .bf16) (s13 : Vec F S1x64x512 .bf16)
    (hA : A = accum T c 12)
    (h12 : shapeCast S64x512 s12 shapeCasts_S1x64x512_S64x512 = part T c (peer c (15 - 12)))
    (h13 : shapeCast S64x512 s13 shapeCasts_S1x64x512_S64x512 = part T c (peer c (15 - 13))) :
    k0_pay23 A s12 s13 = accum T c 14 := by
  subst hA
  show addf (addf (accum T c 12) (shapeCast S64x512 s12 shapeCasts_S1x64x512_S64x512)) (shapeCast S64x512 s13 shapeCasts_S1x64x512_S64x512) = _
  rw [accum_step T c 12 s12 h12, accum_step T c 13 s13 h13]

/-- The running sum after fourteen parts with slot 14 added, times the cast matrix into a zero accumulator, cast: row
    block `c` of the result. -/
theorem pay24_out (T : Dev nD → Vec F S1024x512 .f32) (W : Dev nD → Vec F S512x512 .f32) (c : Dev nD)
    (A : FVec F S64x512 .bf16) (s14 : Vec F S1x64x512 .bf16) (Wc : Vec F S512x512 .f32)
    (hA : A = accum T c 14) (h14 : shapeCast S64x512 s14 shapeCasts_S1x64x512_S64x512 = part T c (peer c (15 - 14))) (hW : Wc = W c) :
    k0_pay24 A s14 Wc = oblk T W c := by
  subst hA hW
  show truncf .bf16 (matmul dot_S64x512_S512x512_S64x512_1_0_0_1_n_n none
      (addf (accum T c 14) (shapeCast S64x512 s14 shapeCasts_S1x64x512_S64x512))
      (truncf .bf16 (show FVec F S512x512 .f32 from shapeCast S512x512 (W c) shapeCasts_S512x512_S512x512) bitsLt_bf16_f32)
      (constant S64x512 .f32 0x00000000#32)) bitsLt_bf16_f32 = _
  rw [accum_step T c 14 s14 h14, shapeCast_self]
  rfl

/-- The values the body forms from its own rows `a`, the contents `s j` of the fifteen slots and the matrix `Wc`, as it
    nests them, are row block `c` of the result. -/
theorem pay_chain (T : Dev nD → Vec F S1024x512 .f32) (W : Dev nD → Vec F S512x512 .f32) (c : Dev nD)
    (a : Vec F S64x512 .f32) (s : Fin 15 → Vec F S1x64x512 .bf16) (Wc : Vec F S512x512 .f32)
    (ha : a = rows (T c) c)
    (hs : ∀ j : Fin 15, shapeCast S64x512 (s j) shapeCasts_S1x64x512_S64x512 = part T c (peer c (15 - j.val)))
    (hW : Wc = W c) :
    k0_pay24 (k0_pay23 (k0_pay22 (k0_pay21 (k0_pay20 (k0_pay19 (k0_pay18 a (s 0)) (s 1) (s 2) (s 3)) (s 4) (s 5))
      (s 6) (s 7) (s 8)) (s 9) (s 10) (s 11)) (s 12) (s 13)) (s 14) Wc = oblk T W c :=
  pay24_out T W c _ (s 14) Wc
    (pay23_acc T c _ (s 12) (s 13)
      (pay22_acc T c _ (s 9) (s 10) (s 11)
        (pay21_acc T c _ (s 6) (s 7) (s 8)
          (pay20_acc T c _ (s 4) (s 5)
            (pay19_acc T c _ (s 1) (s 2) (s 3) (pay18_acc T c a (s 0) ha (hs 0)) (hs 1) (hs 2) (hs 3))
            (hs 4) (hs 5))
          (hs 6) (hs 7) (hs 8))
        (hs 9) (hs 10) (hs 11))
      (hs 12) (hs 13))
    (hs 14) hW

/-- The same with the slots' contents as the body loads them from a receive buffer that holds, on every slot, what it
    is to hold. -/
theorem pay_chain_loaded (T : Dev nD → Vec F S1024x512 .f32) (W : Dev nD → Vec F S512x512 .f32) (c : Dev nD)
    (f : Buf (Elt F) (stM.view.loc (c : Thread nD τ)))
    (hf : ∀ j : Fin 15, ∀ i ∈ (slotRect j).set, f i = stageFull T c i) :
    k0_pay24 (k0_pay23 (k0_pay22 (k0_pay21 (k0_pay20 (k0_pay19 (k0_pay18 (rows (T c) c)
      (stM.view.readAt (Elt F) (slotRect 0).toLoadRect f))
      (stM.view.readAt (Elt F) (slotRect 1).toLoadRect f) (stM.view.readAt (Elt F) (slotRect 2).toLoadRect f)
      (stM.view.readAt (Elt F) (slotRect 3).toLoadRect f))
      (stM.view.readAt (Elt F) (slotRect 4).toLoadRect f) (stM.view.readAt (Elt F) (slotRect 5).toLoadRect f))
      (stM.view.readAt (Elt F) (slotRect 6).toLoadRect f) (stM.view.readAt (Elt F) (slotRect 7).toLoadRect f)
      (stM.view.readAt (Elt F) (slotRect 8).toLoadRect f))
      (stM.view.readAt (Elt F) (slotRect 9).toLoadRect f) (stM.view.readAt (Elt F) (slotRect 10).toLoadRect f)
      (stM.view.readAt (Elt F) (slotRect 11).toLoadRect f))
      (stM.view.readAt (Elt F) (slotRect 12).toLoadRect f) (stM.view.readAt (Elt F) (slotRect 13).toLoadRect f))
      (stM.view.readAt (Elt F) (slotRect 14).toLoadRect f) (W c) = oblk T W c :=
  pay_chain T W c (rows (T c) c) (fun j => stM.view.readAt (Elt F) (slotRect j).toLoadRect f) (W c) rfl
    (fun j => load_slot T c j f (hf j)) rfl

/-- info: 'Cert.KernelIdeal.X.pay_chain_loaded' depends on axioms: [propext, Classical.choice, Quot.sound] -/
#guard_msgs in #print axioms pay_chain_loaded

end Cert.KernelIdeal.X

end
-- ==== Proof.StepsLocal.lean ====
/-
  The device's own row block of the result: the matrix is read whole, the row block of the result buffer is read and then
  overwritten with the product the body has formed, which is row block `c` of the result.
-/
import proofs.«900451_g7700000000000452_dist_matmul_of_ar_i_m1024_n512_k512_v7x_i16_bf16_1_alg».proof.Proof.Steps1
import proofs.«900451_g7700000000000452_dist_matmul_of_ar_i_m1024_n512_k512_v7x_i16_bf16_1_alg».proof.Proof.BufSplit
import proofs.«900451_g7700000000000452_dist_matmul_of_ar_i_m1024_n512_k512_v7x_i16_bf16_1_alg».proof.Proof.PayVals
import proofs.«900451_g7700000000000452_dist_matmul_of_ar_i_m1024_n512_k512_v7x_i16_bf16_1_alg».proof.Proof.BufVals

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- A load of row block `b` of the argument block, the offsets given up to an equation. -/
theorem load_x_off (c : Dev nD) (X : Buf (Elt F) (xM.view.loc (c : Thread nD τ))) (b : Dev nD) (off : Fin 2 → Nat)
    (h : off = ![64 * b.val, 0]) (inb : ∀ a, off a + S64x512.size a ≤ S1024x512.size a) :
    xM.view.readAt (Elt F) (Rect.unit (s := S1024x512) off S64x512.size inb).toLoadRect X = rows X b := by
  subst h; exact load_x c X b

/-- The matrix is read whole; the device's own row block of the result buffer is read, then overwritten with the value
    formed from the matrix read, which is row block `c` of the result: the row block then holds the result there. -/
theorem step_store_out (c : Dev nD) (off3 : Fin 2 → Nat) (hoff : off3 = ![64 * c.val, 0])
    (payfn : Vec F S512x512 .f32 → FVec F S64x512 .bf16)
    (hpay : payfn (wM.view.readAt (Elt F) (Rect.unit (s := S512x512) ![0, 0] S512x512.size inb_S512x512_S512x512_0_0).toLoadRect (Wm m ρ c)) = oblk (Tm m ρ) (Wm m ρ) c)
    {inb inb' : ∀ a, off3 a + S64x512.size a ≤ S1024x512.size a}
    {hl : wM.view.LoadsAt (Rect.unit (s := S512x512) ![0, 0] S512x512.size inb_S512x512_S512x512_0_0).toLoadRect}
    {hl' : oM.view.LoadsAt (Rect.unit (s := S1024x512) off3 S64x512.size inb').toLoadRect}
    {hx : (oM.access (Rect.unit (s := S1024x512) off3 S64x512.size inb)).Stores Finset.univ}
    {hm : (Finset.univ : Finset (Rect.unit (s := S1024x512) off3 S64x512.size inb).shape.Idx) = Finset.univ
      ∨ ∀ a, (Rect.unit (s := S1024x512) off3 S64x512.size inb).stride a = 1}
    {α : Type} {Q : α → sProp 𝕄} {kont : PUnit → Prog (TpuEff nD τ sig (Elt F) Λ₀ .tc) α} :
    iprop((((c : Thread nD τ).loc cc0_stg1_0) ↦{fullShare} Wm m ρ c) ∗ (∃ g, oPts c c fullShare g))
      ⊢ iprop((((((c : Thread nD τ).loc cc0_stg1_0) ↦{fullShare} Wm m ρ c) ∗ oPts c c fullShare (outM m ρ)) -∗ WP c (kont ⟨⟩) Q)
          -∗ WP c (.op (.load wM (Rect.unit (s := S512x512) ![0, 0] S512x512.size inb_S512x512_S512x512_0_0).toLoadRect hl) fun wv =>
               .op (.load oM (Rect.unit (s := S1024x512) off3 S64x512.size inb').toLoadRect hl') fun _ =>
               .op (.store oM (Rect.unit (s := S1024x512) off3 S64x512.size inb) (payfn wv) Finset.univ hx hm) kont) Q) := by
  subst hoff
  unfold oPts
  iintro ⟨Hw, Ho⟩ Hk
  icases Ho with ⟨%g, Ho⟩
  iapply (wp_load 𝒱₀ (c : Thread nD τ) none Set.univ (m := wM) (S := Finset.univ) (q := fullShare) (f := Wm m ρ c)
      (Finset.subset_univ _)) $$ Hw
  iintro Hw
  iapply (wp_load 𝒱₀ (c : Thread nD τ) none Set.univ (m := oM)
      (S := ((oSl c).view.set : Finset (Idx ((oSl c).view.loc (c : Thread nD τ))))) (q := fullShare) (f := g)
      (View.set_slice oM.view (rowRect c)).ge) $$ Ho
  iintro Ho
  iapply (wp_store 𝒱₀ (c : Thread nD τ) none Set.univ (m := oM) (r := rowRect c)
      (S := ((oSl c).view.set : Finset (Idx ((oSl c).view.loc (c : Thread nD τ))))) (f := g) (Finset.Subset.refl _)) $$ Ho
  iintro Ho
  have e : ((oSl c).view.loc (c : Thread nD τ) ↦[(oSl c).view.set]{fullShare}
        ((oM.access (rowRect c) : View sig .tc .vmem _ .bf16).write (Elt F) g (payfn (wM.view.readAt (Elt F) (Rect.unit (s := S512x512) ![0, 0] S512x512.size inb_S512x512_S512x512_0_0).toLoadRect (Wm m ρ c))) Finset.univ) : sProp 𝕄)
      = ((oSl c).view.loc (c : Thread nD τ) ↦[(oSl c).view.set]{fullShare} outM m ρ) := by
    refine pointsTo_congr ?_
    rw [oSl_set, hpay]
    exact store_out (Tm m ρ) (Wm m ρ) c g
  iapply Hk
  isplitl [Hw]; · iexact Hw
  iapply (Entails.of_eq e) $$ Ho

/-- What the body stores into its own row block of the result, as a function of the matrix it has loaded: from the
    device's own rows as loaded and the fifteen slots as loaded from the receive buffer holding the fifteen parts, nested
    as the body nests them. -/
abbrev outPay (c : Dev nD) : Vec F S512x512 .f32 → FVec F S64x512 .bf16 := fun wv =>
  k0_pay24 (k0_pay23 (k0_pay22 (k0_pay21 (k0_pay20 (k0_pay19 (k0_pay18
        (xM.view.readAt (Elt F) (Rect.unit (s := S1024x512) (k0_off3 c) S64x512.size (k0_off3_inb c)).toLoadRect (Tm m ρ c))
        (stM.view.readAt (Elt F) (slotRect (0 : Fin 15)).toLoadRect (stageFull (Tm m ρ) c)))
        (stM.view.readAt (Elt F) (slotRect (1 : Fin 15)).toLoadRect (stageFull (Tm m ρ) c)) (stM.view.readAt (Elt F) (slotRect (2 : Fin 15)).toLoadRect (stageFull (Tm m ρ) c))
        (stM.view.readAt (Elt F) (slotRect (3 : Fin 15)).toLoadRect (stageFull (Tm m ρ) c)))
        (stM.view.readAt (Elt F) (slotRect (4 : Fin 15)).toLoadRect (stageFull (Tm m ρ) c)) (stM.view.readAt (Elt F) (slotRect (5 : Fin 15)).toLoadRect (stageFull (Tm m ρ) c)))
        (stM.view.readAt (Elt F) (slotRect (6 : Fin 15)).toLoadRect (stageFull (Tm m ρ) c)) (stM.view.readAt (Elt F) (slotRect (7 : Fin 15)).toLoadRect (stageFull (Tm m ρ) c))
        (stM.view.readAt (Elt F) (slotRect (8 : Fin 15)).toLoadRect (stageFull (Tm m ρ) c)))
        (stM.view.readAt (Elt F) (slotRect (9 : Fin 15)).toLoadRect (stageFull (Tm m ρ) c)) (stM.view.readAt (Elt F) (slotRect (10 : Fin 15)).toLoadRect (stageFull (Tm m ρ) c))
        (stM.view.readAt (Elt F) (slotRect (11 : Fin 15)).toLoadRect (stageFull (Tm m ρ) c)))
        (stM.view.readAt (Elt F) (slotRect (12 : Fin 15)).toLoadRect (stageFull (Tm m ρ) c)) (stM.view.readAt (Elt F) (slotRect (13 : Fin 15)).toLoadRect (stageFull (Tm m ρ) c)))
        (stM.view.readAt (Elt F) (slotRect (14 : Fin 15)).toLoadRect (stageFull (Tm m ρ) c)) wv

/-- At the matrix as loaded, it is row block `c` of the result. -/
theorem hpay_out (c : Dev nD) :
    outPay m ρ c (wM.view.readAt (Elt F) (Rect.unit (s := S512x512) ![0, 0] S512x512.size inb_S512x512_S512x512_0_0).toLoadRect (Wm m ρ c))
      = oblk (Tm m ρ) (Wm m ρ) c :=
  pay_chain (Tm m ρ) (Wm m ρ) c _ (fun j => stM.view.readAt (Elt F) (slotRect j).toLoadRect (stageFull (Tm m ρ) c)) _
    (load_x_off c (Tm m ρ c) c (k0_off3 c) (k0_off3_eq c) (k0_off3_inb c))
    (fun j => load_slot (Tm m ρ) c j (stageFull (Tm m ρ) c) (fun _ _ => rfl))
    (load_w c (Wm m ρ c))

/-- info: 'Cert.KernelIdeal.X.step_store_out' depends on axioms: [propext, Classical.choice, Quot.sound] -/
#guard_msgs in #print axioms step_store_out
/-- info: 'Cert.KernelIdeal.X.hpay_out' depends on axioms: [propext, Classical.choice, Quot.sound] -/
#guard_msgs in #print axioms hpay_out

end Cert.KernelIdeal.X

end
-- ==== Proof.BodyWrap.lean ====
/-
  The body obligation of the pipeline on device `c`, from the body lemma: at the one grid point the three windows'
  staging buffers are whole buffers, so what the pipeline hands the body is the body lemma's precondition and what it
  takes back is its postcondition.
-/
import proofs.«900451_g7700000000000452_dist_matmul_of_ar_i_m1024_n512_k512_v7x_i16_bf16_1_alg».proof.Proof.Steps1

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The library's body obligation on device `c`, given the body lemma in continuation form. -/
theorem body_obligation_of (c : Dev nD)
    (hsound : ∀ Kt : PUnit → sProp (MT nD τ sig Unit (Elt F) ℕ UU ℕ), iprop(bodyPre m ρ c ∗ (bodyPost m ρ c -∗ Kt ⟨⟩))
        ⊢ WP c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt) :
    BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5)
    (fun _ => bodyPost m ρ c)
  iintro H
  iapply (hsound (fun _ => bodyPost m ρ c))
  isplitl [H]; · iexact H
  iintro H; iexact H

/-- info: 'Cert.KernelIdeal.X.body_obligation_of' depends on axioms: [propext, Classical.choice, Quot.sound] -/
#guard_msgs in #print axioms body_obligation_of

end Cert.KernelIdeal.X

end
-- ==== Proof.Body.lean ====
/-
  One device's body, effect by effect: the handshake, the first exchange, the local sum and product, the second
  exchange, the waits; then the cells close and the buffers are whole again.
-/
import proofs.«900451_g7700000000000452_dist_matmul_of_ar_i_m1024_n512_k512_v7x_i16_bf16_1_alg».proof.Proof.Steps1
import proofs.«900451_g7700000000000452_dist_matmul_of_ar_i_m1024_n512_k512_v7x_i16_bf16_1_alg».proof.Proof.Glue
import proofs.«900451_g7700000000000452_dist_matmul_of_ar_i_m1024_n512_k512_v7x_i16_bf16_1_alg».proof.Proof.GlueBufs
import proofs.«900451_g7700000000000452_dist_matmul_of_ar_i_m1024_n512_k512_v7x_i16_bf16_1_alg».proof.Proof.StepsSend
import proofs.«900451_g7700000000000452_dist_matmul_of_ar_i_m1024_n512_k512_v7x_i16_bf16_1_alg».proof.Proof.StepsWait
import proofs.«900451_g7700000000000452_dist_matmul_of_ar_i_m1024_n512_k512_v7x_i16_bf16_1_alg».proof.Proof.StepsLocal
import proofs.«900451_g7700000000000452_dist_matmul_of_ar_i_m1024_n512_k512_v7x_i16_bf16_1_alg».proof.Proof.BodyWrap

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The device's own row block of the result, once stored, is lent to the fifteen transfers in fifteen shares; -/
theorem out_shares' (c : Dev nD) :
    oPts c c fullShare (outM m ρ) ⊢ (iprop(oPts c c (Transfers.shareDrop fullShare 15) (outM m ρ)
      ∗ bigSep Finset.univ fun j : Fin 15 => oPts c c (Transfers.shareTok fullShare 15 j) (outM m ρ)) : sProp 𝕄) :=
  out_shares (Tm m ρ) (Wm m ρ) c
/-- the shares come back, the fifteen peers' row blocks have landed, and the result buffer is whole. -/
theorem out_join' (c : Dev nD) :
    (iprop((oPts c c (Transfers.shareDrop fullShare 15) (outM m ρ)
        ∗ bigSep Finset.univ fun j : Fin 15 => oPts c c (Transfers.shareTok fullShare 15 j) (outM m ρ))
      ∗ bigSep Finset.univ fun j : Fin 15 => oPts c (peer c (15 - j.val)) fullShare (outM m ρ)) : sProp 𝕄)
      ⊢ (((c : Thread nD τ).loc cc0_stg2_0) ↦{fullShare} outM m ρ : sProp 𝕄) :=
  out_join (Tm m ρ) (Wm m ρ) c

set_option maxHeartbeats 64000000 in
/-- One device's body from what the pipeline hands it to what it hands back. -/
theorem sound_body (c : Dev nD) (Kt : PUnit → sProp 𝕄) :
    iprop(bodyPre m ρ c ∗ (bodyPost m ρ c -∗ Kt ⟨⟩))
      ⊢ WP c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  unfold bodyPre Φ₀ start ghost positions payToks creds
  rw [bigSep_CIx, bigSep_fin4]
  simp only [bigSep_fin15]
  iintro ⟨⟨⟨⟨⟨%K, #HR, ⟨HaB, ⟨Ha0_0, Ha0_1, Ha0_2, Ha0_3, Ha0_4, Ha0_5, Ha0_6, Ha0_7, Ha0_8, Ha0_9, Ha0_10, Ha0_11, Ha0_12, Ha0_13, Ha0_14⟩, ⟨Ha1_0, Ha1_1, Ha1_2, Ha1_3, Ha1_4, Ha1_5, Ha1_6, Ha1_7, Ha1_8, Ha1_9, Ha1_10, Ha1_11, Ha1_12, Ha1_13, Ha1_14⟩, ⟨Ha2_0, Ha2_1, Ha2_2, Ha2_3, Ha2_4, Ha2_5, Ha2_6, Ha2_7, Ha2_8, Ha2_9, Ha2_10, Ha2_11, Ha2_12, Ha2_13, Ha2_14⟩, ⟨Ha3_0, Ha3_1, Ha3_2, Ha3_3, Ha3_4, Ha3_5, Ha3_6, Ha3_7, Ha3_8, Ha3_9, Ha3_10, Ha3_11, Ha3_12, Ha3_13, Ha3_14⟩⟩, ⟨⟨HtB_0, HtB_1, HtB_2, HtB_3, HtB_4, HtB_5, HtB_6, HtB_7, HtB_8, HtB_9, HtB_10, HtB_11, HtB_12, HtB_13, HtB_14⟩, ⟨Ht0_0, Ht0_1, Ht0_2, Ht0_3, Ht0_4, Ht0_5, Ht0_6, Ht0_7, Ht0_8, Ht0_9, Ht0_10, Ht0_11, Ht0_12, Ht0_13, Ht0_14⟩, ⟨Ht1_0, Ht1_1, Ht1_2, Ht1_3, Ht1_4, Ht1_5, Ht1_6, Ht1_7, Ht1_8, Ht1_9, Ht1_10, Ht1_11, Ht1_12, Ht1_13, Ht1_14⟩, ⟨Ht2_0, Ht2_1, Ht2_2, Ht2_3, Ht2_4, Ht2_5, Ht2_6, Ht2_7, Ht2_8, Ht2_9, Ht2_10, Ht2_11, Ht2_12, Ht2_13, Ht2_14⟩, ⟨Ht3_0, Ht3_1, Ht3_2, Ht3_3, Ht3_4, Ht3_5, Ht3_6, Ht3_7, Ht3_8, Ht3_9, Ht3_10, Ht3_11, Ht3_12, Ht3_13, Ht3_14⟩⟩⟩, ⟨HcB, ⟨Hc1_0, Hc1_1, Hc1_2, Hc1_3, Hc1_4, Hc1_5, Hc1_6, Hc1_7, Hc1_8, Hc1_9, Hc1_10, Hc1_11, Hc1_12, Hc1_13, Hc1_14⟩, ⟨Hc3_0, Hc3_1, Hc3_2, Hc3_3, Hc3_4, Hc3_5, Hc3_6, Hc3_7, Hc3_8, Hc3_9, Hc3_10, Hc3_11, Hc3_12, Hc3_13, Hc3_14⟩⟩, #Hlev⟩, ⟨%ftb, Htb⟩, ⟨%fst, Hst⟩⟩,
    Ho, ⟨%d0, %g0, %hg0, Hx⟩, ⟨%d1, %g1, %hg1, Hw⟩, ⟨%d2, %g2, %hg2, Hout⟩⟩, Hk⟩
  have hx : g0 = Tm m ρ c := by rw [hg0]; unfold Dat.before; rw [if_pos (fetch_0 t₀)]; rfl
  have hw : g1 = Wm m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = owedFrom c 0 from rfl]
  ihave Htb := (Entails.of_eq (tb_split c ftb)) $$ Htb
  ihave Hst := (Entails.of_eq (slot_split c fst)) $$ Hst
  ihave Hout := (Entails.of_eq (out_split c g2)) $$ Hout
  simp only [bigSep_fin15]
  icases Htb with ⟨HtbOwn, Htb_0, Htb_1, Htb_2, Htb_3, Htb_4, Htb_5, Htb_6, Htb_7, Htb_8, Htb_9, Htb_10, Htb_11, Htb_12, Htb_13, Htb_14⟩
  icases Hst with ⟨Hsl_0, Hsl_1, Hsl_2, Hsl_3, Hsl_4, Hsl_5, Hsl_6, Hsl_7, Hsl_8, Hsl_9, Hsl_10, Hsl_11, Hsl_12, Hsl_13, Hsl_14⟩
  icases Hout with ⟨HoOwn, Ho_0, Ho_1, Ho_2, Ho_3, Ho_4, Ho_5, Ho_6, Ho_7, Ho_8, Ho_9, Ho_10, Ho_11, Ho_12, Ho_13, Ho_14⟩
  -- signal 0
  iapply (step_signal m ρ c (0 : Fin 15) _ (Fin.ext (k0_dev1_eq c)) K _ fst g2) $$ [HO HtB_0 Hsl_14 Ho_0]
  · isplitr; · iexact HR
    isplitl [HO]; · iexact HO
    isplitl [HtB_0]; · iexact HtB_0
    isplitl [Hsl_14]; · iexact Hsl_14
    iexact Ho_0
  iintro HO
  -- signal 1
  iapply (step_signal m ρ c (1 : Fin 15) _ (Fin.ext (k0_dev2_eq c)) K _ fst g2) $$ [HO HtB_1 Hsl_13 Ho_1]
  · isplitr; · iexact HR
    isplitl [HO]; · iexact HO
    isplitl [HtB_1]; · iexact HtB_1
    isplitl [Hsl_13]; · iexact Hsl_13
    iexact Ho_1
  iintro HO
  -- signal 2
  iapply (step_signal m ρ c (2 : Fin 15) _ (Fin.ext (k0_dev3_eq c)) K _ fst g2) $$ [HO HtB_2 Hsl_12 Ho_2]
  · isplitr; · iexact HR
    isplitl [HO]; · iexact HO
    isplitl [HtB_2]; · iexact HtB_2
    isplitl [Hsl_12]; · iexact Hsl_12
    iexact Ho_2
  iintro HO
  -- signal 3
  iapply (step_signal m ρ c (3 : Fin 15) _ (Fin.ext (k0_dev4_eq c)) K _ fst g2) $$ [HO HtB_3 Hsl_11 Ho_3]
  · isplitr; · iexact HR
    isplitl [HO]; · iexact HO
    isplitl [HtB_3]; · iexact HtB_3
    isplitl [Hsl_11]; · iexact Hsl_11
    iexact Ho_3
  iintro HO
  -- signal 4
  iapply (step_signal m ρ c (4 : Fin 15) _ (Fin.ext (k0_dev5_eq c)) K _ fst g2) $$ [HO HtB_4 Hsl_10 Ho_4]
  · isplitr; · iexact HR
    isplitl [HO]; · iexact HO
    isplitl [HtB_4]; · iexact HtB_4
    isplitl [Hsl_10]; · iexact Hsl_10
    iexact Ho_4
  iintro HO
  -- signal 5
  iapply (step_signal m ρ c (5 : Fin 15) _ (Fin.ext (k0_dev6_eq c)) K _ fst g2) $$ [HO HtB_5 Hsl_9 Ho_5]
  · isplitr; · iexact HR
    isplitl [HO]; · iexact HO
    isplitl [HtB_5]; · iexact HtB_5
    isplitl [Hsl_9]; · iexact Hsl_9
    iexact Ho_5
  iintro HO
  -- signal 6
  iapply (step_signal m ρ c (6 : Fin 15) _ (Fin.ext (k0_dev7_eq c)) K _ fst g2) $$ [HO HtB_6 Hsl_8 Ho_6]
  · isplitr; · iexact HR
    isplitl [HO]; · iexact HO
    isplitl [HtB_6]; · iexact HtB_6
    isplitl [Hsl_8]; · iexact Hsl_8
    iexact Ho_6
  iintro HO
  -- signal 7
  iapply (step_signal m ρ c (7 : Fin 15) _ (Fin.ext (k0_dev8_eq c)) K _ fst g2) $$ [HO HtB_7 Hsl_7 Ho_7]
  · isplitr; · iexact HR
    isplitl [HO]; · iexact HO
    isplitl [HtB_7]; · iexact HtB_7
    isplitl [Hsl_7]; · iexact Hsl_7
    iexact Ho_7
  iintro HO
  -- signal 8
  iapply (step_signal m ρ c (8 : Fin 15) _ (Fin.ext (k0_dev9_eq c)) K _ fst g2) $$ [HO HtB_8 Hsl_6 Ho_8]
  · isplitr; · iexact HR
    isplitl [HO]; · iexact HO
    isplitl [HtB_8]; · iexact HtB_8
    isplitl [Hsl_6]; · iexact Hsl_6
    iexact Ho_8
  iintro HO
  -- signal 9
  iapply (step_signal m ρ c (9 : Fin 15) _ (Fin.ext (k0_dev10_eq c)) K _ fst g2) $$ [HO HtB_9 Hsl_5 Ho_9]
  · isplitr; · iexact HR
    isplitl [HO]; · iexact HO
    isplitl [HtB_9]; · iexact HtB_9
    isplitl [Hsl_5]; · iexact Hsl_5
    iexact Ho_9
  iintro HO
  -- signal 10
  iapply (step_signal m ρ c (10 : Fin 15) _ (Fin.ext (k0_dev11_eq c)) K _ fst g2) $$ [HO HtB_10 Hsl_4 Ho_10]
  · isplitr; · iexact HR
    isplitl [HO]; · iexact HO
    isplitl [HtB_10]; · iexact HtB_10
    isplitl [Hsl_4]; · iexact Hsl_4
    iexact Ho_10
  iintro HO
  -- signal 11
  iapply (step_signal m ρ c (11 : Fin 15) _ (Fin.ext (k0_dev12_eq c)) K _ fst g2) $$ [HO HtB_11 Hsl_3 Ho_11]
  · isplitr; · iexact HR
    isplitl [HO]; · iexact HO
    isplitl [HtB_11]; · iexact HtB_11
    isplitl [Hsl_3]; · iexact Hsl_3
    iexact Ho_11
  iintro HO
  -- signal 12
  iapply (step_signal m ρ c (12 : Fin 15) _ (Fin.ext (k0_dev13_eq c)) K _ fst g2) $$ [HO HtB_12 Hsl_2 Ho_12]
  · isplitr; · iexact HR
    isplitl [HO]; · iexact HO
    isplitl [HtB_12]; · iexact HtB_12
    isplitl [Hsl_2]; · iexact Hsl_2
    iexact Ho_12
  iintro HO
  -- signal 13
  iapply (step_signal m ρ c (13 : Fin 15) _ (Fin.ext (k0_dev14_eq c)) K _ fst g2) $$ [HO HtB_13 Hsl_1 Ho_13]
  · isplitr; · iexact HR
    isplitl [HO]; · iexact HO
    isplitl [HtB_13]; · iexact HtB_13
    isplitl [Hsl_1]; · iexact Hsl_1
    iexact Ho_13
  iintro HO
  -- signal 14
  iapply (step_signal m ρ c (14 : Fin 15) _ (Fin.ext (k0_dev15_eq c)) K _ fst g2) $$ [HO HtB_14 Hsl_0 Ho_14]
  · isplitr; · iexact HR
    isplitl [HO]; · iexact HO
    isplitl [HtB_14]; · iexact HtB_14
    isplitl [Hsl_0]; · iexact Hsl_0
    iexact Ho_14
  iintro HO
  -- the barrier wait
  iapply (step_barwait m ρ c K _) $$ [HcB HO HaB]
  · isplitr; · iexact HR
    isplitl [HcB]; · iexact HcB
    isplitl [HO]; · iexact HO
    isplitr; · iexact Hlev
    iexact HaB
  iintro ⟨HO, HaB, Hpay⟩
  simp only [bigSep_fin15]; unfold barPay
  icases Hpay with ⟨⟨⟨%fp0, Hps_0⟩, ⟨%gp0, Hpo_0⟩⟩, ⟨⟨%fp1, Hps_1⟩, ⟨%gp1, Hpo_1⟩⟩, ⟨⟨%fp2, Hps_2⟩, ⟨%gp2, Hpo_2⟩⟩, ⟨⟨%fp3, Hps_3⟩, ⟨%gp3, Hpo_3⟩⟩, ⟨⟨%fp4, Hps_4⟩, ⟨%gp4, Hpo_4⟩⟩, ⟨⟨%fp5, Hps_5⟩, ⟨%gp5, Hpo_5⟩⟩, ⟨⟨%fp6, Hps_6⟩, ⟨%gp6, Hpo_6⟩⟩, ⟨⟨%fp7, Hps_7⟩, ⟨%gp7, Hpo_7⟩⟩, ⟨⟨%fp8, Hps_8⟩, ⟨%gp8, Hpo_8⟩⟩, ⟨⟨%fp9, Hps_9⟩, ⟨%gp9, Hpo_9⟩⟩, ⟨⟨%fp10, Hps_10⟩, ⟨%gp10, Hpo_10⟩⟩, ⟨⟨%fp11, Hps_11⟩, ⟨%gp11, Hpo_11⟩⟩, ⟨⟨%fp12, Hps_12⟩, ⟨%gp12, Hpo_12⟩⟩, ⟨⟨%fp13, Hps_13⟩, ⟨%gp13, Hpo_13⟩⟩, ⟨⟨%fp14, Hps_14⟩, ⟨%gp14, Hpo_14⟩⟩⟩
  -- first exchange, iteration 0
  iapply (step_p1 m ρ c (0 : Fin 15) _ (Fin.ext (k0_dev16_eq c)) _ _ (k0_off1_eq c (0 : Fin 15)) (k0_off2_eq c (0 : Fin 15)) k0_pay1 pay1_eq _ _ rfl rfl _ rfl K _) $$ [Hx Htb_0 Hps_0 HO Ht0_0 Ht1_0]
  · isplitr; · iexact HR
    isplitl [Hx]; · iexact Hx
    isplitl [Htb_0]; · iexists ftb; iexact Htb_0
    isplitl [Hps_0]; · iexists fp0; iexact Hps_0
    isplitl [HO]; · iexact HO
    isplitl [Ht0_0]; · iexact Ht0_0
    iexact Ht1_0
  iintro ⟨Hx, Hcs0_0, HO⟩
  -- first exchange, iteration 1
  iapply (step_p1 m ρ c (1 : Fin 15) _ (Fin.ext (k0_dev17_eq c)) _ _ (k0_off1_eq c (1 : Fin 15)) (k0_off2_eq c (1 : Fin 15)) k0_pay2 pay2_eq _ _ rfl rfl _ rfl K _) $$ [Hx Htb_1 Hps_1 HO Ht0_1 Ht1_1]
  · isplitr; · iexact HR
    isplitl [Hx]; · iexact Hx
    isplitl [Htb_1]; · iexists ftb; iexact Htb_1
    isplitl [Hps_1]; · iexists fp1; iexact Hps_1
    isplitl [HO]; · iexact HO
    isplitl [Ht0_1]; · iexact Ht0_1
    iexact Ht1_1
  iintro ⟨Hx, Hcs0_1, HO⟩
  -- first exchange, iteration 2
  iapply (step_p1 m ρ c (2 : Fin 15) _ (Fin.ext (k0_dev18_eq c)) _ _ (k0_off1_eq c (2 : Fin 15)) (k0_off2_eq c (2 : Fin 15)) k0_pay3 pay3_eq _ _ rfl rfl _ rfl K _) $$ [Hx Htb_2 Hps_2 HO Ht0_2 Ht1_2]
  · isplitr; · iexact HR
    isplitl [Hx]; · iexact Hx
    isplitl [Htb_2]; · iexists ftb; iexact Htb_2
    isplitl [Hps_2]; · iexists fp2; iexact Hps_2
    isplitl [HO]; · iexact HO
    isplitl [Ht0_2]; · iexact Ht0_2
    iexact Ht1_2
  iintro ⟨Hx, Hcs0_2, HO⟩
  -- first exchange, iteration 3
  iapply (step_p1 m ρ c (3 : Fin 15) _ (Fin.ext (k0_dev19_eq c)) _ _ (k0_off1_eq c (3 : Fin 15)) (k0_off2_eq c (3 : Fin 15)) k0_pay4 pay4_eq _ _ rfl rfl _ rfl K _) $$ [Hx Htb_3 Hps_3 HO Ht0_3 Ht1_3]
  · isplitr; · iexact HR
    isplitl [Hx]; · iexact Hx
    isplitl [Htb_3]; · iexists ftb; iexact Htb_3
    isplitl [Hps_3]; · iexists fp3; iexact Hps_3
    isplitl [HO]; · iexact HO
    isplitl [Ht0_3]; · iexact Ht0_3
    iexact Ht1_3
  iintro ⟨Hx, Hcs0_3, HO⟩
  -- first exchange, iteration 4
  iapply (step_p1 m ρ c (4 : Fin 15) _ (Fin.ext (k0_dev20_eq c)) _ _ (k0_off1_eq c (4 : Fin 15)) (k0_off2_eq c (4 : Fin 15)) k0_pay5 pay5_eq _ _ rfl rfl _ rfl K _) $$ [Hx Htb_4 Hps_4 HO Ht0_4 Ht1_4]
  · isplitr; · iexact HR
    isplitl [Hx]; · iexact Hx
    isplitl [Htb_4]; · iexists ftb; iexact Htb_4
    isplitl [Hps_4]; · iexists fp4; iexact Hps_4
    isplitl [HO]; · iexact HO
    isplitl [Ht0_4]; · iexact Ht0_4
    iexact Ht1_4
  iintro ⟨Hx, Hcs0_4, HO⟩
  -- first exchange, iteration 5
  iapply (step_p1 m ρ c (5 : Fin 15) _ (Fin.ext (k0_dev21_eq c)) _ _ (k0_off1_eq c (5 : Fin 15)) (k0_off2_eq c (5 : Fin 15)) k0_pay6 pay6_eq _ _ rfl rfl _ rfl K _) $$ [Hx Htb_5 Hps_5 HO Ht0_5 Ht1_5]
  · isplitr; · iexact HR
    isplitl [Hx]; · iexact Hx
    isplitl [Htb_5]; · iexists ftb; iexact Htb_5
    isplitl [Hps_5]; · iexists fp5; iexact Hps_5
    isplitl [HO]; · iexact HO
    isplitl [Ht0_5]; · iexact Ht0_5
    iexact Ht1_5
  iintro ⟨Hx, Hcs0_5, HO⟩
  -- first exchange, iteration 6
  iapply (step_p1 m ρ c (6 : Fin 15) _ (Fin.ext (k0_dev22_eq c)) _ _ (k0_off1_eq c (6 : Fin 15)) (k0_off2_eq c (6 : Fin 15)) k0_pay7 pay7_eq _ _ rfl rfl _ rfl K _) $$ [Hx Htb_6 Hps_6 HO Ht0_6 Ht1_6]
  · isplitr; · iexact HR
    isplitl [Hx]; · iexact Hx
    isplitl [Htb_6]; · iexists ftb; iexact Htb_6
    isplitl [Hps_6]; · iexists fp6; iexact Hps_6
    isplitl [HO]; · iexact HO
    isplitl [Ht0_6]; · iexact Ht0_6
    iexact Ht1_6
  iintro ⟨Hx, Hcs0_6, HO⟩
  -- first exchange, iteration 7
  iapply (step_p1 m ρ c (7 : Fin 15) _ (Fin.ext (k0_dev23_eq c)) _ _ (k0_off1_eq c (7 : Fin 15)) (k0_off2_eq c (7 : Fin 15)) k0_pay8 pay8_eq _ _ rfl rfl _ rfl K _) $$ [Hx Htb_7 Hps_7 HO Ht0_7 Ht1_7]
  · isplitr; · iexact HR
    isplitl [Hx]; · iexact Hx
    isplitl [Htb_7]; · iexists ftb; iexact Htb_7
    isplitl [Hps_7]; · iexists fp7; iexact Hps_7
    isplitl [HO]; · iexact HO
    isplitl [Ht0_7]; · iexact Ht0_7
    iexact Ht1_7
  iintro ⟨Hx, Hcs0_7, HO⟩
  -- first exchange, iteration 8
  iapply (step_p1 m ρ c (8 : Fin 15) _ (Fin.ext (k0_dev24_eq c)) _ _ (k0_off1_eq c (8 : Fin 15)) (k0_off2_eq c (8 : Fin 15)) k0_pay9 pay9_eq _ _ rfl rfl _ rfl K _) $$ [Hx Htb_8 Hps_8 HO Ht0_8 Ht1_8]
  · isplitr; · iexact HR
    isplitl [Hx]; · iexact Hx
    isplitl [Htb_8]; · iexists ftb; iexact Htb_8
    isplitl [Hps_8]; · iexists fp8; iexact Hps_8
    isplitl [HO]; · iexact HO
    isplitl [Ht0_8]; · iexact Ht0_8
    iexact Ht1_8
  iintro ⟨Hx, Hcs0_8, HO⟩
  -- first exchange, iteration 9
  iapply (step_p1 m ρ c (9 : Fin 15) _ (Fin.ext (k0_dev25_eq c)) _ _ (k0_off1_eq c (9 : Fin 15)) (k0_off2_eq c (9 : Fin 15)) k0_pay10 pay10_eq _ _ rfl rfl _ rfl K _) $$ [Hx Htb_9 Hps_9 HO Ht0_9 Ht1_9]
  · isplitr; · iexact HR
    isplitl [Hx]; · iexact Hx
    isplitl [Htb_9]; · iexists ftb; iexact Htb_9
    isplitl [Hps_9]; · iexists fp9; iexact Hps_9
    isplitl [HO]; · iexact HO
    isplitl [Ht0_9]; · iexact Ht0_9
    iexact Ht1_9
  iintro ⟨Hx, Hcs0_9, HO⟩
  -- first exchange, iteration 10
  iapply (step_p1 m ρ c (10 : Fin 15) _ (Fin.ext (k0_dev26_eq c)) _ _ (k0_off1_eq c (10 : Fin 15)) (k0_off2_eq c (10 : Fin 15)) k0_pay11 pay11_eq _ _ rfl rfl _ rfl K _) $$ [Hx Htb_10 Hps_10 HO Ht0_10 Ht1_10]
  · isplitr; · iexact HR
    isplitl [Hx]; · iexact Hx
    isplitl [Htb_10]; · iexists ftb; iexact Htb_10
    isplitl [Hps_10]; · iexists fp10; iexact Hps_10
    isplitl [HO]; · iexact HO
    isplitl [Ht0_10]; · iexact Ht0_10
    iexact Ht1_10
  iintro ⟨Hx, Hcs0_10, HO⟩
  -- first exchange, iteration 11
  iapply (step_p1 m ρ c (11 : Fin 15) _ (Fin.ext (k0_dev27_eq c)) _ _ (k0_off1_eq c (11 : Fin 15)) (k0_off2_eq c (11 : Fin 15)) (fun v => k0_pay13 (k0_pay12 v)) pay13_pay12 _ _ rfl rfl _ rfl K _) $$ [Hx Htb_11 Hps_11 HO Ht0_11 Ht1_11]
  · isplitr; · iexact HR
    isplitl [Hx]; · iexact Hx
    isplitl [Htb_11]; · iexists ftb; iexact Htb_11
    isplitl [Hps_11]; · iexists fp11; iexact Hps_11
    isplitl [HO]; · iexact HO
    isplitl [Ht0_11]; · iexact Ht0_11
    iexact Ht1_11
  iintro ⟨Hx, Hcs0_11, HO⟩
  -- first exchange, iteration 12
  iapply (step_p1 m ρ c (12 : Fin 15) _ (Fin.ext (k0_dev28_eq c)) _ _ (k0_off1_eq c (12 : Fin 15)) (k0_off2_eq c (12 : Fin 15)) k0_pay14 pay14_eq _ _ rfl rfl _ rfl K _) $$ [Hx Htb_12 Hps_12 HO Ht0_12 Ht1_12]
  · isplitr; · iexact HR
    isplitl [Hx]; · iexact Hx
    isplitl [Htb_12]; · iexists ftb; iexact Htb_12
    isplitl [Hps_12]; · iexists fp12; iexact Hps_12
    isplitl [HO]; · iexact HO
    isplitl [Ht0_12]; · iexact Ht0_12
    iexact Ht1_12
  iintro ⟨Hx, Hcs0_12, HO⟩
  -- first exchange, iteration 13
  iapply (step_p1 m ρ c (13 : Fin 15) _ (Fin.ext (k0_dev29_eq c)) _ _ (k0_off1_eq c (13 : Fin 15)) (k0_off2_eq c (13 : Fin 15)) k0_pay15 pay15_eq _ _ rfl rfl _ rfl K _) $$ [Hx Htb_13 Hps_13 HO Ht0_13 Ht1_13]
  · isplitr; · iexact HR
    isplitl [Hx]; · iexact Hx
    isplitl [Htb_13]; · iexists ftb; iexact Htb_13
    isplitl [Hps_13]; · iexists fp13; iexact Hps_13
    isplitl [HO]; · iexact HO
    isplitl [Ht0_13]; · iexact Ht0_13
    iexact Ht1_13
  iintro ⟨Hx, Hcs0_13, HO⟩
  -- first exchange, iteration 14
  iapply (step_p1 m ρ c (14 : Fin 15) _ (Fin.ext (k0_dev30_eq c)) _ _ (k0_off1_eq c (14 : Fin 15)) (k0_off2_eq c (14 : Fin 15)) (fun v => k0_pay17 (k0_pay16 v)) pay17_pay16 _ _ rfl rfl _ rfl K _) $$ [Hx Htb_14 Hps_14 HO Ht0_14 Ht1_14]
  · isplitr; · iexact HR
    isplitl [Hx]; · iexact Hx
    isplitl [Htb_14]; · iexists ftb; iexact Htb_14
    isplitl [Hps_14]; · iexists fp14; iexact Hps_14
    isplitl [HO]; · iexact HO
    isplitl [Ht0_14]; · iexact Ht0_14
    iexact Ht1_14
  iintro ⟨Hx, Hcs0_14, HO⟩
  -- the device's own rows
  iapply (wp_load 𝒱₀ (c : Thread nD τ) none Set.univ (m := xM) (Finset.subset_univ _)) $$ Hx; iintro Hx
  -- slot 0 lands and is read
  iapply (step_acc m ρ c (0 : Fin 15) K _ _ rfl _ _ rfl) $$ [Hc1_0 HO Ha1_0]
  · isplitr; · iexact HR
    isplitl [Hc1_0]; · iexact Hc1_0
    isplitl [HO]; · iexact HO
    isplitr; · iexact Hlev
    iexact Ha1_0
  iintro ⟨HO, Ha1_0, Hsl_0⟩
  -- slot 1 lands and is read
  iapply (step_acc m ρ c (1 : Fin 15) K _ _ rfl _ _ rfl) $$ [Hc1_1 HO Ha1_1]
  · isplitr; · iexact HR
    isplitl [Hc1_1]; · iexact Hc1_1
    isplitl [HO]; · iexact HO
    isplitr; · iexact Hlev
    iexact Ha1_1
  iintro ⟨HO, Ha1_1, Hsl_1⟩
  -- slot 2 lands and is read
  iapply (step_acc m ρ c (2 : Fin 15) K _ _ rfl _ _ rfl) $$ [Hc1_2 HO Ha1_2]
  · isplitr; · iexact HR
    isplitl [Hc1_2]; · iexact Hc1_2
    isplitl [HO]; · iexact HO
    isplitr; · iexact Hlev
    iexact Ha1_2
  iintro ⟨HO, Ha1_2, Hsl_2⟩
  -- slot 3 lands and is read
  iapply (step_acc m ρ c (3 : Fin 15) K _ _ rfl _ _ rfl) $$ [Hc1_3 HO Ha1_3]
  · isplitr; · iexact HR
    isplitl [Hc1_3]; · iexact Hc1_3
    isplitl [HO]; · iexact HO
    isplitr; · iexact Hlev
    iexact Ha1_3
  iintro ⟨HO, Ha1_3, Hsl_3⟩
  -- slot 4 lands and is read
  iapply (step_acc m ρ c (4 : Fin 15) K _ _ rfl _ _ rfl) $$ [Hc1_4 HO Ha1_4]
  · isplitr; · iexact HR
    isplitl [Hc1_4]; · iexact Hc1_4
    isplitl [HO]; · iexact HO
    isplitr; · iexact Hlev
    iexact Ha1_4
  iintro ⟨HO, Ha1_4, Hsl_4⟩
  -- slot 5 lands and is read
  iapply (step_acc m ρ c (5 : Fin 15) K _ _ rfl _ _ rfl) $$ [Hc1_5 HO Ha1_5]
  · isplitr; · iexact HR
    isplitl [Hc1_5]; · iexact Hc1_5
    isplitl [HO]; · iexact HO
    isplitr; · iexact Hlev
    iexact Ha1_5
  iintro ⟨HO, Ha1_5, Hsl_5⟩
  -- slot 6 lands and is read
  iapply (step_acc m ρ c (6 : Fin 15) K _ _ rfl _ _ rfl) $$ [Hc1_6 HO Ha1_6]
  · isplitr; · iexact HR
    isplitl [Hc1_6]; · iexact Hc1_6
    isplitl [HO]; · iexact HO
    isplitr; · iexact Hlev
    iexact Ha1_6
  iintro ⟨HO, Ha1_6, Hsl_6⟩
  -- slot 7 lands and is read
  iapply (step_acc m ρ c (7 : Fin 15) K _ _ rfl _ _ rfl) $$ [Hc1_7 HO Ha1_7]
  · isplitr; · iexact HR
    isplitl [Hc1_7]; · iexact Hc1_7
    isplitl [HO]; · iexact HO
    isplitr; · iexact Hlev
    iexact Ha1_7
  iintro ⟨HO, Ha1_7, Hsl_7⟩
  -- slot 8 lands and is read
  iapply (step_acc m ρ c (8 : Fin 15) K _ _ rfl _ _ rfl) $$ [Hc1_8 HO Ha1_8]
  · isplitr; · iexact HR
    isplitl [Hc1_8]; · iexact Hc1_8
    isplitl [HO]; · iexact HO
    isplitr; · iexact Hlev
    iexact Ha1_8
  iintro ⟨HO, Ha1_8, Hsl_8⟩
  -- slot 9 lands and is read
  iapply (step_acc m ρ c (9 : Fin 15) K _ _ rfl _ _ rfl) $$ [Hc1_9 HO Ha1_9]
  · isplitr; · iexact HR
    isplitl [Hc1_9]; · iexact Hc1_9
    isplitl [HO]; · iexact HO
    isplitr; · iexact Hlev
    iexact Ha1_9
  iintro ⟨HO, Ha1_9, Hsl_9⟩
  -- slot 10 lands and is read
  iapply (step_acc m ρ c (10 : Fin 15) K _ _ rfl _ _ rfl) $$ [Hc1_10 HO Ha1_10]
  · isplitr; · iexact HR
    isplitl [Hc1_10]; · iexact Hc1_10
    isplitl [HO]; · iexact HO
    isplitr; · iexact Hlev
    iexact Ha1_10
  iintro ⟨HO, Ha1_10, Hsl_10⟩
  -- slot 11 lands and is read
  iapply (step_acc m ρ c (11 : Fin 15) K _ _ rfl _ _ rfl) $$ [Hc1_11 HO Ha1_11]
  · isplitr; · iexact HR
    isplitl [Hc1_11]; · iexact Hc1_11
    isplitl [HO]; · iexact HO
    isplitr; · iexact Hlev
    iexact Ha1_11
  iintro ⟨HO, Ha1_11, Hsl_11⟩
  -- slot 12 lands and is read
  iapply (step_acc m ρ c (12 : Fin 15) K _ _ rfl _ _ rfl) $$ [Hc1_12 HO Ha1_12]
  · isplitr; · iexact HR
    isplitl [Hc1_12]; · iexact Hc1_12
    isplitl [HO]; · iexact HO
    isplitr; · iexact Hlev
    iexact Ha1_12
  iintro ⟨HO, Ha1_12, Hsl_12⟩
  -- slot 13 lands and is read
  iapply (step_acc m ρ c (13 : Fin 15) K _ _ rfl _ _ rfl) $$ [Hc1_13 HO Ha1_13]
  · isplitr; · iexact HR
    isplitl [Hc1_13]; · iexact Hc1_13
    isplitl [HO]; · iexact HO
    isplitr; · iexact Hlev
    iexact Ha1_13
  iintro ⟨HO, Ha1_13, Hsl_13⟩
  -- slot 14 lands and is read
  iapply (step_acc m ρ c (14 : Fin 15) K _ _ rfl _ _ rfl) $$ [Hc1_14 HO Ha1_14]
  · isplitr; · iexact HR
    isplitl [Hc1_14]; · iexact Hc1_14
    isplitl [HO]; · iexact HO
    isplitr; · iexact Hlev
    iexact Ha1_14
  iintro ⟨HO, Ha1_14, Hsl_14⟩
  -- the matrix is read, the product cast and stored into the device's own row block
  iapply (step_store_out m ρ c _ (k0_off3_eq c) (outPay m ρ c) (hpay_out m ρ c)) $$ [Hw HoOwn]
  · isplitl [Hw]; · iexact Hw
    iexists g2; iexact HoOwn
  iintro ⟨Hw, HoOwn⟩
  ihave Hsh := (out_shares' m ρ c) $$ HoOwn
  simp only [bigSep_fin15]
  icases Hsh with ⟨HoRem, Hsh_0, Hsh_1, Hsh_2, Hsh_3, Hsh_4, Hsh_5, Hsh_6, Hsh_7, Hsh_8, Hsh_9, Hsh_10, Hsh_11, Hsh_12, Hsh_13, Hsh_14⟩
  -- second exchange, send 0
  iapply (step_p2 m ρ c (0 : Fin 15) _ (Fin.ext (k0_dev31_eq c)) _ _ (k0_off4_eq c) (k0_off4_eq c) _ _ rfl rfl K _) $$ [Hsh_0 Hpo_0 HO Ht2_0 Ht3_0]
  · isplitr; · iexact HR
    isplitl [Hsh_0]; · iexact Hsh_0
    isplitl [Hpo_0]; · iexists gp0; iexact Hpo_0
    isplitl [HO]; · iexact HO
    isplitl [Ht2_0]; · iexact Ht2_0
    iexact Ht3_0
  iintro ⟨Hcs2_0, HO⟩
  -- second exchange, send 1
  iapply (step_p2 m ρ c (1 : Fin 15) _ (Fin.ext (k0_dev32_eq c)) _ _ (k0_off4_eq c) (k0_off4_eq c) _ _ rfl rfl K _) $$ [Hsh_1 Hpo_1 HO Ht2_1 Ht3_1]
  · isplitr; · iexact HR
    isplitl [Hsh_1]; · iexact Hsh_1
    isplitl [Hpo_1]; · iexists gp1; iexact Hpo_1
    isplitl [HO]; · iexact HO
    isplitl [Ht2_1]; · iexact Ht2_1
    iexact Ht3_1
  iintro ⟨Hcs2_1, HO⟩
  -- second exchange, send 2
  iapply (step_p2 m ρ c (2 : Fin 15) _ (Fin.ext (k0_dev33_eq c)) _ _ (k0_off4_eq c) (k0_off4_eq c) _ _ rfl rfl K _) $$ [Hsh_2 Hpo_2 HO Ht2_2 Ht3_2]
  · isplitr; · iexact HR
    isplitl [Hsh_2]; · iexact Hsh_2
    isplitl [Hpo_2]; · iexists gp2; iexact Hpo_2
    isplitl [HO]; · iexact HO
    isplitl [Ht2_2]; · iexact Ht2_2
    iexact Ht3_2
  iintro ⟨Hcs2_2, HO⟩
  -- second exchange, send 3
  iapply (step_p2 m ρ c (3 : Fin 15) _ (Fin.ext (k0_dev34_eq c)) _ _ (k0_off4_eq c) (k0_off4_eq c) _ _ rfl rfl K _) $$ [Hsh_3 Hpo_3 HO Ht2_3 Ht3_3]
  · isplitr; · iexact HR
    isplitl [Hsh_3]; · iexact Hsh_3
    isplitl [Hpo_3]; · iexists gp3; iexact Hpo_3
    isplitl [HO]; · iexact HO
    isplitl [Ht2_3]; · iexact Ht2_3
    iexact Ht3_3
  iintro ⟨Hcs2_3, HO⟩
  -- second exchange, send 4
  iapply (step_p2 m ρ c (4 : Fin 15) _ (Fin.ext (k0_dev35_eq c)) _ _ (k0_off4_eq c) (k0_off4_eq c) _ _ rfl rfl K _) $$ [Hsh_4 Hpo_4 HO Ht2_4 Ht3_4]
  · isplitr; · iexact HR
    isplitl [Hsh_4]; · iexact Hsh_4
    isplitl [Hpo_4]; · iexists gp4; iexact Hpo_4
    isplitl [HO]; · iexact HO
    isplitl [Ht2_4]; · iexact Ht2_4
    iexact Ht3_4
  iintro ⟨Hcs2_4, HO⟩
  -- second exchange, send 5
  iapply (step_p2 m ρ c (5 : Fin 15) _ (Fin.ext (k0_dev36_eq c)) _ _ (k0_off4_eq c) (k0_off4_eq c) _ _ rfl rfl K _) $$ [Hsh_5 Hpo_5 HO Ht2_5 Ht3_5]
  · isplitr; · iexact HR
    isplitl [Hsh_5]; · iexact Hsh_5
    isplitl [Hpo_5]; · iexists gp5; iexact Hpo_5
    isplitl [HO]; · iexact HO
    isplitl [Ht2_5]; · iexact Ht2_5
    iexact Ht3_5
  iintro ⟨Hcs2_5, HO⟩
  -- second exchange, send 6
  iapply (step_p2 m ρ c (6 : Fin 15) _ (Fin.ext (k0_dev37_eq c)) _ _ (k0_off4_eq c) (k0_off4_eq c) _ _ rfl rfl K _) $$ [Hsh_6 Hpo_6 HO Ht2_6 Ht3_6]
  · isplitr; · iexact HR
    isplitl [Hsh_6]; · iexact Hsh_6
    isplitl [Hpo_6]; · iexists gp6; iexact Hpo_6
    isplitl [HO]; · iexact HO
    isplitl [Ht2_6]; · iexact Ht2_6
    iexact Ht3_6
  iintro ⟨Hcs2_6, HO⟩
  -- second exchange, send 7
  iapply (step_p2 m ρ c (7 : Fin 15) _ (Fin.ext (k0_dev38_eq c)) _ _ (k0_off4_eq c) (k0_off4_eq c) _ _ rfl rfl K _) $$ [Hsh_7 Hpo_7 HO Ht2_7 Ht3_7]
  · isplitr; · iexact HR
    isplitl [Hsh_7]; · iexact Hsh_7
    isplitl [Hpo_7]; · iexists gp7; iexact Hpo_7
    isplitl [HO]; · iexact HO
    isplitl [Ht2_7]; · iexact Ht2_7
    iexact Ht3_7
  iintro ⟨Hcs2_7, HO⟩
  -- second exchange, send 8
  iapply (step_p2 m ρ c (8 : Fin 15) _ (Fin.ext (k0_dev39_eq c)) _ _ (k0_off4_eq c) (k0_off4_eq c) _ _ rfl rfl K _) $$ [Hsh_8 Hpo_8 HO Ht2_8 Ht3_8]
  · isplitr; · iexact HR
    isplitl [Hsh_8]; · iexact Hsh_8
    isplitl [Hpo_8]; · iexists gp8; iexact Hpo_8
    isplitl [HO]; · iexact HO
    isplitl [Ht2_8]; · iexact Ht2_8
    iexact Ht3_8
  iintro ⟨Hcs2_8, HO⟩
  -- second exchange, send 9
  iapply (step_p2 m ρ c (9 : Fin 15) _ (Fin.ext (k0_dev40_eq c)) _ _ (k0_off4_eq c) (k0_off4_eq c) _ _ rfl rfl K _) $$ [Hsh_9 Hpo_9 HO Ht2_9 Ht3_9]
  · isplitr; · iexact HR
    isplitl [Hsh_9]; · iexact Hsh_9
    isplitl [Hpo_9]; · iexists gp9; iexact Hpo_9
    isplitl [HO]; · iexact HO
    isplitl [Ht2_9]; · iexact Ht2_9
    iexact Ht3_9
  iintro ⟨Hcs2_9, HO⟩
  -- second exchange, send 10
  iapply (step_p2 m ρ c (10 : Fin 15) _ (Fin.ext (k0_dev41_eq c)) _ _ (k0_off4_eq c) (k0_off4_eq c) _ _ rfl rfl K _) $$ [Hsh_10 Hpo_10 HO Ht2_10 Ht3_10]
  · isplitr; · iexact HR
    isplitl [Hsh_10]; · iexact Hsh_10
    isplitl [Hpo_10]; · iexists gp10; iexact Hpo_10
    isplitl [HO]; · iexact HO
    isplitl [Ht2_10]; · iexact Ht2_10
    iexact Ht3_10
  iintro ⟨Hcs2_10, HO⟩
  -- second exchange, send 11
  iapply (step_p2 m ρ c (11 : Fin 15) _ (Fin.ext (k0_dev42_eq c)) _ _ (k0_off4_eq c) (k0_off4_eq c) _ _ rfl rfl K _) $$ [Hsh_11 Hpo_11 HO Ht2_11 Ht3_11]
  · isplitr; · iexact HR
    isplitl [Hsh_11]; · iexact Hsh_11
    isplitl [Hpo_11]; · iexists gp11; iexact Hpo_11
    isplitl [HO]; · iexact HO
    isplitl [Ht2_11]; · iexact Ht2_11
    iexact Ht3_11
  iintro ⟨Hcs2_11, HO⟩
  -- second exchange, send 12
  iapply (step_p2 m ρ c (12 : Fin 15) _ (Fin.ext (k0_dev43_eq c)) _ _ (k0_off4_eq c) (k0_off4_eq c) _ _ rfl rfl K _) $$ [Hsh_12 Hpo_12 HO Ht2_12 Ht3_12]
  · isplitr; · iexact HR
    isplitl [Hsh_12]; · iexact Hsh_12
    isplitl [Hpo_12]; · iexists gp12; iexact Hpo_12
    isplitl [HO]; · iexact HO
    isplitl [Ht2_12]; · iexact Ht2_12
    iexact Ht3_12
  iintro ⟨Hcs2_12, HO⟩
  -- second exchange, send 13
  iapply (step_p2 m ρ c (13 : Fin 15) _ (Fin.ext (k0_dev44_eq c)) _ _ (k0_off4_eq c) (k0_off4_eq c) _ _ rfl rfl K _) $$ [Hsh_13 Hpo_13 HO Ht2_13 Ht3_13]
  · isplitr; · iexact HR
    isplitl [Hsh_13]; · iexact Hsh_13
    isplitl [Hpo_13]; · iexists gp13; iexact Hpo_13
    isplitl [HO]; · iexact HO
    isplitl [Ht2_13]; · iexact Ht2_13
    iexact Ht3_13
  iintro ⟨Hcs2_13, HO⟩
  -- second exchange, send 14
  iapply (step_p2 m ρ c (14 : Fin 15) _ (Fin.ext (k0_dev45_eq c)) _ _ (k0_off4_eq c) (k0_off4_eq c) _ _ rfl rfl K _) $$ [Hsh_14 Hpo_14 HO Ht2_14 Ht3_14]
  · isplitr; · iexact HR
    isplitl [Hsh_14]; · iexact Hsh_14
    isplitl [Hpo_14]; · iexists gp14; iexact Hpo_14
    isplitl [HO]; · iexact HO
    isplitl [Ht2_14]; · iexact Ht2_14
    iexact Ht3_14
  iintro ⟨Hcs2_14, HO⟩
  -- second exchange, receive 0
  iapply (step_wait_r2 m ρ c (0 : Fin 15) K _ _ rfl _ _) $$ [Hc3_0 HO Ha3_0]
  · isplitr; · iexact HR
    isplitl [Hc3_0]; · iexact Hc3_0
    isplitl [HO]; · iexact HO
    iexact Ha3_0
  iintro ⟨HO, Ha3_0, Hor_0⟩
  -- second exchange, receive 1
  iapply (step_wait_r2 m ρ c (1 : Fin 15) K _ _ rfl _ _) $$ [Hc3_1 HO Ha3_1]
  · isplitr; · iexact HR
    isplitl [Hc3_1]; · iexact Hc3_1
    isplitl [HO]; · iexact HO
    iexact Ha3_1
  iintro ⟨HO, Ha3_1, Hor_1⟩
  -- second exchange, receive 2
  iapply (step_wait_r2 m ρ c (2 : Fin 15) K _ _ rfl _ _) $$ [Hc3_2 HO Ha3_2]
  · isplitr; · iexact HR
    isplitl [Hc3_2]; · iexact Hc3_2
    isplitl [HO]; · iexact HO
    iexact Ha3_2
  iintro ⟨HO, Ha3_2, Hor_2⟩
  -- second exchange, receive 3
  iapply (step_wait_r2 m ρ c (3 : Fin 15) K _ _ rfl _ _) $$ [Hc3_3 HO Ha3_3]
  · isplitr; · iexact HR
    isplitl [Hc3_3]; · iexact Hc3_3
    isplitl [HO]; · iexact HO
    iexact Ha3_3
  iintro ⟨HO, Ha3_3, Hor_3⟩
  -- second exchange, receive 4
  iapply (step_wait_r2 m ρ c (4 : Fin 15) K _ _ rfl _ _) $$ [Hc3_4 HO Ha3_4]
  · isplitr; · iexact HR
    isplitl [Hc3_4]; · iexact Hc3_4
    isplitl [HO]; · iexact HO
    iexact Ha3_4
  iintro ⟨HO, Ha3_4, Hor_4⟩
  -- second exchange, receive 5
  iapply (step_wait_r2 m ρ c (5 : Fin 15) K _ _ rfl _ _) $$ [Hc3_5 HO Ha3_5]
  · isplitr; · iexact HR
    isplitl [Hc3_5]; · iexact Hc3_5
    isplitl [HO]; · iexact HO
    iexact Ha3_5
  iintro ⟨HO, Ha3_5, Hor_5⟩
  -- second exchange, receive 6
  iapply (step_wait_r2 m ρ c (6 : Fin 15) K _ _ rfl _ _) $$ [Hc3_6 HO Ha3_6]
  · isplitr; · iexact HR
    isplitl [Hc3_6]; · iexact Hc3_6
    isplitl [HO]; · iexact HO
    iexact Ha3_6
  iintro ⟨HO, Ha3_6, Hor_6⟩
  -- second exchange, receive 7
  iapply (step_wait_r2 m ρ c (7 : Fin 15) K _ _ rfl _ _) $$ [Hc3_7 HO Ha3_7]
  · isplitr; · iexact HR
    isplitl [Hc3_7]; · iexact Hc3_7
    isplitl [HO]; · iexact HO
    iexact Ha3_7
  iintro ⟨HO, Ha3_7, Hor_7⟩
  -- second exchange, receive 8
  iapply (step_wait_r2 m ρ c (8 : Fin 15) K _ _ rfl _ _) $$ [Hc3_8 HO Ha3_8]
  · isplitr; · iexact HR
    isplitl [Hc3_8]; · iexact Hc3_8
    isplitl [HO]; · iexact HO
    iexact Ha3_8
  iintro ⟨HO, Ha3_8, Hor_8⟩
  -- second exchange, receive 9
  iapply (step_wait_r2 m ρ c (9 : Fin 15) K _ _ rfl _ _) $$ [Hc3_9 HO Ha3_9]
  · isplitr; · iexact HR
    isplitl [Hc3_9]; · iexact Hc3_9
    isplitl [HO]; · iexact HO
    iexact Ha3_9
  iintro ⟨HO, Ha3_9, Hor_9⟩
  -- second exchange, receive 10
  iapply (step_wait_r2 m ρ c (10 : Fin 15) K _ _ rfl _ _) $$ [Hc3_10 HO Ha3_10]
  · isplitr; · iexact HR
    isplitl [Hc3_10]; · iexact Hc3_10
    isplitl [HO]; · iexact HO
    iexact Ha3_10
  iintro ⟨HO, Ha3_10, Hor_10⟩
  -- second exchange, receive 11
  iapply (step_wait_r2 m ρ c (11 : Fin 15) K _ _ rfl _ _) $$ [Hc3_11 HO Ha3_11]
  · isplitr; · iexact HR
    isplitl [Hc3_11]; · iexact Hc3_11
    isplitl [HO]; · iexact HO
    iexact Ha3_11
  iintro ⟨HO, Ha3_11, Hor_11⟩
  -- second exchange, receive 12
  iapply (step_wait_r2 m ρ c (12 : Fin 15) K _ _ rfl _ _) $$ [Hc3_12 HO Ha3_12]
  · isplitr; · iexact HR
    isplitl [Hc3_12]; · iexact Hc3_12
    isplitl [HO]; · iexact HO
    iexact Ha3_12
  iintro ⟨HO, Ha3_12, Hor_12⟩
  -- second exchange, receive 13
  iapply (step_wait_r2 m ρ c (13 : Fin 15) K _ _ rfl _ _) $$ [Hc3_13 HO Ha3_13]
  · isplitr; · iexact HR
    isplitl [Hc3_13]; · iexact Hc3_13
    isplitl [HO]; · iexact HO
    iexact Ha3_13
  iintro ⟨HO, Ha3_13, Hor_13⟩
  -- second exchange, receive 14
  iapply (step_wait_r2 m ρ c (14 : Fin 15) K _ _ rfl _ _) $$ [Hc3_14 HO Ha3_14]
  · isplitr; · iexact HR
    isplitl [Hc3_14]; · iexact Hc3_14
    isplitl [HO]; · iexact HO
    iexact Ha3_14
  iintro ⟨HO, Ha3_14, Hor_14⟩
  -- the two sends of 0 are over
  iapply (step_wait_s1 m ρ c (0 : Fin 15) K _ _ rfl _ _) $$ [Hcs0_0 HO Ha0_0]
  · isplitr; · iexact HR
    isplitl [Hcs0_0]; · iexact Hcs0_0
    isplitl [HO]; · iexact HO
    iexact Ha0_0
  iintro ⟨HO, Ha0_0, Htb_0⟩
  iapply (step_wait_s2 m ρ c (0 : Fin 15) K _ _ rfl _ _) $$ [Hcs2_0 HO Ha2_0]
  · isplitr; · iexact HR
    isplitl [Hcs2_0]; · iexact Hcs2_0
    isplitl [HO]; · iexact HO
    iexact Ha2_0
  iintro ⟨HO, Ha2_0, Hsh_0⟩
  -- the two sends of 1 are over
  iapply (step_wait_s1 m ρ c (1 : Fin 15) K _ _ rfl _ _) $$ [Hcs0_1 HO Ha0_1]
  · isplitr; · iexact HR
    isplitl [Hcs0_1]; · iexact Hcs0_1
    isplitl [HO]; · iexact HO
    iexact Ha0_1
  iintro ⟨HO, Ha0_1, Htb_1⟩
  iapply (step_wait_s2 m ρ c (1 : Fin 15) K _ _ rfl _ _) $$ [Hcs2_1 HO Ha2_1]
  · isplitr; · iexact HR
    isplitl [Hcs2_1]; · iexact Hcs2_1
    isplitl [HO]; · iexact HO
    iexact Ha2_1
  iintro ⟨HO, Ha2_1, Hsh_1⟩
  -- the two sends of 2 are over
  iapply (step_wait_s1 m ρ c (2 : Fin 15) K _ _ rfl _ _) $$ [Hcs0_2 HO Ha0_2]
  · isplitr; · iexact HR
    isplitl [Hcs0_2]; · iexact Hcs0_2
    isplitl [HO]; · iexact HO
    iexact Ha0_2
  iintro ⟨HO, Ha0_2, Htb_2⟩
  iapply (step_wait_s2 m ρ c (2 : Fin 15) K _ _ rfl _ _) $$ [Hcs2_2 HO Ha2_2]
  · isplitr; · iexact HR
    isplitl [Hcs2_2]; · iexact Hcs2_2
    isplitl [HO]; · iexact HO
    iexact Ha2_2
  iintro ⟨HO, Ha2_2, Hsh_2⟩
  -- the two sends of 3 are over
  iapply (step_wait_s1 m ρ c (3 : Fin 15) K _ _ rfl _ _) $$ [Hcs0_3 HO Ha0_3]
  · isplitr; · iexact HR
    isplitl [Hcs0_3]; · iexact Hcs0_3
    isplitl [HO]; · iexact HO
    iexact Ha0_3
  iintro ⟨HO, Ha0_3, Htb_3⟩
  iapply (step_wait_s2 m ρ c (3 : Fin 15) K _ _ rfl _ _) $$ [Hcs2_3 HO Ha2_3]
  · isplitr; · iexact HR
    isplitl [Hcs2_3]; · iexact Hcs2_3
    isplitl [HO]; · iexact HO
    iexact Ha2_3
  iintro ⟨HO, Ha2_3, Hsh_3⟩
  -- the two sends of 4 are over
  iapply (step_wait_s1 m ρ c (4 : Fin 15) K _ _ rfl _ _) $$ [Hcs0_4 HO Ha0_4]
  · isplitr; · iexact HR
    isplitl [Hcs0_4]; · iexact Hcs0_4
    isplitl [HO]; · iexact HO
    iexact Ha0_4
  iintro ⟨HO, Ha0_4, Htb_4⟩
  iapply (step_wait_s2 m ρ c (4 : Fin 15) K _ _ rfl _ _) $$ [Hcs2_4 HO Ha2_4]
  · isplitr; · iexact HR
    isplitl [Hcs2_4]; · iexact Hcs2_4
    isplitl [HO]; · iexact HO
    iexact Ha2_4
  iintro ⟨HO, Ha2_4, Hsh_4⟩
  -- the two sends of 5 are over
  iapply (step_wait_s1 m ρ c (5 : Fin 15) K _ _ rfl _ _) $$ [Hcs0_5 HO Ha0_5]
  · isplitr; · iexact HR
    isplitl [Hcs0_5]; · iexact Hcs0_5
    isplitl [HO]; · iexact HO
    iexact Ha0_5
  iintro ⟨HO, Ha0_5, Htb_5⟩
  iapply (step_wait_s2 m ρ c (5 : Fin 15) K _ _ rfl _ _) $$ [Hcs2_5 HO Ha2_5]
  · isplitr; · iexact HR
    isplitl [Hcs2_5]; · iexact Hcs2_5
    isplitl [HO]; · iexact HO
    iexact Ha2_5
  iintro ⟨HO, Ha2_5, Hsh_5⟩
  -- the two sends of 6 are over
  iapply (step_wait_s1 m ρ c (6 : Fin 15) K _ _ rfl _ _) $$ [Hcs0_6 HO Ha0_6]
  · isplitr; · iexact HR
    isplitl [Hcs0_6]; · iexact Hcs0_6
    isplitl [HO]; · iexact HO
    iexact Ha0_6
  iintro ⟨HO, Ha0_6, Htb_6⟩
  iapply (step_wait_s2 m ρ c (6 : Fin 15) K _ _ rfl _ _) $$ [Hcs2_6 HO Ha2_6]
  · isplitr; · iexact HR
    isplitl [Hcs2_6]; · iexact Hcs2_6
    isplitl [HO]; · iexact HO
    iexact Ha2_6
  iintro ⟨HO, Ha2_6, Hsh_6⟩
  -- the two sends of 7 are over
  iapply (step_wait_s1 m ρ c (7 : Fin 15) K _ _ rfl _ _) $$ [Hcs0_7 HO Ha0_7]
  · isplitr; · iexact HR
    isplitl [Hcs0_7]; · iexact Hcs0_7
    isplitl [HO]; · iexact HO
    iexact Ha0_7
  iintro ⟨HO, Ha0_7, Htb_7⟩
  iapply (step_wait_s2 m ρ c (7 : Fin 15) K _ _ rfl _ _) $$ [Hcs2_7 HO Ha2_7]
  · isplitr; · iexact HR
    isplitl [Hcs2_7]; · iexact Hcs2_7
    isplitl [HO]; · iexact HO
    iexact Ha2_7
  iintro ⟨HO, Ha2_7, Hsh_7⟩
  -- the two sends of 8 are over
  iapply (step_wait_s1 m ρ c (8 : Fin 15) K _ _ rfl _ _) $$ [Hcs0_8 HO Ha0_8]
  · isplitr; · iexact HR
    isplitl [Hcs0_8]; · iexact Hcs0_8
    isplitl [HO]; · iexact HO
    iexact Ha0_8
  iintro ⟨HO, Ha0_8, Htb_8⟩
  iapply (step_wait_s2 m ρ c (8 : Fin 15) K _ _ rfl _ _) $$ [Hcs2_8 HO Ha2_8]
  · isplitr; · iexact HR
    isplitl [Hcs2_8]; · iexact Hcs2_8
    isplitl [HO]; · iexact HO
    iexact Ha2_8
  iintro ⟨HO, Ha2_8, Hsh_8⟩
  -- the two sends of 9 are over
  iapply (step_wait_s1 m ρ c (9 : Fin 15) K _ _ rfl _ _) $$ [Hcs0_9 HO Ha0_9]
  · isplitr; · iexact HR
    isplitl [Hcs0_9]; · iexact Hcs0_9
    isplitl [HO]; · iexact HO
    iexact Ha0_9
  iintro ⟨HO, Ha0_9, Htb_9⟩
  iapply (step_wait_s2 m ρ c (9 : Fin 15) K _ _ rfl _ _) $$ [Hcs2_9 HO Ha2_9]
  · isplitr; · iexact HR
    isplitl [Hcs2_9]; · iexact Hcs2_9
    isplitl [HO]; · iexact HO
    iexact Ha2_9
  iintro ⟨HO, Ha2_9, Hsh_9⟩
  -- the two sends of 10 are over
  iapply (step_wait_s1 m ρ c (10 : Fin 15) K _ _ rfl _ _) $$ [Hcs0_10 HO Ha0_10]
  · isplitr; · iexact HR
    isplitl [Hcs0_10]; · iexact Hcs0_10
    isplitl [HO]; · iexact HO
    iexact Ha0_10
  iintro ⟨HO, Ha0_10, Htb_10⟩
  iapply (step_wait_s2 m ρ c (10 : Fin 15) K _ _ rfl _ _) $$ [Hcs2_10 HO Ha2_10]
  · isplitr; · iexact HR
    isplitl [Hcs2_10]; · iexact Hcs2_10
    isplitl [HO]; · iexact HO
    iexact Ha2_10
  iintro ⟨HO, Ha2_10, Hsh_10⟩
  -- the two sends of 11 are over
  iapply (step_wait_s1 m ρ c (11 : Fin 15) K _ _ rfl _ _) $$ [Hcs0_11 HO Ha0_11]
  · isplitr; · iexact HR
    isplitl [Hcs0_11]; · iexact Hcs0_11
    isplitl [HO]; · iexact HO
    iexact Ha0_11
  iintro ⟨HO, Ha0_11, Htb_11⟩
  iapply (step_wait_s2 m ρ c (11 : Fin 15) K _ _ rfl _ _) $$ [Hcs2_11 HO Ha2_11]
  · isplitr; · iexact HR
    isplitl [Hcs2_11]; · iexact Hcs2_11
    isplitl [HO]; · iexact HO
    iexact Ha2_11
  iintro ⟨HO, Ha2_11, Hsh_11⟩
  -- the two sends of 12 are over
  iapply (step_wait_s1 m ρ c (12 : Fin 15) K _ _ rfl _ _) $$ [Hcs0_12 HO Ha0_12]
  · isplitr; · iexact HR
    isplitl [Hcs0_12]; · iexact Hcs0_12
    isplitl [HO]; · iexact HO
    iexact Ha0_12
  iintro ⟨HO, Ha0_12, Htb_12⟩
  iapply (step_wait_s2 m ρ c (12 : Fin 15) K _ _ rfl _ _) $$ [Hcs2_12 HO Ha2_12]
  · isplitr; · iexact HR
    isplitl [Hcs2_12]; · iexact Hcs2_12
    isplitl [HO]; · iexact HO
    iexact Ha2_12
  iintro ⟨HO, Ha2_12, Hsh_12⟩
  -- the two sends of 13 are over
  iapply (step_wait_s1 m ρ c (13 : Fin 15) K _ _ rfl _ _) $$ [Hcs0_13 HO Ha0_13]
  · isplitr; · iexact HR
    isplitl [Hcs0_13]; · iexact Hcs0_13
    isplitl [HO]; · iexact HO
    iexact Ha0_13
  iintro ⟨HO, Ha0_13, Htb_13⟩
  iapply (step_wait_s2 m ρ c (13 : Fin 15) K _ _ rfl _ _) $$ [Hcs2_13 HO Ha2_13]
  · isplitr; · iexact HR
    isplitl [Hcs2_13]; · iexact Hcs2_13
    isplitl [HO]; · iexact HO
    iexact Ha2_13
  iintro ⟨HO, Ha2_13, Hsh_13⟩
  -- the two sends of 14 are over
  iapply (step_wait_s1 m ρ c (14 : Fin 15) K _ _ rfl _ _) $$ [Hcs0_14 HO Ha0_14]
  · isplitr; · iexact HR
    isplitl [Hcs0_14]; · iexact Hcs0_14
    isplitl [HO]; · iexact HO
    iexact Ha0_14
  iintro ⟨HO, Ha0_14, Htb_14⟩
  iapply (step_wait_s2 m ρ c (14 : Fin 15) K _ _ rfl _ _) $$ [Hcs2_14 HO Ha2_14]
  · isplitr; · iexact HR
    isplitl [Hcs2_14]; · iexact Hcs2_14
    isplitl [HO]; · iexact HO
    iexact Ha2_14
  iintro ⟨HO, Ha2_14, Hsh_14⟩
  imod (close_x m ρ c (0 : Fin 4) (0 : Fin 15) K) $$ [Ha0_0] with Hz0_0
  · isplitr; · iexact HR
    iexact Ha0_0
  imod (close_x m ρ c (0 : Fin 4) (1 : Fin 15) K) $$ [Ha0_1] with Hz0_1
  · isplitr; · iexact HR
    iexact Ha0_1
  imod (close_x m ρ c (0 : Fin 4) (2 : Fin 15) K) $$ [Ha0_2] with Hz0_2
  · isplitr; · iexact HR
    iexact Ha0_2
  imod (close_x m ρ c (0 : Fin 4) (3 : Fin 15) K) $$ [Ha0_3] with Hz0_3
  · isplitr; · iexact HR
    iexact Ha0_3
  imod (close_x m ρ c (0 : Fin 4) (4 : Fin 15) K) $$ [Ha0_4] with Hz0_4
  · isplitr; · iexact HR
    iexact Ha0_4
  imod (close_x m ρ c (0 : Fin 4) (5 : Fin 15) K) $$ [Ha0_5] with Hz0_5
  · isplitr; · iexact HR
    iexact Ha0_5
  imod (close_x m ρ c (0 : Fin 4) (6 : Fin 15) K) $$ [Ha0_6] with Hz0_6
  · isplitr; · iexact HR
    iexact Ha0_6
  imod (close_x m ρ c (0 : Fin 4) (7 : Fin 15) K) $$ [Ha0_7] with Hz0_7
  · isplitr; · iexact HR
    iexact Ha0_7
  imod (close_x m ρ c (0 : Fin 4) (8 : Fin 15) K) $$ [Ha0_8] with Hz0_8
  · isplitr; · iexact HR
    iexact Ha0_8
  imod (close_x m ρ c (0 : Fin 4) (9 : Fin 15) K) $$ [Ha0_9] with Hz0_9
  · isplitr; · iexact HR
    iexact Ha0_9
  imod (close_x m ρ c (0 : Fin 4) (10 : Fin 15) K) $$ [Ha0_10] with Hz0_10
  · isplitr; · iexact HR
    iexact Ha0_10
  imod (close_x m ρ c (0 : Fin 4) (11 : Fin 15) K) $$ [Ha0_11] with Hz0_11
  · isplitr; · iexact HR
    iexact Ha0_11
  imod (close_x m ρ c (0 : Fin 4) (12 : Fin 15) K) $$ [Ha0_12] with Hz0_12
  · isplitr; · iexact HR
    iexact Ha0_12
  imod (close_x m ρ c (0 : Fin 4) (13 : Fin 15) K) $$ [Ha0_13] with Hz0_13
  · isplitr; · iexact HR
    iexact Ha0_13
  imod (close_x m ρ c (0 : Fin 4) (14 : Fin 15) K) $$ [Ha0_14] with Hz0_14
  · isplitr; · iexact HR
    iexact Ha0_14
  imod (close_x m ρ c (1 : Fin 4) (0 : Fin 15) K) $$ [Ha1_0] with Hz1_0
  · isplitr; · iexact HR
    iexact Ha1_0
  imod (close_x m ρ c (1 : Fin 4) (1 : Fin 15) K) $$ [Ha1_1] with Hz1_1
  · isplitr; · iexact HR
    iexact Ha1_1
  imod (close_x m ρ c (1 : Fin 4) (2 : Fin 15) K) $$ [Ha1_2] with Hz1_2
  · isplitr; · iexact HR
    iexact Ha1_2
  imod (close_x m ρ c (1 : Fin 4) (3 : Fin 15) K) $$ [Ha1_3] with Hz1_3
  · isplitr; · iexact HR
    iexact Ha1_3
  imod (close_x m ρ c (1 : Fin 4) (4 : Fin 15) K) $$ [Ha1_4] with Hz1_4
  · isplitr; · iexact HR
    iexact Ha1_4
  imod (close_x m ρ c (1 : Fin 4) (5 : Fin 15) K) $$ [Ha1_5] with Hz1_5
  · isplitr; · iexact HR
    iexact Ha1_5
  imod (close_x m ρ c (1 : Fin 4) (6 : Fin 15) K) $$ [Ha1_6] with Hz1_6
  · isplitr; · iexact HR
    iexact Ha1_6
  imod (close_x m ρ c (1 : Fin 4) (7 : Fin 15) K) $$ [Ha1_7] with Hz1_7
  · isplitr; · iexact HR
    iexact Ha1_7
  imod (close_x m ρ c (1 : Fin 4) (8 : Fin 15) K) $$ [Ha1_8] with Hz1_8
  · isplitr; · iexact HR
    iexact Ha1_8
  imod (close_x m ρ c (1 : Fin 4) (9 : Fin 15) K) $$ [Ha1_9] with Hz1_9
  · isplitr; · iexact HR
    iexact Ha1_9
  imod (close_x m ρ c (1 : Fin 4) (10 : Fin 15) K) $$ [Ha1_10] with Hz1_10
  · isplitr; · iexact HR
    iexact Ha1_10
  imod (close_x m ρ c (1 : Fin 4) (11 : Fin 15) K) $$ [Ha1_11] with Hz1_11
  · isplitr; · iexact HR
    iexact Ha1_11
  imod (close_x m ρ c (1 : Fin 4) (12 : Fin 15) K) $$ [Ha1_12] with Hz1_12
  · isplitr; · iexact HR
    iexact Ha1_12
  imod (close_x m ρ c (1 : Fin 4) (13 : Fin 15) K) $$ [Ha1_13] with Hz1_13
  · isplitr; · iexact HR
    iexact Ha1_13
  imod (close_x m ρ c (1 : Fin 4) (14 : Fin 15) K) $$ [Ha1_14] with Hz1_14
  · isplitr; · iexact HR
    iexact Ha1_14
  imod (close_x m ρ c (2 : Fin 4) (0 : Fin 15) K) $$ [Ha2_0] with Hz2_0
  · isplitr; · iexact HR
    iexact Ha2_0
  imod (close_x m ρ c (2 : Fin 4) (1 : Fin 15) K) $$ [Ha2_1] with Hz2_1
  · isplitr; · iexact HR
    iexact Ha2_1
  imod (close_x m ρ c (2 : Fin 4) (2 : Fin 15) K) $$ [Ha2_2] with Hz2_2
  · isplitr; · iexact HR
    iexact Ha2_2
  imod (close_x m ρ c (2 : Fin 4) (3 : Fin 15) K) $$ [Ha2_3] with Hz2_3
  · isplitr; · iexact HR
    iexact Ha2_3
  imod (close_x m ρ c (2 : Fin 4) (4 : Fin 15) K) $$ [Ha2_4] with Hz2_4
  · isplitr; · iexact HR
    iexact Ha2_4
  imod (close_x m ρ c (2 : Fin 4) (5 : Fin 15) K) $$ [Ha2_5] with Hz2_5
  · isplitr; · iexact HR
    iexact Ha2_5
  imod (close_x m ρ c (2 : Fin 4) (6 : Fin 15) K) $$ [Ha2_6] with Hz2_6
  · isplitr; · iexact HR
    iexact Ha2_6
  imod (close_x m ρ c (2 : Fin 4) (7 : Fin 15) K) $$ [Ha2_7] with Hz2_7
  · isplitr; · iexact HR
    iexact Ha2_7
  imod (close_x m ρ c (2 : Fin 4) (8 : Fin 15) K) $$ [Ha2_8] with Hz2_8
  · isplitr; · iexact HR
    iexact Ha2_8
  imod (close_x m ρ c (2 : Fin 4) (9 : Fin 15) K) $$ [Ha2_9] with Hz2_9
  · isplitr; · iexact HR
    iexact Ha2_9
  imod (close_x m ρ c (2 : Fin 4) (10 : Fin 15) K) $$ [Ha2_10] with Hz2_10
  · isplitr; · iexact HR
    iexact Ha2_10
  imod (close_x m ρ c (2 : Fin 4) (11 : Fin 15) K) $$ [Ha2_11] with Hz2_11
  · isplitr; · iexact HR
    iexact Ha2_11
  imod (close_x m ρ c (2 : Fin 4) (12 : Fin 15) K) $$ [Ha2_12] with Hz2_12
  · isplitr; · iexact HR
    iexact Ha2_12
  imod (close_x m ρ c (2 : Fin 4) (13 : Fin 15) K) $$ [Ha2_13] with Hz2_13
  · isplitr; · iexact HR
    iexact Ha2_13
  imod (close_x m ρ c (2 : Fin 4) (14 : Fin 15) K) $$ [Ha2_14] with Hz2_14
  · isplitr; · iexact HR
    iexact Ha2_14
  imod (close_x m ρ c (3 : Fin 4) (0 : Fin 15) K) $$ [Ha3_0] with Hz3_0
  · isplitr; · iexact HR
    iexact Ha3_0
  imod (close_x m ρ c (3 : Fin 4) (1 : Fin 15) K) $$ [Ha3_1] with Hz3_1
  · isplitr; · iexact HR
    iexact Ha3_1
  imod (close_x m ρ c (3 : Fin 4) (2 : Fin 15) K) $$ [Ha3_2] with Hz3_2
  · isplitr; · iexact HR
    iexact Ha3_2
  imod (close_x m ρ c (3 : Fin 4) (3 : Fin 15) K) $$ [Ha3_3] with Hz3_3
  · isplitr; · iexact HR
    iexact Ha3_3
  imod (close_x m ρ c (3 : Fin 4) (4 : Fin 15) K) $$ [Ha3_4] with Hz3_4
  · isplitr; · iexact HR
    iexact Ha3_4
  imod (close_x m ρ c (3 : Fin 4) (5 : Fin 15) K) $$ [Ha3_5] with Hz3_5
  · isplitr; · iexact HR
    iexact Ha3_5
  imod (close_x m ρ c (3 : Fin 4) (6 : Fin 15) K) $$ [Ha3_6] with Hz3_6
  · isplitr; · iexact HR
    iexact Ha3_6
  imod (close_x m ρ c (3 : Fin 4) (7 : Fin 15) K) $$ [Ha3_7] with Hz3_7
  · isplitr; · iexact HR
    iexact Ha3_7
  imod (close_x m ρ c (3 : Fin 4) (8 : Fin 15) K) $$ [Ha3_8] with Hz3_8
  · isplitr; · iexact HR
    iexact Ha3_8
  imod (close_x m ρ c (3 : Fin 4) (9 : Fin 15) K) $$ [Ha3_9] with Hz3_9
  · isplitr; · iexact HR
    iexact Ha3_9
  imod (close_x m ρ c (3 : Fin 4) (10 : Fin 15) K) $$ [Ha3_10] with Hz3_10
  · isplitr; · iexact HR
    iexact Ha3_10
  imod (close_x m ρ c (3 : Fin 4) (11 : Fin 15) K) $$ [Ha3_11] with Hz3_11
  · isplitr; · iexact HR
    iexact Ha3_11
  imod (close_x m ρ c (3 : Fin 4) (12 : Fin 15) K) $$ [Ha3_12] with Hz3_12
  · isplitr; · iexact HR
    iexact Ha3_12
  imod (close_x m ρ c (3 : Fin 4) (13 : Fin 15) K) $$ [Ha3_13] with Hz3_13
  · isplitr; · iexact HR
    iexact Ha3_13
  imod (close_x m ρ c (3 : Fin 4) (14 : Fin 15) K) $$ [Ha3_14] with Hz3_14
  · isplitr; · iexact HR
    iexact Ha3_14
  rw [wp_ret]; imodintro
  rw [owedFrom_end]
  iapply Hk
  unfold bodyPost Φ₁ Dat.owesAt Pipeline.owesWithin
  rw [show (dats m ρ 0 c).owed t₀.succ = 0 from rfl]
  isplitl [HtbOwn Htb_0 Htb_1 Htb_2 Htb_3 Htb_4 Htb_5 Htb_6 Htb_7 Htb_8 Htb_9 Htb_10 Htb_11 Htb_12 Htb_13 Htb_14 Hsl_0 Hsl_1 Hsl_2 Hsl_3 Hsl_4 Hsl_5 Hsl_6 Hsl_7 Hsl_8 Hsl_9 Hsl_10 Hsl_11 Hsl_12 Hsl_13 Hsl_14 Hz0_0 Hz0_1 Hz0_2 Hz0_3 Hz0_4 Hz0_5 Hz0_6 Hz0_7 Hz0_8 Hz0_9 Hz0_10 Hz0_11 Hz0_12 Hz0_13 Hz0_14 Hz1_0 Hz1_1 Hz1_2 Hz1_3 Hz1_4 Hz1_5 Hz1_6 Hz1_7 Hz1_8 Hz1_9 Hz1_10 Hz1_11 Hz1_12 Hz1_13 Hz1_14 Hz2_0 Hz2_1 Hz2_2 Hz2_3 Hz2_4 Hz2_5 Hz2_6 Hz2_7 Hz2_8 Hz2_9 Hz2_10 Hz2_11 Hz2_12 Hz2_13 Hz2_14 Hz3_0 Hz3_1 Hz3_2 Hz3_3 Hz3_4 Hz3_5 Hz3_6 Hz3_7 Hz3_8 Hz3_9 Hz3_10 Hz3_11 Hz3_12 Hz3_13 Hz3_14]
  · isplitl [HtbOwn Htb_0 Htb_1 Htb_2 Htb_3 Htb_4 Htb_5 Htb_6 Htb_7 Htb_8 Htb_9 Htb_10 Htb_11 Htb_12 Htb_13 Htb_14]
    · iapply (tb_join (Tm m ρ) c ftb)
      isplitl [HtbOwn]; · iexact HtbOwn
      simp only [bigSep_fin15]
      isplitl [Htb_0]; · iexact Htb_0
      isplitl [Htb_1]; · iexact Htb_1
      isplitl [Htb_2]; · iexact Htb_2
      isplitl [Htb_3]; · iexact Htb_3
      isplitl [Htb_4]; · iexact Htb_4
      isplitl [Htb_5]; · iexact Htb_5
      isplitl [Htb_6]; · iexact Htb_6
      isplitl [Htb_7]; · iexact Htb_7
      isplitl [Htb_8]; · iexact Htb_8
      isplitl [Htb_9]; · iexact Htb_9
      isplitl [Htb_10]; · iexact Htb_10
      isplitl [Htb_11]; · iexact Htb_11
      isplitl [Htb_12]; · iexact Htb_12
      isplitl [Htb_13]; · iexact Htb_13
      iexact Htb_14
    isplitl [Hsl_0 Hsl_1 Hsl_2 Hsl_3 Hsl_4 Hsl_5 Hsl_6 Hsl_7 Hsl_8 Hsl_9 Hsl_10 Hsl_11 Hsl_12 Hsl_13 Hsl_14]
    · iexists (stageFull (Tm m ρ) c)
      iapply (Entails.of_eq (slot_split c (stageFull (Tm m ρ) c)).symm)
      simp only [bigSep_fin15]
      isplitl [Hsl_0]; · iexact Hsl_0
      isplitl [Hsl_1]; · iexact Hsl_1
      isplitl [Hsl_2]; · iexact Hsl_2
      isplitl [Hsl_3]; · iexact Hsl_3
      isplitl [Hsl_4]; · iexact Hsl_4
      isplitl [Hsl_5]; · iexact Hsl_5
      isplitl [Hsl_6]; · iexact Hsl_6
      isplitl [Hsl_7]; · iexact Hsl_7
      isplitl [Hsl_8]; · iexact Hsl_8
      isplitl [Hsl_9]; · iexact Hsl_9
      isplitl [Hsl_10]; · iexact Hsl_10
      isplitl [Hsl_11]; · iexact Hsl_11
      isplitl [Hsl_12]; · iexact Hsl_12
      isplitl [Hsl_13]; · iexact Hsl_13
      iexact Hsl_14
    · simp only [bigSep_fam, bigSep_fin4, bigSep_fin15]
      isplitl [Hz0_0 Hz0_1 Hz0_2 Hz0_3 Hz0_4 Hz0_5 Hz0_6 Hz0_7 Hz0_8 Hz0_9 Hz0_10 Hz0_11 Hz0_12 Hz0_13 Hz0_14]
      · isplitl [Hz0_0]; · iexact Hz0_0
        isplitl [Hz0_1]; · iexact Hz0_1
        isplitl [Hz0_2]; · iexact Hz0_2
        isplitl [Hz0_3]; · iexact Hz0_3
        isplitl [Hz0_4]; · iexact Hz0_4
        isplitl [Hz0_5]; · iexact Hz0_5
        isplitl [Hz0_6]; · iexact Hz0_6
        isplitl [Hz0_7]; · iexact Hz0_7
        isplitl [Hz0_8]; · iexact Hz0_8
        isplitl [Hz0_9]; · iexact Hz0_9
        isplitl [Hz0_10]; · iexact Hz0_10
        isplitl [Hz0_11]; · iexact Hz0_11
        isplitl [Hz0_12]; · iexact Hz0_12
        isplitl [Hz0_13]; · iexact Hz0_13
        iexact Hz0_14
      isplitl [Hz1_0 Hz1_1 Hz1_2 Hz1_3 Hz1_4 Hz1_5 Hz1_6 Hz1_7 Hz1_8 Hz1_9 Hz1_10 Hz1_11 Hz1_12 Hz1_13 Hz1_14]
      · isplitl [Hz1_0]; · iexact Hz1_0
        isplitl [Hz1_1]; · iexact Hz1_1
        isplitl [Hz1_2]; · iexact Hz1_2
        isplitl [Hz1_3]; · iexact Hz1_3
        isplitl [Hz1_4]; · iexact Hz1_4
        isplitl [Hz1_5]; · iexact Hz1_5
        isplitl [Hz1_6]; · iexact Hz1_6
        isplitl [Hz1_7]; · iexact Hz1_7
        isplitl [Hz1_8]; · iexact Hz1_8
        isplitl [Hz1_9]; · iexact Hz1_9
        isplitl [Hz1_10]; · iexact Hz1_10
        isplitl [Hz1_11]; · iexact Hz1_11
        isplitl [Hz1_12]; · iexact Hz1_12
        isplitl [Hz1_13]; · iexact Hz1_13
        iexact Hz1_14
      isplitl [Hz2_0 Hz2_1 Hz2_2 Hz2_3 Hz2_4 Hz2_5 Hz2_6 Hz2_7 Hz2_8 Hz2_9 Hz2_10 Hz2_11 Hz2_12 Hz2_13 Hz2_14]
      · isplitl [Hz2_0]; · iexact Hz2_0
        isplitl [Hz2_1]; · iexact Hz2_1
        isplitl [Hz2_2]; · iexact Hz2_2
        isplitl [Hz2_3]; · iexact Hz2_3
        isplitl [Hz2_4]; · iexact Hz2_4
        isplitl [Hz2_5]; · iexact Hz2_5
        isplitl [Hz2_6]; · iexact Hz2_6
        isplitl [Hz2_7]; · iexact Hz2_7
        isplitl [Hz2_8]; · iexact Hz2_8
        isplitl [Hz2_9]; · iexact Hz2_9
        isplitl [Hz2_10]; · iexact Hz2_10
        isplitl [Hz2_11]; · iexact Hz2_11
        isplitl [Hz2_12]; · iexact Hz2_12
        isplitl [Hz2_13]; · iexact Hz2_13
        iexact Hz2_14
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      isplitl [Hz3_7]; · iexact Hz3_7
      isplitl [Hz3_8]; · iexact Hz3_8
      isplitl [Hz3_9]; · iexact Hz3_9
      isplitl [Hz3_10]; · iexact Hz3_10
      isplitl [Hz3_11]; · iexact Hz3_11
      isplitl [Hz3_12]; · iexact Hz3_12
      isplitl [Hz3_13]; · iexact Hz3_13
      iexact Hz3_14
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iapply (out_join' m ρ c)
  isplitl [HoRem Hsh_0 Hsh_1 Hsh_2 Hsh_3 Hsh_4 Hsh_5 Hsh_6 Hsh_7 Hsh_8 Hsh_9 Hsh_10 Hsh_11 Hsh_12 Hsh_13 Hsh_14]
  · isplitl [HoRem]; · iexact HoRem
    simp only [bigSep_fin15]
    isplitl [Hsh_0]; · iexact Hsh_0
    isplitl [Hsh_1]; · iexact Hsh_1
    isplitl [Hsh_2]; · iexact Hsh_2
    isplitl [Hsh_3]; · iexact Hsh_3
    isplitl [Hsh_4]; · iexact Hsh_4
    isplitl [Hsh_5]; · iexact Hsh_5
    isplitl [Hsh_6]; · iexact Hsh_6
    isplitl [Hsh_7]; · iexact Hsh_7
    isplitl [Hsh_8]; · iexact Hsh_8
    isplitl [Hsh_9]; · iexact Hsh_9
    isplitl [Hsh_10]; · iexact Hsh_10
    isplitl [Hsh_11]; · iexact Hsh_11
    isplitl [Hsh_12]; · iexact Hsh_12
    isplitl [Hsh_13]; · iexact Hsh_13
    iexact Hsh_14
  simp only [bigSep_fin15]
  isplitl [Hor_0]; · iexact Hor_0
  isplitl [Hor_1]; · iexact Hor_1
  isplitl [Hor_2]; · iexact Hor_2
  isplitl [Hor_3]; · iexact Hor_3
  isplitl [Hor_4]; · iexact Hor_4
  isplitl [Hor_5]; · iexact Hor_5
  isplitl [Hor_6]; · iexact Hor_6
  isplitl [Hor_7]; · iexact Hor_7
  isplitl [Hor_8]; · iexact Hor_8
  isplitl [Hor_9]; · iexact Hor_9
  isplitl [Hor_10]; · iexact Hor_10
  isplitl [Hor_11]; · iexact Hor_11
  isplitl [Hor_12]; · iexact Hor_12
  isplitl [Hor_13]; · iexact Hor_13
  iexact Hor_14

/-- The pipeline's body obligation on device `c`. -/
theorem body_obligation (c : Dev nD) : BodyObligation (dats (F := F) m ρ 0 c) (defs₀ (F := F)) 𝒱₀ () Set.univ :=
  body_obligation_of m ρ c (fun Kt => sound_body m ρ c Kt)

/-- info: 'Cert.KernelIdeal.X.body_obligation' depends on axioms: [propext, Classical.choice, Quot.sound] -/
#guard_msgs in #print axioms body_obligation

end Cert.KernelIdeal.X

end
-- ==== Proof.K.KerSpec.lean ====
/-
  What the sixteen devices compute, as pure functions of the devices' argument blocks, for any float instance.

  Device `c` holds a block `T c` of 1024 rows and its copy `W c` of the 512 x 512 matrix.  Row block `b` (64 rows)
  of the result is produced on device `b`: every device `d` contributes rows `64 b .. 64 b + 63` of its block, cast to
  the narrow format (`part`); device `b` adds its own part and then the parts of the devices `b - 1, b - 2, .., b - 15`
  (indices mod 16) in that order (`accum`), multiplies the sum by its matrix, and casts the product (`oblk`).  Every
  device ends holding all sixteen row blocks (`outFull`).
-/
import proofs.«900451_g7700000000000452_dist_matmul_of_ar_i_m1024_n512_k512_v7x_i16_bf16_1_alg».proof.Kernel
import Idealize.ShloMosaic.Lib.ValueIdx

noncomputable section

namespace Cert.Kernel.KS

open Cert.Kernel Idealize.ShloMosaic Idealize.ShloMosaic.ValueIdx

variable {F : FTy → Type} [FloatOps F] [Facts]
open Facts₀ Facts

/-- The device `k` places after `c` around the mesh. -/
def peer (c : Dev nD) (k : ℕ) : Dev nD := ⟨(c.val + k) % 16, Nat.mod_lt _ (by decide)⟩

/-- Rows `64 b .. 64 b + 63` of an array of 1024 rows. -/
def rows {α : Type} (X : S1024x512.Idx → α) (b : Dev nD) : S64x512.Idx → α := fun y =>
  X (ix2 (⟨64 * b.val + (y 0).val, by
        have h : (y 0).val < 64 := (y 0).isLt
        have hb : b.val < 16 := b.isLt
        omega⟩ : Fin 1024) (⟨(y 1).val, (y 1).isLt⟩ : Fin 512))

/-- Device `d`'s contribution to row block `c`: those rows of its block, cast. -/
def part (T : Dev nD → Vec F S1024x512 .f32) (c d : Dev nD) : FVec F S64x512 .bf16 :=
  truncf .bf16 (show FVec F S64x512 .f32 from rows (T d) c) bitsLt_bf16_f32

/-- Device `c`'s running sum after `j` received parts: its own part, then those of `c - 1, .., c - j`. -/
def accum (T : Dev nD → Vec F S1024x512 .f32) (c : Dev nD) : ℕ → FVec F S64x512 .bf16
  | 0 => part T c c
  | j + 1 => addf (accum T c j) (part T c (peer c (15 - j)))

/-- Row block `c` of the result: the full sum times device `c`'s matrix, cast. -/
def oblk (T : Dev nD → Vec F S1024x512 .f32) (W : Dev nD → Vec F S512x512 .f32) (c : Dev nD) : FVec F S64x512 .bf16 :=
  truncf .bf16 (matmul dot_S64x512_S512x512_S64x512_1_0_0_1_n_n none (accum T c 15)
    (truncf .bf16 (show FVec F S512x512 .f32 from W c) bitsLt_bf16_f32) (constant S64x512 .f32 0x00000000#32)) bitsLt_bf16_f32

/-- The whole result, as every device ends holding it: row `r` lies in row block `r / 64` at row `r % 64`. -/
def outFull (T : Dev nD → Vec F S1024x512 .f32) (W : Dev nD → Vec F S512x512 .f32) : Vec F S1024x512 .bf16 := fun i =>
  oblk T W (⟨(i 0).val / 64, by
      have h : (i 0).val < 1024 := (i 0).isLt
      show (i 0).val / 64 < 16
      omega⟩ : Dev nD)
    (ix2 (⟨(i 0).val % 64, Nat.mod_lt _ (by decide)⟩ : Fin 64) (⟨(i 1).val, (i 1).isLt⟩ : Fin 512))

end Cert.Kernel.KS

end
-- ==== Proof.K.Cells.lean ====
/-
  The sixteen-device exchange: the cells (semaphores seen through the rounds discipline), the devices around the mesh,
  and the slices of the buffers that travel.

  Device `c` has one barrier cell, and four families of fifteen transfer cells indexed by `j = off - 1`:
  family 0 its send cells of the first exchange (the part for device `c + j + 1` leaving), family 1 its receive cells of
  the first exchange (the part from device `c - j - 1` landing in slot `j`), family 2 and 3 the same for the second
  exchange (its row block leaving for `c + j + 1`; the row block of `c - j - 1` landing).
-/
import proofs.«900451_g7700000000000452_dist_matmul_of_ar_i_m1024_n512_k512_v7x_i16_bf16_1_alg».proof.Proof.K.KerSpec
import proofs.«900451_g7700000000000452_dist_matmul_of_ar_i_m1024_n512_k512_v7x_i16_bf16_1_alg».proof.Proof.Gen.Kernel
import proofs.«900451_g7700000000000452_dist_matmul_of_ar_i_m1024_n512_k512_v7x_i16_bf16_1_alg».proof.Proof.Gen.Kernel.Skeleton
import proofs.«900451_g7700000000000452_dist_matmul_of_ar_i_m1024_n512_k512_v7x_i16_bf16_1_alg».proof.Proof.Gen.Kernel.Launch
import proofs.«900451_g7700000000000452_dist_matmul_of_ar_i_m1024_n512_k512_v7x_i16_bf16_1_alg».proof.Proof.Gen.Kernel.Points
import Idealize.ShloMosaic.Lib.Pipeline.Launch
import Idealize.ShloMosaic.Lib.Pipeline.Kit
import Idealize.ShloMosaic.Lib.Tactic

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

/-! ## The resource algebra: the pipeline library's copy and the exchange's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Around the mesh -/

theorem peer_val (c : Dev nD) (k : ℕ) : (peer c k).val = (c.val + k) % 16 := rfl
/-- Going `k + 1` forward and then `15 - k` forward is once around. -/
theorem peer_peer (c : Dev nD) (k : Fin 15) : peer (peer c (k.val + 1)) (15 - k.val) = c := by
  revert c k; decide
theorem peer_peer' (c : Dev nD) (k : Fin 15) : peer (peer c (15 - k.val)) (k.val + 1) = c := by
  revert c k; decide
theorem peer_ne (c : Dev nD) (k : Fin 15) : peer c (k.val + 1) ≠ c := by
  revert c k; decide
theorem peer_inj (c : Dev nD) (k k' : Fin 15) (h : peer c (k.val + 1) = peer c (k'.val + 1)) : k = k' := by
  revert c k k'; decide

/-! ## The cells -/

/-- The runtime's barrier semaphore of collective id 0. -/
abbrev barS : Sem sig := (SemArray.scalar (sig.barrier 0 rfl) : Sems sig S_).sem
/-- Transfer semaphore `j` of family `f`: the four scratch arrays of fifteen lie one after another from index 3. -/
abbrev dsem (f : Fin 4) (j : Fin 15) : DmaSem sig := ⟨3 + 15 * f.val + j.val, by
  have := f.isLt; have := j.isLt; show 3 + 15 * f.val + j.val < 63; omega⟩

abbrev barCell (c : Dev nD) : GSem nD τ sig := ((c : Thread nD τ), .reg barS)
abbrev xCell (c : Dev nD) (f : Fin 4) (j : Fin 15) : GSem nD τ sig := ((c : Thread nD τ), .dma (dsem f j))

/-- The family and number of a transfer semaphore, if it is one. -/
def famOf (q : DmaSem sig) : Option (Fin 4 × Fin 15) :=
  if h : 3 ≤ q.val then some (⟨(q.val - 3) / 15, by have hq : q.val < 63 := q.isLt; show (q.val - 3) / 15 < 4; omega⟩, ⟨(q.val - 3) % 15, Nat.mod_lt _ (by decide)⟩)
  else none

theorem famOf_dsem (f : Fin 4) (j : Fin 15) : famOf (dsem f j) = some (f, j) := by revert f j; decide

end Cert.Kernel.X

end
-- ==== Proof.K.Bufs.lean ====
/-
  The buffers of the exchange and the pieces of them that travel: a row block (64 rows) of the cast-block scratch and
  of the result's staging buffer, and a slot of the 15-slot receive buffer.  A buffer of sixteen row blocks is the
  disjoint union of its row blocks, the receive buffer of its fifteen slots.
-/
import proofs.«900451_g7700000000000452_dist_matmul_of_ar_i_m1024_n512_k512_v7x_i16_bf16_1_alg».proof.Proof.K.Cells

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

abbrev xM : Memref sig .tc .vmem S1024x512 .f32 := Memref.whole cc0_stg0_0
abbrev wM : Memref sig .tc .vmem S512x512 .f32 := Memref.whole cc0_stg1_0
abbrev oM : Memref sig .tc .vmem S1024x512 .bf16 := Memref.whole cc0_stg2_0
abbrev tbM : Memref sig .tc .vmem S1024x512 .bf16 := Memref.whole cc0_scratch0
abbrev stM : Memref sig .tc .vmem S15x64x512 .bf16 := Memref.whole cc0_scratch1

theorem rowRect_inb (b : Dev nD) : ∀ a, (![64 * b.val, 0] : Fin 2 → Nat) a + S64x512.size a ≤ S1024x512.size a := by
  revert b; decide
theorem slotRect_inb (j : Fin 15) : ∀ a, (![j.val, 0, 0] : Fin 3 → Nat) a + S1x64x512.size a ≤ S15x64x512.size a := by
  revert j; decide

/-- Rows `64 b .. 64 b + 63` of a buffer of 1024 rows. -/
abbrev rowRect (b : Dev nD) : Rect S1024x512 := Rect.unit (s := S1024x512) ![64 * b.val, 0] S64x512.size (rowRect_inb b)
/-- Slot `j` of the receive buffer. -/
abbrev slotRect (j : Fin 15) : Rect S15x64x512 := Rect.unit (s := S15x64x512) ![j.val, 0, 0] S1x64x512.size (slotRect_inb j)

abbrev tbSl (b : Dev nD) : Memref sig .tc .vmem S64x512 .bf16 := tbM.slice (rowRect b) (fun _ => rfl)
abbrev oSl (b : Dev nD) : Memref sig .tc .vmem S64x512 .bf16 := oM.slice (rowRect b) (fun _ => rfl)
abbrev slotM (j : Fin 15) : Memref sig .tc .vmem S64x512 .bf16 :=
  (stM.slice (slotRect j) (fun _ => rfl)).squeeze S64x512 squeezes_S1x64x512_S64x512

theorem tbSl_set (b : Dev nD) : (tbSl b).view.set = (rowRect b).set := View.set_slice_whole _ _
theorem oSl_set (b : Dev nD) : (oSl b).view.set = (rowRect b).set := View.set_slice_whole _ _
theorem slotM_set (j : Fin 15) : (slotM j).view.set = (slotRect j).set :=
  (Memref.set_view_squeeze _ _).trans (View.set_slice_whole _ _)

/-- The credit one travelling piece (64 x 512 narrow elements) puts on a transfer cell. -/
def N : ℕ := (slotM 0).view.dmaCredit
theorem N_pos : 0 < N := View.dmaCredit_pos _ (by decide)

end Cert.Kernel.X

end
-- ==== Proof.K.Proto.lean ====
/-
  The protocol's bookkeeping that does not depend on what the pieces hold: what each device owes its peers at launch
  (in the order it pays), the levels that order the waits, and the ghost state a device's body starts from.

  Device `c` pays, in order: one unit to the barrier cell of each `c + k + 1` (`k = 0 .. 14`); the credit of one piece to
  receive cell `j` of the first exchange on device `c + j + 1`; the same for the second exchange.  Its barrier cell has
  fifteen unit duties, duty `k` paid by device `c + k + 1`; so on the barrier cell of `c + k + 1` device `c` pays duty
  `14 - k`.  Every transfer cell has the single duty `0`.  A barrier wait (level 1) happens while the device still owes
  receive credit of both exchanges (levels 2 and 3), a first-exchange receive wait (level 2) while it owes second-exchange
  receive credit (level 3); the send waits and the second-exchange receive waits come when it owes nothing.
-/
import proofs.«900451_g7700000000000452_dist_matmul_of_ar_i_m1024_n512_k512_v7x_i16_bf16_1_alg».proof.Proof.K.Bufs

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

/-! ## What a device owes, in the order it pays -/

/-- The duty of the barrier cell of `c + k + 1` that device `c` pays. -/
def rev (k : Fin 15) : Fin 15 := ⟨14 - k.val, by omega⟩

/-- Device `c`'s `n`-th payment. -/
def tallyN (c : Dev nD) (n : ℕ) : CellTallies nD τ sig Unit :=
  if h : n < 15 then tallyAt (barCell (peer c (n + 1))) () 1
  else if h' : n < 30 then tallyAt (xCell (peer c (n - 15 + 1)) 1 ⟨n - 15, by omega⟩) () N
  else if h'' : n < 45 then tallyAt (xCell (peer c (n - 30 + 1)) 3 ⟨n - 30, by omega⟩) () N
  else 0

/-- What device `c` still owes after `n` payments. -/
def owedFrom (c : Dev nD) (n : ℕ) : CellTallies nD τ sig Unit := ∑ i ∈ Finset.Ico n 45, tallyN c i

theorem owedFrom_succ (c : Dev nD) (n : ℕ) (h : n < 45) : owedFrom c n = owedFrom c (n + 1) + tallyN c n := by
  unfold owedFrom; rw [Finset.sum_eq_sum_Ico_succ_bot h, add_comm]
theorem owedFrom_end (c : Dev nD) : owedFrom c 45 = 0 := by unfold owedFrom; simp

def O₀ (c : Dev nD) : CellTallies nD τ sig Unit := owedFrom c 0

theorem tallyN_bar (c : Dev nD) (k : Fin 15) : tallyN c k.val = tallyAt (barCell (peer c (k.val + 1))) () 1 := by
  unfold tallyN; rw [dif_pos k.isLt]
theorem tallyN_x1 (c : Dev nD) (j : Fin 15) : tallyN c (15 + j.val) = tallyAt (xCell (peer c (j.val + 1)) 1 j) () N := by
  unfold tallyN
  rw [dif_neg (by omega), dif_pos (by have := j.isLt; omega)]
  have e : 15 + j.val - 15 = j.val := by omega
  simp only [e]
theorem tallyN_x3 (c : Dev nD) (j : Fin 15) : tallyN c (30 + j.val) = tallyAt (xCell (peer c (j.val + 1)) 3 j) () N := by
  unfold tallyN
  rw [dif_neg (by omega), dif_neg (by omega), dif_pos (by have := j.isLt; omega)]
  have e : 30 + j.val - 30 = j.val := by omega
  simp only [e]

/-! ## Levels -/

def L (g : GSem nD τ sig) : Finset Unit := if g.1.2 = .tc then {()} else ∅
/-- The barrier at 1, first-exchange receive cells at 2, second-exchange receive cells at 3, all else at 0. -/
def lvS : SemLoc sig → ℕ
  | .reg _ => 1
  | .dma q => match famOf q with
    | some (⟨1, _⟩, _) => 2
    | some (⟨3, _⟩, _) => 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-! ## The ghost state a body starts from -/

/-- A device's cells: its barrier cell (`none`) and its sixty transfer cells. -/
abbrev CIx : Type := Option (Fin 4 × Fin 15)
abbrev csem : CIx → SemLoc sig
  | none => .reg barS
  | some (f, j) => .dma (dsem f j)
abbrev kcell (ck : Dev nD × CIx) : GSem nD τ sig := ((ck.1 : Thread nD τ), csem ck.2)

/-- Every cell's invariant under the name the launch gave it, and that every cell is at round 0: persistent. -/
def records (Rd : Rounds.Schedule (GSem nD τ sig) (Fin 15) (MT nD τ sig Unit (Elt F) ℕ UU ℕ)) (K : Dev nD × CIx → ℕ) : sProp 𝕄 :=
  iprop((bigSep Finset.univ fun ck : Dev nD × CIx => cellInv ER Rd (K ck) (kcell ck))
    ∗ bigSep Finset.univ fun ck : Dev nD × CIx => reached ER (kcell ck) 0)

instance records_persistent (Rd : Rounds.Schedule (GSem nD τ sig) (Fin 15) (MT nD τ sig Unit (Elt F) ℕ UU ℕ)) (K : Dev nD × CIx → ℕ) : BI.Persistent (records Rd K) := by unfold records; infer_instance

/-- The tokens of the duties device `c` pays: fifteen barrier duties, and the duty of its own fifteen send cells and of
    its peers' fifteen receive cells, for each exchange. -/
def payToks (c : Dev nD) : sProp 𝕄 :=
  iprop((bigSep Finset.univ fun k : Fin 15 => dutyTok ER (barCell (peer c (k.val + 1))) 0 (rev k))
    ∗ (bigSep Finset.univ fun j : Fin 15 => dutyTok ER (xCell c 0 j) 0 (0 : Fin 15))
    ∗ (bigSep Finset.univ fun j : Fin 15 => dutyTok ER (xCell (peer c (j.val + 1)) 1 j) 0 (0 : Fin 15))
    ∗ (bigSep Finset.univ fun j : Fin 15 => dutyTok ER (xCell c 2 j) 0 (0 : Fin 15))
    ∗ (bigSep Finset.univ fun j : Fin 15 => dutyTok ER (xCell (peer c (j.val + 1)) 3 j) 0 (0 : Fin 15)))

/-- Device `c`'s positions: at the start of round 0 of each of its cells. -/
def positions (c : Dev nD) : sProp 𝕄 := bigSep Finset.univ fun i : CIx => atPos ER (kcell (c, i)) 0 ∅ 0

def ghost (Rd : Rounds.Schedule (GSem nD τ sig) (Fin 15) (MT nD τ sig Unit (Elt F) ℕ UU ℕ)) (K : Dev nD × CIx → ℕ) (c : Dev nD) : sProp 𝕄 := iprop(records Rd K ∗ positions c ∗ payToks c)

/-- The credit dealt at launch for what the peers owe device `c`: fifteen units on its barrier cell, one piece on each
    receive cell. -/
def creds (c : Dev nD) : sProp 𝕄 :=
  iprop(cred (tallyAt (barCell c) () 15)
    ∗ (bigSep Finset.univ fun j : Fin 15 => cred (tallyAt (xCell c 1 j) () N))
    ∗ (bigSep Finset.univ fun j : Fin 15 => cred (tallyAt (xCell c 3 j) () N)))

/-- What device `c`'s body starts from, beside its buffers. -/
def start (Rd : Rounds.Schedule (GSem nD τ sig) (Fin 15) (MT nD τ sig Unit (Elt F) ℕ UU ℕ)) (c : Dev nD) : sProp 𝕄 := iprop((∃ K, ghost Rd K c) ∗ creds c ∗ levAts L lv)

end Cert.Kernel.X

end
-- ==== Proof.K.Contents.lean ====
/-
  What the travelling buffers hold, as whole-buffer functions of the devices' blocks `T` and matrices `W`: a piece of a
  buffer is held at the whole function restricted to the piece, so no piece's statement mentions what the rest of its
  buffer holds.

  The cast-block scratch of device `c` holds its block cast (`tbFull`); slot `j` of its receive buffer holds the part of
  device `c - j - 1` for row block `c` (`stageFull`); the result buffer holds the whole result (`KS.outFull`).
-/
import proofs.«900451_g7700000000000452_dist_matmul_of_ar_i_m1024_n512_k512_v7x_i16_bf16_1_alg».proof.Proof.K.Bufs

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

/-- Device `c`'s block, cast. -/
def tbFull (T : Dev nD → Vec F S1024x512 .f32) (c : Dev nD) : Vec F S1024x512 .bf16 :=
  truncf .bf16 (show FVec F S1024x512 .f32 from T c) bitsLt_bf16_f32

/-- Device `c`'s receive buffer once every slot has landed: slot `j` holds the part of device `c + 15 - j` (that is,
    `c - j - 1`) for row block `c`. -/
def stageFull (T : Dev nD → Vec F S1024x512 .f32) (c : Dev nD) : Vec F S15x64x512 .bf16 := fun i =>
  part T c (peer c (15 - (i 0).val)) (ix2 (⟨(i 1).val, (i 1).isLt⟩ : Fin 64) (⟨(i 2).val, (i 2).isLt⟩ : Fin 512))

end Cert.Kernel.X

end
-- ==== Proof.K.Sched.lean ====
/-
  The schedule of the exchange: one round per cell.

  Device `c`'s barrier cell has fifteen unit duties; duty `k` is paid by device `d = c + k + 1` and hands `c` what it
  needs to write into `d`: slot `k` of `d`'s receive buffer and row block `c` of `d`'s result buffer, at any contents.
  A transfer cell has the single duty `0` of one piece's credit: a first-exchange send cell `j` gives back the row block
  of the cast scratch that left for `c + j + 1`; a first-exchange receive cell `j` hands over slot `j` holding the part
  of `c - j - 1`; a second-exchange send cell `j` gives back the `j`-th of fifteen shares of the device's own row block of
  the result; a second-exchange receive cell `j` hands over row block `c - j - 1` of the result buffer holding that block.
-/
import proofs.«900451_g7700000000000452_dist_matmul_of_ar_i_m1024_n512_k512_v7x_i16_bf16_1_alg».proof.Proof.K.Proto
import proofs.«900451_g7700000000000452_dist_matmul_of_ar_i_m1024_n512_k512_v7x_i16_bf16_1_alg».proof.Proof.K.Contents

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (T : Dev nD → Vec F S1024x512 .f32) (W : Dev nD → Vec F S512x512 .f32)

/-! ## The pieces, as assertions -/

def tbPts (c b : Dev nD) (f : Buf (Elt F) ((tbSl b).view.loc (c : Thread nD τ))) : sProp 𝕄 :=
  (tbSl b).view.loc (c : Thread nD τ) ↦[(tbSl b).view.set]{fullShare} f
def slotPts (c : Dev nD) (j : Fin 15) (f : Buf (Elt F) ((slotM j).view.loc (c : Thread nD τ))) : sProp 𝕄 :=
  (slotM j).view.loc (c : Thread nD τ) ↦[(slotM j).view.set]{fullShare} f
def oPts (c b : Dev nD) (q : PosShare TreeShare) (f : Buf (Elt F) ((oSl b).view.loc (c : Thread nD τ))) : sProp 𝕄 :=
  (oSl b).view.loc (c : Thread nD τ) ↦[(oSl b).view.set]{q} f

omit [FloatOps F] in
instance tbPts_storable (c b : Dev nD) (f) : BI.Storable (upEmb : UEmb _ 𝕄) (tbPts (F := F) c b f) := by unfold tbPts; infer_instance
omit [FloatOps F] in
instance slotPts_storable (c : Dev nD) (j : Fin 15) (f) : BI.Storable (upEmb : UEmb _ 𝕄) (slotPts (F := F) c j f) := by unfold slotPts; infer_instance
omit [FloatOps F] in
instance oPts_storable (c b : Dev nD) (q) (f) : BI.Storable (upEmb : UEmb _ 𝕄) (oPts (F := F) c b q f) := by unfold oPts; infer_instance

/-! ## The payloads -/

/-- What device `d = c + k + 1`'s signal hands `c`: where `c`'s two transfers into `d` land. -/
def barPay (c : Dev nD) (k : Fin 15) : sProp 𝕄 :=
  iprop((∃ f, slotPts (peer c (k.val + 1)) k f) ∗ (∃ g, oPts (peer c (k.val + 1)) c fullShare g))

/-- The payload of transfer cell `j` of family `f` on device `c`. -/
def xPay (c : Dev nD) (f : Fin 4) (j : Fin 15) : sProp 𝕄 :=
  match f with
  | ⟨0, _⟩ => tbPts c (peer c (j.val + 1)) (tbFull T c)
  | ⟨1, _⟩ => slotPts c j (stageFull T c)
  | ⟨2, _⟩ => oPts c c (Transfers.shareTok fullShare 15 j) (outFull T W)
  | ⟨_ + 3, _⟩ => oPts c (peer c (15 - j.val)) fullShare (outFull T W)

instance barPay_storable (c : Dev nD) (k : Fin 15) : BI.Storable (upEmb : UEmb _ 𝕄) (barPay (F := F) c k) := by unfold barPay; infer_instance
instance xPay_storable (c : Dev nD) (f : Fin 4) (j : Fin 15) : BI.Storable (upEmb : UEmb _ 𝕄) (xPay T W c f j) := by
  unfold xPay; split <;> infer_instance

/-! ## The schedule -/

def sched : Rounds.Schedule (GSem nD τ sig) (Fin 15) 𝕄 where
  duties g r :=
    if r = 0 ∧ g.1.2 = .tc then
      (match g.2 with
        | .reg _ => Finset.univ
        | .dma q => if (famOf q).isSome then {0} else ∅)
    else ∅
  unitless _ := False
  amount g _ _ := match g.2 with
    | .reg _ => 1
    | .dma _ => N
  payload g _ d := match g.2 with
    | .reg _ => barPay g.1.1 d
    | .dma q => match famOf q with
      | some (f, j) => xPay T W g.1.1 f j
      | none => iprop(emp)
  amount_pos g _ _ _ := by
    cases g.2 with
    | reg _ => exact Nat.one_pos
    | dma _ => exact N_pos

instance sched_payload_storable (g : GSem nD τ sig) (r : ℕ) (d : Fin 15) :
    BI.Storable (upEmb : UEmb _ 𝕄) ((sched T W).payload g r d) := by
  show BI.Storable upEmb (match g.2 with
    | .reg _ => barPay g.1.1 d
    | .dma q => match famOf q with
      | some (f, j) => xPay T W g.1.1 f j
      | none => iprop(emp))
  cases g.2 with
  | reg _ => infer_instance
  | dma q =>
    show BI.Storable upEmb (match famOf q with
      | some (f, j) => xPay T W g.1.1 f j
      | none => iprop(emp))
    cases famOf q with
    | none => show BI.Storable upEmb (iprop(emp) : sProp 𝕄); infer_instance
    | some fj => obtain ⟨f, j⟩ := fj; show BI.Storable upEmb (xPay T W g.1.1 f j); infer_instance

section Tables
variable (c : Dev nD)

theorem duties_bar : (sched T W).duties (barCell c) 0 = Finset.univ := by
  dsimp only [sched]; rw [if_pos ⟨rfl, rfl⟩]
theorem duties_x (f : Fin 4) (j : Fin 15) : (sched T W).duties (xCell c f j) 0 = {0} := by
  dsimp only [sched]; rw [if_pos ⟨rfl, rfl⟩]
  show (if (famOf (dsem f j)).isSome then ({0} : Finset (Fin 15)) else ∅) = {0}
  rw [famOf_dsem]; rfl
theorem duties_later (g : GSem nD τ sig) : ∀ r, 1 ≤ r → (sched T W).duties g r = ∅ :=
  fun r hr => by dsimp only [sched]; rw [if_neg fun h => by omega]

theorem amount_bar (d : Fin 15) : (sched T W).amount (barCell c) 0 d = 1 := rfl
theorem amount_x (f : Fin 4) (j : Fin 15) (d : Fin 15) : (sched T W).amount (xCell c f j) 0 d = N := rfl

theorem expect_bar : (sched T W).expect (barCell c) 0 = 15 := by
  unfold Schedule.expect Schedule.amountOf
  rw [duties_bar, Finset.sum_congr rfl fun d _ => amount_bar T W c d, Finset.sum_const, Finset.card_univ, Fintype.card_fin, smul_eq_mul]
theorem expect_x (f : Fin 4) (j : Fin 15) : (sched T W).expect (xCell c f j) 0 = N := by
  unfold Schedule.expect Schedule.amountOf; rw [duties_x, Finset.sum_singleton, amount_x]

theorem payload_bar (k : Fin 15) : (sched T W).payload (barCell c) 0 k = barPay c k := rfl
theorem payload_x (f : Fin 4) (j : Fin 15) (d : Fin 15) : (sched T W).payload (xCell c f j) 0 d = xPay T W c f j := by
  show (match famOf (dsem f j) with
    | some (f, j) => xPay T W c f j
    | none => iprop(emp)) = xPay T W c f j
  rw [famOf_dsem]

/-- The rest of the barrier cell's round, no duty taken: all fifteen payloads. -/
theorem rest_bar : bigSep ((sched T W).duties (barCell c) 0 \ ∅) (fun d => (sched T W).payload (barCell c) 0 d)
    = bigSep Finset.univ (fun k : Fin 15 => barPay (F := F) c k) := by
  rw [Finset.sdiff_empty, duties_bar]; rfl
theorem rest_x (f : Fin 4) (j : Fin 15) : bigSep ((sched T W).duties (xCell c f j) 0 \ ∅) (fun d => (sched T W).payload (xCell c f j) 0 d)
    = xPay T W c f j := by
  rw [Finset.sdiff_empty, duties_x, bigSep_singleton, payload_x]

end Tables

end Cert.Kernel.X

end
-- ==== Proof.K.Dats.lean ====
/-
  The pipeline's proof data on device `c`: what each window's staging buffer holds after the body, the invariant before
  and after the one grid point, and what the device owes.
-/
import proofs.«900451_g7700000000000452_dist_matmul_of_ar_i_m1024_n512_k512_v7x_i16_bf16_1_alg».proof.Proof.K.Sched

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s block and matrix, as staged. -/
def Tm (d : Dev nD) : Vec F S1024x512 .f32 :=
  (win0_0.blk (0 : Fin 1)).view.read (Elt F) ((s₀ m ρ).mem ((d : Thread nD τ).loc main_arg0))
def Wm (d : Dev nD) : Vec F S512x512 .f32 :=
  (win0_1.blk (0 : Fin 1)).view.read (Elt F) ((s₀ m ρ).mem ((d : Thread nD τ).loc main_arg1))

/-- The whole result, as every device's result buffer ends. -/
def outM : Vec F S1024x512 .bf16 := outFull (Tm m ρ) (Wm m ρ)

abbrev Rd := sched (F := F) (Tm m ρ) (Wm m ρ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the point: the protocol's ghost state and credit, and the two scratch buffers whole at any contents. -/
def Φ₀ (c : Dev nD) : sProp 𝕄 :=
  iprop(start (Rd m ρ) c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After it: the scratch buffers whole again, the sixty transfer cells closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun fj : Fin 4 × Fin 15 => semVal (xCell c fj.1 fj.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Tm m ρ c
    | ⟨1, _⟩ => Wm m ρ c
    | ⟨2, _⟩ => outM m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from on device `c`: the invariant, what it owes, and the three staging buffers as the pipeline
    hands them over. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with: the invariant after the point, nothing owed, the inputs' staging buffers as they were, the
    result's staging buffer at the whole result. -/
def bodyPost (c : Dev nD) : sProp 𝕄 :=
  iprop(Φ₁ c ∗ (dats m ρ 0 c).owesAt () t₀.succ ∗ stg c cc0_stg0_0 (Tm m ρ c) ∗ stg c cc0_stg1_0 (Wm m ρ c) ∗ stg c cc0_stg2_0 (outM m ρ))

end Cert.Kernel.X

end
-- ==== Proof.K.LaunchLevels.lean ====
/-
  The levels order the waits: a wait is allowed while the device owes only to cells of a higher level.  What device `c`
  still owes after `n` payments lies on barrier cells (level 1) only for `n < 15`, on first-exchange receive cells
  (level 2) only for `n < 30`, and otherwise on second-exchange receive cells (level 3); so the staging and send waits
  (level 0) are allowed at any time, the barrier wait after fifteen payments, a first-exchange receive wait after thirty.
-/
import proofs.«900451_g7700000000000452_dist_matmul_of_ar_i_m1024_n512_k512_v7x_i16_bf16_1_alg».proof.Proof.K.Proto

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

/-! ## Where a payment lands -/

theorem lv_bar (d : Dev nD) (u : Unit) : lv (barCell d) u = 1 := rfl
theorem lv_x (d : Dev nD) (f : Fin 4) (j : Fin 15) (u : Unit) :
    lv (xCell d f j) u = if f = 1 then 2 else if f = 3 then 3 else 0 := by
  show lvS (.dma (dsem f j)) = _
  revert f j; decide
theorem lv_low (d : Dev nD) (q : DmaSem sig) (hq : q.val < 3) (u : Unit) : lv ((d : Thread nD τ), .dma q) u = 0 := by
  show lvS (.dma q) = 0
  have e : famOf q = none := by unfold famOf; rw [dif_neg (by omega)]
  unfold lvS; simp only [e]

/-- Payment `i` of device `c` lands on a TensorCore cell whose level is 1, 2 or 3 according to `i < 15`, `i < 30`, or not. -/
theorem tallyN_pos {c : Dev nD} {i : ℕ} {g : GSem nD τ sig} {u : Unit} (h : 0 < tallyN c i g u) :
    L g = {()} ∧ lv g u = (if i < 15 then 1 else if i < 30 then 2 else 3) := by
  unfold tallyN at h
  split at h
  · rename_i h1
    rw [tallyAt_apply] at h
    by_cases hg : g = barCell (peer c (i + 1)) ∧ u = ()
    · rw [hg.1, if_pos h1]; exact ⟨L_tc _ _, rfl⟩
    · rw [if_neg hg] at h; exact absurd h (Nat.lt_irrefl 0)
  · rename_i h1
    split at h
    · rename_i h2
      rw [tallyAt_apply] at h
      by_cases hg : g = xCell (peer c (i - 15 + 1)) 1 ⟨i - 15, by omega⟩ ∧ u = ()
      · rw [hg.1, if_neg h1, if_pos h2, lv_x]; exact ⟨L_tc _ _, rfl⟩
      · rw [if_neg hg] at h; exact absurd h (Nat.lt_irrefl 0)
    · rename_i h2
      split at h
      · rename_i h3
        rw [tallyAt_apply] at h
        by_cases hg : g = xCell (peer c (i - 30 + 1)) 3 ⟨i - 30, by omega⟩ ∧ u = ()
        · rw [hg.1, if_neg h1, if_neg h2, lv_x]; exact ⟨L_tc _ _, rfl⟩
        · rw [if_neg hg] at h; exact absurd h (Nat.lt_irrefl 0)
      · exact absurd h (Nat.lt_irrefl 0)

/-- What is still owed after `n` payments lies where a payment from the `n`-th on lands. -/
theorem owedFrom_pos {c : Dev nD} {n : ℕ} {g : GSem nD τ sig} {u : Unit} (h : 0 < owedFrom c n g u) :
    L g = {()} ∧ (if n < 15 then 1 else if n < 30 then 2 else 3) ≤ lv g u := by
  unfold owedFrom at h
  obtain ⟨i, hi, hpos⟩ := Pipeline.sum_pos_exists h
  obtain ⟨hL, hlv⟩ := tallyN_pos hpos
  refine ⟨hL, ?_⟩
  rw [hlv]
  have hn : n ≤ i := (Finset.mem_Ico.mp hi).1
  split_ifs <;> omega

/-! ## The waits -/

/-- A wait on a staging cell (a transfer semaphore below the exchange's) is allowed whatever the device still owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [(owedFrom_pos hg).1]; exact Finset.mem_singleton_self _)
      (fun p hp => by rw [Finset.mem_singleton.mp hp, lv_low c q hq])
      (fun g u hg => by
        have h := (owedFrom_pos hg).2
        rw [if_pos (by decide)] at h
        exact h)
  · rw [MayWait_zero]; iintro -; iempintro

/-- At its barrier wait a device has paid its fifteen barrier units: it owes receive credit only. -/
theorem mayWait_bar (c : Dev nD) :
    (levAts L lv : sProp 𝕄) ⊢ MayWait (c : Thread nD τ) (.reg barS) () (owedFrom c 15) :=
  MayOwe.of_cut (L := L) (lev := lv) 1 (fun p hp => by rw [Finset.mem_singleton.mp hp, L_tc]; exact Finset.mem_singleton_self _)
    (fun g u hg => by rw [(owedFrom_pos hg).1]; exact Finset.mem_singleton_self _)
    (fun p hp => by rw [Finset.mem_singleton.mp hp]; exact le_of_eq (lv_bar c ()))
    (fun g u hg => by
      have h := (owedFrom_pos hg).2
      rw [if_neg (by decide), if_pos (by decide)] at h
      exact h)

/-- At a receive wait of the first exchange a device has paid that exchange's credit: it owes second-exchange credit only. -/
theorem mayWait_x1 (c : Dev nD) (j : Fin 15) :
    (levAts L lv : sProp 𝕄) ⊢ MayWait (c : Thread nD τ) (.dma (dsem 1 j)) () (owedFrom c 30) :=
  MayOwe.of_cut (L := L) (lev := lv) 2 (fun p hp => by rw [Finset.mem_singleton.mp hp, L_tc]; exact Finset.mem_singleton_self _)
    (fun g u hg => by rw [(owedFrom_pos hg).1]; exact Finset.mem_singleton_self _)
    (fun p hp => by rw [Finset.mem_singleton.mp hp]; exact le_of_eq (lv_x c 1 j ()))
    (fun g u hg => by
      have h := (owedFrom_pos hg).2
      rw [if_neg (by decide), if_neg (by decide)] at h
      exact h)

/-- info: 'Cert.Kernel.X.mayWait_x1' depends on axioms: [propext, Classical.choice, Quot.sound] -/
#guard_msgs in #print axioms mayWait_x1

end Cert.Kernel.X

end
-- ==== Proof.K.Steps1.lean ====
/-
  The entry handshake, one rule per effect: a signal to a peer's barrier cell hands the peer the slot and the row block
  it will write into; the wait for all fifteen signals brings the fifteen peers' slots and row blocks.
-/
import proofs.«900451_g7700000000000452_dist_matmul_of_ar_i_m1024_n512_k512_v7x_i16_bf16_1_alg».proof.Proof.K.Dats
import proofs.«900451_g7700000000000452_dist_matmul_of_ar_i_m1024_n512_k512_v7x_i16_bf16_1_alg».proof.Proof.K.LaunchLevels

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

theorem peer_rev (c : Dev nD) (k : Fin 15) : peer (peer c (k.val + 1)) ((rev k).val + 1) = c := by revert c k; decide

/-- A device's program run from its thread, at the certificate's variants. -/
abbrev WP (c : Dev nD) {α : Type} (p : Prog (TpuEff nD τ sig (Elt F) Λ₀ .tc) α) (Q : α → sProp 𝕄) : sProp 𝕄 :=
  wp frame (wpE (defs₀ (F := F)) 𝒱₀ c none) Set.univ p Q

omit [FloatOps F] in
theorem inv_at (Rd : Rounds.Schedule (GSem nD τ sig) (Fin 15) (MT nD τ sig Unit (Elt F) ℕ UU ℕ)) (K : Dev nD × CIx → ℕ) (ck : Dev nD × CIx) :
    records Rd K ⊢ cellInv ER Rd (K ck) (kcell ck) := by
  unfold records
  iintro ⟨HI, -⟩
  have h : bigSep Finset.univ (fun ck : Dev nD × CIx => (cellInv ER Rd (K ck) (kcell ck) : sProp 𝕄)) ⊢ cellInv ER Rd (K ck) (kcell ck) :=
    bigSep_elim (Finset.mem_univ ck)
  iapply h; iexact HI
omit [FloatOps F] in
theorem reached_at (Rd : Rounds.Schedule (GSem nD τ sig) (Fin 15) (MT nD τ sig Unit (Elt F) ℕ UU ℕ)) (K : Dev nD × CIx → ℕ) (ck : Dev nD × CIx) :
    records Rd K ⊢ (reached ER (kcell ck) 0 : sProp 𝕄) := by
  unfold records
  iintro ⟨-, HR⟩
  have h : bigSep Finset.univ (fun ck : Dev nD × CIx => (reached ER (kcell ck) 0 : sProp 𝕄)) ⊢ reached ER (kcell ck) 0 :=
    bigSep_elim (Finset.mem_univ ck)
  iapply h; iexact HR

variable (m : (ℓ : Loc nD τ sig) → Buf (Elt F) ℓ) (ρ : Dev nD → PrngReg)

/-- Signal `k`, to device `c + k + 1`: duty `14 - k` of that device's barrier cell, paid with slot `14 - k` of `c`'s receive
    buffer and row block `c + k + 1` of `c`'s result buffer. -/
theorem step_signal (c : Dev nD) (k : Fin 15) (n : Dev nD) (hn : n = peer c (k.val + 1)) (K : Dev nD × CIx → ℕ) (W : Waits sig Unit)
    (fs : Buf (Elt F) ((slotM (rev k)).view.loc (c : Thread nD τ))) (go : Buf (Elt F) ((oSl (peer c (k.val + 1))).view.loc (c : Thread nD τ)))
    {α : Type} {Q : α → sProp 𝕄} {kont : PUnit → Prog (TpuEff nD τ sig (Elt F) Λ₀ .tc) α} :
    iprop(records (Rd m ρ) K ∗ owes (c : Thread nD τ) (owedFrom c k.val) W ∗ dutyTok ER (barCell (peer c (k.val + 1))) 0 (rev k)
        ∗ slotPts c (rev k) fs ∗ oPts c (peer c (k.val + 1)) fullShare go)
      ⊢ iprop((owes (c : Thread nD τ) (owedFrom c (k.val + 1)) W -∗ WP c (kont ⟨⟩) Q)
          -∗ WP c (.op (.semSignal (n : Thread nD τ) barS 1) kont) Q) := by
  subst hn
  iintro ⟨#HR, HO, Htok, Hs, Ho⟩
  iapply (Rounds.wp_signal 𝒱₀ ER (Rd m ρ) (c : Thread nD τ) none (dst := (peer c (k.val + 1) : Thread nD τ)) (κ := K (peer c (k.val + 1), none))
      (d := rev k) (O₀ := owedFrom c k.val) (by rw [duties_bar]; exact Finset.mem_univ _) (amount_bar _ _ _ _) () (owedFrom c (k.val + 1))
      (by rw [owedFrom_succ c k.val (by have := k.isLt; omega), tallyN_bar])) $$ [HO Htok Hs Ho]
  isplitr; · iapply (inv_at (Rd m ρ) K (peer c (k.val + 1), none)); iexact HR
  isplitl [HO]; · iexact HO
  isplitl [Htok]; · iexact Htok
  isplitl [Hs Ho]
  · rw [payload_bar]; unfold barPay; rw [peer_rev]
    isplitl [Hs]
    · iexists fs; iexact Hs
    · iexists go; iexact Ho
  · iapply (reached_at (Rd m ρ) K (peer c (k.val + 1), none)); iexact HR

/-- The wait for the fifteen signals, owing all the receive credit: every peer's slot and row block come with it. -/
theorem step_barwait (c : Dev nD) (K : Dev nD × CIx → ℕ) (W : Waits sig Unit)
    {α : Type} {Q : α → sProp 𝕄} {kont : PUnit → Prog (TpuEff nD τ sig (Elt F) Λ₀ .tc) α} :
    iprop(records (Rd m ρ) K ∗ cred (tallyAt (barCell c) () 15) ∗ owes (c : Thread nD τ) (owedFrom c 15) W ∗ levAts L lv
        ∗ atPos ER (barCell c) 0 ∅ 0)
      ⊢ iprop(((owes (c : Thread nD τ) (owedFrom c 15) (insert (SemLoc.reg barS, ()) W) ∗ atPos ER (barCell c) 1 ∅ 0
              ∗ bigSep Finset.univ (fun k : Fin 15 => barPay (F := F) c k)) -∗ WP c (kont ⟨⟩) Q)
          -∗ WP c (.op (.semWait barS 15) kont) Q) := by
  iintro ⟨#HR, Hc, HO, #Hlev, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owedFrom c 15) (W := W) (R := 0) (m := 0) (T := ∅)
      (by rw [expect_bar])) $$ [Hc HO Hat]
  · isplitr; · iapply (inv_at (Rd m ρ) K (c, none)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar _ _ c)) $$ Hpay

end Cert.Kernel.X

end
-- ==== Proof.K.Glue.lean ====
/-
  Rearrangements of the separating conjunctions the body's proof moves between: a conjunction over fifteen or four
  indices written out; all sixteen devices as one device and the fifteen others counted around the ring from it; fifteen
  indices counted backwards; a device's cells as its barrier cell and four families of fifteen.
-/
import proofs.«900451_g7700000000000452_dist_matmul_of_ar_i_m1024_n512_k512_v7x_i16_bf16_1_alg».proof.Proof.K.Sched

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

local notation "𝕄" => MT nD τ sig Unit (Elt F) ℕ UU ℕ

/-! ## Conjunctions written out -/

theorem bigSep_fin15 {F : FTy → Type} (Φ : Fin 15 → sProp (MT nD τ sig Unit (Elt F) ℕ UU ℕ)) :
    bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

theorem bigSep_fin4 {F : FTy → Type} (Φ : Fin 4 → sProp (MT nD τ sig Unit (Elt F) ℕ UU ℕ)) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-! ## Around the ring -/

/-- Every device other than `c` is `k + 1` places further for some `k` below fifteen. -/
theorem peer_onto (c d : Dev nD) (h : d ≠ c) : ∃ k : Fin 15, peer c (k.val + 1) = d := by
  revert c d; decide

/-- The devices other than `c` are the fifteen places `1, .., 15` further around the ring. -/
theorem others_eq_peers (c : Dev nD) :
    (Finset.univ : Finset (Dev nD)).erase c = Finset.univ.image fun k : Fin 15 => peer c (k.val + 1) := by
  ext d
  simp only [Finset.mem_erase, Finset.mem_univ, and_true, Finset.mem_image, true_and]
  constructor
  · exact peer_onto c d
  · rintro ⟨k, rfl⟩; exact peer_ne c k

/-- All sixteen devices: `c`, and the fifteen others counted from it. -/
theorem bigSep_dev_peer {F : FTy → Type} (c : Dev nD) (Φ : Dev nD → sProp (MT nD τ sig Unit (Elt F) ℕ UU ℕ)) :
    bigSep Finset.univ Φ = iprop(Φ c ∗ bigSep Finset.univ fun k : Fin 15 => Φ (peer c (k.val + 1))) := by
  rw [bigSep_univ_split c, others_eq_peers,
    Idealize.SL.BI.bigSep_image_of_injOn (fun k _ k' _ h => peer_inj c k k' h)]
  rfl

theorem rev_rev (k : Fin 15) : rev (rev k) = k := by
  revert k; decide

/-- Fifteen indices, counted backwards. -/
theorem bigSep_rev {F : FTy → Type} (Φ : Fin 15 → sProp (MT nD τ sig Unit (Elt F) ℕ UU ℕ)) :
    bigSep Finset.univ Φ = bigSep Finset.univ fun k : Fin 15 => Φ (rev k) := by
  have himg : (Finset.univ : Finset (Fin 15)).image rev = Finset.univ := by
    ext k
    simp only [Finset.mem_image, Finset.mem_univ, true_and, iff_true]
    exact ⟨rev k, rev_rev k⟩
  rw [← Idealize.SL.BI.bigSep_image_of_injOn (f := rev) (s := Finset.univ)
    (fun k _ k' _ h => by rw [← rev_rev k, ← rev_rev k', h]) Φ, himg]

/-- Fifteen minus `j` places further is one more than `14 - j` places further. -/
theorem peer_sub_rev (c : Dev nD) (j : Fin 15) : peer c (15 - j.val) = peer c ((rev j).val + 1) :=
  congrArg (peer c) (by have := j.isLt; show 15 - j.val = 14 - j.val + 1; omega)

/-- Pairs of a family and a number: family by family. -/
theorem bigSep_fam {F : FTy → Type} (Φ : Fin 4 × Fin 15 → sProp (MT nD τ sig Unit (Elt F) ℕ UU ℕ)) :
    bigSep Finset.univ Φ = bigSep Finset.univ fun f : Fin 4 => bigSep Finset.univ fun j : Fin 15 => Φ (f, j) :=
  bigSep_univ_prod Φ

/-- A device's cells: its barrier cell, and its transfer cells family by family. -/
theorem bigSep_CIx {F : FTy → Type} (Φ : CIx → sProp (MT nD τ sig Unit (Elt F) ℕ UU ℕ)) :
    bigSep Finset.univ Φ
      = iprop(Φ none ∗ bigSep Finset.univ fun f : Fin 4 => bigSep Finset.univ fun j : Fin 15 => Φ (some (f, j))) := by
  have he : (Finset.univ : Finset CIx).erase none = Finset.univ.map Function.Embedding.some := by
    ext x
    cases x <;> simp
  rw [bigSep_univ_split (none : CIx), he, bigSep_map, bigSep_fam]
  rfl

/-- info: 'Cert.Kernel.X.bigSep_CIx' depends on axioms: [propext, Classical.choice, Quot.sound] -/
#guard_msgs in #print axioms bigSep_CIx

end Cert.Kernel.X

end
-- ==== Proof.K.BufSplit.lean ====
/-
  A buffer of 1024 rows is the disjoint union of its sixteen row blocks of 64 rows; the receive buffer of fifteen slots is
  the disjoint union of its slots.  Holding a whole buffer is holding each of its pieces, at the same whole-buffer
  contents.
-/
import proofs.«900451_g7700000000000452_dist_matmul_of_ar_i_m1024_n512_k512_v7x_i16_bf16_1_alg».proof.Proof.K.Bufs
import Idealize.ShloMosaic.Rules.PointsTo

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

local notation "𝕄" => MT nD τ sig Unit (Elt F) ℕ UU ℕ

/-- Different row blocks share no element. -/
theorem rows_disjoint {b b' : Dev nD} (h : b ≠ b') : Disjoint (rowRect b).set (rowRect b').set := by
  refine Rect.unit_disjoint (0 : Fin 2) ?_
  show 64 * b.val + 64 ≤ 64 * b'.val ∨ 64 * b'.val + 64 ≤ 64 * b.val
  have : b.val ≠ b'.val := fun e => h (Fin.ext e)
  omega

/-- Every element lies in the row block of its row divided by 64. -/
theorem rows_cover : Finset.univ.biUnion (fun b : Dev nD => (rowRect b).set) = Finset.univ := by
  ext i
  simp only [Finset.mem_biUnion, Finset.mem_univ, true_and, iff_true]
  have h0 : (i 0).val < 1024 := (i 0).isLt
  have h1 : (i 1).val < 512 := (i 1).isLt
  refine ⟨(⟨(i 0).val / 64, by show (i 0).val / 64 < 16; omega⟩ : Dev nD), Rect.mem_set_unit.mpr fun a => ?_⟩
  match a with
  | ⟨0, _⟩ => show 64 * ((i 0).val / 64) ≤ (i 0).val ∧ (i 0).val < 64 * ((i 0).val / 64) + 64; omega
  | ⟨1, _⟩ => show 0 ≤ (i 1).val ∧ (i 1).val < 0 + 512; omega

/-- Different slots share no element. -/
theorem slots_disjoint {j j' : Fin 15} (h : j ≠ j') : Disjoint (slotRect j).set (slotRect j').set := by
  refine Rect.unit_disjoint (0 : Fin 3) ?_
  show j.val + 1 ≤ j'.val ∨ j'.val + 1 ≤ j.val
  have : j.val ≠ j'.val := fun e => h (Fin.ext e)
  omega

/-- Every element of the receive buffer lies in the slot of its first coordinate. -/
theorem slots_cover : Finset.univ.biUnion (fun j : Fin 15 => (slotRect j).set) = Finset.univ := by
  ext i
  simp only [Finset.mem_biUnion, Finset.mem_univ, true_and, iff_true]
  have h0 : (i 0).val < 15 := (i 0).isLt
  have h1 : (i 1).val < 64 := (i 1).isLt
  have h2 : (i 2).val < 512 := (i 2).isLt
  refine ⟨(⟨(i 0).val, h0⟩ : Fin 15), Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 64; omega
  | ⟨2, _⟩ => show 0 ≤ (i 2).val ∧ (i 2).val < 0 + 512; omega

/-- The cast-block scratch, held whole, is its sixteen row blocks held one by one. -/
theorem rows_split_tb (c : Dev nD) (f : Buf (Elt F) ((c : Thread nD τ).loc cc0_scratch0)) :
    (((c : Thread nD τ).loc cc0_scratch0) ↦{fullShare} f : sProp 𝕄)
      = bigSep Finset.univ fun b : Dev nD => (((c : Thread nD τ).loc cc0_scratch0) ↦[(rowRect b).set]{fullShare} f) := by
  rw [← pointsTo_biUnion (ℓ := (c : Thread nD τ).loc cc0_scratch0) (q := fullShare) (f := f) Finset.univ
    (fun b : Dev nD => (rowRect b).set) (fun b _ b' _ h => rows_disjoint h)]
  exact congrArg (fun S => pointsTo ((c : Thread nD τ).loc cc0_scratch0) S fullShare f) rows_cover.symm

/-- The result's staging buffer, held whole, is its sixteen row blocks held one by one. -/
theorem rows_split_out (c : Dev nD) (f : Buf (Elt F) ((c : Thread nD τ).loc cc0_stg2_0)) :
    (((c : Thread nD τ).loc cc0_stg2_0) ↦{fullShare} f : sProp 𝕄)
      = bigSep Finset.univ fun b : Dev nD => (((c : Thread nD τ).loc cc0_stg2_0) ↦[(rowRect b).set]{fullShare} f) := by
  rw [← pointsTo_biUnion (ℓ := (c : Thread nD τ).loc cc0_stg2_0) (q := fullShare) (f := f) Finset.univ
    (fun b : Dev nD => (rowRect b).set) (fun b _ b' _ h => rows_disjoint h)]
  exact congrArg (fun S => pointsTo ((c : Thread nD τ).loc cc0_stg2_0) S fullShare f) rows_cover.symm

/-- The receive buffer, held whole, is its fifteen slots held one by one. -/
theorem slots_split (c : Dev nD) (f : Buf (Elt F) ((c : Thread nD τ).loc cc0_scratch1)) :
    (((c : Thread nD τ).loc cc0_scratch1) ↦{fullShare} f : sProp 𝕄)
      = bigSep Finset.univ fun j : Fin 15 => (((c : Thread nD τ).loc cc0_scratch1) ↦[(slotRect j).set]{fullShare} f) := by
  rw [← pointsTo_biUnion (ℓ := (c : Thread nD τ).loc cc0_scratch1) (q := fullShare) (f := f) Finset.univ
    (fun j : Fin 15 => (slotRect j).set) (fun j _ j' _ h => slots_disjoint h)]
  exact congrArg (fun S => pointsTo ((c : Thread nD τ).loc cc0_scratch1) S fullShare f) slots_cover.symm

/-- Every piece's view sits in its own buffer: the location is the buffer's, by definition. -/
theorem tbSl_loc (c b : Dev nD) : (tbSl b).view.loc (c : Thread nD τ) = (c : Thread nD τ).loc cc0_scratch0 := rfl
theorem oSl_loc (c b : Dev nD) : (oSl b).view.loc (c : Thread nD τ) = (c : Thread nD τ).loc cc0_stg2_0 := rfl
theorem slotM_loc (c : Dev nD) (j : Fin 15) : (slotM j).view.loc (c : Thread nD τ) = (c : Thread nD τ).loc cc0_scratch1 := rfl
theorem xM_loc (c : Dev nD) : xM.view.loc (c : Thread nD τ) = (c : Thread nD τ).loc cc0_stg0_0 := rfl
theorem wM_loc (c : Dev nD) : wM.view.loc (c : Thread nD τ) = (c : Thread nD τ).loc cc0_stg1_0 := rfl
theorem oM_loc (c : Dev nD) : oM.view.loc (c : Thread nD τ) = (c : Thread nD τ).loc cc0_stg2_0 := rfl
theorem tbM_loc (c : Dev nD) : tbM.view.loc (c : Thread nD τ) = (c : Thread nD τ).loc cc0_scratch0 := rfl
theorem stM_loc (c : Dev nD) : stM.view.loc (c : Thread nD τ) = (c : Thread nD τ).loc cc0_scratch1 := rfl
theorem tbAccess_loc (c b : Dev nD) : (tbM.access (rowRect b)).loc (c : Thread nD τ) = (c : Thread nD τ).loc cc0_scratch0 := rfl
theorem oAccess_loc (c b : Dev nD) : (oM.access (rowRect b)).loc (c : Thread nD τ) = (c : Thread nD τ).loc cc0_stg2_0 := rfl

/-- info: 'Cert.Kernel.X.slots_split' depends on axioms: [propext, Classical.choice, Quot.sound] -/
#guard_msgs in #print axioms slots_split

end Cert.Kernel.X

end
-- ==== Proof.K.BufVals.lean ====
/-
  What the travelling pieces hold, element by element.  A store through a row block writes its payload at row
  `64 b + r`; a landing into slot `j` writes what the sender's row block reads, row `r` of the piece at `(j, r, ·)`; a
  load through a piece reads those elements back.  So each store, landing and load agrees, on its piece, with the
  whole-buffer contents the pieces are held at.
-/
import proofs.«900451_g7700000000000452_dist_matmul_of_ar_i_m1024_n512_k512_v7x_i16_bf16_1_alg».proof.Proof.K.Contents
import Idealize.ShloMosaic.Lib.Pipeline.Value

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

local notation "𝕄" => MT nD τ sig Unit (Elt F) ℕ UU ℕ

/-! ## Indices under a piece -/

/-- An element of a rectangle lies under one of the rectangle's own indices. -/
theorem rect_exists_emb {s : Shape} (r : Rect s) {i : s.Idx} (hi : i ∈ r.set) : ∃ x : r.shape.Idx, r.emb x = i := by
  rw [← r.map_emb_univ] at hi
  obtain ⟨x, -, e⟩ := Finset.mem_map.mp hi
  exact ⟨x, e⟩

/-- An index of a rectangle lies under an element of the rectangle. -/
theorem rect_emb_mem {s : Shape} (r : Rect s) (x : r.shape.Idx) : r.emb x ∈ r.set := r.idx_mem x

/-- Index `(r, k)` of row block `b` is element `(64 b + r, k)` of the buffer. -/
theorem rowRect_emb (b : Dev nD) (x : S64x512.Idx) :
    (rowRect b).emb x = ix2 (⟨64 * b.val + (x 0).val, by
        have h : (x 0).val < 64 := (x 0).isLt
        have hb : b.val < 16 := b.isLt
        omega⟩ : Fin 1024) (⟨(x 1).val, (x 1).isLt⟩ : Fin 512) :=
  funext fun a => Fin.ext (by
    match a with
    | ⟨0, _⟩ => show 64 * b.val + 1 * (x 0).val = 64 * b.val + (x 0).val; omega
    | ⟨1, _⟩ => show 0 + 1 * (x 1).val = (x 1).val; omega)

/-- The rows of a row block, read through the block's rectangle. -/
theorem rows_eq {α : Type} (X : S1024x512.Idx → α) (b : Dev nD) (x : S64x512.Idx) :
    rows X b x = X ((rowRect b).emb x) := by
  rw [rowRect_emb]; rfl

/-- The first coordinate of an element of slot `j` is `j`; the other two are the index's. -/
theorem slotRect_emb_val (j : Fin 15) (x : S1x64x512.Idx) :
    ((slotRect j).emb x 0).val = j.val ∧ ((slotRect j).emb x 1).val = (x 1).val ∧ ((slotRect j).emb x 2).val = (x 2).val := by
  have h0 : (x 0).val < 1 := (x 0).isLt
  refine ⟨?_, ?_, ?_⟩
  · show j.val + 1 * (x 0).val = j.val; omega
  · show 0 + 1 * (x 1).val = (x 1).val; omega
  · show 0 + 1 * (x 2).val = (x 2).val; omega

/-- Index `(r, k)` of the slot's piece, seen as a 64 x 512 array, lies under index `(0, r, k)` of the slot. -/
theorem slotM_emb (j : Fin 15) (y : S64x512.Idx) (x : S1x64x512.Idx) (h1 : (x 1).val = (y 0).val) (h2 : (x 2).val = (y 1).val) :
    (slotM j).view.emb y = (slotRect j).emb x := by
  have h0 : (x 0).val < 1 := (x 0).isLt
  have e : Shape.reshapeEquiv squeezes_S1x64x512_S64x512.numel_eq y = x :=
    Shape.reshapeEquiv_eq_of_rowMajor _ (by
      rw [Shape.rowMajor_val_three, Shape.rowMajor_val_two]
      show ((x 0).val * 64 + (x 1).val) * 512 + (x 2).val = (y 0).val * 512 + (y 1).val
      rw [h1, h2]; omega)
  show (slotRect j).emb (Shape.reshapeEquiv squeezes_S1x64x512_S64x512.numel_eq y) = _
  rw [e]

/-- The receive buffer's canonical contents at an element whose slot's sender is `d`. -/
theorem stageFull_apply (T : Dev nD → Vec F S1024x512 .f32) (c : Dev nD) (i : S15x64x512.Idx) (d : Dev nD)
    (hd : peer c (15 - (i 0).val) = d) :
    stageFull T c i = part T c d (ix2 (⟨(i 1).val, (i 1).isLt⟩ : Fin 64) (⟨(i 2).val, (i 2).isLt⟩ : Fin 512)) := by
  subst hd; rfl

/-! ## Stores -/

/-- Storing device `c`'s cast rows of row block `b` through that row block leaves the cast block there. -/
theorem store_tb (T : Dev nD → Vec F S1024x512 .f32) (c b : Dev nD)
    (f : Buf (Elt F) ((tbM.access (rowRect b)).loc (c : Thread nD τ))) :
    ∀ i ∈ (rowRect b).set,
      ((tbM.access (rowRect b) : View sig .tc .vmem _ .bf16).write (Elt F) f
        (truncf .bf16 (show FVec F S64x512 .f32 from rows (T c) b) bitsLt_bf16_f32) Finset.univ) i = tbFull T c i := by
  intro i hi
  obtain ⟨x, rfl⟩ := rect_exists_emb (rowRect b) hi
  refine (View.write_emb_of_mem (v := (tbM.access (rowRect b) : View sig .tc .vmem _ .bf16)) (Val := Elt F) f _ (Finset.mem_univ x)).trans ?_
  show FloatOps.truncf .bf16 bitsLt_bf16_f32 (rows (T c) b x) = FloatOps.truncf .bf16 bitsLt_bf16_f32 (T c ((rowRect b).emb x))
  rw [rows_eq]

/-- Storing row block `c` of the result through that row block of the result buffer leaves the result there. -/
theorem store_out (T : Dev nD → Vec F S1024x512 .f32) (W : Dev nD → Vec F S512x512 .f32) (c : Dev nD)
    (f : Buf (Elt F) ((oM.access (rowRect c)).loc (c : Thread nD τ))) :
    ∀ i ∈ (rowRect c).set,
      ((oM.access (rowRect c) : View sig .tc .vmem _ .bf16).write (Elt F) f (oblk T W c) Finset.univ) i = outFull T W i := by
  intro i hi
  obtain ⟨x, rfl⟩ := rect_exists_emb (rowRect c) hi
  refine (View.write_emb_of_mem (v := (oM.access (rowRect c) : View sig .tc .vmem _ .bf16)) (Val := Elt F) f _ (Finset.mem_univ x)).trans ?_
  show oblk T W c x = outFull T W ((rowRect c).emb x)
  have hx0 : (x 0).val < 64 := (x 0).isLt
  have hc : c.val < 16 := c.isLt
  have e0 : ((rowRect c).emb x 0).val = 64 * c.val + (x 0).val := by
    show 64 * c.val + 1 * (x 0).val = _; omega
  have e1 : ((rowRect c).emb x 1).val = (x 1).val := by
    show 0 + 1 * (x 1).val = _; omega
  unfold outFull
  have hd : (⟨((rowRect c).emb x 0).val / 64, by
      have h : ((rowRect c).emb x 0).val < 1024 := ((rowRect c).emb x 0).isLt
      show ((rowRect c).emb x 0).val / 64 < 16
      omega⟩ : Dev nD) = c := Fin.ext (by show ((rowRect c).emb x 0).val / 64 = c.val; rw [e0]; omega)
  rw [hd]
  refine congrArg (oblk T W c) (funext fun a => Fin.ext ?_)
  match a with
  | ⟨0, _⟩ => show (x 0).val = ((rowRect c).emb x 0).val % 64; rw [e0]; omega
  | ⟨1, _⟩ => show (x 1).val = ((rowRect c).emb x 1).val; rw [e1]

/-! ## Landings -/

/-- The first exchange: device `c` sends, of its cast block, the row block of device `c + j + 1` into that device's slot
    `j`; the slot then holds what the receive buffer is to hold there. -/
theorem land1 (T : Dev nD → Vec F S1024x512 .f32) (c : Dev nD) (j : Fin 15)
    (fs : Buf (Elt F) ((tbSl (peer c (j.val + 1))).view.loc (c : Thread nD τ)))
    (hfs : ∀ i ∈ (rowRect (peer c (j.val + 1))).set, fs i = tbFull T c i)
    (fd : Buf (Elt F) ((slotM j).view.loc ((peer c (j.val + 1) : Dev nD) : Thread nD τ))) :
    ∀ i ∈ (slotRect j).set,
      ((slotM j).view.write (Elt F) fd ((tbSl (peer c (j.val + 1))).view.read (Elt F) fs) Finset.univ) i
        = stageFull T (peer c (j.val + 1)) i := by
  intro i hi
  obtain ⟨x, rfl⟩ := rect_exists_emb (slotRect j) hi
  obtain ⟨e0, e1, e2⟩ := slotRect_emb_val j x
  have hx1 : (x 1).val < 64 := (x 1).isLt
  have hx2 : (x 2).val < 512 := (x 2).isLt
  have hy := slotM_emb j (ix2 (⟨(x 1).val, hx1⟩ : Fin 64) (⟨(x 2).val, hx2⟩ : Fin 512)) x rfl rfl
  rw [← hy]
  refine (View.write_emb_of_mem (v := (slotM j).view) (Val := Elt F) fd _ (Finset.mem_univ _)).trans ?_
  rw [hy, stageFull_apply T (peer c (j.val + 1)) _ c (by rw [e0]; exact peer_peer c j)]
  show fs ((rowRect (peer c (j.val + 1))).emb (ix2 (⟨(x 1).val, hx1⟩ : Fin 64) (⟨(x 2).val, hx2⟩ : Fin 512))) = _
  rw [hfs _ (rect_emb_mem (rowRect (peer c (j.val + 1))) _)]
  show FloatOps.truncf .bf16 bitsLt_bf16_f32 (T c _) = FloatOps.truncf .bf16 bitsLt_bf16_f32 (rows (T c) (peer c (j.val + 1)) _)
  rw [rows_eq]
  refine congrArg (fun z => FloatOps.truncf .bf16 bitsLt_bf16_f32 (T c ((rowRect (peer c (j.val + 1))).emb z))) (funext fun a => Fin.ext ?_)
  match a with
  | ⟨0, _⟩ => exact e1.symm
  | ⟨1, _⟩ => exact e2.symm

/-- The second exchange: a device's row block of the result lands in the same row block of another device's result
    buffer, which then holds the result there. -/
theorem land2 (T : Dev nD → Vec F S1024x512 .f32) (W : Dev nD → Vec F S512x512 .f32) (c c' : Dev nD)
    (fs : Buf (Elt F) ((oSl c).view.loc (c : Thread nD τ)))
    (hfs : ∀ i ∈ (rowRect c).set, fs i = outFull T W i)
    (fd : Buf (Elt F) ((oSl c).view.loc (c' : Thread nD τ))) :
    ∀ i ∈ (rowRect c).set,
      ((oSl c).view.write (Elt F) fd ((oSl c).view.read (Elt F) fs) Finset.univ) i = outFull T W i := by
  intro i hi
  obtain ⟨x, rfl⟩ := rect_exists_emb (rowRect c) hi
  refine (View.write_emb_of_mem (v := (oSl c).view) (Val := Elt F) fd _ (Finset.mem_univ x)).trans ?_
  show fs ((rowRect c).emb x) = _
  exact hfs _ (rect_emb_mem (rowRect c) x)

/-! ## Loads -/

/-- A load of row block `b` of the argument block reads its rows. -/
theorem load_x (c : Dev nD) (X : Buf (Elt F) (xM.view.loc (c : Thread nD τ))) (b : Dev nD) :
    xM.view.readAt (Elt F) (rowRect b).toLoadRect X = rows X b := by
  funext x
  rw [rows_eq]
  rfl

/-- A load of slot `j`, seen as a 64 x 512 array, reads the part of the device `15 - j` places further. -/
theorem load_slot (T : Dev nD → Vec F S1024x512 .f32) (c : Dev nD) (j : Fin 15)
    (f : Buf (Elt F) (stM.view.loc (c : Thread nD τ)))
    (hf : ∀ i ∈ (slotRect j).set, f i = stageFull T c i) :
    shapeCast S64x512 (stM.view.readAt (Elt F) (slotRect j).toLoadRect f) shapeCasts_S1x64x512_S64x512
      = part T c (peer c (15 - j.val)) := by
  funext y
  rw [shapeCast_dropUnit_apply]
  show f ((slotRect j).emb (Fin.cons ⟨0, Nat.one_pos⟩ y)) = _
  obtain ⟨e0, e1, e2⟩ := slotRect_emb_val j (Fin.cons ⟨0, Nat.one_pos⟩ y)
  rw [hf _ (rect_emb_mem (slotRect j) _), stageFull_apply T c _ (peer c (15 - j.val)) (by rw [e0])]
  refine congrArg (part T c (peer c (15 - j.val))) (funext fun a => Fin.ext ?_)
  match a with
  | ⟨0, _⟩ => exact e1
  | ⟨1, _⟩ => exact e2

/-- A load of the whole matrix reads it. -/
theorem load_w (c : Dev nD) (Wc : Buf (Elt F) (wM.view.loc (c : Thread nD τ))) :
    wM.view.readAt (Elt F) (Rect.unit (s := S512x512) ![0, 0] S512x512.size inb_S512x512_S512x512_0_0).toLoadRect Wc = Wc :=
  Memref.readAt_unit_zero (Elt F) cc0_stg1_0 (funext fun a => by match a with | ⟨0, _⟩ => rfl | ⟨1, _⟩ => rfl) _ Wc

/-- info: 'Cert.Kernel.X.land1' depends on axioms: [propext, Classical.choice, Quot.sound] -/
#guard_msgs in #print axioms land1

end Cert.Kernel.X

end
-- ==== Proof.K.GlueBufs.lean ====
/-
  A buffer as its pieces, in the pieces' own spelling, and the pieces joined back into the whole buffer at the end of the
  body: the cast-block scratch from its own row block at any contents and the fifteen that came back; the result buffer
  from the shares of its own row block and the fifteen row blocks that landed.
-/
import proofs.«900451_g7700000000000452_dist_matmul_of_ar_i_m1024_n512_k512_v7x_i16_bf16_1_alg».proof.Proof.K.Glue
import proofs.«900451_g7700000000000452_dist_matmul_of_ar_i_m1024_n512_k512_v7x_i16_bf16_1_alg».proof.Proof.K.BufSplit
import proofs.«900451_g7700000000000452_dist_matmul_of_ar_i_m1024_n512_k512_v7x_i16_bf16_1_alg».proof.Proof.K.BufVals
import Idealize.ShloMosaic.Lib.Transfers

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

local notation "𝕄" => MT nD τ sig Unit (Elt F) ℕ UU ℕ

variable (T : Dev nD → Vec F S1024x512 .f32) (W : Dev nD → Vec F S512x512 .f32)

/-! ## The buffers as their pieces, in the pieces' own spelling -/

theorem tbPts_eq (c b : Dev nD) (f : Buf (Elt F) ((c : Thread nD τ).loc cc0_scratch0)) :
    tbPts c b f = (((c : Thread nD τ).loc cc0_scratch0) ↦[(rowRect b).set]{fullShare} f : sProp 𝕄) := by
  unfold tbPts; rw [tbSl_set]
theorem oPts_eq (c b : Dev nD) (q : PosShare TreeShare) (f : Buf (Elt F) ((c : Thread nD τ).loc cc0_stg2_0)) :
    oPts c b q f = (((c : Thread nD τ).loc cc0_stg2_0) ↦[(rowRect b).set]{q} f : sProp 𝕄) := by
  unfold oPts; rw [oSl_set]
theorem slotPts_eq (c : Dev nD) (j : Fin 15) (f : Buf (Elt F) ((c : Thread nD τ).loc cc0_scratch1)) :
    slotPts c j f = (((c : Thread nD τ).loc cc0_scratch1) ↦[(slotRect j).set]{fullShare} f : sProp 𝕄) := by
  unfold slotPts; rw [slotM_set]

/-- The cast-block scratch: the device's own row block, and the fifteen that leave. -/
theorem tb_split (c : Dev nD) (f : Buf (Elt F) ((c : Thread nD τ).loc cc0_scratch0)) :
    (((c : Thread nD τ).loc cc0_scratch0) ↦{fullShare} f : sProp 𝕄)
      = iprop(tbPts c c f ∗ bigSep Finset.univ fun k : Fin 15 => tbPts c (peer c (@HAdd.hAdd ℕ ℕ ℕ (@instHAdd ℕ instAddNat) k.val (@OfNat.ofNat ℕ (nat_lit 1) (instOfNatNat (nat_lit 1))))) f) := by
  rw [rows_split_tb, bigSep_dev_peer c, tbPts_eq]
  exact congrArg (fun X => iprop((((c : Thread nD τ).loc cc0_scratch0) ↦[(rowRect c).set]{fullShare} f) ∗ X))
    (bigSep_congr fun k _ => (tbPts_eq c _ _).symm)

/-- The result buffer: the device's own row block, and the fifteen that land. -/
theorem out_split (c : Dev nD) (f : Buf (Elt F) ((c : Thread nD τ).loc cc0_stg2_0)) :
    (((c : Thread nD τ).loc cc0_stg2_0) ↦{fullShare} f : sProp 𝕄)
      = iprop(oPts c c fullShare f ∗ bigSep Finset.univ fun k : Fin 15 => oPts c (peer c (@HAdd.hAdd ℕ ℕ ℕ (@instHAdd ℕ instAddNat) k.val (@OfNat.ofNat ℕ (nat_lit 1) (instOfNatNat (nat_lit 1))))) fullShare f) := by
  rw [rows_split_out, bigSep_dev_peer c, oPts_eq]
  exact congrArg (fun X => iprop((((c : Thread nD τ).loc cc0_stg2_0) ↦[(rowRect c).set]{fullShare} f) ∗ X))
    (bigSep_congr fun k _ => (oPts_eq c _ fullShare _).symm)

/-- The receive buffer: its fifteen slots. -/
theorem slot_split (c : Dev nD) (f : Buf (Elt F) ((c : Thread nD τ).loc cc0_scratch1)) :
    (((c : Thread nD τ).loc cc0_scratch1) ↦{fullShare} f : sProp 𝕄) = bigSep Finset.univ fun j : Fin 15 => slotPts c j f := by
  rw [slots_split]
  exact bigSep_congr fun j _ => (slotPts_eq c j f).symm

/-! ## The pieces joined back -/

/-- The cast-block scratch from its own row block at any contents and the fifteen row blocks that came back. -/
theorem tb_join (c : Dev nD) (fown : Buf (Elt F) ((c : Thread nD τ).loc cc0_scratch0)) :
    iprop(tbPts c c fown ∗ bigSep Finset.univ fun k : Fin 15 => tbPts c (peer c (k.val + 1)) (tbFull T c))
      ⊢ (∃ f : Buf (Elt F) ((c : Thread nD τ).loc cc0_scratch0), ((c : Thread nD τ).loc cc0_scratch0) ↦{fullShare} f : sProp 𝕄) := by
  classical
  have h1 : tbPts c c fown = tbPts c c ((rowRect c).set.piecewise fown (tbFull T c) : Buf (Elt F) ((c : Thread nD τ).loc cc0_scratch0)) := by
    rw [tbPts_eq, tbPts_eq]
    exact pointsTo_congr fun i hi => (Finset.piecewise_eq_of_mem _ _ _ hi).symm
  have h2 : ∀ k : Fin 15, tbPts c (peer c (k.val + 1)) (tbFull T c)
      = tbPts c (peer c (@HAdd.hAdd ℕ ℕ ℕ (@instHAdd ℕ instAddNat) k.val (@OfNat.ofNat ℕ (nat_lit 1) (instOfNatNat (nat_lit 1))))) ((rowRect c).set.piecewise fown (tbFull T c) : Buf (Elt F) ((c : Thread nD τ).loc cc0_scratch0)) := by
    intro k
    rw [tbPts_eq, tbPts_eq]
    exact pointsTo_congr fun i hi => (Finset.piecewise_eq_of_notMem _ _ _
      (Finset.disjoint_left.mp (rows_disjoint (peer_ne c k)) hi)).symm
  rw [h1, bigSep_congr fun k _ => h2 k, ← tb_split]
  exact exists_intro (Φ := fun f : Buf (Elt F) ((c : Thread nD τ).loc cc0_scratch0) => (((c : Thread nD τ).loc cc0_scratch0) ↦{fullShare} f : sProp 𝕄)) _

/-- A row block's points-to depends on the row block only through its number. -/
theorem oPts_dev_congr (c b b' : Dev nD) (h : b = b') (q : PosShare TreeShare) (X : Vec F S1024x512 .bf16) :
    (oPts c b q X : sProp 𝕄) = oPts c b' q X := by
  subst h; rfl

/-- A row block of the result buffer at the full share: the remainder after fifteen shares, and the fifteen shares. -/
theorem oPts_toks_split (c b : Dev nD) (X : Vec F S1024x512 .bf16) :
    (oPts c b fullShare X : sProp 𝕄)
      ⊢ iprop(oPts c b (Transfers.shareDrop fullShare 15) X
          ∗ bigSep Finset.univ fun j : Fin 15 => oPts c b (Transfers.shareTok fullShare 15 j) X) := by
  unfold oPts
  exact Transfers.pointsTo_toks_split fullShare 15
theorem oPts_toks_join (c b : Dev nD) (X : Vec F S1024x512 .bf16) :
    iprop(oPts c b (Transfers.shareDrop fullShare 15) X
          ∗ bigSep Finset.univ fun j : Fin 15 => oPts c b (Transfers.shareTok fullShare 15 j) X)
      ⊢ (oPts c b fullShare X : sProp 𝕄) := by
  unfold oPts
  exact Transfers.pointsTo_toks_join fullShare 15

/-- The device's own row block of the result, split into the remainder and fifteen shares. -/
theorem out_shares (c : Dev nD) :
    oPts c c fullShare (outFull T W)
      ⊢ iprop(oPts c c (Transfers.shareDrop fullShare 15) (outFull T W)
          ∗ bigSep Finset.univ fun j : Fin 15 => oPts c c (Transfers.shareTok fullShare 15 j) (outFull T W)) :=
  oPts_toks_split c c (outFull T W)

/-- The fifteen row blocks that landed, counted from the last place around the ring to the first, are the fifteen other
    row blocks. -/
theorem landed_eq_others (c : Dev nD) (X : Vec F S1024x512 .bf16) :
    (bigSep Finset.univ fun j : Fin 15 => (oPts c (peer c (15 - j.val)) fullShare X : sProp 𝕄))
      = bigSep Finset.univ fun k : Fin 15 => oPts c (peer c (k.val + 1)) fullShare X := by
  rw [bigSep_rev fun k : Fin 15 => (oPts c (peer c (k.val + 1)) fullShare X : sProp 𝕄)]
  exact bigSep_congr fun j _ => oPts_dev_congr c _ _ (peer_sub_rev c j) fullShare X

/-- The result buffer from the shares of the device's own row block and the fifteen row blocks that landed. -/
theorem out_join (c : Dev nD) :
    iprop((oPts c c (Transfers.shareDrop fullShare 15) (outFull T W)
          ∗ bigSep Finset.univ fun j : Fin 15 => oPts c c (Transfers.shareTok fullShare 15 j) (outFull T W))
        ∗ bigSep Finset.univ fun j : Fin 15 => oPts c (peer c (15 - j.val)) fullShare (outFull T W))
      ⊢ (((c : Thread nD τ).loc cc0_stg2_0) ↦{fullShare} outFull T W : sProp 𝕄) :=
  (BIClass.sep_mono (oPts_toks_join c c (outFull T W)) (Entails.of_eq (landed_eq_others c (outFull T W)))).trans
    (Entails.of_eq (out_split c (outFull T W)).symm)

/-- info: 'Cert.Kernel.X.out_join' depends on axioms: [propext, Classical.choice, Quot.sound] -/
#guard_msgs in #print axioms out_join

end Cert.Kernel.X

end
-- ==== Proof.K.StepsSend.lean ====
/-
  The two sends of the exchange, one rule per effect.  First exchange, step `j`: the rows of the device's block that
  belong to device `c + j + 1` are read, cast and stored through that row block of the cast scratch, and the row block is
  sent into slot `j` of that device's receive buffer.  Second exchange, step `j`: the device's own row block of the result
  is sent into the same row block of device `c + j + 1`'s result buffer.
-/
import proofs.«900451_g7700000000000452_dist_matmul_of_ar_i_m1024_n512_k512_v7x_i16_bf16_1_alg».proof.Proof.K.Steps1
import proofs.«900451_g7700000000000452_dist_matmul_of_ar_i_m1024_n512_k512_v7x_i16_bf16_1_alg».proof.Proof.K.BufSplit
import proofs.«900451_g7700000000000452_dist_matmul_of_ar_i_m1024_n512_k512_v7x_i16_bf16_1_alg».proof.Proof.K.BufVals

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-! ## The payload of a transfer cell, family by family -/

section Payloads
variable (T : Dev nD → Vec F S1024x512 .f32) (Wt : Dev nD → Vec F S512x512 .f32)
theorem xPay_0 (c : Dev nD) (j : Fin 15) : xPay T Wt c 0 j = tbPts c (peer c (j.val + 1)) (tbFull T c) := rfl
theorem xPay_1 (c : Dev nD) (j : Fin 15) : xPay T Wt c 1 j = slotPts c j (stageFull T c) := rfl
theorem xPay_2 (c : Dev nD) (j : Fin 15) : xPay T Wt c 2 j = oPts c c (Transfers.shareTok fullShare 15 j) (outFull T Wt) := rfl
theorem xPay_3 (c : Dev nD) (j : Fin 15) : xPay T Wt c 3 j = oPts c (peer c (15 - j.val)) fullShare (outFull T Wt) := rfl
end Payloads

/-! ## The sends -/

/-- First exchange, step `j`: the rows of device `c`'s block that belong to device `c + j + 1` are read, the row block of
    the cast scratch is read and then overwritten with those rows cast, and the row block is sent into slot `j` of device
    `c + j + 1`'s receive buffer.  The send pays the single duty of the device's send cell `j` (the row block comes back
    holding the cast block) and of the receiver's receive cell `j` (the slot holding the part of device `c`). -/
theorem step_p1 (c : Dev nD) (j : Fin 15) (n : Dev nD) (hn : n = peer c (j.val + 1))
    (off1 off2 : Fin 2 → Nat) (hoff1 : off1 = ![64 * (peer c (j.val + 1)).val, 0]) (hoff2 : off2 = ![64 * (peer c (j.val + 1)).val, 0])
    (payfn : Vec F S64x512 .f32 → FVec F S64x512 .bf16)
    (hpay : ∀ v, payfn v = truncf .bf16 (show FVec F S64x512 .f32 from v) bitsLt_bf16_f32)
    (sS sR : DmaSem sig) (hsS : sS = dsem 0 j) (hsR : sR = dsem 1 j)
    (dst : Memref sig .tc .vmem S64x512 .bf16) (hdst : dst = slotM j)
    (K : Dev nD × CIx → ℕ) (W : Waits sig Unit)
    {inb1 inb1' inb1'' : ∀ a, off1 a + S64x512.size a ≤ S1024x512.size a} {inb2 : ∀ a, off2 a + S64x512.size a ≤ S1024x512.size a}
    {hl1 : xM.view.LoadsAt (Rect.unit (s := S1024x512) off1 S64x512.size inb1).toLoadRect}
    {hl2 : tbM.view.LoadsAt (Rect.unit (s := S1024x512) off1 S64x512.size inb1').toLoadRect}
    {hx : (tbM.access (Rect.unit (s := S1024x512) off1 S64x512.size inb1'')).Stores Finset.univ}
    {hm : (Finset.univ : Finset (Rect.unit (s := S1024x512) off1 S64x512.size inb1'').shape.Idx) = Finset.univ
      ∨ ∀ a, (Rect.unit (s := S1024x512) off1 S64x512.size inb1'').stride a = 1}
    {hsl : ∀ a, (Rect.unit (s := S1024x512) off2 S64x512.size inb2).stride a = 1}
    {hsc : dst.view.ref.isScScratch = false}
    {hsrc : (tbM.slice (Rect.unit (s := S1024x512) off2 S64x512.size inb2) hsl).view.WordExact}
    {hdstW : (DmaTarget.remote (p := Proc.tc) (Dev.tc n) dst (.dma sS) hsc).view.WordExact}
    {hsem : (DmaTarget.remote (p := Proc.tc) (Dev.tc n) dst (.dma sS) hsc).Typed .vmem (.dma sR)}
    {α : Type} {Q : α → sProp 𝕄} {kont : PUnit → Prog (TpuEff nD τ sig (Elt F) Λ₀ .tc) α} :
    iprop(records (Rd m ρ) K ∗ (((c : Thread nD τ).loc cc0_stg0_0) ↦{fullShare} Tm m ρ c)
        ∗ (∃ f, tbPts c (peer c (j.val + 1)) f) ∗ (∃ fd, slotPts (peer c (j.val + 1)) j fd)
        ∗ owes (c : Thread nD τ) (owedFrom c (15 + j.val)) W ∗ dutyTok ER (xCell c 0 j) 0 (0 : Fin 15)
        ∗ dutyTok ER (xCell (peer c (j.val + 1)) 1 j) 0 (0 : Fin 15))
      ⊢ iprop((((((c : Thread nD τ).loc cc0_stg0_0) ↦{fullShare} Tm m ρ c) ∗ cred (tallyAt (xCell c 0 j) () N)
              ∗ owes (c : Thread nD τ) (owedFrom c (15 + j.val + 1)) W) -∗ WP c (kont ⟨⟩) Q)
          -∗ WP c (.op (.load xM (Rect.unit (s := S1024x512) off1 S64x512.size inb1).toLoadRect hl1) fun x =>
              .op (.load tbM (Rect.unit (s := S1024x512) off1 S64x512.size inb1').toLoadRect hl2) fun _ =>
              .op (.store tbM (Rect.unit (s := S1024x512) off1 S64x512.size inb1'') (payfn x) Finset.univ hx hm) fun _ =>
              .op (.enqueueDma (tbM.slice (Rect.unit (s := S1024x512) off2 S64x512.size inb2) hsl)
                (.remote (Dev.tc n) dst (.dma sS) hsc) (.dma sR) hsrc hdstW hsem) kont) Q) := by
  subst hn hoff1 hoff2 hsS hsR hdst
  unfold tbPts slotPts
  iintro ⟨#HR, Hx, Htb, Hsl, HO, Htok1, Htok2⟩ Hk
  icases Htb with ⟨%f, Htb⟩
  icases Hsl with ⟨%fd, Hsl⟩
  -- the rows are read off the argument block, held whole
  iapply (wp_load 𝒱₀ (c : Thread nD τ) none Set.univ (m := xM) (S := Finset.univ) (q := fullShare) (f := Tm m ρ c)
      (Finset.subset_univ _)) $$ Hx
  iintro Hx
  -- the row block of the cast scratch is read, then overwritten with the cast rows
  iapply (wp_load 𝒱₀ (c : Thread nD τ) none Set.univ (m := tbM) (S := ((tbSl (peer c (j.val + 1))).view.set : Finset (Idx ((tbSl (peer c (j.val + 1))).view.loc (c : Thread nD τ))))) (q := fullShare) (f := f)
      (View.set_slice tbM.view (rowRect (peer c (j.val + 1)))).ge) $$ Htb
  iintro Htb
  iapply (wp_store 𝒱₀ (c : Thread nD τ) none Set.univ (m := tbM) (r := rowRect (peer c (j.val + 1)))
      (S := ((tbSl (peer c (j.val + 1))).view.set : Finset (Idx ((tbSl (peer c (j.val + 1))).view.loc (c : Thread nD τ))))) (f := f) (Finset.Subset.refl _)) $$ Htb
  iintro Htb
  have e : ((tbSl (peer c (j.val + 1))).view.loc (c : Thread nD τ) ↦[(tbSl (peer c (j.val + 1))).view.set]{fullShare}
        ((tbM.access (rowRect (peer c (j.val + 1))) : View sig .tc .vmem _ .bf16).write (Elt F) f
          (payfn (xM.view.readAt (Elt F) (rowRect (peer c (j.val + 1))).toLoadRect (Tm m ρ c))) Finset.univ) : sProp 𝕄)
      = ((tbSl (peer c (j.val + 1))).view.loc (c : Thread nD τ) ↦[(tbSl (peer c (j.val + 1))).view.set]{fullShare} tbFull (Tm m ρ) c) := by
    refine pointsTo_congr ?_
    rw [tbSl_set, hpay, load_x c]
    exact store_tb (Tm m ρ) c (peer c (j.val + 1)) f
  -- the row block, now the cast block there, leaves for slot `j` of device `c + j + 1`
  iapply (Rounds.wp_send_pointsTo 𝒱₀ ER (Rd m ρ) (c : Thread nD τ) none
      (c' := (peer c (j.val + 1) : Thread nD τ)) (src := tbSl (peer c (j.val + 1))) (dst := slotM j) (q := fullShare)
      (fs := tbFull (Tm m ρ) c) (fd := fd) (sS := .dma (dsem 0 j)) (sem := .dma (dsem 1 j))
      (κ₁ := K (c, some (0, j))) (κ₂ := K (peer c (j.val + 1), some (1, j)))
      (r₁ := 0) (r₂ := 0) (d₁ := 0) (d₂ := 0)
      (by rw [duties_x]; exact Finset.mem_singleton_self _) (by rw [duties_x]; exact Finset.mem_singleton_self _)
      () () N rfl (amount_x _ _ _ _ _ _) (amount_x _ _ _ _ _ _) (O₀ := owedFrom c (15 + j.val)) (owedFrom c (15 + j.val + 1))
      (by rw [owedFrom_succ c (15 + j.val) (by have := j.isLt; omega), tallyN_x1])
      (by rw [payload_x, xPay_0]; exact .rfl)
      (by
        rw [payload_x, xPay_1]
        unfold slotPts
        refine Entails.of_eq (pointsTo_congr ?_)
        rw [slotM_set]
        exact land1 (Tm m ρ) c j (tbFull (Tm m ρ) c) (fun _ _ => rfl) fd)) $$ [Htb Hsl HO Htok1 Htok2]
  · isplitr; · iapply (inv_at (Rd m ρ) K (c, some (0, j))); iexact HR
    isplitr; · iapply (inv_at (Rd m ρ) K (peer c (j.val + 1), some (1, j))); iexact HR
    isplitl [Htb]; · iapply (Entails.of_eq e) $$ Htb
    isplitl [Hsl]; · iexact Hsl
    isplitl [HO]; · iexact HO
    isplitl [Htok1]; · iexact Htok1
    isplitr; · iapply (reached_at (Rd m ρ) K (c, some (0, j))); iexact HR
    isplitl [Htok2]; · iexact Htok2
    iapply (reached_at (Rd m ρ) K (peer c (j.val + 1), some (1, j))); iexact HR
  iintro ⟨Hc, HO⟩
  iapply Hk
  isplitl [Hx]; · iexact Hx
  isplitl [Hc]; · iexact Hc
  iexact HO

/-- Second exchange, step `j`: the `j`-th share of the device's own row block of the result is sent into the same row
    block of device `c + j + 1`'s result buffer.  The send pays the single duty of the device's send cell `j` (the share comes
    back) and of the receiver's receive cell `j` (its row block `c` holding the result there: for the receiver `n`, the
    block `n + 15 - j`). -/
theorem step_p2 (c : Dev nD) (j : Fin 15) (n : Dev nD) (hn : n = peer c (j.val + 1))
    (off4 off4' : Fin 2 → Nat) (hoff : off4 = ![64 * c.val, 0]) (hoff' : off4' = ![64 * c.val, 0])
    (sS sR : DmaSem sig) (hsS : sS = dsem 2 j) (hsR : sR = dsem 3 j)
    (K : Dev nD × CIx → ℕ) (W : Waits sig Unit)
    {inb : ∀ a, off4 a + S64x512.size a ≤ S1024x512.size a} {inb' : ∀ a, off4' a + S64x512.size a ≤ S1024x512.size a}
    {hsl : ∀ a, (Rect.unit (s := S1024x512) off4 S64x512.size inb).stride a = 1}
    {hsl' : ∀ a, (Rect.unit (s := S1024x512) off4' S64x512.size inb').stride a = 1}
    {hsc : (oM.slice (Rect.unit (s := S1024x512) off4' S64x512.size inb') hsl').view.ref.isScScratch = false}
    {hsrc : (oM.slice (Rect.unit (s := S1024x512) off4 S64x512.size inb) hsl).view.WordExact}
    {hdstW : (DmaTarget.remote (p := Proc.tc) (Dev.tc n) (oM.slice (Rect.unit (s := S1024x512) off4' S64x512.size inb') hsl') (.dma sS) hsc).view.WordExact}
    {hsem : (DmaTarget.remote (p := Proc.tc) (Dev.tc n) (oM.slice (Rect.unit (s := S1024x512) off4' S64x512.size inb') hsl') (.dma sS) hsc).Typed .vmem (.dma sR)}
    {α : Type} {Q : α → sProp 𝕄} {kont : PUnit → Prog (TpuEff nD τ sig (Elt F) Λ₀ .tc) α} :
    iprop(records (Rd m ρ) K ∗ oPts c c (Transfers.shareTok fullShare 15 j) (outM m ρ) ∗ (∃ g, oPts (peer c (j.val + 1)) c fullShare g)
        ∗ owes (c : Thread nD τ) (owedFrom c (30 + j.val)) W ∗ dutyTok ER (xCell c 2 j) 0 (0 : Fin 15)
        ∗ dutyTok ER (xCell (peer c (j.val + 1)) 3 j) 0 (0 : Fin 15))
      ⊢ iprop(((cred (tallyAt (xCell c 2 j) () N) ∗ owes (c : Thread nD τ) (owedFrom c (30 + j.val + 1)) W) -∗ WP c (kont ⟨⟩) Q)
          -∗ WP c (.op (.enqueueDma (oM.slice (Rect.unit (s := S1024x512) off4 S64x512.size inb) hsl)
                (.remote (Dev.tc n) (oM.slice (Rect.unit (s := S1024x512) off4' S64x512.size inb') hsl') (.dma sS) hsc) (.dma sR) hsrc hdstW hsem) kont) Q) := by
  subst hn hoff hoff' hsS hsR
  unfold oPts
  iintro ⟨#HR, Hsrc, Hd, HO, Htok1, Htok2⟩
  icases Hd with ⟨%g, Hdst⟩
  iapply (Rounds.wp_send_pointsTo 𝒱₀ ER (Rd m ρ) (c : Thread nD τ) none
      (c' := (peer c (j.val + 1) : Thread nD τ)) (src := oSl c) (dst := oSl c) (q := Transfers.shareTok fullShare 15 j)
      (fs := outM m ρ) (fd := g) (sS := .dma (dsem 2 j)) (sem := .dma (dsem 3 j))
      (κ₁ := K (c, some (2, j))) (κ₂ := K (peer c (j.val + 1), some (3, j)))
      (r₁ := 0) (r₂ := 0) (d₁ := 0) (d₂ := 0)
      (by rw [duties_x]; exact Finset.mem_singleton_self _) (by rw [duties_x]; exact Finset.mem_singleton_self _)
      () () N rfl (amount_x _ _ _ _ _ _) (amount_x _ _ _ _ _ _) (O₀ := owedFrom c (30 + j.val)) (owedFrom c (30 + j.val + 1))
      (by rw [owedFrom_succ c (30 + j.val) (by have := j.isLt; omega), tallyN_x3])
      (by rw [payload_x, xPay_2]; exact .rfl)
      (by
        rw [payload_x, xPay_3, peer_peer]
        unfold oPts
        refine Entails.of_eq (pointsTo_congr ?_)
        rw [oSl_set]
        exact land2 (Tm m ρ) (Wm m ρ) c (peer c (j.val + 1)) (outM m ρ) (fun _ _ => rfl) g)) $$ [Hsrc Hdst HO Htok1 Htok2]
  isplitr; · iapply (inv_at (Rd m ρ) K (c, some (2, j))); iexact HR
  isplitr; · iapply (inv_at (Rd m ρ) K (peer c (j.val + 1), some (3, j))); iexact HR
  isplitl [Hsrc]; · iexact Hsrc
  isplitl [Hdst]; · iexact Hdst
  isplitl [HO]; · iexact HO
  isplitl [Htok1]; · iexact Htok1
  isplitr; · iapply (reached_at (Rd m ρ) K (c, some (2, j))); iexact HR
  isplitl [Htok2]; · iexact Htok2
  iapply (reached_at (Rd m ρ) K (peer c (j.val + 1), some (3, j))); iexact HR

/-- info: 'Cert.Kernel.X.step_p1' depends on axioms: [propext, Classical.choice, Quot.sound] -/
#guard_msgs in #print axioms step_p1
/-- info: 'Cert.Kernel.X.step_p2' depends on axioms: [propext, Classical.choice, Quot.sound] -/
#guard_msgs in #print axioms step_p2

end Cert.Kernel.X

end
-- ==== Proof.K.StepsWait.lean ====
/-
  The waits of the two exchanges, one rule per wait: a receive wait brings the piece that landed (for the first exchange
  the slot is then read), a send wait gives back the piece that left; a transfer cell whose single round is over closes
  with its counter at zero.
-/
import proofs.«900451_g7700000000000452_dist_matmul_of_ar_i_m1024_n512_k512_v7x_i16_bf16_1_alg».proof.Proof.K.Steps1

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

/-- A transfer into any view of one piece's shape and element type credits its cell by the piece's credit. -/
theorem credit_piece (M : Memref sig .tc .vmem S64x512 .bf16) : M.view.dmaCredit = N := rfl

/-- Reading slot `j` through the whole receive buffer touches only the slot's elements. -/
theorem slot_load_sub (j : Fin 15) : stM.view.setOn (slotRect j).toLoadRect.set ⊆ (slotM j).view.set := by
  rw [slotM_set]
  intro i hi
  obtain ⟨x, hx, rfl⟩ := Finset.mem_map.mp hi
  exact hx

variable (m : (ℓ : Loc nD τ sig) → Buf (Elt F) ℓ) (ρ : Dev nD → PrngReg)

theorem xPay1 (c : Dev nD) (j : Fin 15) : xPay (Tm m ρ) (Wm m ρ) c 1 j = slotPts c j (stageFull (Tm m ρ) c) := rfl
theorem xPay0 (c : Dev nD) (j : Fin 15) : xPay (Tm m ρ) (Wm m ρ) c 0 j = tbPts c (peer c (j.val + 1)) (tbFull (Tm m ρ) c) := rfl
theorem xPay2 (c : Dev nD) (j : Fin 15) : xPay (Tm m ρ) (Wm m ρ) c 2 j = oPts c c (Transfers.shareTok fullShare 15 j) (outM m ρ) := rfl
theorem xPay3 (c : Dev nD) (j : Fin 15) : xPay (Tm m ρ) (Wm m ρ) c 3 j = oPts c (peer c (15 - j.val)) fullShare (outM m ρ) := rfl

/-- Once a device has made all its forty-five payments it may wait on any cell. -/
theorem mayWait_end (c : Dev nD) (sm : SemLoc sig) :
    (BI.emp : sProp 𝕄) ⊢ MayWait (c : Thread nD τ) sm () (owedFrom c 45) := by
  rw [owedFrom_end, MayWait_zero]

/-- Receive wait `j` of the first exchange, then the read of the slot: the slot comes holding the part of device `c - j - 1`. -/
theorem step_acc (c : Dev nD) (j : Fin 15) (K : Dev nD × CIx → ℕ) (W : Waits sig Unit)
    (sR : DmaSem sig) (hsR : sR = dsem 1 j) (srcM dstM : Memref sig .tc .vmem S64x512 .bf16) (hdstM : dstM = slotM j)
    {hs : srcM.view.WordExact} {hd : dstM.view.WordExact} {hl : stM.view.LoadsAt (slotRect j).toLoadRect}
    {α : Type} {Q : α → sProp 𝕄}
    {kont : ((slotRect j).toLoadRect.shape.Idx → Elt F .bf16) → Prog (TpuEff nD τ sig (Elt F) Λ₀ .tc) α} :
    iprop(records (Rd m ρ) K ∗ cred (tallyAt (xCell c 1 j) () N) ∗ owes (c : Thread nD τ) (owedFrom c 30) W ∗ levAts L lv
        ∗ atPos ER (xCell c 1 j) 0 ∅ 0)
      ⊢ iprop(((owes (c : Thread nD τ) (owedFrom c 30) (insert (SemLoc.dma (dsem 1 j), ()) W) ∗ atPos ER (xCell c 1 j) 1 ∅ 0
              ∗ slotPts c j (stageFull (Tm m ρ) c))
            -∗ WP c (kont (stM.view.readAt (Elt F) (slotRect j).toLoadRect (stageFull (Tm m ρ) c))) Q)
          -∗ WP c (.op (.waitDma2 sR srcM dstM hs hd) fun _ => .op (.load stM (slotRect j).toLoadRect hl) kont) Q) := by
  subst hsR
  rw [← credit_piece dstM]
  iintro ⟨#HR, Hc, HO, #Hlev, Hat⟩ Hk
  iapply (Rounds.wp_wait_rest_token 𝒱₀ ER (Rd m ρ) (c : Thread nD τ) none (κ := K (c, some (1, j)))
      (wpE_waitDma2_eq 𝒱₀ (c : Thread nD τ) none Set.univ) (Set.mem_univ _) () (O := owedFrom c 30) (W := W) (R := 0) (m := 0) (T := ∅)
      (by rw [expect_x, credit_piece, Nat.zero_add])) $$ [Hc HO Hat]
  · isplitr; · iapply (inv_at (Rd m ρ) K (c, some (1, j))); iexact HR
    isplitl [Hc]; · iexact Hc
    isplitl [HO]; · iexact HO
    isplitr; · iapply (mayWait_x1 c j); iexact Hlev
    iexact Hat
  iintro ⟨HO, Hat, -, Hpay⟩
  ihave Hs := (Entails.of_eq ((rest_x _ _ c 1 j).trans (xPay1 m ρ c j))) $$ Hpay
  have hld : (slotPts c j (stageFull (Tm m ρ) c) : sProp 𝕄)
      ⊢ iprop((slotPts c j (stageFull (Tm m ρ) c) -∗ WP c (kont (stM.view.readAt (Elt F) (slotRect j).toLoadRect (stageFull (Tm m ρ) c))) Q)
          -∗ WP c (.op (.load stM (slotRect j).toLoadRect hl) kont) Q) :=
    wp_load 𝒱₀ (c : Thread nD τ) none Set.univ (m := stM) (r := (slotRect j).toLoadRect) (S := (slotM j).view.set) (q := fullShare)
      (f := stageFull (Tm m ρ) c) (slot_load_sub j)
  iapply hld $$ Hs
  iintro Hs
  iapply Hk
  isplitl [HO]; · iexact HO
  isplitl [Hat]; · iexact Hat
  iexact Hs

/-- Receive wait `j` of the second exchange: row block `c - j - 1` of the result buffer comes holding that block of the result. -/
theorem step_wait_r2 (c : Dev nD) (j : Fin 15) (K : Dev nD × CIx → ℕ) (W : Waits sig Unit)
    (sR : DmaSem sig) (hsR : sR = dsem 3 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 3 j) () N) ∗ owes (c : Thread nD τ) (owedFrom c 45) W
        ∗ atPos ER (xCell c 3 j) 0 ∅ 0)
      ⊢ iprop(((owes (c : Thread nD τ) (owedFrom c 45) (insert (SemLoc.dma (dsem 3 j), ()) W) ∗ atPos ER (xCell c 3 j) 1 ∅ 0
              ∗ oPts c (peer c (15 - j.val)) fullShare (outM m ρ))
            -∗ WP c (kont ⟨⟩) Q)
          -∗ WP c (.op (.waitDma2 sR srcM dstM hs hd) kont) Q) := by
  subst hsR
  rw [← credit_piece dstM]
  iintro ⟨#HR, Hc, HO, Hat⟩ Hk
  iapply (Rounds.wp_wait_rest_token 𝒱₀ ER (Rd m ρ) (c : Thread nD τ) none (κ := K (c, some (3, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (3, j))); iexact HR
    isplitl [Hc]; · iexact Hc
    isplitl [HO]; · iexact HO
    isplitr; · iapply (mayWait_end c (.dma (dsem 3 j))); iempintro
    iexact Hat
  iintro ⟨HO, Hat, -, Hpay⟩
  iapply Hk
  isplitl [HO]; · iexact HO
  isplitl [Hat]; · iexact Hat
  iapply (Entails.of_eq ((rest_x _ _ c 3 j).trans (xPay3 m ρ c j))) $$ Hpay

/-- Send wait `j` of the first exchange: the row block of the cast scratch that left for device `c + j + 1` comes back. -/
theorem step_wait_s1 (c : Dev nD) (j : Fin 15) (K : Dev nD × CIx → ℕ) (W : Waits sig Unit)
    (sS : DmaSem sig) (hsS : sS = dsem 0 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 0 j) () N) ∗ owes (c : Thread nD τ) (owedFrom c 45) W
        ∗ atPos ER (xCell c 0 j) 0 ∅ 0)
      ⊢ iprop(((owes (c : Thread nD τ) (owedFrom c 45) (insert (SemLoc.dma (dsem 0 j), ()) W) ∗ atPos ER (xCell c 0 j) 1 ∅ 0
              ∗ tbPts c (peer c (j.val + 1)) (tbFull (Tm m ρ) c))
            -∗ WP c (kont ⟨⟩) Q)
          -∗ WP c (.op (.waitDma2 sS srcM dstM hs hd) kont) Q) := by
  subst hsS
  rw [← credit_piece dstM]
  iintro ⟨#HR, Hc, HO, Hat⟩ Hk
  iapply (Rounds.wp_wait_rest_token 𝒱₀ ER (Rd m ρ) (c : Thread nD τ) none (κ := K (c, some (0, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (0, j))); iexact HR
    isplitl [Hc]; · iexact Hc
    isplitl [HO]; · iexact HO
    isplitr; · iapply (mayWait_end c (.dma (dsem 0 j))); iempintro
    iexact Hat
  iintro ⟨HO, Hat, -, Hpay⟩
  iapply Hk
  isplitl [HO]; · iexact HO
  isplitl [Hat]; · iexact Hat
  iapply (Entails.of_eq ((rest_x _ _ c 0 j).trans (xPay0 m ρ c j))) $$ Hpay

/-- Send wait `j` of the second exchange: the `j`-th share of the device's own row block of the result comes back. -/
theorem step_wait_s2 (c : Dev nD) (j : Fin 15) (K : Dev nD × CIx → ℕ) (W : Waits sig Unit)
    (sS : DmaSem sig) (hsS : sS = dsem 2 j) (srcM dstM : Memref sig .tc .vmem S64x512 .bf16)
    {hs : srcM.view.WordExact} {hd : dstM.view.WordExact}
    {α : Type} {Q : α → sProp 𝕄} {kont : PUnit → Prog (TpuEff nD τ sig (Elt F) Λ₀ .tc) α} :
    iprop(records (Rd m ρ) K ∗ cred (tallyAt (xCell c 2 j) () N) ∗ owes (c : Thread nD τ) (owedFrom c 45) W
        ∗ atPos ER (xCell c 2 j) 0 ∅ 0)
      ⊢ iprop(((owes (c : Thread nD τ) (owedFrom c 45) (insert (SemLoc.dma (dsem 2 j), ()) W) ∗ atPos ER (xCell c 2 j) 1 ∅ 0
              ∗ oPts c c (Transfers.shareTok fullShare 15 j) (outM m ρ))
            -∗ WP c (kont ⟨⟩) Q)
          -∗ WP c (.op (.waitDma2 sS srcM dstM hs hd) kont) Q) := by
  subst hsS
  rw [← credit_piece dstM]
  iintro ⟨#HR, Hc, HO, Hat⟩ Hk
  iapply (Rounds.wp_wait_rest_token 𝒱₀ ER (Rd m ρ) (c : Thread nD τ) none (κ := K (c, some (2, j)))
      (wpE_waitDma2_eq 𝒱₀ (c : Thread nD τ) none Set.univ) (Set.mem_univ _) () (O := owedFrom c 45) (W := W) (R := 0) (m := 0) (T := ∅)
      (by rw [expect_x, credit_piece, Nat.zero_add])) $$ [Hc HO Hat]
  · isplitr; · iapply (inv_at (Rd m ρ) K (c, some (2, j))); iexact HR
    isplitl [Hc]; · iexact Hc
    isplitl [HO]; · iexact HO
    isplitr; · iapply (mayWait_end c (.dma (dsem 2 j))); iempintro
    iexact Hat
  iintro ⟨HO, Hat, -, Hpay⟩
  iapply Hk
  isplitl [HO]; · iexact HO
  isplitl [Hat]; · iexact Hat
  iapply (Entails.of_eq ((rest_x _ _ c 2 j).trans (xPay2 m ρ c j))) $$ Hpay

/-- A transfer cell has no duty after its round 0: its owner, at the start of round 1, closes it with the counter at zero. -/
theorem close_x (c : Dev nD) (f : Fin 4) (j : Fin 15) (K : Dev nD × CIx → ℕ) :
    iprop(records (Rd m ρ) K ∗ atPos ER (xCell c f j) 1 ∅ 0) ⊢ (|={Set.univ}=> semVal (xCell c f j) 0 : sProp 𝕄) := by
  iintro ⟨#HR, Hat⟩
  iapply (Rounds.cell_close ER (Rd m ρ) (g := xCell c f j) (κ := K (c, some (f, j))) (Es := Set.univ) (Set.mem_univ _) (fun h => h) (R := 1)
      (duties_later _ _ (xCell c f j)))
  isplitr; · iapply (inv_at (Rd m ρ) K (c, some (f, j))); iexact HR
  iexact Hat

/-- info: 'Cert.Kernel.X.step_acc' depends on axioms: [propext, Classical.choice, Quot.sound] -/
#guard_msgs in #print axioms step_acc

/-- info: 'Cert.Kernel.X.step_wait_r2' depends on axioms: [propext, Classical.choice, Quot.sound] -/
#guard_msgs in #print axioms step_wait_r2

/-- info: 'Cert.Kernel.X.step_wait_s1' depends on axioms: [propext, Classical.choice, Quot.sound] -/
#guard_msgs in #print axioms step_wait_s1

/-- info: 'Cert.Kernel.X.step_wait_s2' depends on axioms: [propext, Classical.choice, Quot.sound] -/
#guard_msgs in #print axioms step_wait_s2

/-- info: 'Cert.Kernel.X.close_x' depends on axioms: [propext, Classical.choice, Quot.sound] -/
#guard_msgs in #print axioms close_x

end Cert.Kernel.X

end
-- ==== Proof.K.PayVals.lean ====
/-
  The pure values the kernel body computes from what it loads.  A reshape to the same shape changes nothing, so each
  cast payload is the cast of what was loaded; and the sums the body forms, slot after slot, are the running sums of the
  parts: its own rows cast, plus the contents of slots `0, 1, .., 14` in that order, then the product with the cast
  matrix into a zero accumulator, cast — row block `c` of the result.
-/
import proofs.«900451_g7700000000000452_dist_matmul_of_ar_i_m1024_n512_k512_v7x_i16_bf16_1_alg».proof.Proof.K.BufVals

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)
open Idealize.ShloMosaic.ValueIdx

variable {F : FTy → Type} [FloatOps F]

local notation "𝕄" => MT nD τ sig Unit (Elt F) ℕ UU ℕ

/-- A cast between two reshapes to the same shape is the cast. -/
theorem cast_between_reshapes (v : Vec F S64x512 .f32) :
    shapeCast S64x512 (truncf .bf16 (show FVec F S64x512 .f32 from shapeCast S64x512 v shapeCasts_S64x512_S64x512) bitsLt_bf16_f32)
        shapeCasts_S64x512_S64x512
      = truncf .bf16 (show FVec F S64x512 .f32 from v) bitsLt_bf16_f32 := by
  rw [shapeCast_self, shapeCast_self]

theorem pay1_eq (v : Vec F S64x512 .f32) : k0_pay1 v = truncf .bf16 (show FVec F S64x512 .f32 from v) bitsLt_bf16_f32 :=
  cast_between_reshapes v
theorem pay2_eq (v : Vec F S64x512 .f32) : k0_pay2 v = truncf .bf16 (show FVec F S64x512 .f32 from v) bitsLt_bf16_f32 :=
  cast_between_reshapes v
theorem pay3_eq (v : Vec F S64x512 .f32) : k0_pay3 v = truncf .bf16 (show FVec F S64x512 .f32 from v) bitsLt_bf16_f32 :=
  cast_between_reshapes v
theorem pay4_eq (v : Vec F S64x512 .f32) : k0_pay4 v = truncf .bf16 (show FVec F S64x512 .f32 from v) bitsLt_bf16_f32 :=
  cast_between_reshapes v
theorem pay5_eq (v : Vec F S64x512 .f32) : k0_pay5 v = truncf .bf16 (show FVec F S64x512 .f32 from v) bitsLt_bf16_f32 :=
  cast_between_reshapes v
theorem pay6_eq (v : Vec F S64x512 .f32) : k0_pay6 v = truncf .bf16 (show FVec F S64x512 .f32 from v) bitsLt_bf16_f32 :=
  cast_between_reshapes v
theorem pay7_eq (v : Vec F S64x512 .f32) : k0_pay7 v = truncf .bf16 (show FVec F S64x512 .f32 from v) bitsLt_bf16_f32 :=
  cast_between_reshapes v
theorem pay8_eq (v : Vec F S64x512 .f32) : k0_pay8 v = truncf .bf16 (show FVec F S64x512 .f32 from v) bitsLt_bf16_f32 :=
  cast_between_reshapes v
theorem pay9_eq (v : Vec F S64x512 .f32) : k0_pay9 v = truncf .bf16 (show FVec F S64x512 .f32 from v) bitsLt_bf16_f32 :=
  cast_between_reshapes v
theorem pay10_eq (v : Vec F S64x512 .f32) : k0_pay10 v = truncf .bf16 (show FVec F S64x512 .f32 from v) bitsLt_bf16_f32 :=
  cast_between_reshapes v
theorem pay11_eq (v : Vec F S64x512 .f32) : k0_pay11 v = truncf .bf16 (show FVec F S64x512 .f32 from v) bitsLt_bf16_f32 :=
  cast_between_reshapes v
theorem pay14_eq (v : Vec F S64x512 .f32) : k0_pay14 v = truncf .bf16 (show FVec F S64x512 .f32 from v) bitsLt_bf16_f32 :=
  cast_between_reshapes v
theorem pay15_eq (v : Vec F S64x512 .f32) : k0_pay15 v = truncf .bf16 (show FVec F S64x512 .f32 from v) bitsLt_bf16_f32 :=
  cast_between_reshapes v

/-- A cast after a reshape to the same shape is the cast. -/
theorem cast_after_reshape (v : Vec F S64x512 .f32) :
    truncf .bf16 (show FVec F S64x512 .f32 from shapeCast S64x512 v shapeCasts_S64x512_S64x512) bitsLt_bf16_f32
      = truncf .bf16 (show FVec F S64x512 .f32 from v) bitsLt_bf16_f32 := by
  rw [shapeCast_self]

theorem pay12_eq (v : Vec F S64x512 .f32) : k0_pay12 v = truncf .bf16 (show FVec F S64x512 .f32 from v) bitsLt_bf16_f32 :=
  cast_after_reshape v
theorem pay16_eq (v : Vec F S64x512 .f32) : k0_pay16 v = truncf .bf16 (show FVec F S64x512 .f32 from v) bitsLt_bf16_f32 :=
  cast_after_reshape v
theorem pay13_eq (w : FVec F S64x512 .bf16) : k0_pay13 w = w := shapeCast_self w _
theorem pay17_eq (w : FVec F S64x512 .bf16) : k0_pay17 w = w := shapeCast_self w _
theorem pay13_pay12 (v : Vec F S64x512 .f32) :
    k0_pay13 (k0_pay12 v) = truncf .bf16 (show FVec F S64x512 .f32 from v) bitsLt_bf16_f32 := by
  rw [pay13_eq, pay12_eq]
theorem pay17_pay16 (v : Vec F S64x512 .f32) :
    k0_pay17 (k0_pay16 v) = truncf .bf16 (show FVec F S64x512 .f32 from v) bitsLt_bf16_f32 := by
  rw [pay17_eq, pay16_eq]

/-! ## The running sums -/

/-- Adding the next slot's contents to the running sum after `j` parts gives the running sum after `j + 1`. -/
theorem accum_step (T : Dev nD → Vec F S1024x512 .f32) (c : Dev nD) (j : ℕ) (s : Vec F S1x64x512 .bf16)
    (hs : shapeCast S64x512 s shapeCasts_S1x64x512_S64x512 = part T c (peer c (15 - j))) :
    addf (accum T c j) (shapeCast S64x512 s shapeCasts_S1x64x512_S64x512) = accum T c (j + 1) := by
  rw [hs]; rfl

/-- The own rows cast, with the contents of slot 0 added, are the running sum after one part. -/
theorem pay18_acc (T : Dev nD → Vec F S1024x512 .f32) (c : Dev nD) (a : Vec F S64x512 .f32) (s0 : Vec F S1x64x512 .bf16)
    (ha : a = rows (T c) c) (h0 : shapeCast S64x512 s0 shapeCasts_S1x64x512_S64x512 = part T c (peer c (15 - 0))) :
    k0_pay18 a s0 = accum T c 1 := by
  subst ha
  show addf (truncf .bf16 (show FVec F S64x512 .f32 from shapeCast S64x512 (rows (T c) c) shapeCasts_S64x512_S64x512) bitsLt_bf16_f32)
    (shapeCast S64x512 s0 shapeCasts_S1x64x512_S64x512) = _
  rw [shapeCast_self]
  exact accum_step T c 0 s0 h0

/-- The running sum after 1 parts, with the contents of slots 1, 2, 3 added in turn, is the running sum after 4. -/
theorem pay19_acc (T : Dev nD → Vec F S1024x512 .f32) (c : Dev nD) (A : FVec F S64x512 .bf16) (s1 : Vec F S1x64x512 .bf16) (s2 : Vec F S1x64x512 .bf16) (s3 : Vec F S1x64x512 .bf16)
    (hA : A = accum T c 1)
    (h1 : shapeCast S64x512 s1 shapeCasts_S1x64x512_S64x512 = part T c (peer c (15 - 1)))
    (h2 : shapeCast S64x512 s2 shapeCasts_S1x64x512_S64x512 = part T c (peer c (15 - 2)))
    (h3 : shapeCast S64x512 s3 shapeCasts_S1x64x512_S64x512 = part T c (peer c (15 - 3))) :
    k0_pay19 A s1 s2 s3 = accum T c 4 := by
  subst hA
  show addf (addf (addf (accum T c 1) (shapeCast S64x512 s1 shapeCasts_S1x64x512_S64x512)) (shapeCast S64x512 s2 shapeCasts_S1x64x512_S64x512)) (shapeCast S64x512 s3 shapeCasts_S1x64x512_S64x512) = _
  rw [accum_step T c 1 s1 h1, accum_step T c 2 s2 h2, accum_step T c 3 s3 h3]

/-- The running sum after 4 parts, with the contents of slots 4, 5 added in turn, is the running sum after 6. -/
theorem pay20_acc (T : Dev nD → Vec F S1024x512 .f32) (c : Dev nD) (A : FVec F S64x512 .bf16) (s4 : Vec F S1x64x512 .bf16) (s5 : Vec F S1x64x512 .bf16)
    (hA : A = accum T c 4)
    (h4 : shapeCast S64x512 s4 shapeCasts_S1x64x512_S64x512 = part T c (peer c (15 - 4)))
    (h5 : shapeCast S64x512 s5 shapeCasts_S1x64x512_S64x512 = part T c (peer c (15 - 5))) :
    k0_pay20 A s4 s5 = accum T c 6 := by
  subst hA
  show addf (addf (accum T c 4) (shapeCast S64x512 s4 shapeCasts_S1x64x512_S64x512)) (shapeCast S64x512 s5 shapeCasts_S1x64x512_S64x512) = _
  rw [accum_step T c 4 s4 h4, accum_step T c 5 s5 h5]

/-- The running sum after 6 parts, with the contents of slots 6, 7, 8 added in turn, is the running sum after 9. -/
theorem pay21_acc (T : Dev nD → Vec F S1024x512 .f32) (c : Dev nD) (A : FVec F S64x512 .bf16) (s6 : Vec F S1x64x512 .bf16) (s7 : Vec F S1x64x512 .bf16) (s8 : Vec F S1x64x512 .bf16)
    (hA : A = accum T c 6)
    (h6 : shapeCast S64x512 s6 shapeCasts_S1x64x512_S64x512 = part T c (peer c (15 - 6)))
    (h7 : shapeCast S64x512 s7 shapeCasts_S1x64x512_S64x512 = part T c (peer c (15 - 7)))
    (h8 : shapeCast S64x512 s8 shapeCasts_S1x64x512_S64x512 = part T c (peer c (15 - 8))) :
    k0_pay21 A s6 s7 s8 = accum T c 9 := by
  subst hA
  show addf (addf (addf (accum T c 6) (shapeCast S64x512 s6 shapeCasts_S1x64x512_S64x512)) (shapeCast S64x512 s7 shapeCasts_S1x64x512_S64x512)) (shapeCast S64x512 s8 shapeCasts_S1x64x512_S64x512) = _
  rw [accum_step T c 6 s6 h6, accum_step T c 7 s7 h7, accum_step T c 8 s8 h8]

/-- The running sum after 9 parts, with the contents of slots 9, 10, 11 added in turn, is the running sum after 12. -/
theorem pay22_acc (T : Dev nD → Vec F S1024x512 .f32) (c : Dev nD) (A : FVec F S64x512 .bf16) (s9 : Vec F S1x64x512 .bf16) (s10 : Vec F S1x64x512 .bf16) (s11 : Vec F S1x64x512 .bf16)
    (hA : A = accum T c 9)
    (h9 : shapeCast S64x512 s9 shapeCasts_S1x64x512_S64x512 = part T c (peer c (15 - 9)))
    (h10 : shapeCast S64x512 s10 shapeCasts_S1x64x512_S64x512 = part T c (peer c (15 - 10)))
    (h11 : shapeCast S64x512 s11 shapeCasts_S1x64x512_S64x512 = part T c (peer c (15 - 11))) :
    k0_pay22 A s9 s10 s11 = accum T c 12 := by
  subst hA
  show addf (addf (addf (accum T c 9) (shapeCast S64x512 s9 shapeCasts_S1x64x512_S64x512)) (shapeCast S64x512 s10 shapeCasts_S1x64x512_S64x512)) (shapeCast S64x512 s11 shapeCasts_S1x64x512_S64x512) = _
  rw [accum_step T c 9 s9 h9, accum_step T c 10 s10 h10, accum_step T c 11 s11 h11]

/-- The running sum after 12 parts, with the contents of slots 12, 13 added in turn, is the running sum after 14. -/
theorem pay23_acc (T : Dev nD → Vec F S1024x512 .f32) (c : Dev nD) (A : FVec F S64x512 .bf16) (s12 : Vec F S1x64x512 .bf16) (s13 : Vec F S1x64x512 .bf16)
    (hA : A = accum T c 12)
    (h12 : shapeCast S64x512 s12 shapeCasts_S1x64x512_S64x512 = part T c (peer c (15 - 12)))
    (h13 : shapeCast S64x512 s13 shapeCasts_S1x64x512_S64x512 = part T c (peer c (15 - 13))) :
    k0_pay23 A s12 s13 = accum T c 14 := by
  subst hA
  show addf (addf (accum T c 12) (shapeCast S64x512 s12 shapeCasts_S1x64x512_S64x512)) (shapeCast S64x512 s13 shapeCasts_S1x64x512_S64x512) = _
  rw [accum_step T c 12 s12 h12, accum_step T c 13 s13 h13]

/-- The running sum after fourteen parts with slot 14 added, times the cast matrix into a zero accumulator, cast: row
    block `c` of the result. -/
theorem pay24_out (T : Dev nD → Vec F S1024x512 .f32) (W : Dev nD → Vec F S512x512 .f32) (c : Dev nD)
    (A : FVec F S64x512 .bf16) (s14 : Vec F S1x64x512 .bf16) (Wc : Vec F S512x512 .f32)
    (hA : A = accum T c 14) (h14 : shapeCast S64x512 s14 shapeCasts_S1x64x512_S64x512 = part T c (peer c (15 - 14))) (hW : Wc = W c) :
    k0_pay24 A s14 Wc = oblk T W c := by
  subst hA hW
  show truncf .bf16 (matmul dot_S64x512_S512x512_S64x512_1_0_0_1_n_n none
      (addf (accum T c 14) (shapeCast S64x512 s14 shapeCasts_S1x64x512_S64x512))
      (truncf .bf16 (show FVec F S512x512 .f32 from shapeCast S512x512 (W c) shapeCasts_S512x512_S512x512) bitsLt_bf16_f32)
      (constant S64x512 .f32 0x00000000#32)) bitsLt_bf16_f32 = _
  rw [accum_step T c 14 s14 h14, shapeCast_self]
  rfl

/-- The values the body forms from its own rows `a`, the contents `s j` of the fifteen slots and the matrix `Wc`, as it
    nests them, are row block `c` of the result. -/
theorem pay_chain (T : Dev nD → Vec F S1024x512 .f32) (W : Dev nD → Vec F S512x512 .f32) (c : Dev nD)
    (a : Vec F S64x512 .f32) (s : Fin 15 → Vec F S1x64x512 .bf16) (Wc : Vec F S512x512 .f32)
    (ha : a = rows (T c) c)
    (hs : ∀ j : Fin 15, shapeCast S64x512 (s j) shapeCasts_S1x64x512_S64x512 = part T c (peer c (15 - j.val)))
    (hW : Wc = W c) :
    k0_pay24 (k0_pay23 (k0_pay22 (k0_pay21 (k0_pay20 (k0_pay19 (k0_pay18 a (s 0)) (s 1) (s 2) (s 3)) (s 4) (s 5))
      (s 6) (s 7) (s 8)) (s 9) (s 10) (s 11)) (s 12) (s 13)) (s 14) Wc = oblk T W c :=
  pay24_out T W c _ (s 14) Wc
    (pay23_acc T c _ (s 12) (s 13)
      (pay22_acc T c _ (s 9) (s 10) (s 11)
        (pay21_acc T c _ (s 6) (s 7) (s 8)
          (pay20_acc T c _ (s 4) (s 5)
            (pay19_acc T c _ (s 1) (s 2) (s 3) (pay18_acc T c a (s 0) ha (hs 0)) (hs 1) (hs 2) (hs 3))
            (hs 4) (hs 5))
          (hs 6) (hs 7) (hs 8))
        (hs 9) (hs 10) (hs 11))
      (hs 12) (hs 13))
    (hs 14) hW

/-- The same with the slots' contents as the body loads them from a receive buffer that holds, on every slot, what it
    is to hold. -/
theorem pay_chain_loaded (T : Dev nD → Vec F S1024x512 .f32) (W : Dev nD → Vec F S512x512 .f32) (c : Dev nD)
    (f : Buf (Elt F) (stM.view.loc (c : Thread nD τ)))
    (hf : ∀ j : Fin 15, ∀ i ∈ (slotRect j).set, f i = stageFull T c i) :
    k0_pay24 (k0_pay23 (k0_pay22 (k0_pay21 (k0_pay20 (k0_pay19 (k0_pay18 (rows (T c) c)
      (stM.view.readAt (Elt F) (slotRect 0).toLoadRect f))
      (stM.view.readAt (Elt F) (slotRect 1).toLoadRect f) (stM.view.readAt (Elt F) (slotRect 2).toLoadRect f)
      (stM.view.readAt (Elt F) (slotRect 3).toLoadRect f))
      (stM.view.readAt (Elt F) (slotRect 4).toLoadRect f) (stM.view.readAt (Elt F) (slotRect 5).toLoadRect f))
      (stM.view.readAt (Elt F) (slotRect 6).toLoadRect f) (stM.view.readAt (Elt F) (slotRect 7).toLoadRect f)
      (stM.view.readAt (Elt F) (slotRect 8).toLoadRect f))
      (stM.view.readAt (Elt F) (slotRect 9).toLoadRect f) (stM.view.readAt (Elt F) (slotRect 10).toLoadRect f)
      (stM.view.readAt (Elt F) (slotRect 11).toLoadRect f))
      (stM.view.readAt (Elt F) (slotRect 12).toLoadRect f) (stM.view.readAt (Elt F) (slotRect 13).toLoadRect f))
      (stM.view.readAt (Elt F) (slotRect 14).toLoadRect f) (W c) = oblk T W c :=
  pay_chain T W c (rows (T c) c) (fun j => stM.view.readAt (Elt F) (slotRect j).toLoadRect f) (W c) rfl
    (fun j => load_slot T c j f (hf j)) rfl

/-- info: 'Cert.Kernel.X.pay_chain_loaded' depends on axioms: [propext, Classical.choice, Quot.sound] -/
#guard_msgs in #print axioms pay_chain_loaded

end Cert.Kernel.X

end
-- ==== Proof.K.StepsLocal.lean ====
/-
  The device's own row block of the result: the matrix is read whole, the row block of the result buffer is read and then
  overwritten with the product the body has formed, which is row block `c` of the result.
-/
import proofs.«900451_g7700000000000452_dist_matmul_of_ar_i_m1024_n512_k512_v7x_i16_bf16_1_alg».proof.Proof.K.Steps1
import proofs.«900451_g7700000000000452_dist_matmul_of_ar_i_m1024_n512_k512_v7x_i16_bf16_1_alg».proof.Proof.K.BufSplit
import proofs.«900451_g7700000000000452_dist_matmul_of_ar_i_m1024_n512_k512_v7x_i16_bf16_1_alg».proof.Proof.K.PayVals
import proofs.«900451_g7700000000000452_dist_matmul_of_ar_i_m1024_n512_k512_v7x_i16_bf16_1_alg».proof.Proof.K.BufVals

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- A load of row block `b` of the argument block, the offsets given up to an equation. -/
theorem load_x_off (c : Dev nD) (X : Buf (Elt F) (xM.view.loc (c : Thread nD τ))) (b : Dev nD) (off : Fin 2 → Nat)
    (h : off = ![64 * b.val, 0]) (inb : ∀ a, off a + S64x512.size a ≤ S1024x512.size a) :
    xM.view.readAt (Elt F) (Rect.unit (s := S1024x512) off S64x512.size inb).toLoadRect X = rows X b := by
  subst h; exact load_x c X b

/-- The matrix is read whole; the device's own row block of the result buffer is read, then overwritten with the value
    formed from the matrix read, which is row block `c` of the result: the row block then holds the result there. -/
theorem step_store_out (c : Dev nD) (off3 : Fin 2 → Nat) (hoff : off3 = ![64 * c.val, 0])
    (payfn : Vec F S512x512 .f32 → FVec F S64x512 .bf16)
    (hpay : payfn (wM.view.readAt (Elt F) (Rect.unit (s := S512x512) ![0, 0] S512x512.size inb_S512x512_S512x512_0_0).toLoadRect (Wm m ρ c)) = oblk (Tm m ρ) (Wm m ρ) c)
    {inb inb' : ∀ a, off3 a + S64x512.size a ≤ S1024x512.size a}
    {hl : wM.view.LoadsAt (Rect.unit (s := S512x512) ![0, 0] S512x512.size inb_S512x512_S512x512_0_0).toLoadRect}
    {hl' : oM.view.LoadsAt (Rect.unit (s := S1024x512) off3 S64x512.size inb').toLoadRect}
    {hx : (oM.access (Rect.unit (s := S1024x512) off3 S64x512.size inb)).Stores Finset.univ}
    {hm : (Finset.univ : Finset (Rect.unit (s := S1024x512) off3 S64x512.size inb).shape.Idx) = Finset.univ
      ∨ ∀ a, (Rect.unit (s := S1024x512) off3 S64x512.size inb).stride a = 1}
    {α : Type} {Q : α → sProp 𝕄} {kont : PUnit → Prog (TpuEff nD τ sig (Elt F) Λ₀ .tc) α} :
    iprop((((c : Thread nD τ).loc cc0_stg1_0) ↦{fullShare} Wm m ρ c) ∗ (∃ g, oPts c c fullShare g))
      ⊢ iprop((((((c : Thread nD τ).loc cc0_stg1_0) ↦{fullShare} Wm m ρ c) ∗ oPts c c fullShare (outM m ρ)) -∗ WP c (kont ⟨⟩) Q)
          -∗ WP c (.op (.load wM (Rect.unit (s := S512x512) ![0, 0] S512x512.size inb_S512x512_S512x512_0_0).toLoadRect hl) fun wv =>
               .op (.load oM (Rect.unit (s := S1024x512) off3 S64x512.size inb').toLoadRect hl') fun _ =>
               .op (.store oM (Rect.unit (s := S1024x512) off3 S64x512.size inb) (payfn wv) Finset.univ hx hm) kont) Q) := by
  subst hoff
  unfold oPts
  iintro ⟨Hw, Ho⟩ Hk
  icases Ho with ⟨%g, Ho⟩
  iapply (wp_load 𝒱₀ (c : Thread nD τ) none Set.univ (m := wM) (S := Finset.univ) (q := fullShare) (f := Wm m ρ c)
      (Finset.subset_univ _)) $$ Hw
  iintro Hw
  iapply (wp_load 𝒱₀ (c : Thread nD τ) none Set.univ (m := oM)
      (S := ((oSl c).view.set : Finset (Idx ((oSl c).view.loc (c : Thread nD τ))))) (q := fullShare) (f := g)
      (View.set_slice oM.view (rowRect c)).ge) $$ Ho
  iintro Ho
  iapply (wp_store 𝒱₀ (c : Thread nD τ) none Set.univ (m := oM) (r := rowRect c)
      (S := ((oSl c).view.set : Finset (Idx ((oSl c).view.loc (c : Thread nD τ))))) (f := g) (Finset.Subset.refl _)) $$ Ho
  iintro Ho
  have e : ((oSl c).view.loc (c : Thread nD τ) ↦[(oSl c).view.set]{fullShare}
        ((oM.access (rowRect c) : View sig .tc .vmem _ .bf16).write (Elt F) g (payfn (wM.view.readAt (Elt F) (Rect.unit (s := S512x512) ![0, 0] S512x512.size inb_S512x512_S512x512_0_0).toLoadRect (Wm m ρ c))) Finset.univ) : sProp 𝕄)
      = ((oSl c).view.loc (c : Thread nD τ) ↦[(oSl c).view.set]{fullShare} outM m ρ) := by
    refine pointsTo_congr ?_
    rw [oSl_set, hpay]
    exact store_out (Tm m ρ) (Wm m ρ) c g
  iapply Hk
  isplitl [Hw]; · iexact Hw
  iapply (Entails.of_eq e) $$ Ho

/-- What the body stores into its own row block of the result, as a function of the matrix it has loaded: from the
    device's own rows as loaded and the fifteen slots as loaded from the receive buffer holding the fifteen parts, nested
    as the body nests them. -/
abbrev outPay (c : Dev nD) : Vec F S512x512 .f32 → FVec F S64x512 .bf16 := fun wv =>
  k0_pay24 (k0_pay23 (k0_pay22 (k0_pay21 (k0_pay20 (k0_pay19 (k0_pay18
        (xM.view.readAt (Elt F) (Rect.unit (s := S1024x512) (k0_off3 c) S64x512.size (k0_off3_inb c)).toLoadRect (Tm m ρ c))
        (stM.view.readAt (Elt F) (slotRect (0 : Fin 15)).toLoadRect (stageFull (Tm m ρ) c)))
        (stM.view.readAt (Elt F) (slotRect (1 : Fin 15)).toLoadRect (stageFull (Tm m ρ) c)) (stM.view.readAt (Elt F) (slotRect (2 : Fin 15)).toLoadRect (stageFull (Tm m ρ) c))
        (stM.view.readAt (Elt F) (slotRect (3 : Fin 15)).toLoadRect (stageFull (Tm m ρ) c)))
        (stM.view.readAt (Elt F) (slotRect (4 : Fin 15)).toLoadRect (stageFull (Tm m ρ) c)) (stM.view.readAt (Elt F) (slotRect (5 : Fin 15)).toLoadRect (stageFull (Tm m ρ) c)))
        (stM.view.readAt (Elt F) (slotRect (6 : Fin 15)).toLoadRect (stageFull (Tm m ρ) c)) (stM.view.readAt (Elt F) (slotRect (7 : Fin 15)).toLoadRect (stageFull (Tm m ρ) c))
        (stM.view.readAt (Elt F) (slotRect (8 : Fin 15)).toLoadRect (stageFull (Tm m ρ) c)))
        (stM.view.readAt (Elt F) (slotRect (9 : Fin 15)).toLoadRect (stageFull (Tm m ρ) c)) (stM.view.readAt (Elt F) (slotRect (10 : Fin 15)).toLoadRect (stageFull (Tm m ρ) c))
        (stM.view.readAt (Elt F) (slotRect (11 : Fin 15)).toLoadRect (stageFull (Tm m ρ) c)))
        (stM.view.readAt (Elt F) (slotRect (12 : Fin 15)).toLoadRect (stageFull (Tm m ρ) c)) (stM.view.readAt (Elt F) (slotRect (13 : Fin 15)).toLoadRect (stageFull (Tm m ρ) c)))
        (stM.view.readAt (Elt F) (slotRect (14 : Fin 15)).toLoadRect (stageFull (Tm m ρ) c)) wv

/-- At the matrix as loaded, it is row block `c` of the result. -/
theorem hpay_out (c : Dev nD) :
    outPay m ρ c (wM.view.readAt (Elt F) (Rect.unit (s := S512x512) ![0, 0] S512x512.size inb_S512x512_S512x512_0_0).toLoadRect (Wm m ρ c))
      = oblk (Tm m ρ) (Wm m ρ) c :=
  pay_chain (Tm m ρ) (Wm m ρ) c _ (fun j => stM.view.readAt (Elt F) (slotRect j).toLoadRect (stageFull (Tm m ρ) c)) _
    (load_x_off c (Tm m ρ c) c (k0_off3 c) (k0_off3_eq c) (k0_off3_inb c))
    (fun j => load_slot (Tm m ρ) c j (stageFull (Tm m ρ) c) (fun _ _ => rfl))
    (load_w c (Wm m ρ c))

/-- info: 'Cert.Kernel.X.step_store_out' depends on axioms: [propext, Classical.choice, Quot.sound] -/
#guard_msgs in #print axioms step_store_out
/-- info: 'Cert.Kernel.X.hpay_out' depends on axioms: [propext, Classical.choice, Quot.sound] -/
#guard_msgs in #print axioms hpay_out

end Cert.Kernel.X

end
-- ==== Proof.K.BodyWrap.lean ====
/-
  The body obligation of the pipeline on device `c`, from the body lemma: at the one grid point the three windows'
  staging buffers are whole buffers, so what the pipeline hands the body is the body lemma's precondition and what it
  takes back is its postcondition.
-/
import proofs.«900451_g7700000000000452_dist_matmul_of_ar_i_m1024_n512_k512_v7x_i16_bf16_1_alg».proof.Proof.K.Steps1

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The library's body obligation on device `c`, given the body lemma in continuation form. -/
theorem body_obligation_of (c : Dev nD)
    (hsound : ∀ Kt : PUnit → sProp (MT nD τ sig Unit (Elt F) ℕ UU ℕ), iprop(bodyPre m ρ c ∗ (bodyPost m ρ c -∗ Kt ⟨⟩))
        ⊢ WP c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scratch4 cc0_scratch5) Kt) :
    BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5)
    (fun _ => bodyPost m ρ c)
  iintro H
  iapply (hsound (fun _ => bodyPost m ρ c))
  isplitl [H]; · iexact H
  iintro H; iexact H

/-- info: 'Cert.Kernel.X.body_obligation_of' depends on axioms: [propext, Classical.choice, Quot.sound] -/
#guard_msgs in #print axioms body_obligation_of

end Cert.Kernel.X

end
-- ==== Proof.K.Body.lean ====
/-
  One device's body, effect by effect: the handshake, the first exchange, the local sum and product, the second
  exchange, the waits; then the cells close and the buffers are whole again.
-/
import proofs.«900451_g7700000000000452_dist_matmul_of_ar_i_m1024_n512_k512_v7x_i16_bf16_1_alg».proof.Proof.K.Steps1
import proofs.«900451_g7700000000000452_dist_matmul_of_ar_i_m1024_n512_k512_v7x_i16_bf16_1_alg».proof.Proof.K.Glue
import proofs.«900451_g7700000000000452_dist_matmul_of_ar_i_m1024_n512_k512_v7x_i16_bf16_1_alg».proof.Proof.K.GlueBufs
import proofs.«900451_g7700000000000452_dist_matmul_of_ar_i_m1024_n512_k512_v7x_i16_bf16_1_alg».proof.Proof.K.StepsSend
import proofs.«900451_g7700000000000452_dist_matmul_of_ar_i_m1024_n512_k512_v7x_i16_bf16_1_alg».proof.Proof.K.StepsWait
import proofs.«900451_g7700000000000452_dist_matmul_of_ar_i_m1024_n512_k512_v7x_i16_bf16_1_alg».proof.Proof.K.StepsLocal
import proofs.«900451_g7700000000000452_dist_matmul_of_ar_i_m1024_n512_k512_v7x_i16_bf16_1_alg».proof.Proof.K.BodyWrap

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-- The device's own row block of the result, once stored, is lent to the fifteen transfers in fifteen shares; -/
theorem out_shares' (c : Dev nD) :
    oPts c c fullShare (outM m ρ) ⊢ (iprop(oPts c c (Transfers.shareDrop fullShare 15) (outM m ρ)
      ∗ bigSep Finset.univ fun j : Fin 15 => oPts c c (Transfers.shareTok fullShare 15 j) (outM m ρ)) : sProp 𝕄) :=
  out_shares (Tm m ρ) (Wm m ρ) c
/-- the shares come back, the fifteen peers' row blocks have landed, and the result buffer is whole. -/
theorem out_join' (c : Dev nD) :
    (iprop((oPts c c (Transfers.shareDrop fullShare 15) (outM m ρ)
        ∗ bigSep Finset.univ fun j : Fin 15 => oPts c c (Transfers.shareTok fullShare 15 j) (outM m ρ))
      ∗ bigSep Finset.univ fun j : Fin 15 => oPts c (peer c (15 - j.val)) fullShare (outM m ρ)) : sProp 𝕄)
      ⊢ (((c : Thread nD τ).loc cc0_stg2_0) ↦{fullShare} outM m ρ : sProp 𝕄) :=
  out_join (Tm m ρ) (Wm m ρ) c

set_option maxHeartbeats 64000000 in
/-- One device's body from what the pipeline hands it to what it hands back. -/
theorem sound_body (c : Dev nD) (Kt : PUnit → sProp 𝕄) :
    iprop(bodyPre m ρ c ∗ (bodyPost m ρ c -∗ Kt ⟨⟩))
      ⊢ WP c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  unfold bodyPre Φ₀ start ghost positions payToks creds
  rw [bigSep_CIx, bigSep_fin4]
  simp only [bigSep_fin15]
  iintro ⟨⟨⟨⟨⟨%K, #HR, ⟨HaB, ⟨Ha0_0, Ha0_1, Ha0_2, Ha0_3, Ha0_4, Ha0_5, Ha0_6, Ha0_7, Ha0_8, Ha0_9, Ha0_10, Ha0_11, Ha0_12, Ha0_13, Ha0_14⟩, ⟨Ha1_0, Ha1_1, Ha1_2, Ha1_3, Ha1_4, Ha1_5, Ha1_6, Ha1_7, Ha1_8, Ha1_9, Ha1_10, Ha1_11, Ha1_12, Ha1_13, Ha1_14⟩, ⟨Ha2_0, Ha2_1, Ha2_2, Ha2_3, Ha2_4, Ha2_5, Ha2_6, Ha2_7, Ha2_8, Ha2_9, Ha2_10, Ha2_11, Ha2_12, Ha2_13, Ha2_14⟩, ⟨Ha3_0, Ha3_1, Ha3_2, Ha3_3, Ha3_4, Ha3_5, Ha3_6, Ha3_7, Ha3_8, Ha3_9, Ha3_10, Ha3_11, Ha3_12, Ha3_13, Ha3_14⟩⟩, ⟨⟨HtB_0, HtB_1, HtB_2, HtB_3, HtB_4, HtB_5, HtB_6, HtB_7, HtB_8, HtB_9, HtB_10, HtB_11, HtB_12, HtB_13, HtB_14⟩, ⟨Ht0_0, Ht0_1, Ht0_2, Ht0_3, Ht0_4, Ht0_5, Ht0_6, Ht0_7, Ht0_8, Ht0_9, Ht0_10, Ht0_11, Ht0_12, Ht0_13, Ht0_14⟩, ⟨Ht1_0, Ht1_1, Ht1_2, Ht1_3, Ht1_4, Ht1_5, Ht1_6, Ht1_7, Ht1_8, Ht1_9, Ht1_10, Ht1_11, Ht1_12, Ht1_13, Ht1_14⟩, ⟨Ht2_0, Ht2_1, Ht2_2, Ht2_3, Ht2_4, Ht2_5, Ht2_6, Ht2_7, Ht2_8, Ht2_9, Ht2_10, Ht2_11, Ht2_12, Ht2_13, Ht2_14⟩, ⟨Ht3_0, Ht3_1, Ht3_2, Ht3_3, Ht3_4, Ht3_5, Ht3_6, Ht3_7, Ht3_8, Ht3_9, Ht3_10, Ht3_11, Ht3_12, Ht3_13, Ht3_14⟩⟩⟩, ⟨HcB, ⟨Hc1_0, Hc1_1, Hc1_2, Hc1_3, Hc1_4, Hc1_5, Hc1_6, Hc1_7, Hc1_8, Hc1_9, Hc1_10, Hc1_11, Hc1_12, Hc1_13, Hc1_14⟩, ⟨Hc3_0, Hc3_1, Hc3_2, Hc3_3, Hc3_4, Hc3_5, Hc3_6, Hc3_7, Hc3_8, Hc3_9, Hc3_10, Hc3_11, Hc3_12, Hc3_13, Hc3_14⟩⟩, #Hlev⟩, ⟨%ftb, Htb⟩, ⟨%fst, Hst⟩⟩,
    Ho, ⟨%d0, %g0, %hg0, Hx⟩, ⟨%d1, %g1, %hg1, Hw⟩, ⟨%d2, %g2, %hg2, Hout⟩⟩, Hk⟩
  have hx : g0 = Tm m ρ c := by rw [hg0]; unfold Dat.before; rw [if_pos (fetch_0 t₀)]; rfl
  have hw : g1 = Wm m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = owedFrom c 0 from rfl]
  ihave Htb := (Entails.of_eq (tb_split c ftb)) $$ Htb
  ihave Hst := (Entails.of_eq (slot_split c fst)) $$ Hst
  ihave Hout := (Entails.of_eq (out_split c g2)) $$ Hout
  simp only [bigSep_fin15]
  icases Htb with ⟨HtbOwn, Htb_0, Htb_1, Htb_2, Htb_3, Htb_4, Htb_5, Htb_6, Htb_7, Htb_8, Htb_9, Htb_10, Htb_11, Htb_12, Htb_13, Htb_14⟩
  icases Hst with ⟨Hsl_0, Hsl_1, Hsl_2, Hsl_3, Hsl_4, Hsl_5, Hsl_6, Hsl_7, Hsl_8, Hsl_9, Hsl_10, Hsl_11, Hsl_12, Hsl_13, Hsl_14⟩
  icases Hout with ⟨HoOwn, Ho_0, Ho_1, Ho_2, Ho_3, Ho_4, Ho_5, Ho_6, Ho_7, Ho_8, Ho_9, Ho_10, Ho_11, Ho_12, Ho_13, Ho_14⟩
  -- signal 0
  iapply (step_signal m ρ c (0 : Fin 15) _ (Fin.ext (k0_dev1_eq c)) K _ fst g2) $$ [HO HtB_0 Hsl_14 Ho_0]
  · isplitr; · iexact HR
    isplitl [HO]; · iexact HO
    isplitl [HtB_0]; · iexact HtB_0
    isplitl [Hsl_14]; · iexact Hsl_14
    iexact Ho_0
  iintro HO
  -- signal 1
  iapply (step_signal m ρ c (1 : Fin 15) _ (Fin.ext (k0_dev2_eq c)) K _ fst g2) $$ [HO HtB_1 Hsl_13 Ho_1]
  · isplitr; · iexact HR
    isplitl [HO]; · iexact HO
    isplitl [HtB_1]; · iexact HtB_1
    isplitl [Hsl_13]; · iexact Hsl_13
    iexact Ho_1
  iintro HO
  -- signal 2
  iapply (step_signal m ρ c (2 : Fin 15) _ (Fin.ext (k0_dev3_eq c)) K _ fst g2) $$ [HO HtB_2 Hsl_12 Ho_2]
  · isplitr; · iexact HR
    isplitl [HO]; · iexact HO
    isplitl [HtB_2]; · iexact HtB_2
    isplitl [Hsl_12]; · iexact Hsl_12
    iexact Ho_2
  iintro HO
  -- signal 3
  iapply (step_signal m ρ c (3 : Fin 15) _ (Fin.ext (k0_dev4_eq c)) K _ fst g2) $$ [HO HtB_3 Hsl_11 Ho_3]
  · isplitr; · iexact HR
    isplitl [HO]; · iexact HO
    isplitl [HtB_3]; · iexact HtB_3
    isplitl [Hsl_11]; · iexact Hsl_11
    iexact Ho_3
  iintro HO
  -- signal 4
  iapply (step_signal m ρ c (4 : Fin 15) _ (Fin.ext (k0_dev5_eq c)) K _ fst g2) $$ [HO HtB_4 Hsl_10 Ho_4]
  · isplitr; · iexact HR
    isplitl [HO]; · iexact HO
    isplitl [HtB_4]; · iexact HtB_4
    isplitl [Hsl_10]; · iexact Hsl_10
    iexact Ho_4
  iintro HO
  -- signal 5
  iapply (step_signal m ρ c (5 : Fin 15) _ (Fin.ext (k0_dev6_eq c)) K _ fst g2) $$ [HO HtB_5 Hsl_9 Ho_5]
  · isplitr; · iexact HR
    isplitl [HO]; · iexact HO
    isplitl [HtB_5]; · iexact HtB_5
    isplitl [Hsl_9]; · iexact Hsl_9
    iexact Ho_5
  iintro HO
  -- signal 6
  iapply (step_signal m ρ c (6 : Fin 15) _ (Fin.ext (k0_dev7_eq c)) K _ fst g2) $$ [HO HtB_6 Hsl_8 Ho_6]
  · isplitr; · iexact HR
    isplitl [HO]; · iexact HO
    isplitl [HtB_6]; · iexact HtB_6
    isplitl [Hsl_8]; · iexact Hsl_8
    iexact Ho_6
  iintro HO
  -- signal 7
  iapply (step_signal m ρ c (7 : Fin 15) _ (Fin.ext (k0_dev8_eq c)) K _ fst g2) $$ [HO HtB_7 Hsl_7 Ho_7]
  · isplitr; · iexact HR
    isplitl [HO]; · iexact HO
    isplitl [HtB_7]; · iexact HtB_7
    isplitl [Hsl_7]; · iexact Hsl_7
    iexact Ho_7
  iintro HO
  -- signal 8
  iapply (step_signal m ρ c (8 : Fin 15) _ (Fin.ext (k0_dev9_eq c)) K _ fst g2) $$ [HO HtB_8 Hsl_6 Ho_8]
  · isplitr; · iexact HR
    isplitl [HO]; · iexact HO
    isplitl [HtB_8]; · iexact HtB_8
    isplitl [Hsl_6]; · iexact Hsl_6
    iexact Ho_8
  iintro HO
  -- signal 9
  iapply (step_signal m ρ c (9 : Fin 15) _ (Fin.ext (k0_dev10_eq c)) K _ fst g2) $$ [HO HtB_9 Hsl_5 Ho_9]
  · isplitr; · iexact HR
    isplitl [HO]; · iexact HO
    isplitl [HtB_9]; · iexact HtB_9
    isplitl [Hsl_5]; · iexact Hsl_5
    iexact Ho_9
  iintro HO
  -- signal 10
  iapply (step_signal m ρ c (10 : Fin 15) _ (Fin.ext (k0_dev11_eq c)) K _ fst g2) $$ [HO HtB_10 Hsl_4 Ho_10]
  · isplitr; · iexact HR
    isplitl [HO]; · iexact HO
    isplitl [HtB_10]; · iexact HtB_10
    isplitl [Hsl_4]; · iexact Hsl_4
    iexact Ho_10
  iintro HO
  -- signal 11
  iapply (step_signal m ρ c (11 : Fin 15) _ (Fin.ext (k0_dev12_eq c)) K _ fst g2) $$ [HO HtB_11 Hsl_3 Ho_11]
  · isplitr; · iexact HR
    isplitl [HO]; · iexact HO
    isplitl [HtB_11]; · iexact HtB_11
    isplitl [Hsl_3]; · iexact Hsl_3
    iexact Ho_11
  iintro HO
  -- signal 12
  iapply (step_signal m ρ c (12 : Fin 15) _ (Fin.ext (k0_dev13_eq c)) K _ fst g2) $$ [HO HtB_12 Hsl_2 Ho_12]
  · isplitr; · iexact HR
    isplitl [HO]; · iexact HO
    isplitl [HtB_12]; · iexact HtB_12
    isplitl [Hsl_2]; · iexact Hsl_2
    iexact Ho_12
  iintro HO
  -- signal 13
  iapply (step_signal m ρ c (13 : Fin 15) _ (Fin.ext (k0_dev14_eq c)) K _ fst g2) $$ [HO HtB_13 Hsl_1 Ho_13]
  · isplitr; · iexact HR
    isplitl [HO]; · iexact HO
    isplitl [HtB_13]; · iexact HtB_13
    isplitl [Hsl_1]; · iexact Hsl_1
    iexact Ho_13
  iintro HO
  -- signal 14
  iapply (step_signal m ρ c (14 : Fin 15) _ (Fin.ext (k0_dev15_eq c)) K _ fst g2) $$ [HO HtB_14 Hsl_0 Ho_14]
  · isplitr; · iexact HR
    isplitl [HO]; · iexact HO
    isplitl [HtB_14]; · iexact HtB_14
    isplitl [Hsl_0]; · iexact Hsl_0
    iexact Ho_14
  iintro HO
  -- the barrier wait
  iapply (step_barwait m ρ c K _) $$ [HcB HO HaB]
  · isplitr; · iexact HR
    isplitl [HcB]; · iexact HcB
    isplitl [HO]; · iexact HO
    isplitr; · iexact Hlev
    iexact HaB
  iintro ⟨HO, HaB, Hpay⟩
  simp only [bigSep_fin15]; unfold barPay
  icases Hpay with ⟨⟨⟨%fp0, Hps_0⟩, ⟨%gp0, Hpo_0⟩⟩, ⟨⟨%fp1, Hps_1⟩, ⟨%gp1, Hpo_1⟩⟩, ⟨⟨%fp2, Hps_2⟩, ⟨%gp2, Hpo_2⟩⟩, ⟨⟨%fp3, Hps_3⟩, ⟨%gp3, Hpo_3⟩⟩, ⟨⟨%fp4, Hps_4⟩, ⟨%gp4, Hpo_4⟩⟩, ⟨⟨%fp5, Hps_5⟩, ⟨%gp5, Hpo_5⟩⟩, ⟨⟨%fp6, Hps_6⟩, ⟨%gp6, Hpo_6⟩⟩, ⟨⟨%fp7, Hps_7⟩, ⟨%gp7, Hpo_7⟩⟩, ⟨⟨%fp8, Hps_8⟩, ⟨%gp8, Hpo_8⟩⟩, ⟨⟨%fp9, Hps_9⟩, ⟨%gp9, Hpo_9⟩⟩, ⟨⟨%fp10, Hps_10⟩, ⟨%gp10, Hpo_10⟩⟩, ⟨⟨%fp11, Hps_11⟩, ⟨%gp11, Hpo_11⟩⟩, ⟨⟨%fp12, Hps_12⟩, ⟨%gp12, Hpo_12⟩⟩, ⟨⟨%fp13, Hps_13⟩, ⟨%gp13, Hpo_13⟩⟩, ⟨⟨%fp14, Hps_14⟩, ⟨%gp14, Hpo_14⟩⟩⟩
  -- first exchange, iteration 0
  iapply (step_p1 m ρ c (0 : Fin 15) _ (Fin.ext (k0_dev16_eq c)) _ _ (k0_off1_eq c (0 : Fin 15)) (k0_off2_eq c (0 : Fin 15)) k0_pay1 pay1_eq _ _ rfl rfl _ rfl K _) $$ [Hx Htb_0 Hps_0 HO Ht0_0 Ht1_0]
  · isplitr; · iexact HR
    isplitl [Hx]; · iexact Hx
    isplitl [Htb_0]; · iexists ftb; iexact Htb_0
    isplitl [Hps_0]; · iexists fp0; iexact Hps_0
    isplitl [HO]; · iexact HO
    isplitl [Ht0_0]; · iexact Ht0_0
    iexact Ht1_0
  iintro ⟨Hx, Hcs0_0, HO⟩
  -- first exchange, iteration 1
  iapply (step_p1 m ρ c (1 : Fin 15) _ (Fin.ext (k0_dev17_eq c)) _ _ (k0_off1_eq c (1 : Fin 15)) (k0_off2_eq c (1 : Fin 15)) k0_pay2 pay2_eq _ _ rfl rfl _ rfl K _) $$ [Hx Htb_1 Hps_1 HO Ht0_1 Ht1_1]
  · isplitr; · iexact HR
    isplitl [Hx]; · iexact Hx
    isplitl [Htb_1]; · iexists ftb; iexact Htb_1
    isplitl [Hps_1]; · iexists fp1; iexact Hps_1
    isplitl [HO]; · iexact HO
    isplitl [Ht0_1]; · iexact Ht0_1
    iexact Ht1_1
  iintro ⟨Hx, Hcs0_1, HO⟩
  -- first exchange, iteration 2
  iapply (step_p1 m ρ c (2 : Fin 15) _ (Fin.ext (k0_dev18_eq c)) _ _ (k0_off1_eq c (2 : Fin 15)) (k0_off2_eq c (2 : Fin 15)) k0_pay3 pay3_eq _ _ rfl rfl _ rfl K _) $$ [Hx Htb_2 Hps_2 HO Ht0_2 Ht1_2]
  · isplitr; · iexact HR
    isplitl [Hx]; · iexact Hx
    isplitl [Htb_2]; · iexists ftb; iexact Htb_2
    isplitl [Hps_2]; · iexists fp2; iexact Hps_2
    isplitl [HO]; · iexact HO
    isplitl [Ht0_2]; · iexact Ht0_2
    iexact Ht1_2
  iintro ⟨Hx, Hcs0_2, HO⟩
  -- first exchange, iteration 3
  iapply (step_p1 m ρ c (3 : Fin 15) _ (Fin.ext (k0_dev19_eq c)) _ _ (k0_off1_eq c (3 : Fin 15)) (k0_off2_eq c (3 : Fin 15)) k0_pay4 pay4_eq _ _ rfl rfl _ rfl K _) $$ [Hx Htb_3 Hps_3 HO Ht0_3 Ht1_3]
  · isplitr; · iexact HR
    isplitl [Hx]; · iexact Hx
    isplitl [Htb_3]; · iexists ftb; iexact Htb_3
    isplitl [Hps_3]; · iexists fp3; iexact Hps_3
    isplitl [HO]; · iexact HO
    isplitl [Ht0_3]; · iexact Ht0_3
    iexact Ht1_3
  iintro ⟨Hx, Hcs0_3, HO⟩
  -- first exchange, iteration 4
  iapply (step_p1 m ρ c (4 : Fin 15) _ (Fin.ext (k0_dev20_eq c)) _ _ (k0_off1_eq c (4 : Fin 15)) (k0_off2_eq c (4 : Fin 15)) k0_pay5 pay5_eq _ _ rfl rfl _ rfl K _) $$ [Hx Htb_4 Hps_4 HO Ht0_4 Ht1_4]
  · isplitr; · iexact HR
    isplitl [Hx]; · iexact Hx
    isplitl [Htb_4]; · iexists ftb; iexact Htb_4
    isplitl [Hps_4]; · iexists fp4; iexact Hps_4
    isplitl [HO]; · iexact HO
    isplitl [Ht0_4]; · iexact Ht0_4
    iexact Ht1_4
  iintro ⟨Hx, Hcs0_4, HO⟩
  -- first exchange, iteration 5
  iapply (step_p1 m ρ c (5 : Fin 15) _ (Fin.ext (k0_dev21_eq c)) _ _ (k0_off1_eq c (5 : Fin 15)) (k0_off2_eq c (5 : Fin 15)) k0_pay6 pay6_eq _ _ rfl rfl _ rfl K _) $$ [Hx Htb_5 Hps_5 HO Ht0_5 Ht1_5]
  · isplitr; · iexact HR
    isplitl [Hx]; · iexact Hx
    isplitl [Htb_5]; · iexists ftb; iexact Htb_5
    isplitl [Hps_5]; · iexists fp5; iexact Hps_5
    isplitl [HO]; · iexact HO
    isplitl [Ht0_5]; · iexact Ht0_5
    iexact Ht1_5
  iintro ⟨Hx, Hcs0_5, HO⟩
  -- first exchange, iteration 6
  iapply (step_p1 m ρ c (6 : Fin 15) _ (Fin.ext (k0_dev22_eq c)) _ _ (k0_off1_eq c (6 : Fin 15)) (k0_off2_eq c (6 : Fin 15)) k0_pay7 pay7_eq _ _ rfl rfl _ rfl K _) $$ [Hx Htb_6 Hps_6 HO Ht0_6 Ht1_6]
  · isplitr; · iexact HR
    isplitl [Hx]; · iexact Hx
    isplitl [Htb_6]; · iexists ftb; iexact Htb_6
    isplitl [Hps_6]; · iexists fp6; iexact Hps_6
    isplitl [HO]; · iexact HO
    isplitl [Ht0_6]; · iexact Ht0_6
    iexact Ht1_6
  iintro ⟨Hx, Hcs0_6, HO⟩
  -- first exchange, iteration 7
  iapply (step_p1 m ρ c (7 : Fin 15) _ (Fin.ext (k0_dev23_eq c)) _ _ (k0_off1_eq c (7 : Fin 15)) (k0_off2_eq c (7 : Fin 15)) k0_pay8 pay8_eq _ _ rfl rfl _ rfl K _) $$ [Hx Htb_7 Hps_7 HO Ht0_7 Ht1_7]
  · isplitr; · iexact HR
    isplitl [Hx]; · iexact Hx
    isplitl [Htb_7]; · iexists ftb; iexact Htb_7
    isplitl [Hps_7]; · iexists fp7; iexact Hps_7
    isplitl [HO]; · iexact HO
    isplitl [Ht0_7]; · iexact Ht0_7
    iexact Ht1_7
  iintro ⟨Hx, Hcs0_7, HO⟩
  -- first exchange, iteration 8
  iapply (step_p1 m ρ c (8 : Fin 15) _ (Fin.ext (k0_dev24_eq c)) _ _ (k0_off1_eq c (8 : Fin 15)) (k0_off2_eq c (8 : Fin 15)) k0_pay9 pay9_eq _ _ rfl rfl _ rfl K _) $$ [Hx Htb_8 Hps_8 HO Ht0_8 Ht1_8]
  · isplitr; · iexact HR
    isplitl [Hx]; · iexact Hx
    isplitl [Htb_8]; · iexists ftb; iexact Htb_8
    isplitl [Hps_8]; · iexists fp8; iexact Hps_8
    isplitl [HO]; · iexact HO
    isplitl [Ht0_8]; · iexact Ht0_8
    iexact Ht1_8
  iintro ⟨Hx, Hcs0_8, HO⟩
  -- first exchange, iteration 9
  iapply (step_p1 m ρ c (9 : Fin 15) _ (Fin.ext (k0_dev25_eq c)) _ _ (k0_off1_eq c (9 : Fin 15)) (k0_off2_eq c (9 : Fin 15)) k0_pay10 pay10_eq _ _ rfl rfl _ rfl K _) $$ [Hx Htb_9 Hps_9 HO Ht0_9 Ht1_9]
  · isplitr; · iexact HR
    isplitl [Hx]; · iexact Hx
    isplitl [Htb_9]; · iexists ftb; iexact Htb_9
    isplitl [Hps_9]; · iexists fp9; iexact Hps_9
    isplitl [HO]; · iexact HO
    isplitl [Ht0_9]; · iexact Ht0_9
    iexact Ht1_9
  iintro ⟨Hx, Hcs0_9, HO⟩
  -- first exchange, iteration 10
  iapply (step_p1 m ρ c (10 : Fin 15) _ (Fin.ext (k0_dev26_eq c)) _ _ (k0_off1_eq c (10 : Fin 15)) (k0_off2_eq c (10 : Fin 15)) k0_pay11 pay11_eq _ _ rfl rfl _ rfl K _) $$ [Hx Htb_10 Hps_10 HO Ht0_10 Ht1_10]
  · isplitr; · iexact HR
    isplitl [Hx]; · iexact Hx
    isplitl [Htb_10]; · iexists ftb; iexact Htb_10
    isplitl [Hps_10]; · iexists fp10; iexact Hps_10
    isplitl [HO]; · iexact HO
    isplitl [Ht0_10]; · iexact Ht0_10
    iexact Ht1_10
  iintro ⟨Hx, Hcs0_10, HO⟩
  -- first exchange, iteration 11
  iapply (step_p1 m ρ c (11 : Fin 15) _ (Fin.ext (k0_dev27_eq c)) _ _ (k0_off1_eq c (11 : Fin 15)) (k0_off2_eq c (11 : Fin 15)) (fun v => k0_pay13 (k0_pay12 v)) pay13_pay12 _ _ rfl rfl _ rfl K _) $$ [Hx Htb_11 Hps_11 HO Ht0_11 Ht1_11]
  · isplitr; · iexact HR
    isplitl [Hx]; · iexact Hx
    isplitl [Htb_11]; · iexists ftb; iexact Htb_11
    isplitl [Hps_11]; · iexists fp11; iexact Hps_11
    isplitl [HO]; · iexact HO
    isplitl [Ht0_11]; · iexact Ht0_11
    iexact Ht1_11
  iintro ⟨Hx, Hcs0_11, HO⟩
  -- first exchange, iteration 12
  iapply (step_p1 m ρ c (12 : Fin 15) _ (Fin.ext (k0_dev28_eq c)) _ _ (k0_off1_eq c (12 : Fin 15)) (k0_off2_eq c (12 : Fin 15)) k0_pay14 pay14_eq _ _ rfl rfl _ rfl K _) $$ [Hx Htb_12 Hps_12 HO Ht0_12 Ht1_12]
  · isplitr; · iexact HR
    isplitl [Hx]; · iexact Hx
    isplitl [Htb_12]; · iexists ftb; iexact Htb_12
    isplitl [Hps_12]; · iexists fp12; iexact Hps_12
    isplitl [HO]; · iexact HO
    isplitl [Ht0_12]; · iexact Ht0_12
    iexact Ht1_12
  iintro ⟨Hx, Hcs0_12, HO⟩
  -- first exchange, iteration 13
  iapply (step_p1 m ρ c (13 : Fin 15) _ (Fin.ext (k0_dev29_eq c)) _ _ (k0_off1_eq c (13 : Fin 15)) (k0_off2_eq c (13 : Fin 15)) k0_pay15 pay15_eq _ _ rfl rfl _ rfl K _) $$ [Hx Htb_13 Hps_13 HO Ht0_13 Ht1_13]
  · isplitr; · iexact HR
    isplitl [Hx]; · iexact Hx
    isplitl [Htb_13]; · iexists ftb; iexact Htb_13
    isplitl [Hps_13]; · iexists fp13; iexact Hps_13
    isplitl [HO]; · iexact HO
    isplitl [Ht0_13]; · iexact Ht0_13
    iexact Ht1_13
  iintro ⟨Hx, Hcs0_13, HO⟩
  -- first exchange, iteration 14
  iapply (step_p1 m ρ c (14 : Fin 15) _ (Fin.ext (k0_dev30_eq c)) _ _ (k0_off1_eq c (14 : Fin 15)) (k0_off2_eq c (14 : Fin 15)) (fun v => k0_pay17 (k0_pay16 v)) pay17_pay16 _ _ rfl rfl _ rfl K _) $$ [Hx Htb_14 Hps_14 HO Ht0_14 Ht1_14]
  · isplitr; · iexact HR
    isplitl [Hx]; · iexact Hx
    isplitl [Htb_14]; · iexists ftb; iexact Htb_14
    isplitl [Hps_14]; · iexists fp14; iexact Hps_14
    isplitl [HO]; · iexact HO
    isplitl [Ht0_14]; · iexact Ht0_14
    iexact Ht1_14
  iintro ⟨Hx, Hcs0_14, HO⟩
  -- the device's own rows
  iapply (wp_load 𝒱₀ (c : Thread nD τ) none Set.univ (m := xM) (Finset.subset_univ _)) $$ Hx; iintro Hx
  -- slot 0 lands and is read
  iapply (step_acc m ρ c (0 : Fin 15) K _ _ rfl _ _ rfl) $$ [Hc1_0 HO Ha1_0]
  · isplitr; · iexact HR
    isplitl [Hc1_0]; · iexact Hc1_0
    isplitl [HO]; · iexact HO
    isplitr; · iexact Hlev
    iexact Ha1_0
  iintro ⟨HO, Ha1_0, Hsl_0⟩
  -- slot 1 lands and is read
  iapply (step_acc m ρ c (1 : Fin 15) K _ _ rfl _ _ rfl) $$ [Hc1_1 HO Ha1_1]
  · isplitr; · iexact HR
    isplitl [Hc1_1]; · iexact Hc1_1
    isplitl [HO]; · iexact HO
    isplitr; · iexact Hlev
    iexact Ha1_1
  iintro ⟨HO, Ha1_1, Hsl_1⟩
  -- slot 2 lands and is read
  iapply (step_acc m ρ c (2 : Fin 15) K _ _ rfl _ _ rfl) $$ [Hc1_2 HO Ha1_2]
  · isplitr; · iexact HR
    isplitl [Hc1_2]; · iexact Hc1_2
    isplitl [HO]; · iexact HO
    isplitr; · iexact Hlev
    iexact Ha1_2
  iintro ⟨HO, Ha1_2, Hsl_2⟩
  -- slot 3 lands and is read
  iapply (step_acc m ρ c (3 : Fin 15) K _ _ rfl _ _ rfl) $$ [Hc1_3 HO Ha1_3]
  · isplitr; · iexact HR
    isplitl [Hc1_3]; · iexact Hc1_3
    isplitl [HO]; · iexact HO
    isplitr; · iexact Hlev
    iexact Ha1_3
  iintro ⟨HO, Ha1_3, Hsl_3⟩
  -- slot 4 lands and is read
  iapply (step_acc m ρ c (4 : Fin 15) K _ _ rfl _ _ rfl) $$ [Hc1_4 HO Ha1_4]
  · isplitr; · iexact HR
    isplitl [Hc1_4]; · iexact Hc1_4
    isplitl [HO]; · iexact HO
    isplitr; · iexact Hlev
    iexact Ha1_4
  iintro ⟨HO, Ha1_4, Hsl_4⟩
  -- slot 5 lands and is read
  iapply (step_acc m ρ c (5 : Fin 15) K _ _ rfl _ _ rfl) $$ [Hc1_5 HO Ha1_5]
  · isplitr; · iexact HR
    isplitl [Hc1_5]; · iexact Hc1_5
    isplitl [HO]; · iexact HO
    isplitr; · iexact Hlev
    iexact Ha1_5
  iintro ⟨HO, Ha1_5, Hsl_5⟩
  -- slot 6 lands and is read
  iapply (step_acc m ρ c (6 : Fin 15) K _ _ rfl _ _ rfl) $$ [Hc1_6 HO Ha1_6]
  · isplitr; · iexact HR
    isplitl [Hc1_6]; · iexact Hc1_6
    isplitl [HO]; · iexact HO
    isplitr; · iexact Hlev
    iexact Ha1_6
  iintro ⟨HO, Ha1_6, Hsl_6⟩
  -- slot 7 lands and is read
  iapply (step_acc m ρ c (7 : Fin 15) K _ _ rfl _ _ rfl) $$ [Hc1_7 HO Ha1_7]
  · isplitr; · iexact HR
    isplitl [Hc1_7]; · iexact Hc1_7
    isplitl [HO]; · iexact HO
    isplitr; · iexact Hlev
    iexact Ha1_7
  iintro ⟨HO, Ha1_7, Hsl_7⟩
  -- slot 8 lands and is read
  iapply (step_acc m ρ c (8 : Fin 15) K _ _ rfl _ _ rfl) $$ [Hc1_8 HO Ha1_8]
  · isplitr; · iexact HR
    isplitl [Hc1_8]; · iexact Hc1_8
    isplitl [HO]; · iexact HO
    isplitr; · iexact Hlev
    iexact Ha1_8
  iintro ⟨HO, Ha1_8, Hsl_8⟩
  -- slot 9 lands and is read
  iapply (step_acc m ρ c (9 : Fin 15) K _ _ rfl _ _ rfl) $$ [Hc1_9 HO Ha1_9]
  · isplitr; · iexact HR
    isplitl [Hc1_9]; · iexact Hc1_9
    isplitl [HO]; · iexact HO
    isplitr; · iexact Hlev
    iexact Ha1_9
  iintro ⟨HO, Ha1_9, Hsl_9⟩
  -- slot 10 lands and is read
  iapply (step_acc m ρ c (10 : Fin 15) K _ _ rfl _ _ rfl) $$ [Hc1_10 HO Ha1_10]
  · isplitr; · iexact HR
    isplitl [Hc1_10]; · iexact Hc1_10
    isplitl [HO]; · iexact HO
    isplitr; · iexact Hlev
    iexact Ha1_10
  iintro ⟨HO, Ha1_10, Hsl_10⟩
  -- slot 11 lands and is read
  iapply (step_acc m ρ c (11 : Fin 15) K _ _ rfl _ _ rfl) $$ [Hc1_11 HO Ha1_11]
  · isplitr; · iexact HR
    isplitl [Hc1_11]; · iexact Hc1_11
    isplitl [HO]; · iexact HO
    isplitr; · iexact Hlev
    iexact Ha1_11
  iintro ⟨HO, Ha1_11, Hsl_11⟩
  -- slot 12 lands and is read
  iapply (step_acc m ρ c (12 : Fin 15) K _ _ rfl _ _ rfl) $$ [Hc1_12 HO Ha1_12]
  · isplitr; · iexact HR
    isplitl [Hc1_12]; · iexact Hc1_12
    isplitl [HO]; · iexact HO
    isplitr; · iexact Hlev
    iexact Ha1_12
  iintro ⟨HO, Ha1_12, Hsl_12⟩
  -- slot 13 lands and is read
  iapply (step_acc m ρ c (13 : Fin 15) K _ _ rfl _ _ rfl) $$ [Hc1_13 HO Ha1_13]
  · isplitr; · iexact HR
    isplitl [Hc1_13]; · iexact Hc1_13
    isplitl [HO]; · iexact HO
    isplitr; · iexact Hlev
    iexact Ha1_13
  iintro ⟨HO, Ha1_13, Hsl_13⟩
  -- slot 14 lands and is read
  iapply (step_acc m ρ c (14 : Fin 15) K _ _ rfl _ _ rfl) $$ [Hc1_14 HO Ha1_14]
  · isplitr; · iexact HR
    isplitl [Hc1_14]; · iexact Hc1_14
    isplitl [HO]; · iexact HO
    isplitr; · iexact Hlev
    iexact Ha1_14
  iintro ⟨HO, Ha1_14, Hsl_14⟩
  -- the matrix is read, the product cast and stored into the device's own row block
  iapply (step_store_out m ρ c _ (k0_off3_eq c) (outPay m ρ c) (hpay_out m ρ c)) $$ [Hw HoOwn]
  · isplitl [Hw]; · iexact Hw
    iexists g2; iexact HoOwn
  iintro ⟨Hw, HoOwn⟩
  ihave Hsh := (out_shares' m ρ c) $$ HoOwn
  simp only [bigSep_fin15]
  icases Hsh with ⟨HoRem, Hsh_0, Hsh_1, Hsh_2, Hsh_3, Hsh_4, Hsh_5, Hsh_6, Hsh_7, Hsh_8, Hsh_9, Hsh_10, Hsh_11, Hsh_12, Hsh_13, Hsh_14⟩
  -- second exchange, send 0
  iapply (step_p2 m ρ c (0 : Fin 15) _ (Fin.ext (k0_dev31_eq c)) _ _ (k0_off4_eq c) (k0_off4_eq c) _ _ rfl rfl K _) $$ [Hsh_0 Hpo_0 HO Ht2_0 Ht3_0]
  · isplitr; · iexact HR
    isplitl [Hsh_0]; · iexact Hsh_0
    isplitl [Hpo_0]; · iexists gp0; iexact Hpo_0
    isplitl [HO]; · iexact HO
    isplitl [Ht2_0]; · iexact Ht2_0
    iexact Ht3_0
  iintro ⟨Hcs2_0, HO⟩
  -- second exchange, send 1
  iapply (step_p2 m ρ c (1 : Fin 15) _ (Fin.ext (k0_dev32_eq c)) _ _ (k0_off4_eq c) (k0_off4_eq c) _ _ rfl rfl K _) $$ [Hsh_1 Hpo_1 HO Ht2_1 Ht3_1]
  · isplitr; · iexact HR
    isplitl [Hsh_1]; · iexact Hsh_1
    isplitl [Hpo_1]; · iexists gp1; iexact Hpo_1
    isplitl [HO]; · iexact HO
    isplitl [Ht2_1]; · iexact Ht2_1
    iexact Ht3_1
  iintro ⟨Hcs2_1, HO⟩
  -- second exchange, send 2
  iapply (step_p2 m ρ c (2 : Fin 15) _ (Fin.ext (k0_dev33_eq c)) _ _ (k0_off4_eq c) (k0_off4_eq c) _ _ rfl rfl K _) $$ [Hsh_2 Hpo_2 HO Ht2_2 Ht3_2]
  · isplitr; · iexact HR
    isplitl [Hsh_2]; · iexact Hsh_2
    isplitl [Hpo_2]; · iexists gp2; iexact Hpo_2
    isplitl [HO]; · iexact HO
    isplitl [Ht2_2]; · iexact Ht2_2
    iexact Ht3_2
  iintro ⟨Hcs2_2, HO⟩
  -- second exchange, send 3
  iapply (step_p2 m ρ c (3 : Fin 15) _ (Fin.ext (k0_dev34_eq c)) _ _ (k0_off4_eq c) (k0_off4_eq c) _ _ rfl rfl K _) $$ [Hsh_3 Hpo_3 HO Ht2_3 Ht3_3]
  · isplitr; · iexact HR
    isplitl [Hsh_3]; · iexact Hsh_3
    isplitl [Hpo_3]; · iexists gp3; iexact Hpo_3
    isplitl [HO]; · iexact HO
    isplitl [Ht2_3]; · iexact Ht2_3
    iexact Ht3_3
  iintro ⟨Hcs2_3, HO⟩
  -- second exchange, send 4
  iapply (step_p2 m ρ c (4 : Fin 15) _ (Fin.ext (k0_dev35_eq c)) _ _ (k0_off4_eq c) (k0_off4_eq c) _ _ rfl rfl K _) $$ [Hsh_4 Hpo_4 HO Ht2_4 Ht3_4]
  · isplitr; · iexact HR
    isplitl [Hsh_4]; · iexact Hsh_4
    isplitl [Hpo_4]; · iexists gp4; iexact Hpo_4
    isplitl [HO]; · iexact HO
    isplitl [Ht2_4]; · iexact Ht2_4
    iexact Ht3_4
  iintro ⟨Hcs2_4, HO⟩
  -- second exchange, send 5
  iapply (step_p2 m ρ c (5 : Fin 15) _ (Fin.ext (k0_dev36_eq c)) _ _ (k0_off4_eq c) (k0_off4_eq c) _ _ rfl rfl K _) $$ [Hsh_5 Hpo_5 HO Ht2_5 Ht3_5]
  · isplitr; · iexact HR
    isplitl [Hsh_5]; · iexact Hsh_5
    isplitl [Hpo_5]; · iexists gp5; iexact Hpo_5
    isplitl [HO]; · iexact HO
    isplitl [Ht2_5]; · iexact Ht2_5
    iexact Ht3_5
  iintro ⟨Hcs2_5, HO⟩
  -- second exchange, send 6
  iapply (step_p2 m ρ c (6 : Fin 15) _ (Fin.ext (k0_dev37_eq c)) _ _ (k0_off4_eq c) (k0_off4_eq c) _ _ rfl rfl K _) $$ [Hsh_6 Hpo_6 HO Ht2_6 Ht3_6]
  · isplitr; · iexact HR
    isplitl [Hsh_6]; · iexact Hsh_6
    isplitl [Hpo_6]; · iexists gp6; iexact Hpo_6
    isplitl [HO]; · iexact HO
    isplitl [Ht2_6]; · iexact Ht2_6
    iexact Ht3_6
  iintro ⟨Hcs2_6, HO⟩
  -- second exchange, send 7
  iapply (step_p2 m ρ c (7 : Fin 15) _ (Fin.ext (k0_dev38_eq c)) _ _ (k0_off4_eq c) (k0_off4_eq c) _ _ rfl rfl K _) $$ [Hsh_7 Hpo_7 HO Ht2_7 Ht3_7]
  · isplitr; · iexact HR
    isplitl [Hsh_7]; · iexact Hsh_7
    isplitl [Hpo_7]; · iexists gp7; iexact Hpo_7
    isplitl [HO]; · iexact HO
    isplitl [Ht2_7]; · iexact Ht2_7
    iexact Ht3_7
  iintro ⟨Hcs2_7, HO⟩
  -- second exchange, send 8
  iapply (step_p2 m ρ c (8 : Fin 15) _ (Fin.ext (k0_dev39_eq c)) _ _ (k0_off4_eq c) (k0_off4_eq c) _ _ rfl rfl K _) $$ [Hsh_8 Hpo_8 HO Ht2_8 Ht3_8]
  · isplitr; · iexact HR
    isplitl [Hsh_8]; · iexact Hsh_8
    isplitl [Hpo_8]; · iexists gp8; iexact Hpo_8
    isplitl [HO]; · iexact HO
    isplitl [Ht2_8]; · iexact Ht2_8
    iexact Ht3_8
  iintro ⟨Hcs2_8, HO⟩
  -- second exchange, send 9
  iapply (step_p2 m ρ c (9 : Fin 15) _ (Fin.ext (k0_dev40_eq c)) _ _ (k0_off4_eq c) (k0_off4_eq c) _ _ rfl rfl K _) $$ [Hsh_9 Hpo_9 HO Ht2_9 Ht3_9]
  · isplitr; · iexact HR
    isplitl [Hsh_9]; · iexact Hsh_9
    isplitl [Hpo_9]; · iexists gp9; iexact Hpo_9
    isplitl [HO]; · iexact HO
    isplitl [Ht2_9]; · iexact Ht2_9
    iexact Ht3_9
  iintro ⟨Hcs2_9, HO⟩
  -- second exchange, send 10
  iapply (step_p2 m ρ c (10 : Fin 15) _ (Fin.ext (k0_dev41_eq c)) _ _ (k0_off4_eq c) (k0_off4_eq c) _ _ rfl rfl K _) $$ [Hsh_10 Hpo_10 HO Ht2_10 Ht3_10]
  · isplitr; · iexact HR
    isplitl [Hsh_10]; · iexact Hsh_10
    isplitl [Hpo_10]; · iexists gp10; iexact Hpo_10
    isplitl [HO]; · iexact HO
    isplitl [Ht2_10]; · iexact Ht2_10
    iexact Ht3_10
  iintro ⟨Hcs2_10, HO⟩
  -- second exchange, send 11
  iapply (step_p2 m ρ c (11 : Fin 15) _ (Fin.ext (k0_dev42_eq c)) _ _ (k0_off4_eq c) (k0_off4_eq c) _ _ rfl rfl K _) $$ [Hsh_11 Hpo_11 HO Ht2_11 Ht3_11]
  · isplitr; · iexact HR
    isplitl [Hsh_11]; · iexact Hsh_11
    isplitl [Hpo_11]; · iexists gp11; iexact Hpo_11
    isplitl [HO]; · iexact HO
    isplitl [Ht2_11]; · iexact Ht2_11
    iexact Ht3_11
  iintro ⟨Hcs2_11, HO⟩
  -- second exchange, send 12
  iapply (step_p2 m ρ c (12 : Fin 15) _ (Fin.ext (k0_dev43_eq c)) _ _ (k0_off4_eq c) (k0_off4_eq c) _ _ rfl rfl K _) $$ [Hsh_12 Hpo_12 HO Ht2_12 Ht3_12]
  · isplitr; · iexact HR
    isplitl [Hsh_12]; · iexact Hsh_12
    isplitl [Hpo_12]; · iexists gp12; iexact Hpo_12
    isplitl [HO]; · iexact HO
    isplitl [Ht2_12]; · iexact Ht2_12
    iexact Ht3_12
  iintro ⟨Hcs2_12, HO⟩
  -- second exchange, send 13
  iapply (step_p2 m ρ c (13 : Fin 15) _ (Fin.ext (k0_dev44_eq c)) _ _ (k0_off4_eq c) (k0_off4_eq c) _ _ rfl rfl K _) $$ [Hsh_13 Hpo_13 HO Ht2_13 Ht3_13]
  · isplitr; · iexact HR
    isplitl [Hsh_13]; · iexact Hsh_13
    isplitl [Hpo_13]; · iexists gp13; iexact Hpo_13
    isplitl [HO]; · iexact HO
    isplitl [Ht2_13]; · iexact Ht2_13
    iexact Ht3_13
  iintro ⟨Hcs2_13, HO⟩
  -- second exchange, send 14
  iapply (step_p2 m ρ c (14 : Fin 15) _ (Fin.ext (k0_dev45_eq c)) _ _ (k0_off4_eq c) (k0_off4_eq c) _ _ rfl rfl K _) $$ [Hsh_14 Hpo_14 HO Ht2_14 Ht3_14]
  · isplitr; · iexact HR
    isplitl [Hsh_14]; · iexact Hsh_14
    isplitl [Hpo_14]; · iexists gp14; iexact Hpo_14
    isplitl [HO]; · iexact HO
    isplitl [Ht2_14]; · iexact Ht2_14
    iexact Ht3_14
  iintro ⟨Hcs2_14, HO⟩
  -- second exchange, receive 0
  iapply (step_wait_r2 m ρ c (0 : Fin 15) K _ _ rfl _ _) $$ [Hc3_0 HO Ha3_0]
  · isplitr; · iexact HR
    isplitl [Hc3_0]; · iexact Hc3_0
    isplitl [HO]; · iexact HO
    iexact Ha3_0
  iintro ⟨HO, Ha3_0, Hor_0⟩
  -- second exchange, receive 1
  iapply (step_wait_r2 m ρ c (1 : Fin 15) K _ _ rfl _ _) $$ [Hc3_1 HO Ha3_1]
  · isplitr; · iexact HR
    isplitl [Hc3_1]; · iexact Hc3_1
    isplitl [HO]; · iexact HO
    iexact Ha3_1
  iintro ⟨HO, Ha3_1, Hor_1⟩
  -- second exchange, receive 2
  iapply (step_wait_r2 m ρ c (2 : Fin 15) K _ _ rfl _ _) $$ [Hc3_2 HO Ha3_2]
  · isplitr; · iexact HR
    isplitl [Hc3_2]; · iexact Hc3_2
    isplitl [HO]; · iexact HO
    iexact Ha3_2
  iintro ⟨HO, Ha3_2, Hor_2⟩
  -- second exchange, receive 3
  iapply (step_wait_r2 m ρ c (3 : Fin 15) K _ _ rfl _ _) $$ [Hc3_3 HO Ha3_3]
  · isplitr; · iexact HR
    isplitl [Hc3_3]; · iexact Hc3_3
    isplitl [HO]; · iexact HO
    iexact Ha3_3
  iintro ⟨HO, Ha3_3, Hor_3⟩
  -- second exchange, receive 4
  iapply (step_wait_r2 m ρ c (4 : Fin 15) K _ _ rfl _ _) $$ [Hc3_4 HO Ha3_4]
  · isplitr; · iexact HR
    isplitl [Hc3_4]; · iexact Hc3_4
    isplitl [HO]; · iexact HO
    iexact Ha3_4
  iintro ⟨HO, Ha3_4, Hor_4⟩
  -- second exchange, receive 5
  iapply (step_wait_r2 m ρ c (5 : Fin 15) K _ _ rfl _ _) $$ [Hc3_5 HO Ha3_5]
  · isplitr; · iexact HR
    isplitl [Hc3_5]; · iexact Hc3_5
    isplitl [HO]; · iexact HO
    iexact Ha3_5
  iintro ⟨HO, Ha3_5, Hor_5⟩
  -- second exchange, receive 6
  iapply (step_wait_r2 m ρ c (6 : Fin 15) K _ _ rfl _ _) $$ [Hc3_6 HO Ha3_6]
  · isplitr; · iexact HR
    isplitl [Hc3_6]; · iexact Hc3_6
    isplitl [HO]; · iexact HO
    iexact Ha3_6
  iintro ⟨HO, Ha3_6, Hor_6⟩
  -- second exchange, receive 7
  iapply (step_wait_r2 m ρ c (7 : Fin 15) K _ _ rfl _ _) $$ [Hc3_7 HO Ha3_7]
  · isplitr; · iexact HR
    isplitl [Hc3_7]; · iexact Hc3_7
    isplitl [HO]; · iexact HO
    iexact Ha3_7
  iintro ⟨HO, Ha3_7, Hor_7⟩
  -- second exchange, receive 8
  iapply (step_wait_r2 m ρ c (8 : Fin 15) K _ _ rfl _ _) $$ [Hc3_8 HO Ha3_8]
  · isplitr; · iexact HR
    isplitl [Hc3_8]; · iexact Hc3_8
    isplitl [HO]; · iexact HO
    iexact Ha3_8
  iintro ⟨HO, Ha3_8, Hor_8⟩
  -- second exchange, receive 9
  iapply (step_wait_r2 m ρ c (9 : Fin 15) K _ _ rfl _ _) $$ [Hc3_9 HO Ha3_9]
  · isplitr; · iexact HR
    isplitl [Hc3_9]; · iexact Hc3_9
    isplitl [HO]; · iexact HO
    iexact Ha3_9
  iintro ⟨HO, Ha3_9, Hor_9⟩
  -- second exchange, receive 10
  iapply (step_wait_r2 m ρ c (10 : Fin 15) K _ _ rfl _ _) $$ [Hc3_10 HO Ha3_10]
  · isplitr; · iexact HR
    isplitl [Hc3_10]; · iexact Hc3_10
    isplitl [HO]; · iexact HO
    iexact Ha3_10
  iintro ⟨HO, Ha3_10, Hor_10⟩
  -- second exchange, receive 11
  iapply (step_wait_r2 m ρ c (11 : Fin 15) K _ _ rfl _ _) $$ [Hc3_11 HO Ha3_11]
  · isplitr; · iexact HR
    isplitl [Hc3_11]; · iexact Hc3_11
    isplitl [HO]; · iexact HO
    iexact Ha3_11
  iintro ⟨HO, Ha3_11, Hor_11⟩
  -- second exchange, receive 12
  iapply (step_wait_r2 m ρ c (12 : Fin 15) K _ _ rfl _ _) $$ [Hc3_12 HO Ha3_12]
  · isplitr; · iexact HR
    isplitl [Hc3_12]; · iexact Hc3_12
    isplitl [HO]; · iexact HO
    iexact Ha3_12
  iintro ⟨HO, Ha3_12, Hor_12⟩
  -- second exchange, receive 13
  iapply (step_wait_r2 m ρ c (13 : Fin 15) K _ _ rfl _ _) $$ [Hc3_13 HO Ha3_13]
  · isplitr; · iexact HR
    isplitl [Hc3_13]; · iexact Hc3_13
    isplitl [HO]; · iexact HO
    iexact Ha3_13
  iintro ⟨HO, Ha3_13, Hor_13⟩
  -- second exchange, receive 14
  iapply (step_wait_r2 m ρ c (14 : Fin 15) K _ _ rfl _ _) $$ [Hc3_14 HO Ha3_14]
  · isplitr; · iexact HR
    isplitl [Hc3_14]; · iexact Hc3_14
    isplitl [HO]; · iexact HO
    iexact Ha3_14
  iintro ⟨HO, Ha3_14, Hor_14⟩
  -- the two sends of 0 are over
  iapply (step_wait_s1 m ρ c (0 : Fin 15) K _ _ rfl _ _) $$ [Hcs0_0 HO Ha0_0]
  · isplitr; · iexact HR
    isplitl [Hcs0_0]; · iexact Hcs0_0
    isplitl [HO]; · iexact HO
    iexact Ha0_0
  iintro ⟨HO, Ha0_0, Htb_0⟩
  iapply (step_wait_s2 m ρ c (0 : Fin 15) K _ _ rfl _ _) $$ [Hcs2_0 HO Ha2_0]
  · isplitr; · iexact HR
    isplitl [Hcs2_0]; · iexact Hcs2_0
    isplitl [HO]; · iexact HO
    iexact Ha2_0
  iintro ⟨HO, Ha2_0, Hsh_0⟩
  -- the two sends of 1 are over
  iapply (step_wait_s1 m ρ c (1 : Fin 15) K _ _ rfl _ _) $$ [Hcs0_1 HO Ha0_1]
  · isplitr; · iexact HR
    isplitl [Hcs0_1]; · iexact Hcs0_1
    isplitl [HO]; · iexact HO
    iexact Ha0_1
  iintro ⟨HO, Ha0_1, Htb_1⟩
  iapply (step_wait_s2 m ρ c (1 : Fin 15) K _ _ rfl _ _) $$ [Hcs2_1 HO Ha2_1]
  · isplitr; · iexact HR
    isplitl [Hcs2_1]; · iexact Hcs2_1
    isplitl [HO]; · iexact HO
    iexact Ha2_1
  iintro ⟨HO, Ha2_1, Hsh_1⟩
  -- the two sends of 2 are over
  iapply (step_wait_s1 m ρ c (2 : Fin 15) K _ _ rfl _ _) $$ [Hcs0_2 HO Ha0_2]
  · isplitr; · iexact HR
    isplitl [Hcs0_2]; · iexact Hcs0_2
    isplitl [HO]; · iexact HO
    iexact Ha0_2
  iintro ⟨HO, Ha0_2, Htb_2⟩
  iapply (step_wait_s2 m ρ c (2 : Fin 15) K _ _ rfl _ _) $$ [Hcs2_2 HO Ha2_2]
  · isplitr; · iexact HR
    isplitl [Hcs2_2]; · iexact Hcs2_2
    isplitl [HO]; · iexact HO
    iexact Ha2_2
  iintro ⟨HO, Ha2_2, Hsh_2⟩
  -- the two sends of 3 are over
  iapply (step_wait_s1 m ρ c (3 : Fin 15) K _ _ rfl _ _) $$ [Hcs0_3 HO Ha0_3]
  · isplitr; · iexact HR
    isplitl [Hcs0_3]; · iexact Hcs0_3
    isplitl [HO]; · iexact HO
    iexact Ha0_3
  iintro ⟨HO, Ha0_3, Htb_3⟩
  iapply (step_wait_s2 m ρ c (3 : Fin 15) K _ _ rfl _ _) $$ [Hcs2_3 HO Ha2_3]
  · isplitr; · iexact HR
    isplitl [Hcs2_3]; · iexact Hcs2_3
    isplitl [HO]; · iexact HO
    iexact Ha2_3
  iintro ⟨HO, Ha2_3, Hsh_3⟩
  -- the two sends of 4 are over
  iapply (step_wait_s1 m ρ c (4 : Fin 15) K _ _ rfl _ _) $$ [Hcs0_4 HO Ha0_4]
  · isplitr; · iexact HR
    isplitl [Hcs0_4]; · iexact Hcs0_4
    isplitl [HO]; · iexact HO
    iexact Ha0_4
  iintro ⟨HO, Ha0_4, Htb_4⟩
  iapply (step_wait_s2 m ρ c (4 : Fin 15) K _ _ rfl _ _) $$ [Hcs2_4 HO Ha2_4]
  · isplitr; · iexact HR
    isplitl [Hcs2_4]; · iexact Hcs2_4
    isplitl [HO]; · iexact HO
    iexact Ha2_4
  iintro ⟨HO, Ha2_4, Hsh_4⟩
  -- the two sends of 5 are over
  iapply (step_wait_s1 m ρ c (5 : Fin 15) K _ _ rfl _ _) $$ [Hcs0_5 HO Ha0_5]
  · isplitr; · iexact HR
    isplitl [Hcs0_5]; · iexact Hcs0_5
    isplitl [HO]; · iexact HO
    iexact Ha0_5
  iintro ⟨HO, Ha0_5, Htb_5⟩
  iapply (step_wait_s2 m ρ c (5 : Fin 15) K _ _ rfl _ _) $$ [Hcs2_5 HO Ha2_5]
  · isplitr; · iexact HR
    isplitl [Hcs2_5]; · iexact Hcs2_5
    isplitl [HO]; · iexact HO
    iexact Ha2_5
  iintro ⟨HO, Ha2_5, Hsh_5⟩
  -- the two sends of 6 are over
  iapply (step_wait_s1 m ρ c (6 : Fin 15) K _ _ rfl _ _) $$ [Hcs0_6 HO Ha0_6]
  · isplitr; · iexact HR
    isplitl [Hcs0_6]; · iexact Hcs0_6
    isplitl [HO]; · iexact HO
    iexact Ha0_6
  iintro ⟨HO, Ha0_6, Htb_6⟩
  iapply (step_wait_s2 m ρ c (6 : Fin 15) K _ _ rfl _ _) $$ [Hcs2_6 HO Ha2_6]
  · isplitr; · iexact HR
    isplitl [Hcs2_6]; · iexact Hcs2_6
    isplitl [HO]; · iexact HO
    iexact Ha2_6
  iintro ⟨HO, Ha2_6, Hsh_6⟩
  -- the two sends of 7 are over
  iapply (step_wait_s1 m ρ c (7 : Fin 15) K _ _ rfl _ _) $$ [Hcs0_7 HO Ha0_7]
  · isplitr; · iexact HR
    isplitl [Hcs0_7]; · iexact Hcs0_7
    isplitl [HO]; · iexact HO
    iexact Ha0_7
  iintro ⟨HO, Ha0_7, Htb_7⟩
  iapply (step_wait_s2 m ρ c (7 : Fin 15) K _ _ rfl _ _) $$ [Hcs2_7 HO Ha2_7]
  · isplitr; · iexact HR
    isplitl [Hcs2_7]; · iexact Hcs2_7
    isplitl [HO]; · iexact HO
    iexact Ha2_7
  iintro ⟨HO, Ha2_7, Hsh_7⟩
  -- the two sends of 8 are over
  iapply (step_wait_s1 m ρ c (8 : Fin 15) K _ _ rfl _ _) $$ [Hcs0_8 HO Ha0_8]
  · isplitr; · iexact HR
    isplitl [Hcs0_8]; · iexact Hcs0_8
    isplitl [HO]; · iexact HO
    iexact Ha0_8
  iintro ⟨HO, Ha0_8, Htb_8⟩
  iapply (step_wait_s2 m ρ c (8 : Fin 15) K _ _ rfl _ _) $$ [Hcs2_8 HO Ha2_8]
  · isplitr; · iexact HR
    isplitl [Hcs2_8]; · iexact Hcs2_8
    isplitl [HO]; · iexact HO
    iexact Ha2_8
  iintro ⟨HO, Ha2_8, Hsh_8⟩
  -- the two sends of 9 are over
  iapply (step_wait_s1 m ρ c (9 : Fin 15) K _ _ rfl _ _) $$ [Hcs0_9 HO Ha0_9]
  · isplitr; · iexact HR
    isplitl [Hcs0_9]; · iexact Hcs0_9
    isplitl [HO]; · iexact HO
    iexact Ha0_9
  iintro ⟨HO, Ha0_9, Htb_9⟩
  iapply (step_wait_s2 m ρ c (9 : Fin 15) K _ _ rfl _ _) $$ [Hcs2_9 HO Ha2_9]
  · isplitr; · iexact HR
    isplitl [Hcs2_9]; · iexact Hcs2_9
    isplitl [HO]; · iexact HO
    iexact Ha2_9
  iintro ⟨HO, Ha2_9, Hsh_9⟩
  -- the two sends of 10 are over
  iapply (step_wait_s1 m ρ c (10 : Fin 15) K _ _ rfl _ _) $$ [Hcs0_10 HO Ha0_10]
  · isplitr; · iexact HR
    isplitl [Hcs0_10]; · iexact Hcs0_10
    isplitl [HO]; · iexact HO
    iexact Ha0_10
  iintro ⟨HO, Ha0_10, Htb_10⟩
  iapply (step_wait_s2 m ρ c (10 : Fin 15) K _ _ rfl _ _) $$ [Hcs2_10 HO Ha2_10]
  · isplitr; · iexact HR
    isplitl [Hcs2_10]; · iexact Hcs2_10
    isplitl [HO]; · iexact HO
    iexact Ha2_10
  iintro ⟨HO, Ha2_10, Hsh_10⟩
  -- the two sends of 11 are over
  iapply (step_wait_s1 m ρ c (11 : Fin 15) K _ _ rfl _ _) $$ [Hcs0_11 HO Ha0_11]
  · isplitr; · iexact HR
    isplitl [Hcs0_11]; · iexact Hcs0_11
    isplitl [HO]; · iexact HO
    iexact Ha0_11
  iintro ⟨HO, Ha0_11, Htb_11⟩
  iapply (step_wait_s2 m ρ c (11 : Fin 15) K _ _ rfl _ _) $$ [Hcs2_11 HO Ha2_11]
  · isplitr; · iexact HR
    isplitl [Hcs2_11]; · iexact Hcs2_11
    isplitl [HO]; · iexact HO
    iexact Ha2_11
  iintro ⟨HO, Ha2_11, Hsh_11⟩
  -- the two sends of 12 are over
  iapply (step_wait_s1 m ρ c (12 : Fin 15) K _ _ rfl _ _) $$ [Hcs0_12 HO Ha0_12]
  · isplitr; · iexact HR
    isplitl [Hcs0_12]; · iexact Hcs0_12
    isplitl [HO]; · iexact HO
    iexact Ha0_12
  iintro ⟨HO, Ha0_12, Htb_12⟩
  iapply (step_wait_s2 m ρ c (12 : Fin 15) K _ _ rfl _ _) $$ [Hcs2_12 HO Ha2_12]
  · isplitr; · iexact HR
    isplitl [Hcs2_12]; · iexact Hcs2_12
    isplitl [HO]; · iexact HO
    iexact Ha2_12
  iintro ⟨HO, Ha2_12, Hsh_12⟩
  -- the two sends of 13 are over
  iapply (step_wait_s1 m ρ c (13 : Fin 15) K _ _ rfl _ _) $$ [Hcs0_13 HO Ha0_13]
  · isplitr; · iexact HR
    isplitl [Hcs0_13]; · iexact Hcs0_13
    isplitl [HO]; · iexact HO
    iexact Ha0_13
  iintro ⟨HO, Ha0_13, Htb_13⟩
  iapply (step_wait_s2 m ρ c (13 : Fin 15) K _ _ rfl _ _) $$ [Hcs2_13 HO Ha2_13]
  · isplitr; · iexact HR
    isplitl [Hcs2_13]; · iexact Hcs2_13
    isplitl [HO]; · iexact HO
    iexact Ha2_13
  iintro ⟨HO, Ha2_13, Hsh_13⟩
  -- the two sends of 14 are over
  iapply (step_wait_s1 m ρ c (14 : Fin 15) K _ _ rfl _ _) $$ [Hcs0_14 HO Ha0_14]
  · isplitr; · iexact HR
    isplitl [Hcs0_14]; · iexact Hcs0_14
    isplitl [HO]; · iexact HO
    iexact Ha0_14
  iintro ⟨HO, Ha0_14, Htb_14⟩
  iapply (step_wait_s2 m ρ c (14 : Fin 15) K _ _ rfl _ _) $$ [Hcs2_14 HO Ha2_14]
  · isplitr; · iexact HR
    isplitl [Hcs2_14]; · iexact Hcs2_14
    isplitl [HO]; · iexact HO
    iexact Ha2_14
  iintro ⟨HO, Ha2_14, Hsh_14⟩
  imod (close_x m ρ c (0 : Fin 4) (0 : Fin 15) K) $$ [Ha0_0] with Hz0_0
  · isplitr; · iexact HR
    iexact Ha0_0
  imod (close_x m ρ c (0 : Fin 4) (1 : Fin 15) K) $$ [Ha0_1] with Hz0_1
  · isplitr; · iexact HR
    iexact Ha0_1
  imod (close_x m ρ c (0 : Fin 4) (2 : Fin 15) K) $$ [Ha0_2] with Hz0_2
  · isplitr; · iexact HR
    iexact Ha0_2
  imod (close_x m ρ c (0 : Fin 4) (3 : Fin 15) K) $$ [Ha0_3] with Hz0_3
  · isplitr; · iexact HR
    iexact Ha0_3
  imod (close_x m ρ c (0 : Fin 4) (4 : Fin 15) K) $$ [Ha0_4] with Hz0_4
  · isplitr; · iexact HR
    iexact Ha0_4
  imod (close_x m ρ c (0 : Fin 4) (5 : Fin 15) K) $$ [Ha0_5] with Hz0_5
  · isplitr; · iexact HR
    iexact Ha0_5
  imod (close_x m ρ c (0 : Fin 4) (6 : Fin 15) K) $$ [Ha0_6] with Hz0_6
  · isplitr; · iexact HR
    iexact Ha0_6
  imod (close_x m ρ c (0 : Fin 4) (7 : Fin 15) K) $$ [Ha0_7] with Hz0_7
  · isplitr; · iexact HR
    iexact Ha0_7
  imod (close_x m ρ c (0 : Fin 4) (8 : Fin 15) K) $$ [Ha0_8] with Hz0_8
  · isplitr; · iexact HR
    iexact Ha0_8
  imod (close_x m ρ c (0 : Fin 4) (9 : Fin 15) K) $$ [Ha0_9] with Hz0_9
  · isplitr; · iexact HR
    iexact Ha0_9
  imod (close_x m ρ c (0 : Fin 4) (10 : Fin 15) K) $$ [Ha0_10] with Hz0_10
  · isplitr; · iexact HR
    iexact Ha0_10
  imod (close_x m ρ c (0 : Fin 4) (11 : Fin 15) K) $$ [Ha0_11] with Hz0_11
  · isplitr; · iexact HR
    iexact Ha0_11
  imod (close_x m ρ c (0 : Fin 4) (12 : Fin 15) K) $$ [Ha0_12] with Hz0_12
  · isplitr; · iexact HR
    iexact Ha0_12
  imod (close_x m ρ c (0 : Fin 4) (13 : Fin 15) K) $$ [Ha0_13] with Hz0_13
  · isplitr; · iexact HR
    iexact Ha0_13
  imod (close_x m ρ c (0 : Fin 4) (14 : Fin 15) K) $$ [Ha0_14] with Hz0_14
  · isplitr; · iexact HR
    iexact Ha0_14
  imod (close_x m ρ c (1 : Fin 4) (0 : Fin 15) K) $$ [Ha1_0] with Hz1_0
  · isplitr; · iexact HR
    iexact Ha1_0
  imod (close_x m ρ c (1 : Fin 4) (1 : Fin 15) K) $$ [Ha1_1] with Hz1_1
  · isplitr; · iexact HR
    iexact Ha1_1
  imod (close_x m ρ c (1 : Fin 4) (2 : Fin 15) K) $$ [Ha1_2] with Hz1_2
  · isplitr; · iexact HR
    iexact Ha1_2
  imod (close_x m ρ c (1 : Fin 4) (3 : Fin 15) K) $$ [Ha1_3] with Hz1_3
  · isplitr; · iexact HR
    iexact Ha1_3
  imod (close_x m ρ c (1 : Fin 4) (4 : Fin 15) K) $$ [Ha1_4] with Hz1_4
  · isplitr; · iexact HR
    iexact Ha1_4
  imod (close_x m ρ c (1 : Fin 4) (5 : Fin 15) K) $$ [Ha1_5] with Hz1_5
  · isplitr; · iexact HR
    iexact Ha1_5
  imod (close_x m ρ c (1 : Fin 4) (6 : Fin 15) K) $$ [Ha1_6] with Hz1_6
  · isplitr; · iexact HR
    iexact Ha1_6
  imod (close_x m ρ c (1 : Fin 4) (7 : Fin 15) K) $$ [Ha1_7] with Hz1_7
  · isplitr; · iexact HR
    iexact Ha1_7
  imod (close_x m ρ c (1 : Fin 4) (8 : Fin 15) K) $$ [Ha1_8] with Hz1_8
  · isplitr; · iexact HR
    iexact Ha1_8
  imod (close_x m ρ c (1 : Fin 4) (9 : Fin 15) K) $$ [Ha1_9] with Hz1_9
  · isplitr; · iexact HR
    iexact Ha1_9
  imod (close_x m ρ c (1 : Fin 4) (10 : Fin 15) K) $$ [Ha1_10] with Hz1_10
  · isplitr; · iexact HR
    iexact Ha1_10
  imod (close_x m ρ c (1 : Fin 4) (11 : Fin 15) K) $$ [Ha1_11] with Hz1_11
  · isplitr; · iexact HR
    iexact Ha1_11
  imod (close_x m ρ c (1 : Fin 4) (12 : Fin 15) K) $$ [Ha1_12] with Hz1_12
  · isplitr; · iexact HR
    iexact Ha1_12
  imod (close_x m ρ c (1 : Fin 4) (13 : Fin 15) K) $$ [Ha1_13] with Hz1_13
  · isplitr; · iexact HR
    iexact Ha1_13
  imod (close_x m ρ c (1 : Fin 4) (14 : Fin 15) K) $$ [Ha1_14] with Hz1_14
  · isplitr; · iexact HR
    iexact Ha1_14
  imod (close_x m ρ c (2 : Fin 4) (0 : Fin 15) K) $$ [Ha2_0] with Hz2_0
  · isplitr; · iexact HR
    iexact Ha2_0
  imod (close_x m ρ c (2 : Fin 4) (1 : Fin 15) K) $$ [Ha2_1] with Hz2_1
  · isplitr; · iexact HR
    iexact Ha2_1
  imod (close_x m ρ c (2 : Fin 4) (2 : Fin 15) K) $$ [Ha2_2] with Hz2_2
  · isplitr; · iexact HR
    iexact Ha2_2
  imod (close_x m ρ c (2 : Fin 4) (3 : Fin 15) K) $$ [Ha2_3] with Hz2_3
  · isplitr; · iexact HR
    iexact Ha2_3
  imod (close_x m ρ c (2 : Fin 4) (4 : Fin 15) K) $$ [Ha2_4] with Hz2_4
  · isplitr; · iexact HR
    iexact Ha2_4
  imod (close_x m ρ c (2 : Fin 4) (5 : Fin 15) K) $$ [Ha2_5] with Hz2_5
  · isplitr; · iexact HR
    iexact Ha2_5
  imod (close_x m ρ c (2 : Fin 4) (6 : Fin 15) K) $$ [Ha2_6] with Hz2_6
  · isplitr; · iexact HR
    iexact Ha2_6
  imod (close_x m ρ c (2 : Fin 4) (7 : Fin 15) K) $$ [Ha2_7] with Hz2_7
  · isplitr; · iexact HR
    iexact Ha2_7
  imod (close_x m ρ c (2 : Fin 4) (8 : Fin 15) K) $$ [Ha2_8] with Hz2_8
  · isplitr; · iexact HR
    iexact Ha2_8
  imod (close_x m ρ c (2 : Fin 4) (9 : Fin 15) K) $$ [Ha2_9] with Hz2_9
  · isplitr; · iexact HR
    iexact Ha2_9
  imod (close_x m ρ c (2 : Fin 4) (10 : Fin 15) K) $$ [Ha2_10] with Hz2_10
  · isplitr; · iexact HR
    iexact Ha2_10
  imod (close_x m ρ c (2 : Fin 4) (11 : Fin 15) K) $$ [Ha2_11] with Hz2_11
  · isplitr; · iexact HR
    iexact Ha2_11
  imod (close_x m ρ c (2 : Fin 4) (12 : Fin 15) K) $$ [Ha2_12] with Hz2_12
  · isplitr; · iexact HR
    iexact Ha2_12
  imod (close_x m ρ c (2 : Fin 4) (13 : Fin 15) K) $$ [Ha2_13] with Hz2_13
  · isplitr; · iexact HR
    iexact Ha2_13
  imod (close_x m ρ c (2 : Fin 4) (14 : Fin 15) K) $$ [Ha2_14] with Hz2_14
  · isplitr; · iexact HR
    iexact Ha2_14
  imod (close_x m ρ c (3 : Fin 4) (0 : Fin 15) K) $$ [Ha3_0] with Hz3_0
  · isplitr; · iexact HR
    iexact Ha3_0
  imod (close_x m ρ c (3 : Fin 4) (1 : Fin 15) K) $$ [Ha3_1] with Hz3_1
  · isplitr; · iexact HR
    iexact Ha3_1
  imod (close_x m ρ c (3 : Fin 4) (2 : Fin 15) K) $$ [Ha3_2] with Hz3_2
  · isplitr; · iexact HR
    iexact Ha3_2
  imod (close_x m ρ c (3 : Fin 4) (3 : Fin 15) K) $$ [Ha3_3] with Hz3_3
  · isplitr; · iexact HR
    iexact Ha3_3
  imod (close_x m ρ c (3 : Fin 4) (4 : Fin 15) K) $$ [Ha3_4] with Hz3_4
  · isplitr; · iexact HR
    iexact Ha3_4
  imod (close_x m ρ c (3 : Fin 4) (5 : Fin 15) K) $$ [Ha3_5] with Hz3_5
  · isplitr; · iexact HR
    iexact Ha3_5
  imod (close_x m ρ c (3 : Fin 4) (6 : Fin 15) K) $$ [Ha3_6] with Hz3_6
  · isplitr; · iexact HR
    iexact Ha3_6
  imod (close_x m ρ c (3 : Fin 4) (7 : Fin 15) K) $$ [Ha3_7] with Hz3_7
  · isplitr; · iexact HR
    iexact Ha3_7
  imod (close_x m ρ c (3 : Fin 4) (8 : Fin 15) K) $$ [Ha3_8] with Hz3_8
  · isplitr; · iexact HR
    iexact Ha3_8
  imod (close_x m ρ c (3 : Fin 4) (9 : Fin 15) K) $$ [Ha3_9] with Hz3_9
  · isplitr; · iexact HR
    iexact Ha3_9
  imod (close_x m ρ c (3 : Fin 4) (10 : Fin 15) K) $$ [Ha3_10] with Hz3_10
  · isplitr; · iexact HR
    iexact Ha3_10
  imod (close_x m ρ c (3 : Fin 4) (11 : Fin 15) K) $$ [Ha3_11] with Hz3_11
  · isplitr; · iexact HR
    iexact Ha3_11
  imod (close_x m ρ c (3 : Fin 4) (12 : Fin 15) K) $$ [Ha3_12] with Hz3_12
  · isplitr; · iexact HR
    iexact Ha3_12
  imod (close_x m ρ c (3 : Fin 4) (13 : Fin 15) K) $$ [Ha3_13] with Hz3_13
  · isplitr; · iexact HR
    iexact Ha3_13
  imod (close_x m ρ c (3 : Fin 4) (14 : Fin 15) K) $$ [Ha3_14] with Hz3_14
  · isplitr; · iexact HR
    iexact Ha3_14
  rw [wp_ret]; imodintro
  rw [owedFrom_end]
  iapply Hk
  unfold bodyPost Φ₁ Dat.owesAt Pipeline.owesWithin
  rw [show (dats m ρ 0 c).owed t₀.succ = 0 from rfl]
  isplitl [HtbOwn Htb_0 Htb_1 Htb_2 Htb_3 Htb_4 Htb_5 Htb_6 Htb_7 Htb_8 Htb_9 Htb_10 Htb_11 Htb_12 Htb_13 Htb_14 Hsl_0 Hsl_1 Hsl_2 Hsl_3 Hsl_4 Hsl_5 Hsl_6 Hsl_7 Hsl_8 Hsl_9 Hsl_10 Hsl_11 Hsl_12 Hsl_13 Hsl_14 Hz0_0 Hz0_1 Hz0_2 Hz0_3 Hz0_4 Hz0_5 Hz0_6 Hz0_7 Hz0_8 Hz0_9 Hz0_10 Hz0_11 Hz0_12 Hz0_13 Hz0_14 Hz1_0 Hz1_1 Hz1_2 Hz1_3 Hz1_4 Hz1_5 Hz1_6 Hz1_7 Hz1_8 Hz1_9 Hz1_10 Hz1_11 Hz1_12 Hz1_13 Hz1_14 Hz2_0 Hz2_1 Hz2_2 Hz2_3 Hz2_4 Hz2_5 Hz2_6 Hz2_7 Hz2_8 Hz2_9 Hz2_10 Hz2_11 Hz2_12 Hz2_13 Hz2_14 Hz3_0 Hz3_1 Hz3_2 Hz3_3 Hz3_4 Hz3_5 Hz3_6 Hz3_7 Hz3_8 Hz3_9 Hz3_10 Hz3_11 Hz3_12 Hz3_13 Hz3_14]
  · isplitl [HtbOwn Htb_0 Htb_1 Htb_2 Htb_3 Htb_4 Htb_5 Htb_6 Htb_7 Htb_8 Htb_9 Htb_10 Htb_11 Htb_12 Htb_13 Htb_14]
    · iapply (tb_join (Tm m ρ) c ftb)
      isplitl [HtbOwn]; · iexact HtbOwn
      simp only [bigSep_fin15]
      isplitl [Htb_0]; · iexact Htb_0
      isplitl [Htb_1]; · iexact Htb_1
      isplitl [Htb_2]; · iexact Htb_2
      isplitl [Htb_3]; · iexact Htb_3
      isplitl [Htb_4]; · iexact Htb_4
      isplitl [Htb_5]; · iexact Htb_5
      isplitl [Htb_6]; · iexact Htb_6
      isplitl [Htb_7]; · iexact Htb_7
      isplitl [Htb_8]; · iexact Htb_8
      isplitl [Htb_9]; · iexact Htb_9
      isplitl [Htb_10]; · iexact Htb_10
      isplitl [Htb_11]; · iexact Htb_11
      isplitl [Htb_12]; · iexact Htb_12
      isplitl [Htb_13]; · iexact Htb_13
      iexact Htb_14
    isplitl [Hsl_0 Hsl_1 Hsl_2 Hsl_3 Hsl_4 Hsl_5 Hsl_6 Hsl_7 Hsl_8 Hsl_9 Hsl_10 Hsl_11 Hsl_12 Hsl_13 Hsl_14]
    · iexists (stageFull (Tm m ρ) c)
      iapply (Entails.of_eq (slot_split c (stageFull (Tm m ρ) c)).symm)
      simp only [bigSep_fin15]
      isplitl [Hsl_0]; · iexact Hsl_0
      isplitl [Hsl_1]; · iexact Hsl_1
      isplitl [Hsl_2]; · iexact Hsl_2
      isplitl [Hsl_3]; · iexact Hsl_3
      isplitl [Hsl_4]; · iexact Hsl_4
      isplitl [Hsl_5]; · iexact Hsl_5
      isplitl [Hsl_6]; · iexact Hsl_6
      isplitl [Hsl_7]; · iexact Hsl_7
      isplitl [Hsl_8]; · iexact Hsl_8
      isplitl [Hsl_9]; · iexact Hsl_9
      isplitl [Hsl_10]; · iexact Hsl_10
      isplitl [Hsl_11]; · iexact Hsl_11
      isplitl [Hsl_12]; · iexact Hsl_12
      isplitl [Hsl_13]; · iexact Hsl_13
      iexact Hsl_14
    · simp only [bigSep_fam, bigSep_fin4, bigSep_fin15]
      isplitl [Hz0_0 Hz0_1 Hz0_2 Hz0_3 Hz0_4 Hz0_5 Hz0_6 Hz0_7 Hz0_8 Hz0_9 Hz0_10 Hz0_11 Hz0_12 Hz0_13 Hz0_14]
      · isplitl [Hz0_0]; · iexact Hz0_0
        isplitl [Hz0_1]; · iexact Hz0_1
        isplitl [Hz0_2]; · iexact Hz0_2
        isplitl [Hz0_3]; · iexact Hz0_3
        isplitl [Hz0_4]; · iexact Hz0_4
        isplitl [Hz0_5]; · iexact Hz0_5
        isplitl [Hz0_6]; · iexact Hz0_6
        isplitl [Hz0_7]; · iexact Hz0_7
        isplitl [Hz0_8]; · iexact Hz0_8
        isplitl [Hz0_9]; · iexact Hz0_9
        isplitl [Hz0_10]; · iexact Hz0_10
        isplitl [Hz0_11]; · iexact Hz0_11
        isplitl [Hz0_12]; · iexact Hz0_12
        isplitl [Hz0_13]; · iexact Hz0_13
        iexact Hz0_14
      isplitl [Hz1_0 Hz1_1 Hz1_2 Hz1_3 Hz1_4 Hz1_5 Hz1_6 Hz1_7 Hz1_8 Hz1_9 Hz1_10 Hz1_11 Hz1_12 Hz1_13 Hz1_14]
      · isplitl [Hz1_0]; · iexact Hz1_0
        isplitl [Hz1_1]; · iexact Hz1_1
        isplitl [Hz1_2]; · iexact Hz1_2
        isplitl [Hz1_3]; · iexact Hz1_3
        isplitl [Hz1_4]; · iexact Hz1_4
        isplitl [Hz1_5]; · iexact Hz1_5
        isplitl [Hz1_6]; · iexact Hz1_6
        isplitl [Hz1_7]; · iexact Hz1_7
        isplitl [Hz1_8]; · iexact Hz1_8
        isplitl [Hz1_9]; · iexact Hz1_9
        isplitl [Hz1_10]; · iexact Hz1_10
        isplitl [Hz1_11]; · iexact Hz1_11
        isplitl [Hz1_12]; · iexact Hz1_12
        isplitl [Hz1_13]; · iexact Hz1_13
        iexact Hz1_14
      isplitl [Hz2_0 Hz2_1 Hz2_2 Hz2_3 Hz2_4 Hz2_5 Hz2_6 Hz2_7 Hz2_8 Hz2_9 Hz2_10 Hz2_11 Hz2_12 Hz2_13 Hz2_14]
      · isplitl [Hz2_0]; · iexact Hz2_0
        isplitl [Hz2_1]; · iexact Hz2_1
        isplitl [Hz2_2]; · iexact Hz2_2
        isplitl [Hz2_3]; · iexact Hz2_3
        isplitl [Hz2_4]; · iexact Hz2_4
        isplitl [Hz2_5]; · iexact Hz2_5
        isplitl [Hz2_6]; · iexact Hz2_6
        isplitl [Hz2_7]; · iexact Hz2_7
        isplitl [Hz2_8]; · iexact Hz2_8
        isplitl [Hz2_9]; · iexact Hz2_9
        isplitl [Hz2_10]; · iexact Hz2_10
        isplitl [Hz2_11]; · iexact Hz2_11
        isplitl [Hz2_12]; · iexact Hz2_12
        isplitl [Hz2_13]; · iexact Hz2_13
        iexact Hz2_14
      isplitl [Hz3_0]; · iexact Hz3_0
      isplitl [Hz3_1]; · iexact Hz3_1
      isplitl [Hz3_2]; · iexact Hz3_2
      isplitl [Hz3_3]; · iexact Hz3_3
      isplitl [Hz3_4]; · iexact Hz3_4
      isplitl [Hz3_5]; · iexact Hz3_5
      isplitl [Hz3_6]; · iexact Hz3_6
      isplitl [Hz3_7]; · iexact Hz3_7
      isplitl [Hz3_8]; · iexact Hz3_8
      isplitl [Hz3_9]; · iexact Hz3_9
      isplitl [Hz3_10]; · iexact Hz3_10
      isplitl [Hz3_11]; · iexact Hz3_11
      isplitl [Hz3_12]; · iexact Hz3_12
      isplitl [Hz3_13]; · iexact Hz3_13
      iexact Hz3_14
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iapply (out_join' m ρ c)
  isplitl [HoRem Hsh_0 Hsh_1 Hsh_2 Hsh_3 Hsh_4 Hsh_5 Hsh_6 Hsh_7 Hsh_8 Hsh_9 Hsh_10 Hsh_11 Hsh_12 Hsh_13 Hsh_14]
  · isplitl [HoRem]; · iexact HoRem
    simp only [bigSep_fin15]
    isplitl [Hsh_0]; · iexact Hsh_0
    isplitl [Hsh_1]; · iexact Hsh_1
    isplitl [Hsh_2]; · iexact Hsh_2
    isplitl [Hsh_3]; · iexact Hsh_3
    isplitl [Hsh_4]; · iexact Hsh_4
    isplitl [Hsh_5]; · iexact Hsh_5
    isplitl [Hsh_6]; · iexact Hsh_6
    isplitl [Hsh_7]; · iexact Hsh_7
    isplitl [Hsh_8]; · iexact Hsh_8
    isplitl [Hsh_9]; · iexact Hsh_9
    isplitl [Hsh_10]; · iexact Hsh_10
    isplitl [Hsh_11]; · iexact Hsh_11
    isplitl [Hsh_12]; · iexact Hsh_12
    isplitl [Hsh_13]; · iexact Hsh_13
    iexact Hsh_14
  simp only [bigSep_fin15]
  isplitl [Hor_0]; · iexact Hor_0
  isplitl [Hor_1]; · iexact Hor_1
  isplitl [Hor_2]; · iexact Hor_2
  isplitl [Hor_3]; · iexact Hor_3
  isplitl [Hor_4]; · iexact Hor_4
  isplitl [Hor_5]; · iexact Hor_5
  isplitl [Hor_6]; · iexact Hor_6
  isplitl [Hor_7]; · iexact Hor_7
  isplitl [Hor_8]; · iexact Hor_8
  isplitl [Hor_9]; · iexact Hor_9
  isplitl [Hor_10]; · iexact Hor_10
  isplitl [Hor_11]; · iexact Hor_11
  isplitl [Hor_12]; · iexact Hor_12
  isplitl [Hor_13]; · iexact Hor_13
  iexact Hor_14

/-- The pipeline's body obligation on device `c`. -/
theorem body_obligation (c : Dev nD) : BodyObligation (dats (F := F) m ρ 0 c) (defs₀ (F := F)) 𝒱₀ () Set.univ :=
  body_obligation_of m ρ c (fun Kt => sound_body m ρ c Kt)

/-- info: 'Cert.Kernel.X.body_obligation' depends on axioms: [propext, Classical.choice, Quot.sound] -/
#guard_msgs in #print axioms body_obligation

end Cert.Kernel.X

end
-- ==== Proof.K.LaunchCred.lean ====
/-
  The credit dealt at launch.  The launch hands the owner of each cell one credit token for every unit any device owes the
  cell.  Device `d` owes one unit to the barrier cell of each `d + k + 1` and the credit of one piece to receive cell `j`
  of `d + j + 1`, in each exchange; as `d ↦ d + k + 1` is a permutation of the devices, device `c`'s barrier cell is owed one
  unit by each of fifteen devices, and each of its receive cells one piece by one device.
-/
import proofs.«900451_g7700000000000452_dist_matmul_of_ar_i_m1024_n512_k512_v7x_i16_bf16_1_alg».proof.Proof.K.Proto

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

/-! ## What a device owes, by kind of payment -/

theorem O₀_split (c : Dev nD) :
    O₀ c = (∑ k : Fin 15, tallyAt (barCell (peer c (k.val + 1))) () 1)
      + ((∑ j : Fin 15, tallyAt (xCell (peer c (j.val + 1)) 1 j) () N)
        + ∑ j : Fin 15, tallyAt (xCell (peer c (j.val + 1)) 3 j) () N) := by
  unfold O₀ owedFrom
  rw [← Finset.range_eq_Ico, show (45 : ℕ) = 15 + (15 + 15) from rfl, Finset.sum_range_add, Finset.sum_range_add,
    Finset.sum_range, Finset.sum_range, Finset.sum_range]
  refine congrArg₂ (· + ·) ?_ (congrArg₂ (· + ·) ?_ ?_)
  · exact Finset.sum_congr rfl fun k _ => tallyN_bar c k
  · exact Finset.sum_congr rfl fun j _ => tallyN_x1 c j
  · exact Finset.sum_congr rfl fun j _ => by rw [← Nat.add_assoc]; exact tallyN_x3 c j

/-- Fifteen units at one place are one tally of fifteen. -/
theorem tallyAt_fifteen (g : GSem nD τ sig) : (∑ _k : Fin 15, tallyAt g () 1) = (tallyAt g () 15 : CellTallies nD τ sig Unit) := by
  funext g'
  refine Finsupp.ext fun u => ?_
  rw [Finset.sum_apply, Finsupp.finset_sum_apply]
  simp only [tallyAt_apply]
  rw [Finset.sum_const, Finset.card_univ, Fintype.card_fin, smul_eq_mul]
  split_ifs <;> rfl

/-! ## The credit -/

theorem launch_bar (c : Dev nD) :
    (Pipeline.launchCred (fun d : Dev nD => ∑ k : Fin 15, tallyAt (barCell (peer d (k.val + 1))) () 1) c : sProp 𝕄)
      ⊢ cred (tallyAt (barCell c) () 15) := by
  rw [Pipeline.launchCred_sum, ← tallyAt_fifteen, Pipeline.cred_finsetSum]
  exact bigSep_mono fun k _ =>
    Pipeline.launchCred_tallyAt (.reg barS) (fun d => peer d (k.val + 1)) (fun d => peer d (15 - k.val))
      (fun d => peer_peer' d k) (fun d => peer_peer d k) () 1 c

theorem launch_x (f : Fin 4) (c : Dev nD) :
    (Pipeline.launchCred (fun d : Dev nD => ∑ j : Fin 15, tallyAt (xCell (peer d (j.val + 1)) f j) () N) c : sProp 𝕄)
      ⊢ bigSep Finset.univ fun j : Fin 15 => cred (tallyAt (xCell c f j) () N) := by
  rw [Pipeline.launchCred_sum]
  exact bigSep_mono fun j _ =>
    Pipeline.launchCred_tallyAt (.dma (dsem f j)) (fun d => peer d (j.val + 1)) (fun d => peer d (15 - j.val))
      (fun d => peer_peer' d j) (fun d => peer_peer d j) () N c

/-- The launch deals device `c` fifteen units of credit on its barrier cell and one piece on each receive cell. -/
theorem launch_creds (c : Dev nD) : (Pipeline.launchCred O₀ c : sProp 𝕄) ⊢ creds c := by
  rw [show (O₀ : Dev nD → CellTallies nD τ sig Unit) = fun d => (∑ k : Fin 15, tallyAt (barCell (peer d (k.val + 1))) () 1)
      + ((∑ j : Fin 15, tallyAt (xCell (peer d (j.val + 1)) 1 j) () N)
        + ∑ j : Fin 15, tallyAt (xCell (peer d (j.val + 1)) 3 j) () N) from funext O₀_split,
    Pipeline.launchCred_add, Pipeline.launchCred_add]
  unfold creds
  iintro ⟨H1, H2, H3⟩
  isplitl [H1]; · iapply (launch_bar c); iexact H1
  isplitl [H2]; · iapply (launch_x 1 c); iexact H2
  iapply (launch_x 3 c); iexact H3

/-- info: 'Cert.Kernel.X.launch_creds' depends on axioms: [propext, Classical.choice, Quot.sound] -/
#guard_msgs in #print axioms launch_creds

end Cert.Kernel.X

end
-- ==== Proof.K.LaunchGhost.lean ====
/-
  The ghost state of the exchange at launch, and how it is dealt to the devices.  The launch element holds, for every
  cell of every device, the round state at counter zero, the owner's position at the start of round 0, the record that round
  0 is reached, and one token per duty: fifteen for a barrier cell, one for a transfer cell.  Each device puts its sixty-one
  counters (sixty of its own, and the barrier semaphore) with the round states into invariants, all devices under one
  update; the records of all the invariants are persistent and go to everybody.  The tokens then travel to the devices that
  pay the duties: the token of duty `14 - k` of the barrier cell of `c + k + 1` and the tokens of the receive cells `j` of
  `c + j + 1` to device `c`; since `c ↦ c + k + 1` is a permutation of the devices for each `k`, this is a reindexing of the
  iterated conjunction over (device, number).
-/
import proofs.«900451_g7700000000000452_dist_matmul_of_ar_i_m1024_n512_k512_v7x_i16_bf16_1_alg».proof.Proof.K.Proto

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

/-! ## The kernel's own semaphores -/

abbrev osem : Fin 60 → SemLoc sig := fun i => .dma ⟨3 + i.val, by have := i.isLt; show 3 + i.val < 63; omega⟩

theorem ownSemFacts : Pipeline.OwnSemFacts cfg0.spec osem := by decide

/-- The sixty own semaphores are the four families of fifteen, one after another. -/
def xEquiv : Fin 4 × Fin 15 ≃ Fin 60 where
  toFun fj := ⟨15 * fj.1.val + fj.2.val, by have := fj.1.isLt; have := fj.2.isLt; omega⟩
  invFun i := (⟨i.val / 15, by have := i.isLt; omega⟩, ⟨i.val % 15, Nat.mod_lt _ (by decide)⟩)
  left_inv := by
    rintro ⟨f, j⟩
    have := f.isLt; have := j.isLt
    exact Prod.ext (Fin.ext (by show (15 * f.val + j.val) / 15 = f.val; omega)) (Fin.ext (by show (15 * f.val + j.val) % 15 = j.val; omega))
  right_inv := by
    intro i
    exact Fin.ext (by show 15 * (i.val / 15) + i.val % 15 = i.val; omega)

theorem osem_x (fj : Fin 4 × Fin 15) : osem (xEquiv fj) = .dma (dsem fj.1 fj.2) :=
  congrArg SemLoc.dma (Fin.ext (by show 3 + (15 * fj.1.val + fj.2.val) = 3 + 15 * fj.1.val + fj.2.val; omega))

theorem ownSems0_eq (c : Dev nD) : (Pipeline.ownSems0 (Ix := Unit) (Name := ℕ) (U := UU) (Lvl := ℕ) (Val := Elt F) (τ := τ) osem c : sProp 𝕄)
    = bigSep Finset.univ fun fj : Fin 4 × Fin 15 => semVal (xCell c fj.1 fj.2) 0 := by
  unfold Pipeline.ownSems0
  rw [bigSep_univ_equiv xEquiv]
  exact bigSep_congr fun fj _ => by rw [osem_x]

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Conjunctions over a device's cells -/

def optSum (α : Type) : α ⊕ Unit ≃ Option α where
  toFun | .inl a => some a | .inr _ => none
  invFun | some a => .inl a | none => .inr ()
  left_inv := by rintro (a | u) <;> rfl
  right_inv := by rintro (_ | a) <;> rfl

theorem bigSep_option {α : Type} [Fintype α] (Φ : Option α → sProp 𝕄) :
    bigSep Finset.univ Φ = iprop(Φ none ∗ bigSep Finset.univ fun a => Φ (some a)) := by
  rw [bigSep_univ_equiv (optSum α) Φ, bigSep_univ_sum, bigSep_univ_of_subsingleton ()]
  exact BI.Entails.antisymm Idealize.SL.BI.sep_comm Idealize.SL.BI.sep_comm

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_option]
  iintro ⟨HX, HB⟩
  isplitl [HB]; · iexact HB
  iexact HX

/-! ## The launch element -/

theorem csem_injective : Function.Injective (csem : CIx → SemLoc sig) := by
  intro a b h
  rcases a with _ | ⟨f, j⟩ <;> rcases b with _ | ⟨f', j'⟩
  · rfl
  · exact absurd h (fun h' => by cases h')
  · exact absurd h (fun h' => by cases h')
  · have hv : 3 + 15 * f.val + j.val = 3 + 15 * f'.val + j'.val := congrArg Fin.val (SemLoc.dma.inj h)
    have := j.isLt; have := j'.isLt
    have hf : f = f' := Fin.ext (by omega)
    have hj : j = j' := Fin.ext (by omega)
    rw [hf, hj]

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def ringCells : Finset (GSem nD τ sig) := Finset.univ.map ⟨kcell, kcell_injective⟩

/-- The duties of a device's cells: the fifteen of its barrier cell, and the one of each transfer cell. -/
abbrev TIx : Type := Fin 15 ⊕ (Fin 4 × Fin 15)
abbrev tokOf (ct : Dev nD × TIx) : GSem nD τ sig × ℕ × Fin 15 := match ct.2 with
  | .inl k => (barCell ct.1, 0, k)
  | .inr fj => (xCell ct.1 fj.1 fj.2, 0, 0)

theorem tokOf_injective : Function.Injective (tokOf : Dev nD × TIx → GSem nD τ sig × ℕ × Fin 15) := by
  rintro ⟨c, t⟩ ⟨c', t'⟩ h
  have h1 : c = c' := by
    have := congrArg (fun x : GSem nD τ sig × ℕ × Fin 15 => x.1.1.1) h
    rcases t with k | fj <;> rcases t' with k' | fj' <;> exact this
  subst h1
  rcases t with k | ⟨f, j⟩ <;> rcases t' with k' | ⟨f', j'⟩
  · have e : k = k' := congrArg (fun x : GSem nD τ sig × ℕ × Fin 15 => x.2.2) h
    rw [e]
  · exact absurd (congrArg (fun x : GSem nD τ sig × ℕ × Fin 15 => x.1.2) h) (fun h' => by cases h')
  · exact absurd (congrArg (fun x : GSem nD τ sig × ℕ × Fin 15 => x.1.2) h) (fun h' => by cases h')
  · have h2 : csem (some (f, j)) = csem (some (f', j')) := congrArg (fun x : GSem nD τ sig × ℕ × Fin 15 => x.1.2) h
    have e := csem_injective h2
    cases e; rfl

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 15 => dutyTok ER (barCell c) 0 k)
    ∗ bigSep Finset.univ fun fj : Fin 4 × Fin 15 => dutyTok ER (xCell c fj.1 fj.2) 0 (0 : Fin 15))

/-- What the launch element deals device `c`: the round state of each of its cells at counter zero, its position at the
    start of round 0 of each with the record that the round is reached, and the tokens of its own cells' duties. -/
def G (Rd : Rounds.Schedule (GSem nD τ sig) (Fin 15) (MT nD τ sig Unit (Elt F) ℕ UU ℕ)) (c : Dev nD) : sProp 𝕄 :=
  iprop((bigSep Finset.univ fun i : CIx => roundState ER Rd (kcell (c, i)) 0)
    ∗ (bigSep Finset.univ fun i : CIx => iprop(atPos ER (kcell (c, i)) 0 ∅ 0 ∗ reached ER (kcell (c, i)) 0)) ∗ toks c)

/-- What the global step makes of it: the body's ghost state at some names. -/
def G' (Rd : Rounds.Schedule (GSem nD τ sig) (Fin 15) (MT nD τ sig Unit (Elt F) ℕ UU ℕ)) (c : Dev nD) : sProp 𝕄 := iprop(∃ K, ghost Rd K c)

theorem fund_ring (Rd : Rounds.Schedule (GSem nD τ sig) (Fin 15) (MT nD τ sig Unit (Elt F) ℕ UU ℕ)) : BI.own (ER (initOf ringCells ringToks)) ⊢ (|==> bigSep Finset.univ (G Rd) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER Rd ringCells ringToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline library's and, for every device, its share of the exchange's. -/
theorem hu0 (Rd : Rounds.Schedule (GSem nD τ sig) (Fin 15) (MT nD τ sig Unit (Elt F) ℕ UU ℕ)) : (ownU u₀ : sProp 𝕄)
    ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_ring Rd) $$ HX with HG
  imodintro
  isplitl [HP] <;> iassumption

/-! ## The global step -/

/-- A device puts each of its counters, at zero, with the cell's round state into an invariant. -/
theorem core_alloc (Rd : Rounds.Schedule (GSem nD τ sig) (Fin 15) (MT nD τ sig Unit (Elt F) ℕ UU ℕ)) [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun i : CIx => iprop(∃ κ : ℕ, cellInv ER Rd κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER Rd (kcell (c, i)) 0)
      ⊢ (|={Set.univ}=> bigSep Finset.univ fun i : CIx => iprop(∃ κ : ℕ, cellInv ER Rd κ (kcell (c, i))) : sProp 𝕄) from by
        rw [← bigSep_sep']
        exact (bigSep_mono fun i _ => (Rounds.body_intro ER Rd (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (Rd : Rounds.Schedule (GSem nD τ sig) (Fin 15) (MT nD τ sig Unit (Elt F) ℕ UU ℕ)) (K : Dev nD × CIx → ℕ) (c : Dev nD) :
    iprop(records Rd K ∗ (positions c ∗ payToks c)) ⊢ G' Rd c := by
  unfold G' ghost
  iintro ⟨#HR, Hp, Ht⟩
  iexists K
  isplitr; · iexact HR
  isplitl [Hp]; · iexact Hp
  iexact Ht

/-! ### The tokens around the mesh -/

/-- Going `k + 1` places forward, for each `k`: a permutation of the (device, number) pairs. -/
def devShift : Dev nD × Fin 15 ≃ Dev nD × Fin 15 where
  toFun ck := (peer ck.1 (ck.2.val + 1), ck.2)
  invFun ck := (peer ck.1 (15 - ck.2.val), ck.2)
  left_inv ck := Prod.ext (peer_peer ck.1 ck.2) rfl
  right_inv ck := Prod.ext (peer_peer' ck.1 ck.2) rfl

theorem bigSep_around (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c (k.val + 1)) k :=
  (bigSep_univ_prod (fun ck : Dev nD × Fin 15 => Φ ck.1 ck.2)).symm.trans
    ((bigSep_univ_equiv devShift (fun ck : Dev nD × Fin 15 => Φ ck.1 ck.2)).trans
      (bigSep_univ_prod (fun ck : Dev nD × Fin 15 => Φ (peer ck.1 (ck.2.val + 1)) ck.2)))

def revE : Fin 15 ≃ Fin 15 where
  toFun := rev
  invFun := rev
  left_inv k := Fin.ext (by have := k.isLt; show 14 - (14 - k.val) = k.val; omega)
  right_inv k := Fin.ext (by have := k.isLt; show 14 - (14 - k.val) = k.val; omega)

theorem around_bar :
    (bigSep Finset.univ fun c : Dev nD => bigSep Finset.univ fun k : Fin 15 => (dutyTok ER (barCell c) 0 k : sProp 𝕄))
      = bigSep Finset.univ fun c : Dev nD => bigSep Finset.univ fun k : Fin 15 => dutyTok ER (barCell (peer c (k.val + 1))) 0 (rev k) :=
  (bigSep_congr fun c _ => bigSep_univ_equiv revE (fun k => (dutyTok ER (barCell c) 0 k : sProp 𝕄))).trans
    (bigSep_around fun c k => dutyTok ER (barCell c) 0 (rev k))

/-- Every token to the device that pays its duty. -/
theorem toks_around : (bigSep Finset.univ fun c : Dev nD => (toks c : sProp 𝕄)) ⊢ bigSep Finset.univ fun c : Dev nD => payToks c := by
  have hx (c : Dev nD) : (bigSep Finset.univ fun fj : Fin 4 × Fin 15 => (dutyTok ER (xCell c fj.1 fj.2) 0 (0 : Fin 15) : sProp 𝕄))
      = iprop((bigSep Finset.univ fun j : Fin 15 => dutyTok ER (xCell c 0 j) 0 (0 : Fin 15))
        ∗ (bigSep Finset.univ fun j : Fin 15 => dutyTok ER (xCell c 1 j) 0 (0 : Fin 15))
        ∗ (bigSep Finset.univ fun j : Fin 15 => dutyTok ER (xCell c 2 j) 0 (0 : Fin 15))
        ∗ (bigSep Finset.univ fun j : Fin 15 => dutyTok ER (xCell c 3 j) 0 (0 : Fin 15))) := by
    rw [bigSep_univ_prod, bigSep_four]
  unfold toks payToks
  simp only [hx, bigSep_sep']
  iintro ⟨HB, H0, H1, H2, H3⟩
  isplitl [HB]
  · iapply (Entails.of_eq (around_bar (F := F))); iexact HB
  isplitl [H0]; · iexact H0
  isplitl [H1]
  · iapply (Entails.of_eq (bigSep_around fun c j => (dutyTok ER (xCell c 1 j) 0 (0 : Fin 15) : sProp 𝕄))); iexact H1
  isplitl [H2]; · iexact H2
  iapply (Entails.of_eq (bigSep_around fun c j => (dutyTok ER (xCell c 3 j) 0 (0 : Fin 15) : sProp 𝕄))); iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (Rd : Rounds.Schedule (GSem nD τ sig) (Fin 15) (MT nD τ sig Unit (Elt F) ℕ UU ℕ)) :
    (bigSep Finset.univ fun c : Dev nD => iprop((bigSep Finset.univ fun i : CIx => iprop(∃ κ : ℕ, cellInv ER Rd κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' Rd) := by
  rw [bigSep_sep', bigSep_sep', ← bigSep_univ_prod (fun ck : Dev nD × CIx => iprop(∃ κ : ℕ, cellInv ER Rd κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob (Rd : Rounds.Schedule (GSem nD τ sig) (Fin 15) (MT nD τ sig Unit (Elt F) ℕ UU ℕ)) [∀ g r d, BI.Storable (upEmb : UEmb _ (MT nD τ sig Unit (Elt F) ℕ UU ℕ)) (Rd.payload g r d)] :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ (G' Rd) :=
  ((bigSep_mono fun c _ => core_alloc Rd c).trans (bigSep_fupd _ _)).trans (BI.fupd_mono (regroup Rd))

/-- info: 'Cert.Kernel.X.glob' depends on axioms: [propext, Classical.choice, Quot.sound] -/
#guard_msgs in #print axioms glob

/-- info: 'Cert.Kernel.X.hu0' depends on axioms: [propext, Classical.choice, Quot.sound] -/
#guard_msgs in #print axioms hu0

end Cert.Kernel.X

end
-- ==== Proof.K.LaunchStart.lean ====
/-
  What a device's body starts from: the launch hands device `c` the facts about the levels, its launch credit — fifteen
  units on its barrier cell and one piece on each receive cell — and, from the global step, its ghost state at some names.
-/
import proofs.«900451_g7700000000000452_dist_matmul_of_ar_i_m1024_n512_k512_v7x_i16_bf16_1_alg».proof.Proof.K.LaunchCred
import proofs.«900451_g7700000000000452_dist_matmul_of_ar_i_m1024_n512_k512_v7x_i16_bf16_1_alg».proof.Proof.K.LaunchGhost

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer)

variable {F : FTy → Type} [FloatOps F]

local notation "𝕄" => MT nD τ sig Unit (Elt F) ℕ UU ℕ

theorem start_intro (Rd : Rounds.Schedule (GSem nD τ sig) (Fin 15) (MT nD τ sig Unit (Elt F) ℕ UU ℕ))
    (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Rd c)
      ⊢ |={Set.univ}=> iprop(start Rd c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- info: 'Cert.Kernel.X.start_intro' depends on axioms: [propext, Classical.choice, Quot.sound] -/
#guard_msgs in #print axioms start_intro

end Cert.Kernel.X

end
-- ==== Proof.K.LaunchRun.lean ====
/-
  The run of the sixteen devices from the body's proof on one device.  Every weakly fair execution of the program from a
  memory with all counters zero terminates, and in every final state each device's three windowed arrays hold the
  pipeline's final contents: the two argument arrays what they held at launch, the result array the whole result.
-/
import proofs.«900451_g7700000000000452_dist_matmul_of_ar_i_m1024_n512_k512_v7x_i16_bf16_1_alg».proof.Proof.K.Dats
import proofs.«900451_g7700000000000452_dist_matmul_of_ar_i_m1024_n512_k512_v7x_i16_bf16_1_alg».proof.Proof.K.LaunchLevels
import proofs.«900451_g7700000000000452_dist_matmul_of_ar_i_m1024_n512_k512_v7x_i16_bf16_1_alg».proof.Proof.K.LaunchStart

import Idealize.ShloMosaic.Lib.Pipeline.Value
set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

/-- The staging waits are allowed: a staging cell lies below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem phi0_intro (c : Dev nD) :
    iprop(start (Rd m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HS⟩
  isplitr; · iempintro
  isplitl [HS]; · iexact HS
  isplitl [H0]; · iexact H0
  iexact H1

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- At the compiled mesh of sixteen devices, for any float values, from any memory with zero counters: if the body is
    proved on every device, every weakly fair execution of the program terminates, and every final state has each
    device's windowed arrays at the pipeline's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Rd m ρ)) (G' := G' (Rd m ρ)) (u₀ := u₀)
    (hu₀ := hu0 (Rd m ρ))
    (hglob := glob (Rd m ρ))
    (hA := fun _ _ => rfl) (hpf := fun _ k => k.elim0)
    (X := start (Rd m ρ)) (Y := fun _ => iprop(emp)) (Z := fun _ => iprop(emp))
    (hX := start_intro (Rd m ρ) m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- An argument window is the whole array: its one block, read, is the array. -/
theorem Tm_eq (d : Dev nD) : Tm m ρ d = m ((d : Thread nD τ).loc main_arg0) :=
  Memref.read_access_unit_zero (Elt F) main_arg0 (off := fun a => win0_0.index (0 : Fin 1) a * main_arg0.ty.shape.size a)
    (funext fun a => Nat.zero_mul _) _ _
theorem Wm_eq (d : Dev nD) : Wm m ρ d = m ((d : Thread nD τ).loc main_arg1) :=
  Memref.read_access_unit_zero (Elt F) main_arg1 (off := fun a => win0_1.index (0 : Fin 1) a * main_arg1.ty.shape.size a)
    (funext fun a => Nat.zero_mul _) _ _

/-- The argument arrays are never written back. -/
theorem final_x (c : Dev nD) : finalA m ρ c (0 : Fin 3) = (s₀ m ρ).mem (win0_0.arr.view.loc (c : Thread nD τ)) :=
  (dats (F := F) m ρ 0 c).arrAt_in (0 : Fin 3) rfl _
theorem final_w (c : Dev nD) : finalA m ρ c (1 : Fin 3) = (s₀ m ρ).mem (win0_1.arr.view.loc (c : Thread nD τ)) :=
  (dats (F := F) m ρ 0 c).arrAt_in (1 : Fin 3) rfl _

/-- The result array after the one point's write-back: the window is the whole array, so the write-back replaces its
    contents by what the body left in the staging buffer, the whole result. -/
theorem final_out (c : Dev nD) : finalA m ρ c (2 : Fin 3) = outM m ρ := by
  unfold finalA
  have h : (dats m ρ 0 c).arrAt (2 : Fin 3) cfg0.N = (dats m ρ 0 c).arrAt (2 : Fin 3) (t₀.val + 1) := congrArg _ cfg0_N
  rw [h, Dat.arrAt_succ, if_pos (flush0_2 t₀)]
  exact Memref.write_access_unit_zero_univ (Elt F) main_v1 (off := fun a => win0_2.index t₀ a * main_v1.ty.shape.size a)
    (funext fun a => Nat.zero_mul _) _ _ _

/-- info: 'Cert.Kernel.X.run_main' depends on axioms: [propext, Classical.choice, Quot.sound] -/
#guard_msgs in #print axioms run_main

/-- info: 'Cert.Kernel.X.final_out' depends on axioms: [propext, Classical.choice, Quot.sound] -/
#guard_msgs in #print axioms final_out

end Cert.Kernel.X

end
-- ==== Proof.K.FramePI.lean ====
/-
  The frame: the program runs — every weakly fair execution terminates, nothing faults — and both argument arrays of every
  device end as they were.  It is the run with the result's value dropped: an argument window's array is never written back.
-/
import proofs.«900451_g7700000000000452_dist_matmul_of_ar_i_m1024_n512_k512_v7x_i16_bf16_1_alg».proof.Proof.K.LaunchRun

set_option maxRecDepth 16384

noncomputable section

namespace Cert.Kernel.X

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.KS (peer rows part accum oblk outFull)

variable {F : FTy → Type} [FloatOps F]

local notation "𝕄" => MT nD τ sig Unit (Elt F) ℕ UU ℕ

theorem frame_of_body (hbody : ∀ (m : (ℓ : Loc nD τ sig) → Buf (Elt F) ℓ) (ρ : Dev nD → PrngReg) (c : Dev nD), BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (0 : Fin 3)).trans (final_x m ρ c), (h c (1 : Fin 3)).trans (final_w m ρ c)⟩)
    (run_main m ρ (hbody m ρ))

/-- The run with every array named: the result array of every device at the whole result, the arguments unchanged. -/
theorem value_of_body (hbody : ∀ (m : (ℓ : Loc nD τ sig) → Buf (Elt F) ℓ) (ρ : Dev nD → PrngReg) (c : Dev nD), BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1)
          = outFull (F := F) (fun d : Dev nD => m ((d.tc : Thread nD τ).loc main_arg0)) (fun d : Dev nD => m ((d.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (2 : Fin 3)).trans ((final_out m ρ c).trans (by
          unfold outM
          rw [show Tm m ρ = fun d : Dev nD => m ((d.tc : Thread nD τ).loc main_arg0) from funext (Tm_eq m ρ),
            show Wm m ρ = fun d : Dev nD => m ((d.tc : Thread nD τ).loc main_arg1) from funext (Wm_eq m ρ)])),
        (h c (0 : Fin 3)).trans (final_x m ρ c), (h c (1 : Fin 3)).trans (final_w m ρ c)⟩)
    (run_main m ρ (hbody m ρ))

/-- info: 'Cert.Kernel.X.frame_of_body' depends on axioms: [propext, Classical.choice, Quot.sound] -/
#guard_msgs in #print axioms frame_of_body

/-- info: 'Cert.Kernel.X.value_of_body' depends on axioms: [propext, Classical.choice, Quot.sound] -/
#guard_msgs in #print axioms value_of_body

end Cert.Kernel.X

end
-- ==== Proof.LaunchCred.lean ====
/-
  The credit dealt at launch.  The launch hands the owner of each cell one credit token for every unit any device owes the
  cell.  Device `d` owes one unit to the barrier cell of each `d + k + 1` and the credit of one piece to receive cell `j`
  of `d + j + 1`, in each exchange; as `d ↦ d + k + 1` is a permutation of the devices, device `c`'s barrier cell is owed one
  unit by each of fifteen devices, and each of its receive cells one piece by one device.
-/
import proofs.«900451_g7700000000000452_dist_matmul_of_ar_i_m1024_n512_k512_v7x_i16_bf16_1_alg».proof.Proof.Proto

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

/-! ## What a device owes, by kind of payment -/

theorem O₀_split (c : Dev nD) :
    O₀ c = (∑ k : Fin 15, tallyAt (barCell (peer c (k.val + 1))) () 1)
      + ((∑ j : Fin 15, tallyAt (xCell (peer c (j.val + 1)) 1 j) () N)
        + ∑ j : Fin 15, tallyAt (xCell (peer c (j.val + 1)) 3 j) () N) := by
  unfold O₀ owedFrom
  rw [← Finset.range_eq_Ico, show (45 : ℕ) = 15 + (15 + 15) from rfl, Finset.sum_range_add, Finset.sum_range_add,
    Finset.sum_range, Finset.sum_range, Finset.sum_range]
  refine congrArg₂ (· + ·) ?_ (congrArg₂ (· + ·) ?_ ?_)
  · exact Finset.sum_congr rfl fun k _ => tallyN_bar c k
  · exact Finset.sum_congr rfl fun j _ => tallyN_x1 c j
  · exact Finset.sum_congr rfl fun j _ => by rw [← Nat.add_assoc]; exact tallyN_x3 c j

/-- Fifteen units at one place are one tally of fifteen. -/
theorem tallyAt_fifteen (g : GSem nD τ sig) : (∑ _k : Fin 15, tallyAt g () 1) = (tallyAt g () 15 : CellTallies nD τ sig Unit) := by
  funext g'
  refine Finsupp.ext fun u => ?_
  rw [Finset.sum_apply, Finsupp.finset_sum_apply]
  simp only [tallyAt_apply]
  rw [Finset.sum_const, Finset.card_univ, Fintype.card_fin, smul_eq_mul]
  split_ifs <;> rfl

/-! ## The credit -/

theorem launch_bar (c : Dev nD) :
    (Pipeline.launchCred (fun d : Dev nD => ∑ k : Fin 15, tallyAt (barCell (peer d (k.val + 1))) () 1) c : sProp 𝕄)
      ⊢ cred (tallyAt (barCell c) () 15) := by
  rw [Pipeline.launchCred_sum, ← tallyAt_fifteen, Pipeline.cred_finsetSum]
  exact bigSep_mono fun k _ =>
    Pipeline.launchCred_tallyAt (.reg barS) (fun d => peer d (k.val + 1)) (fun d => peer d (15 - k.val))
      (fun d => peer_peer' d k) (fun d => peer_peer d k) () 1 c

theorem launch_x (f : Fin 4) (c : Dev nD) :
    (Pipeline.launchCred (fun d : Dev nD => ∑ j : Fin 15, tallyAt (xCell (peer d (j.val + 1)) f j) () N) c : sProp 𝕄)
      ⊢ bigSep Finset.univ fun j : Fin 15 => cred (tallyAt (xCell c f j) () N) := by
  rw [Pipeline.launchCred_sum]
  exact bigSep_mono fun j _ =>
    Pipeline.launchCred_tallyAt (.dma (dsem f j)) (fun d => peer d (j.val + 1)) (fun d => peer d (15 - j.val))
      (fun d => peer_peer' d j) (fun d => peer_peer d j) () N c

/-- The launch deals device `c` fifteen units of credit on its barrier cell and one piece on each receive cell. -/
theorem launch_creds (c : Dev nD) : (Pipeline.launchCred O₀ c : sProp 𝕄) ⊢ creds c := by
  rw [show (O₀ : Dev nD → CellTallies nD τ sig Unit) = fun d => (∑ k : Fin 15, tallyAt (barCell (peer d (k.val + 1))) () 1)
      + ((∑ j : Fin 15, tallyAt (xCell (peer d (j.val + 1)) 1 j) () N)
        + ∑ j : Fin 15, tallyAt (xCell (peer d (j.val + 1)) 3 j) () N) from funext O₀_split,
    Pipeline.launchCred_add, Pipeline.launchCred_add]
  unfold creds
  iintro ⟨H1, H2, H3⟩
  isplitl [H1]; · iapply (launch_bar c); iexact H1
  isplitl [H2]; · iapply (launch_x 1 c); iexact H2
  iapply (launch_x 3 c); iexact H3

/-- info: 'Cert.KernelIdeal.X.launch_creds' depends on axioms: [propext, Classical.choice, Quot.sound] -/
#guard_msgs in #print axioms launch_creds

end Cert.KernelIdeal.X

end
-- ==== Proof.LaunchGhost.lean ====
/-
  The ghost state of the exchange at launch, and how it is dealt to the devices.  The launch element holds, for every
  cell of every device, the round state at counter zero, the owner's position at the start of round 0, the record that round
  0 is reached, and one token per duty: fifteen for a barrier cell, one for a transfer cell.  Each device puts its sixty-one
  counters (sixty of its own, and the barrier semaphore) with the round states into invariants, all devices under one
  update; the records of all the invariants are persistent and go to everybody.  The tokens then travel to the devices that
  pay the duties: the token of duty `14 - k` of the barrier cell of `c + k + 1` and the tokens of the receive cells `j` of
  `c + j + 1` to device `c`; since `c ↦ c + k + 1` is a permutation of the devices for each `k`, this is a reindexing of the
  iterated conjunction over (device, number).
-/
import proofs.«900451_g7700000000000452_dist_matmul_of_ar_i_m1024_n512_k512_v7x_i16_bf16_1_alg».proof.Proof.Proto

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

/-! ## The kernel's own semaphores -/

abbrev osem : Fin 60 → SemLoc sig := fun i => .dma ⟨3 + i.val, by have := i.isLt; show 3 + i.val < 63; omega⟩

theorem ownSemFacts : Pipeline.OwnSemFacts cfg0.spec osem := by decide

/-- The sixty own semaphores are the four families of fifteen, one after another. -/
def xEquiv : Fin 4 × Fin 15 ≃ Fin 60 where
  toFun fj := ⟨15 * fj.1.val + fj.2.val, by have := fj.1.isLt; have := fj.2.isLt; omega⟩
  invFun i := (⟨i.val / 15, by have := i.isLt; omega⟩, ⟨i.val % 15, Nat.mod_lt _ (by decide)⟩)
  left_inv := by
    rintro ⟨f, j⟩
    have := f.isLt; have := j.isLt
    exact Prod.ext (Fin.ext (by show (15 * f.val + j.val) / 15 = f.val; omega)) (Fin.ext (by show (15 * f.val + j.val) % 15 = j.val; omega))
  right_inv := by
    intro i
    exact Fin.ext (by show 15 * (i.val / 15) + i.val % 15 = i.val; omega)

theorem osem_x (fj : Fin 4 × Fin 15) : osem (xEquiv fj) = .dma (dsem fj.1 fj.2) :=
  congrArg SemLoc.dma (Fin.ext (by show 3 + (15 * fj.1.val + fj.2.val) = 3 + 15 * fj.1.val + fj.2.val; omega))

theorem ownSems0_eq (c : Dev nD) : (Pipeline.ownSems0 (Ix := Unit) (Name := ℕ) (U := UU) (Lvl := ℕ) (Val := Elt F) (τ := τ) osem c : sProp 𝕄)
    = bigSep Finset.univ fun fj : Fin 4 × Fin 15 => semVal (xCell c fj.1 fj.2) 0 := by
  unfold Pipeline.ownSems0
  rw [bigSep_univ_equiv xEquiv]
  exact bigSep_congr fun fj _ => by rw [osem_x]

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Conjunctions over a device's cells -/

def optSum (α : Type) : α ⊕ Unit ≃ Option α where
  toFun | .inl a => some a | .inr _ => none
  invFun | some a => .inl a | none => .inr ()
  left_inv := by rintro (a | u) <;> rfl
  right_inv := by rintro (_ | a) <;> rfl

theorem bigSep_option {α : Type} [Fintype α] (Φ : Option α → sProp 𝕄) :
    bigSep Finset.univ Φ = iprop(Φ none ∗ bigSep Finset.univ fun a => Φ (some a)) := by
  rw [bigSep_univ_equiv (optSum α) Φ, bigSep_univ_sum, bigSep_univ_of_subsingleton ()]
  exact BI.Entails.antisymm Idealize.SL.BI.sep_comm Idealize.SL.BI.sep_comm

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_option]
  iintro ⟨HX, HB⟩
  isplitl [HB]; · iexact HB
  iexact HX

/-! ## The launch element -/

theorem csem_injective : Function.Injective (csem : CIx → SemLoc sig) := by
  intro a b h
  rcases a with _ | ⟨f, j⟩ <;> rcases b with _ | ⟨f', j'⟩
  · rfl
  · exact absurd h (fun h' => by cases h')
  · exact absurd h (fun h' => by cases h')
  · have hv : 3 + 15 * f.val + j.val = 3 + 15 * f'.val + j'.val := congrArg Fin.val (SemLoc.dma.inj h)
    have := j.isLt; have := j'.isLt
    have hf : f = f' := Fin.ext (by omega)
    have hj : j = j' := Fin.ext (by omega)
    rw [hf, hj]

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def ringCells : Finset (GSem nD τ sig) := Finset.univ.map ⟨kcell, kcell_injective⟩

/-- The duties of a device's cells: the fifteen of its barrier cell, and the one of each transfer cell. -/
abbrev TIx : Type := Fin 15 ⊕ (Fin 4 × Fin 15)
abbrev tokOf (ct : Dev nD × TIx) : GSem nD τ sig × ℕ × Fin 15 := match ct.2 with
  | .inl k => (barCell ct.1, 0, k)
  | .inr fj => (xCell ct.1 fj.1 fj.2, 0, 0)

theorem tokOf_injective : Function.Injective (tokOf : Dev nD × TIx → GSem nD τ sig × ℕ × Fin 15) := by
  rintro ⟨c, t⟩ ⟨c', t'⟩ h
  have h1 : c = c' := by
    have := congrArg (fun x : GSem nD τ sig × ℕ × Fin 15 => x.1.1.1) h
    rcases t with k | fj <;> rcases t' with k' | fj' <;> exact this
  subst h1
  rcases t with k | ⟨f, j⟩ <;> rcases t' with k' | ⟨f', j'⟩
  · have e : k = k' := congrArg (fun x : GSem nD τ sig × ℕ × Fin 15 => x.2.2) h
    rw [e]
  · exact absurd (congrArg (fun x : GSem nD τ sig × ℕ × Fin 15 => x.1.2) h) (fun h' => by cases h')
  · exact absurd (congrArg (fun x : GSem nD τ sig × ℕ × Fin 15 => x.1.2) h) (fun h' => by cases h')
  · have h2 : csem (some (f, j)) = csem (some (f', j')) := congrArg (fun x : GSem nD τ sig × ℕ × Fin 15 => x.1.2) h
    have e := csem_injective h2
    cases e; rfl

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 15 => dutyTok ER (barCell c) 0 k)
    ∗ bigSep Finset.univ fun fj : Fin 4 × Fin 15 => dutyTok ER (xCell c fj.1 fj.2) 0 (0 : Fin 15))

/-- What the launch element deals device `c`: the round state of each of its cells at counter zero, its position at the
    start of round 0 of each with the record that the round is reached, and the tokens of its own cells' duties. -/
def G (Rd : Rounds.Schedule (GSem nD τ sig) (Fin 15) (MT nD τ sig Unit (Elt F) ℕ UU ℕ)) (c : Dev nD) : sProp 𝕄 :=
  iprop((bigSep Finset.univ fun i : CIx => roundState ER Rd (kcell (c, i)) 0)
    ∗ (bigSep Finset.univ fun i : CIx => iprop(atPos ER (kcell (c, i)) 0 ∅ 0 ∗ reached ER (kcell (c, i)) 0)) ∗ toks c)

/-- What the global step makes of it: the body's ghost state at some names. -/
def G' (Rd : Rounds.Schedule (GSem nD τ sig) (Fin 15) (MT nD τ sig Unit (Elt F) ℕ UU ℕ)) (c : Dev nD) : sProp 𝕄 := iprop(∃ K, ghost Rd K c)

theorem fund_ring (Rd : Rounds.Schedule (GSem nD τ sig) (Fin 15) (MT nD τ sig Unit (Elt F) ℕ UU ℕ)) : BI.own (ER (initOf ringCells ringToks)) ⊢ (|==> bigSep Finset.univ (G Rd) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER Rd ringCells ringToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline library's and, for every device, its share of the exchange's. -/
theorem hu0 (Rd : Rounds.Schedule (GSem nD τ sig) (Fin 15) (MT nD τ sig Unit (Elt F) ℕ UU ℕ)) : (ownU u₀ : sProp 𝕄)
    ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_ring Rd) $$ HX with HG
  imodintro
  isplitl [HP] <;> iassumption

/-! ## The global step -/

/-- A device puts each of its counters, at zero, with the cell's round state into an invariant. -/
theorem core_alloc (Rd : Rounds.Schedule (GSem nD τ sig) (Fin 15) (MT nD τ sig Unit (Elt F) ℕ UU ℕ)) [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun i : CIx => iprop(∃ κ : ℕ, cellInv ER Rd κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER Rd (kcell (c, i)) 0)
      ⊢ (|={Set.univ}=> bigSep Finset.univ fun i : CIx => iprop(∃ κ : ℕ, cellInv ER Rd κ (kcell (c, i))) : sProp 𝕄) from by
        rw [← bigSep_sep']
        exact (bigSep_mono fun i _ => (Rounds.body_intro ER Rd (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (Rd : Rounds.Schedule (GSem nD τ sig) (Fin 15) (MT nD τ sig Unit (Elt F) ℕ UU ℕ)) (K : Dev nD × CIx → ℕ) (c : Dev nD) :
    iprop(records Rd K ∗ (positions c ∗ payToks c)) ⊢ G' Rd c := by
  unfold G' ghost
  iintro ⟨#HR, Hp, Ht⟩
  iexists K
  isplitr; · iexact HR
  isplitl [Hp]; · iexact Hp
  iexact Ht

/-! ### The tokens around the mesh -/

/-- Going `k + 1` places forward, for each `k`: a permutation of the (device, number) pairs. -/
def devShift : Dev nD × Fin 15 ≃ Dev nD × Fin 15 where
  toFun ck := (peer ck.1 (ck.2.val + 1), ck.2)
  invFun ck := (peer ck.1 (15 - ck.2.val), ck.2)
  left_inv ck := Prod.ext (peer_peer ck.1 ck.2) rfl
  right_inv ck := Prod.ext (peer_peer' ck.1 ck.2) rfl

theorem bigSep_around (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c (k.val + 1)) k :=
  (bigSep_univ_prod (fun ck : Dev nD × Fin 15 => Φ ck.1 ck.2)).symm.trans
    ((bigSep_univ_equiv devShift (fun ck : Dev nD × Fin 15 => Φ ck.1 ck.2)).trans
      (bigSep_univ_prod (fun ck : Dev nD × Fin 15 => Φ (peer ck.1 (ck.2.val + 1)) ck.2)))

def revE : Fin 15 ≃ Fin 15 where
  toFun := rev
  invFun := rev
  left_inv k := Fin.ext (by have := k.isLt; show 14 - (14 - k.val) = k.val; omega)
  right_inv k := Fin.ext (by have := k.isLt; show 14 - (14 - k.val) = k.val; omega)

theorem around_bar :
    (bigSep Finset.univ fun c : Dev nD => bigSep Finset.univ fun k : Fin 15 => (dutyTok ER (barCell c) 0 k : sProp 𝕄))
      = bigSep Finset.univ fun c : Dev nD => bigSep Finset.univ fun k : Fin 15 => dutyTok ER (barCell (peer c (k.val + 1))) 0 (rev k) :=
  (bigSep_congr fun c _ => bigSep_univ_equiv revE (fun k => (dutyTok ER (barCell c) 0 k : sProp 𝕄))).trans
    (bigSep_around fun c k => dutyTok ER (barCell c) 0 (rev k))

/-- Every token to the device that pays its duty. -/
theorem toks_around : (bigSep Finset.univ fun c : Dev nD => (toks c : sProp 𝕄)) ⊢ bigSep Finset.univ fun c : Dev nD => payToks c := by
  have hx (c : Dev nD) : (bigSep Finset.univ fun fj : Fin 4 × Fin 15 => (dutyTok ER (xCell c fj.1 fj.2) 0 (0 : Fin 15) : sProp 𝕄))
      = iprop((bigSep Finset.univ fun j : Fin 15 => dutyTok ER (xCell c 0 j) 0 (0 : Fin 15))
        ∗ (bigSep Finset.univ fun j : Fin 15 => dutyTok ER (xCell c 1 j) 0 (0 : Fin 15))
        ∗ (bigSep Finset.univ fun j : Fin 15 => dutyTok ER (xCell c 2 j) 0 (0 : Fin 15))
        ∗ (bigSep Finset.univ fun j : Fin 15 => dutyTok ER (xCell c 3 j) 0 (0 : Fin 15))) := by
    rw [bigSep_univ_prod, bigSep_four]
  unfold toks payToks
  simp only [hx, bigSep_sep']
  iintro ⟨HB, H0, H1, H2, H3⟩
  isplitl [HB]
  · iapply (Entails.of_eq (around_bar (F := F))); iexact HB
  isplitl [H0]; · iexact H0
  isplitl [H1]
  · iapply (Entails.of_eq (bigSep_around fun c j => (dutyTok ER (xCell c 1 j) 0 (0 : Fin 15) : sProp 𝕄))); iexact H1
  isplitl [H2]; · iexact H2
  iapply (Entails.of_eq (bigSep_around fun c j => (dutyTok ER (xCell c 3 j) 0 (0 : Fin 15) : sProp 𝕄))); iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (Rd : Rounds.Schedule (GSem nD τ sig) (Fin 15) (MT nD τ sig Unit (Elt F) ℕ UU ℕ)) :
    (bigSep Finset.univ fun c : Dev nD => iprop((bigSep Finset.univ fun i : CIx => iprop(∃ κ : ℕ, cellInv ER Rd κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' Rd) := by
  rw [bigSep_sep', bigSep_sep', ← bigSep_univ_prod (fun ck : Dev nD × CIx => iprop(∃ κ : ℕ, cellInv ER Rd κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER Rd κ (kcell ck) : sProp 𝕄))) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · iapply (Entails.of_eq (bigSep_sep' Finset.univ (fun c : Dev nD => positions c) payToks).symm)
    isplitl [Hat]; · iexact Hat
    iexact Htk

/-- The global step: the own and the unscoped semaphores of every device at once. -/
theorem glob (Rd : Rounds.Schedule (GSem nD τ sig) (Fin 15) (MT nD τ sig Unit (Elt F) ℕ UU ℕ)) [∀ g r d, BI.Storable (upEmb : UEmb _ (MT nD τ sig Unit (Elt F) ℕ UU ℕ)) (Rd.payload g r d)] :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ (G' Rd) :=
  ((bigSep_mono fun c _ => core_alloc Rd c).trans (bigSep_fupd _ _)).trans (BI.fupd_mono (regroup Rd))

/-- info: 'Cert.KernelIdeal.X.glob' depends on axioms: [propext, Classical.choice, Quot.sound] -/
#guard_msgs in #print axioms glob

/-- info: 'Cert.KernelIdeal.X.hu0' depends on axioms: [propext, Classical.choice, Quot.sound] -/
#guard_msgs in #print axioms hu0

end Cert.KernelIdeal.X

end
-- ==== Proof.LaunchStart.lean ====
/-
  What a device's body starts from: the launch hands device `c` the facts about the levels, its launch credit — fifteen
  units on its barrier cell and one piece on each receive cell — and, from the global step, its ghost state at some names.
-/
import proofs.«900451_g7700000000000452_dist_matmul_of_ar_i_m1024_n512_k512_v7x_i16_bf16_1_alg».proof.Proof.LaunchCred
import proofs.«900451_g7700000000000452_dist_matmul_of_ar_i_m1024_n512_k512_v7x_i16_bf16_1_alg».proof.Proof.LaunchGhost

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer)

variable {F : FTy → Type} [FloatOps F]

local notation "𝕄" => MT nD τ sig Unit (Elt F) ℕ UU ℕ

theorem start_intro (Rd : Rounds.Schedule (GSem nD τ sig) (Fin 15) (MT nD τ sig Unit (Elt F) ℕ UU ℕ))
    (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Rd c)
      ⊢ |={Set.univ}=> iprop(start Rd c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- info: 'Cert.KernelIdeal.X.start_intro' depends on axioms: [propext, Classical.choice, Quot.sound] -/
#guard_msgs in #print axioms start_intro

end Cert.KernelIdeal.X

end
-- ==== Proof.LaunchRun.lean ====
/-
  The run of the sixteen devices from the body's proof on one device.  Every weakly fair execution of the program from a
  memory with all counters zero terminates, and in every final state each device's three windowed arrays hold the
  pipeline's final contents: the two argument arrays what they held at launch, the result array the whole result.
-/
import proofs.«900451_g7700000000000452_dist_matmul_of_ar_i_m1024_n512_k512_v7x_i16_bf16_1_alg».proof.Proof.Dats
import proofs.«900451_g7700000000000452_dist_matmul_of_ar_i_m1024_n512_k512_v7x_i16_bf16_1_alg».proof.Proof.LaunchLevels
import proofs.«900451_g7700000000000452_dist_matmul_of_ar_i_m1024_n512_k512_v7x_i16_bf16_1_alg».proof.Proof.LaunchStart

import Idealize.ShloMosaic.Lib.Pipeline.Value
set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

/-- The staging waits are allowed: a staging cell lies below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem phi0_intro (c : Dev nD) :
    iprop(start (Rd m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HS⟩
  isplitr; · iempintro
  isplitl [HS]; · iexact HS
  isplitl [H0]; · iexact H0
  iexact H1

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- At the compiled mesh of sixteen devices, for any float values, from any memory with zero counters: if the body is
    proved on every device, every weakly fair execution of the program terminates, and every final state has each
    device's windowed arrays at the pipeline's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Rd m ρ)) (G' := G' (Rd m ρ)) (u₀ := u₀)
    (hu₀ := hu0 (Rd m ρ))
    (hglob := glob (Rd m ρ))
    (hA := fun _ _ => rfl) (hpf := fun _ k => k.elim0)
    (X := start (Rd m ρ)) (Y := fun _ => iprop(emp)) (Z := fun _ => iprop(emp))
    (hX := start_intro (Rd m ρ) m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- An argument window is the whole array: its one block, read, is the array. -/
theorem Tm_eq (d : Dev nD) : Tm m ρ d = m ((d : Thread nD τ).loc main_arg0) :=
  Memref.read_access_unit_zero (Elt F) main_arg0 (off := fun a => win0_0.index (0 : Fin 1) a * main_arg0.ty.shape.size a)
    (funext fun a => Nat.zero_mul _) _ _
theorem Wm_eq (d : Dev nD) : Wm m ρ d = m ((d : Thread nD τ).loc main_arg1) :=
  Memref.read_access_unit_zero (Elt F) main_arg1 (off := fun a => win0_1.index (0 : Fin 1) a * main_arg1.ty.shape.size a)
    (funext fun a => Nat.zero_mul _) _ _

/-- The argument arrays are never written back. -/
theorem final_x (c : Dev nD) : finalA m ρ c (0 : Fin 3) = (s₀ m ρ).mem (win0_0.arr.view.loc (c : Thread nD τ)) :=
  (dats (F := F) m ρ 0 c).arrAt_in (0 : Fin 3) rfl _
theorem final_w (c : Dev nD) : finalA m ρ c (1 : Fin 3) = (s₀ m ρ).mem (win0_1.arr.view.loc (c : Thread nD τ)) :=
  (dats (F := F) m ρ 0 c).arrAt_in (1 : Fin 3) rfl _

/-- The result array after the one point's write-back: the window is the whole array, so the write-back replaces its
    contents by what the body left in the staging buffer, the whole result. -/
theorem final_out (c : Dev nD) : finalA m ρ c (2 : Fin 3) = outM m ρ := by
  unfold finalA
  have h : (dats m ρ 0 c).arrAt (2 : Fin 3) cfg0.N = (dats m ρ 0 c).arrAt (2 : Fin 3) (t₀.val + 1) := congrArg _ cfg0_N
  rw [h, Dat.arrAt_succ, if_pos (flush0_2 t₀)]
  exact Memref.write_access_unit_zero_univ (Elt F) main_v1 (off := fun a => win0_2.index t₀ a * main_v1.ty.shape.size a)
    (funext fun a => Nat.zero_mul _) _ _ _

/-- info: 'Cert.KernelIdeal.X.run_main' depends on axioms: [propext, Classical.choice, Quot.sound] -/
#guard_msgs in #print axioms run_main

/-- info: 'Cert.KernelIdeal.X.final_out' depends on axioms: [propext, Classical.choice, Quot.sound] -/
#guard_msgs in #print axioms final_out

end Cert.KernelIdeal.X

end
-- ==== Proof.FramePI.lean ====
/-
  The frame: the program runs — every weakly fair execution terminates, nothing faults — and both argument arrays of every
  device end as they were.  It is the run with the result's value dropped: an argument window's array is never written back.
-/
import proofs.«900451_g7700000000000452_dist_matmul_of_ar_i_m1024_n512_k512_v7x_i16_bf16_1_alg».proof.Proof.LaunchRun

set_option maxRecDepth 16384

noncomputable section

namespace Cert.KernelIdeal.X

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KS (peer rows part accum oblk outFull)

variable {F : FTy → Type} [FloatOps F]

local notation "𝕄" => MT nD τ sig Unit (Elt F) ℕ UU ℕ

theorem frame_of_body (hbody : ∀ (m : (ℓ : Loc nD τ sig) → Buf (Elt F) ℓ) (ρ : Dev nD → PrngReg) (c : Dev nD), BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (0 : Fin 3)).trans (final_x m ρ c), (h c (1 : Fin 3)).trans (final_w m ρ c)⟩)
    (run_main m ρ (hbody m ρ))

/-- The run with every array named: the result array of every device at the whole result, the arguments unchanged. -/
theorem value_of_body (hbody : ∀ (m : (ℓ : Loc nD τ sig) → Buf (Elt F) ℓ) (ρ : Dev nD → PrngReg) (c : Dev nD), BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1)
          = outFull (F := F) (fun d : Dev nD => m ((d.tc : Thread nD τ).loc main_arg0)) (fun d : Dev nD => m ((d.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (2 : Fin 3)).trans ((final_out m ρ c).trans (by
          unfold outM
          rw [show Tm m ρ = fun d : Dev nD => m ((d.tc : Thread nD τ).loc main_arg0) from funext (Tm_eq m ρ),
            show Wm m ρ = fun d : Dev nD => m ((d.tc : Thread nD τ).loc main_arg1) from funext (Wm_eq m ρ)])),
        (h c (0 : Fin 3)).trans (final_x m ρ c), (h c (1 : Fin 3)).trans (final_w m ρ c)⟩)
    (run_main m ρ (hbody m ρ))

/-- info: 'Cert.KernelIdeal.X.frame_of_body' depends on axioms: [propext, Classical.choice, Quot.sound] -/
#guard_msgs in #print axioms frame_of_body

/-- info: 'Cert.KernelIdeal.X.value_of_body' depends on axioms: [propext, Classical.choice, Quot.sound] -/
#guard_msgs in #print axioms value_of_body

end Cert.KernelIdeal.X

end
-- ==== Proof.PeerSum.lean ====
/-
  Sixteen places around a ring.  Starting from place `c` and stepping `0, 1, .., 15` places further (indices mod 16)
  visits every place exactly once; so a sum over the places taken in the order `c, c + 15, c + 14, .., c + 1` is the
  sum over all sixteen.
-/
import proofs.«900451_g7700000000000452_dist_matmul_of_ar_i_m1024_n512_k512_v7x_i16_bf16_1_alg».proof.Proof.KerSpec
import Mathlib.Algebra.BigOperators.Fin
import Mathlib.Data.Fintype.EquivFin

namespace Cert.RefValue

open Cert.KernelIdeal Cert.KernelIdeal.KS

/-- Stepping no place further stays where one is. -/
theorem peer_zero (c : Fin 16) : peer c 0 = c :=
  Fin.ext (by show (c.val + 0) % 16 = c.val; have := c.isLt; omega)

/-- Different numbers of steps below sixteen reach different places. -/
theorem peer_injective (c : Fin 16) : Function.Injective (fun m : Fin 16 => peer c m.val) := by
  intro a b h
  have h' : (c.val + a.val) % 16 = (c.val + b.val) % 16 := congrArg Fin.val h
  have := c.isLt; have := a.isLt; have := b.isLt
  exact Fin.ext (by omega)

/-- The place itself, then the places `15, 14, .., 1` steps further, are all sixteen places. -/
theorem sum_peers {M : Type*} [AddCommMonoid M] (c : Fin 16) (f : Fin 16 → M) :
    f c + ∑ m ∈ Finset.range 15, f (peer c (15 - m)) = ∑ d : Fin 16, f d := by
  have hbij : Function.Bijective (fun m : Fin 16 => peer c m.val) :=
    Finite.injective_iff_bijective.1 (peer_injective c)
  rw [← Fintype.sum_bijective _ hbij (fun m => f (peer c m.val)) f (fun _ => rfl),
    Fin.sum_univ_eq_sum_range (fun m => f (peer c m)) 16, Finset.sum_range_succ' _ 15, peer_zero, add_comm,
    ← Finset.sum_range_reflect (fun m => f (peer c (m + 1))) 15]
  refine congrArg (· + f c) (Finset.sum_congr rfl fun m hm => ?_)
  have hm' : m < 15 := Finset.mem_range.1 hm
  exact congrArg (fun k => f (peer c k)) (by omega)

/-- info: 'Cert.RefValue.sum_peers' depends on axioms: [propext, Classical.choice, Quot.sound] -/
#guard_msgs in #print axioms sum_peers

end Cert.RefValue
-- ==== Proof.KerAt.lean ====
/-
  The sixteen devices' result read at an index, at the extended reals (format changes are the identity, every
  operation exact).  Row block `c`, at row `r` and column `n`, is the sum over `k` of (the sum over all sixteen
  devices `d` of row `64 c + r`, column `k` of device `d`'s block) times entry `(k, n)` of device `c`'s matrix.
-/
import proofs.«900451_g7700000000000452_dist_matmul_of_ar_i_m1024_n512_k512_v7x_i16_bf16_1_alg».proof.Proof.KerSpec
import proofs.«900451_g7700000000000452_dist_matmul_of_ar_i_m1024_n512_k512_v7x_i16_bf16_1_alg».proof.Proof.Gen.KernelIdeal
import proofs.«900451_g7700000000000452_dist_matmul_of_ar_i_m1024_n512_k512_v7x_i16_bf16_1_alg».proof.Proof.PeerSum
import Idealize.ShloMosaic.Lib.ValueIdx
import Idealize.ShloMosaic.PureOps.Ideal.Laws

noncomputable section

namespace Cert.RefValue

open Cert.KernelIdeal Cert.KernelIdeal.Gen Cert.KernelIdeal.KS Idealize.ShloMosaic Idealize.ShloMosaic.ValueIdx

/-- A device's contribution is its rows themselves: the cast changes nothing. -/
theorem part_apply (T : Dev nD → Vec Ideal S1024x512 .f32) (c d : Dev nD) (y : S64x512.Idx) :
    part (F := Ideal) T c d y = rows (T d) c y := rfl

/-- The running sum after `j` received parts, at an index: the own rows plus the rows of the `j` devices
    `15, 14, .., 16 - j` places further around the ring. -/
theorem accum_apply (T : Dev nD → Vec Ideal S1024x512 .f32) (c : Dev nD) (j : ℕ) (y : S64x512.Idx) :
    accum (F := Ideal) T c j y
      = (rows (T c) c y : EReal) + ∑ m ∈ Finset.range j, (rows (T (peer c (15 - m))) c y : EReal) := by
  induction j with
  | zero => rw [Finset.range_zero, Finset.sum_empty, add_zero]; rfl
  | succ j ih => rw [Finset.sum_range_succ, ← add_assoc, ← ih]; rfl

/-- After all fifteen received parts the running sum is the sum over all sixteen devices. -/
theorem accum_full (T : Dev nD → Vec Ideal S1024x512 .f32) (c : Dev nD) (y : S64x512.Idx) :
    accum (F := Ideal) T c 15 y = ∑ d : Fin 16, (rows (T d) c y : EReal) :=
  (accum_apply T c 15 y).trans (sum_peers c (fun d => (rows (T d) c y : EReal)))

theorem lhs_row (j : S64x512.Idx) (q : dot_S64x512_S512x512_S64x512_1_0_0_1_n_n.contr.Idx) :
    (dot_S64x512_S512x512_S64x512_1_0_0_1_n_n.lhsIdx j q 0).val = (j 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhs_col (j : S64x512.Idx) (q : dot_S64x512_S512x512_S64x512_1_0_0_1_n_n.contr.Idx) :
    (dot_S64x512_S512x512_S64x512_1_0_0_1_n_n.lhsIdx j q 1).val = (q ⟨0, by decide⟩).val :=
  dot_S64x512_S512x512_S64x512_1_0_0_1_n_n.lhsIdx_val_of_single rfl j q
theorem rhs_row (j : S64x512.Idx) (q : dot_S64x512_S512x512_S64x512_1_0_0_1_n_n.contr.Idx) :
    (dot_S64x512_S512x512_S64x512_1_0_0_1_n_n.rhsIdx j q 0).val = (q ⟨0, by decide⟩).val :=
  dot_S64x512_S512x512_S64x512_1_0_0_1_n_n.rhsIdx_val_of_single rfl j q
theorem rhs_col (j : S64x512.Idx) (q : dot_S64x512_S512x512_S64x512_1_0_0_1_n_n.contr.Idx) :
    (dot_S64x512_S512x512_S64x512_1_0_0_1_n_n.rhsIdx j q 1).val = (j 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The product into the zero accumulator, at row `r` and column `n`: the sum over `k` of the left operand at
    `(r, k)` times the right operand at `(k, n)`. -/
theorem matmul_at (A : FVec Ideal S64x512 .bf16) (B : FVec Ideal S512x512 .bf16) (r : Fin 64) (n : Fin 512) :
    matmul dot_S64x512_S512x512_S64x512_1_0_0_1_n_n none A B (constant (F := Ideal) S64x512 .f32 0x00000000#32) (ix2 r n)
      = ∑ k : Fin 512, A (ix2 r k) * B (ix2 k n) := by
  refine (Ideal.matmul_constant_zero_apply dot_S64x512_S512x512_S64x512_1_0_0_1_n_n none A B (ix2 r n)).trans ?_
  rw [← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 r n) ((ValueIdx.contrEquiv1 dot_S64x512_S512x512_S64x512_1_0_0_1_n_n 512 rfl rfl).symm k) = ix2 r k := funext fun a => Fin.ext (by
    match a with
    | ⟨0, _⟩ => exact lhs_row _ _
    | ⟨1, _⟩ => exact (lhs_col _ _).trans hk)
  have er : dot_S64x512_S512x512_S64x512_1_0_0_1_n_n.rhsIdx (ix2 r n) ((ValueIdx.contrEquiv1 dot_S64x512_S512x512_S64x512_1_0_0_1_n_n 512 rfl rfl).symm k) = ix2 k n := funext fun a => Fin.ext (by
    match a with
    | ⟨0, _⟩ => exact (rhs_row _ _).trans hk
    | ⟨1, _⟩ => exact rhs_col _ _)
  rw [el, er]

/-- Row block `c` at row `r`, column `n`. -/
theorem oblk_apply (T : Dev nD → Vec Ideal S1024x512 .f32) (W : Dev nD → Vec Ideal S512x512 .f32) (c : Dev nD)
    (r : Fin 64) (n : Fin 512) :
    oblk (F := Ideal) T W c (ix2 r n)
      = ∑ k : Fin 512, (∑ d : Fin 16, (rows (T d) c (ix2 r k) : EReal)) * (W c (ix2 k n) : EReal) := by
  unfold oblk
  refine (matmul_at _ _ r n).trans ?_
  refine Finset.sum_congr rfl fun k _ => ?_
  rw [accum_full]
  rfl

/-- info: 'Cert.RefValue.oblk_apply' depends on axioms: [propext, Classical.choice, Quot.sound] -/
#guard_msgs in #print axioms oblk_apply

end Cert.RefValue

end
-- ==== Proof.RefAt.lean ====
/-
  The one-device reference read at an index, at the extended reals.  Its result at row `r`, column `n` is the sum
  over `k` of (the sum over the sixteen blocks `d` of row `1024 d + r`, column `k` of the whole array) times entry
  `(k, n)` of the matrix: the reshape puts row `1024 d + r` at `(d, r)`, the reduction adds over `d` starting from
  zero, the product contracts over `k`, and the final cast is the identity.
-/
import proofs.«900451_g7700000000000452_dist_matmul_of_ar_i_m1024_n512_k512_v7x_i16_bf16_1_alg».proof.Proof.Gen.ReferenceIdeal.Read
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

/-- Row `r` of block `d`, as a row of the whole array of sixteen blocks of 1024 rows. -/
def wholeRow (d : Fin 16) (r : Fin 1024) : Fin 16384 :=
  ⟨d.val * 1024 + r.val, by have := d.isLt; have := r.isLt; omega⟩

/-- The reshaped array at `(d, r, k)` is the whole array at row `1024 d + r`, column `k`. -/
theorem reshaped_at (x0 : (⟨S16384x512, .f32⟩ : BufTy).Contents (Elt Ideal)) (r : Fin 1024) (n k : Fin 512) (d : Fin 16) :
    val_main_v0 (F := Ideal) x0 (idx_main_v1 (lidx_main_v2 (ix2 r n) k) d) = x0 (ix2 (wholeRow d r) k) := by
  rw [val_main_v0_apply]
  refine congrArg x0 (funext fun a => Fin.ext ?_)
  have := d.isLt; have := r.isLt; have := k.isLt
  match a with
  | ⟨0, _⟩ => show ((d.val * 1024 + r.val) * 512 + k.val) / 512 = d.val * 1024 + r.val; omega
  | ⟨1, _⟩ => show ((d.val * 1024 + r.val) * 512 + k.val) % 512 = k.val; omega

/-- The reference's result at row `r`, column `n`. -/
theorem ref_apply (x0 : (⟨S16384x512, .f32⟩ : BufTy).Contents (Elt Ideal)) (x1 : (⟨S512x512, .f32⟩ : BufTy).Contents (Elt Ideal))
    (r : Fin 1024) (n : Fin 512) :
    val_main_v3 (F := Ideal) x0 x1 (ix2 r n)
      = ∑ k : Fin 512, (∑ d : Fin 16, (x0 (ix2 (wholeRow d r) k) : EReal)) * (x1 (ix2 k n) : EReal) := by
  rw [val_main_v3_apply, Ideal.truncf_def, val_main_v2_apply]
  refine Finset.sum_congr rfl fun k _ => ?_
  rw [val_main_v1_apply, val_main_cst_apply]
  have hz : (FloatOps.ofBits (F := Ideal) .f32 0x00000000#32 : EReal) = 0 := Ideal.ofBits_zero_f32
  rw [hz, zero_add, Finset.sum_congr rfl fun d _ => reshaped_at x0 r n k d]
  refine congrArg (fun j => (∑ d : Fin 16, (x0 (ix2 (wholeRow d r) k) : EReal)) * (x1 j : EReal)) (funext fun a => ?_)
  match a with
  | ⟨0, _⟩ => rfl
  | ⟨1, _⟩ => rfl

/-- info: 'Cert.RefValue.ref_apply' depends on axioms: [propext, Classical.choice, Quot.sound] -/
#guard_msgs in #print axioms ref_apply

end Cert.RefValue

end
-- ==== Proof.RefValue.lean ====
/-
  The sixteen devices' result is the one-device reference's result, at the extended reals, when device `d` holds block
  `d` (1024 rows) of the whole array and every device the same matrix.  Both, at row `r` and column `n`, are the sum
  over `k` of (the sum over the sixteen blocks `d` of row `1024 d + r`, column `k` of the whole array) times entry
  `(k, n)` of the matrix: row `r` lies in row block `r / 64` at row `r % 64`, and `64 (r / 64) + r % 64 = r`.
-/
import proofs.«900451_g7700000000000452_dist_matmul_of_ar_i_m1024_n512_k512_v7x_i16_bf16_1_alg».proof.Proof.KerAt
import proofs.«900451_g7700000000000452_dist_matmul_of_ar_i_m1024_n512_k512_v7x_i16_bf16_1_alg».proof.Proof.RefAt
import Idealize.ShloMosaic.Lib.Layout

noncomputable section

namespace Cert.RefValue

open Idealize.ShloMosaic Idealize.ShloMosaic.ValueIdx

/-- Row `r'` of row block `c` of device `d`'s block is row `1024 d + 64 c + r'` of the whole array. -/
theorem block_rows (x0 : (⟨Cert.ReferenceIdeal.S16384x512, .f32⟩ : BufTy).Contents (Elt Ideal)) (d c : Fin 16)
    (r' : Fin 64) (k : Fin 512) (r : Fin 1024) (hr : r.val = 64 * c.val + r'.val) :
    Cert.KernelIdeal.KS.rows (Layout.block ⟨2, ![1024, 512]⟩ ⟨2, ![16384, 512]⟩ 0 16 d x0) c (ix2 r' k)
      = x0 (ix2 (wholeRow d r) k) := by
  unfold Cert.KernelIdeal.KS.rows
  rw [Layout.block_apply]
  refine congrArg x0 (funext fun a => Fin.ext ?_)
  match a with
  | ⟨0, _⟩ => show d.val * 1024 + (64 * c.val + r'.val) = d.val * 1024 + r.val; omega
  | ⟨1, _⟩ => rfl

/-- What the sixteen devices end holding is the reference's result. -/
theorem out_eq_ref (x0 : (⟨Cert.ReferenceIdeal.S16384x512, .f32⟩ : BufTy).Contents (Elt Ideal))
    (x1 : (⟨Cert.ReferenceIdeal.S512x512, .f32⟩ : BufTy).Contents (Elt Ideal)) :
    Cert.KernelIdeal.KS.outFull (F := Ideal) (fun d => Layout.block ⟨2, ![1024, 512]⟩ ⟨2, ![16384, 512]⟩ 0 16 d x0) (fun _ => x1)
      = Cert.ReferenceIdeal.Read.val_main_v3 (F := Ideal) x0 x1 := by
  funext i
  obtain ⟨r, n, rfl⟩ : ∃ (r : Fin 1024) (n : Fin 512), i = ix2 r n := ⟨i 0, i 1, eq_ix2 i⟩
  rw [ref_apply]
  unfold Cert.KernelIdeal.KS.outFull
  refine (oblk_apply _ _ _ (⟨r.val % 64, Nat.mod_lt _ (by decide)⟩ : Fin 64) n).trans ?_
  refine Finset.sum_congr rfl fun k _ => ?_
  refine congrArg (· * (x1 (ix2 k n) : EReal)) (Finset.sum_congr rfl fun d _ => ?_)
  exact block_rows x0 d _ _ k r (by show r.val = 64 * (r.val / 64) + r.val % 64; omega)

/-- info: 'Cert.RefValue.out_eq_ref' depends on axioms: [propext, Classical.choice, Quot.sound] -/
#guard_msgs in #print axioms out_eq_ref

end Cert.RefValue

end
-- ==== Proof.RefRun.lean ====
/-
  The reference's run with its result named by the stages read index by index: every weakly fair execution terminates,
  the result array holds the last stage's value of the two argument arrays as they were at the start, and both
  argument arrays end unchanged.
-/
import proofs.«900451_g7700000000000452_dist_matmul_of_ar_i_m1024_n512_k512_v7x_i16_bf16_1_alg».proof.Proof.Gen.ReferenceIdeal.Run
import proofs.«900451_g7700000000000452_dist_matmul_of_ar_i_m1024_n512_k512_v7x_i16_bf16_1_alg».proof.Proof.Gen.ReferenceIdeal.Read

noncomputable section

namespace Cert.RefValue

open Idealize.ShloMosaic Idealize.SL.Sem

/-- The reference ends with its result at the composed stages of its arguments, and its arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v3) = Cert.ReferenceIdeal.Read.val_main_v3 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (Cert.ReferenceIdeal.Read.val_main_v3_eq (F := Ideal) _ _), (h 0).2⟩)
    (Cert.ReferenceIdeal.Value.run (F := Ideal) m' ρ')

/-- info: 'Cert.RefValue.ref_run' depends on axioms: [propext, Classical.choice, Quot.sound] -/
#guard_msgs in #print axioms ref_run

end Cert.RefValue

end
-- ==== Proof.Claims.lean ====
/-
  The claims about the idealized kernel, from the proof of its body on one device.  The frame is the run with the values
  dropped.  For the algebraic claim, the kernel's run leaves every device's result array at the whole result, a function
  of the devices' argument buffers; when device `d` holds block `d` of the reference's first array and every device the
  reference's second array, that function is the reference's result, which the reference's own run leaves in its result
  array; both runs leave their arguments unchanged.
-/
import proofs.«900451_g7700000000000452_dist_matmul_of_ar_i_m1024_n512_k512_v7x_i16_bf16_1_alg».proof.Proof.FramePI
import proofs.«900451_g7700000000000452_dist_matmul_of_ar_i_m1024_n512_k512_v7x_i16_bf16_1_alg».proof.Proof.RefValue
import proofs.«900451_g7700000000000452_dist_matmul_of_ar_i_m1024_n512_k512_v7x_i16_bf16_1_alg».proof.Proof.RefRun
import proofs.«900451_g7700000000000452_dist_matmul_of_ar_i_m1024_n512_k512_v7x_i16_bf16_1_alg».proof.Proof.Gen.Pre_finite_inputs_Kernel
import proofs.«900451_g7700000000000452_dist_matmul_of_ar_i_m1024_n512_k512_v7x_i16_bf16_1_alg».proof.Defs

set_option maxRecDepth 16384

noncomputable section

namespace Cert.Proof.Claims

open Idealize.ShloMosaic Idealize.SL.Sem
open Idealize.ShloMosaic.Pipeline (BodyObligation)

theorem frame_pi (hbody : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdeal.X.dats (F := Ideal) m ρ 0 c) (Cert.KernelIdeal.defs₀ (F := Ideal)) Cert.KernelIdeal.X.𝒱₀ () Set.univ) : Cert.frame_KernelIdeal :=
  fun m ρ _ => Cert.KernelIdeal.X.frame_of_body hbody m ρ

theorem algebraic (hbody : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdeal.X.dats (F := Ideal) m ρ 0 c) (Cert.KernelIdeal.defs₀ (F := Ideal)) Cert.KernelIdeal.X.𝒱₀ () Set.univ) : Cert.algebraic_KernelIdeal_ReferenceIdeal := by
  intro m g m' g' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, Cert.RefValue.ref_run m' g'⟩
  refine (θ_run _ _ _).mono (fun _ h c => ⟨(h c).1.trans ?_, (h c).2⟩) (Cert.KernelIdeal.X.value_of_body hbody m g)
  rw [show (fun d : Dev Cert.KernelIdeal.nD => m ((d.tc : Thread Cert.KernelIdeal.nD Cert.KernelIdeal.τ).loc Cert.KernelIdeal.main_arg0))
        = fun d => Layout.block ⟨2, ![1024, 512]⟩ ⟨2, ![16384, 512]⟩ 0 16 d (m' (((0 : Dev Cert.ReferenceIdeal.nD).tc : Thread Cert.ReferenceIdeal.nD Cert.ReferenceIdeal.τ).loc Cert.ReferenceIdeal.main_arg0)) from funext fun d => (hagree d).1,
    show (fun d : Dev Cert.KernelIdeal.nD => m ((d.tc : Thread Cert.KernelIdeal.nD Cert.KernelIdeal.τ).loc Cert.KernelIdeal.main_arg1))
        = fun _ => (m' (((0 : Dev Cert.ReferenceIdeal.nD).tc : Thread Cert.ReferenceIdeal.nD Cert.ReferenceIdeal.τ).loc Cert.ReferenceIdeal.main_arg1)) from funext fun d => (hagree d).2]
  exact Cert.RefValue.out_eq_ref _ _

/-- info: 'Cert.Proof.Claims.frame_pi' depends on axioms: [propext, Classical.choice, Quot.sound] -/
#guard_msgs in #print axioms frame_pi

/-- info: 'Cert.Proof.Claims.algebraic' depends on axioms: [propext, Classical.choice, Quot.sound] -/
#guard_msgs in #print axioms algebraic

end Cert.Proof.Claims

end
-- ==== Proof.RefFrame.lean ====
/-
  The reference program runs, and its argument arrays end unchanged: its run already states each result at the
  composed term together with the arguments unchanged; keep the second and third parts.
-/
import proofs.«900451_g7700000000000452_dist_matmul_of_ar_i_m1024_n512_k512_v7x_i16_bf16_1_alg».proof.Proof.Gen.ReferenceIdeal.Run
import proofs.«900451_g7700000000000452_dist_matmul_of_ar_i_m1024_n512_k512_v7x_i16_bf16_1_alg».proof.Proof.Gen.Pre_finite_inputs_ReferenceIdeal
import proofs.«900451_g7700000000000452_dist_matmul_of_ar_i_m1024_n512_k512_v7x_i16_bf16_1_alg».proof.Defs

noncomputable section

namespace Cert.RefValue

open Idealize.ShloMosaic Idealize.SL.Sem

/-- The reference terminates without fault from any memory and leaves both argument arrays as they were. -/
theorem frame_ri : Cert.frame_ReferenceIdeal :=
  fun m ρ _ => (θ_run Cert.ReferenceIdeal.defs _ _).mono (fun _ h c => (h c).2)
    (Cert.ReferenceIdeal.Value.run (F := Ideal) m ρ)

/-- info: 'Cert.RefValue.frame_ri' depends on axioms: [propext, Classical.choice, Quot.sound] -/
#guard_msgs in #print axioms frame_ri

end Cert.RefValue

end
-- ==== Proof.lean ====
/-
  The proof of `Cert.Claim`: the three frames, the idealization, and the kernel against its one-device reference.

  WHAT IS COMPUTED.  Sixteen devices each hold a block of 1024 rows and 512 columns (block `d` of an array of 16384
  rows) and a copy of one 512 x 512 matrix.  Row block `b` (64 rows) of the result is produced on device `b`: every
  device casts rows `64 b .. 64 b + 63` of its block to the narrow format and sends them to device `b` (first exchange);
  device `b` adds to its own part the parts of the devices `b - 1, b - 2, .., b - 15` (indices mod 16) in that order,
  multiplies the sum by its matrix, casts the product, and sends that row block to every other device (second
  exchange).  Every device ends holding all sixteen row blocks.  The reference, on one device over the whole arrays,
  adds the sixteen blocks and multiplies the sum by the matrix.

  THE PROTOCOL.  A device has one barrier cell with fifteen unit duties — duty `k` paid by the device `k + 1` places
  further on, whose signal hands over the two places in that device's buffers where this device's transfers land — and
  four families of fifteen transfer cells of one duty each: a send cell paid by the device itself, which gives the piece
  that left back; a receive cell paid by the sending device, which hands over the piece that landed.  Barrier cells
  are at level 1, receive cells of the first exchange at 2, of the second at 3, all other cells at 0; a device pays its
  barrier units, then the first exchange's credit, then the second's, and waits on a cell only while everything it
  still owes lies on cells of a higher level, so no cycle of waiting devices can form and every fair execution ends.

  THE VALUE.  At the extended reals a change of format is the identity and every operation exact.  Row `r`, column `n`
  of the result is, on both sides, the sum over `k` of (the sum over the sixteen blocks `d` of row `1024 d + r`, column
  `k` of the whole array) times entry `(k, n)` of the matrix.  The kernel adds the sixteen terms in the order
  `b, b - 1, .., b - 15` around the mesh, the reference in the order of the blocks starting from zero: the two are joined
  by reordering a sum of sixteen terms of the extended reals and by `0 + x = x`, and by nothing else.

  THE FRAMES are the same runs with the values dropped: the kernel's run at any float instance ends with each device's
  argument arrays as they were, since an argument's staging window is never written back; the word-level program is
  the same text read at machine words, and the idealization rewrote no operation.
-/
import proofs.«900451_g7700000000000452_dist_matmul_of_ar_i_m1024_n512_k512_v7x_i16_bf16_1_alg».proof.Defs
import proofs.«900451_g7700000000000452_dist_matmul_of_ar_i_m1024_n512_k512_v7x_i16_bf16_1_alg».proof.Proof.Gen.Kernel
import proofs.«900451_g7700000000000452_dist_matmul_of_ar_i_m1024_n512_k512_v7x_i16_bf16_1_alg».proof.Proof.Gen.Kernel.Skeleton
import proofs.«900451_g7700000000000452_dist_matmul_of_ar_i_m1024_n512_k512_v7x_i16_bf16_1_alg».proof.Proof.Gen.Kernel.Launch
import proofs.«900451_g7700000000000452_dist_matmul_of_ar_i_m1024_n512_k512_v7x_i16_bf16_1_alg».proof.Proof.Gen.Kernel.Points
import proofs.«900451_g7700000000000452_dist_matmul_of_ar_i_m1024_n512_k512_v7x_i16_bf16_1_alg».proof.Proof.Gen.Kernel.Frame
import proofs.«900451_g7700000000000452_dist_matmul_of_ar_i_m1024_n512_k512_v7x_i16_bf16_1_alg».proof.Proof.Gen.KernelIdeal
import proofs.«900451_g7700000000000452_dist_matmul_of_ar_i_m1024_n512_k512_v7x_i16_bf16_1_alg».proof.Proof.Gen.KernelIdeal.Skeleton
import proofs.«900451_g7700000000000452_dist_matmul_of_ar_i_m1024_n512_k512_v7x_i16_bf16_1_alg».proof.Proof.Gen.KernelIdeal.Launch
import proofs.«900451_g7700000000000452_dist_matmul_of_ar_i_m1024_n512_k512_v7x_i16_bf16_1_alg».proof.Proof.Gen.KernelIdeal.Points
import proofs.«900451_g7700000000000452_dist_matmul_of_ar_i_m1024_n512_k512_v7x_i16_bf16_1_alg».proof.Proof.Gen.KernelIdeal.Frame
import proofs.«900451_g7700000000000452_dist_matmul_of_ar_i_m1024_n512_k512_v7x_i16_bf16_1_alg».proof.Proof.Gen.ReferenceIdeal
import proofs.«900451_g7700000000000452_dist_matmul_of_ar_i_m1024_n512_k512_v7x_i16_bf16_1_alg».proof.Proof.Gen.ReferenceIdeal.Run
import proofs.«900451_g7700000000000452_dist_matmul_of_ar_i_m1024_n512_k512_v7x_i16_bf16_1_alg».proof.Proof.Gen.ReferenceIdeal.Read
import proofs.«900451_g7700000000000452_dist_matmul_of_ar_i_m1024_n512_k512_v7x_i16_bf16_1_alg».proof.Proof.Gen.Pre_finite_inputs_Kernel
import proofs.«900451_g7700000000000452_dist_matmul_of_ar_i_m1024_n512_k512_v7x_i16_bf16_1_alg».proof.Proof.Gen.Pre_finite_inputs_ReferenceIdeal
import proofs.«900451_g7700000000000452_dist_matmul_of_ar_i_m1024_n512_k512_v7x_i16_bf16_1_alg».proof.Proof.Body
import proofs.«900451_g7700000000000452_dist_matmul_of_ar_i_m1024_n512_k512_v7x_i16_bf16_1_alg».proof.Proof.K.Body
import proofs.«900451_g7700000000000452_dist_matmul_of_ar_i_m1024_n512_k512_v7x_i16_bf16_1_alg».proof.Proof.K.FramePI
import proofs.«900451_g7700000000000452_dist_matmul_of_ar_i_m1024_n512_k512_v7x_i16_bf16_1_alg».proof.Proof.Claims
import proofs.«900451_g7700000000000452_dist_matmul_of_ar_i_m1024_n512_k512_v7x_i16_bf16_1_alg».proof.Proof.RefFrame
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => Cert.Kernel.X.frame_of_body (fun m ρ c => Cert.Kernel.X.body_obligation m ρ c) m ρ,
  Cert.Proof.Claims.frame_pi (fun m ρ c => Cert.KernelIdeal.X.body_obligation m ρ c),
  Cert.RefValue.frame_ri,
  trivial,
  Cert.Proof.Claims.algebraic (fun m ρ c => Cert.KernelIdeal.X.body_obligation m ρ c)⟩

/-- info: 'Cert.Proof.claim' depends on axioms: [propext, Classical.choice, Quot.sound] -/
#guard_msgs in #print axioms claim

end Cert.Proof

end
